-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v177) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1600000 : Shape := ⟨2, ![2, 1600000]⟩
abbrev S32x7 : Shape := ⟨2, ![32, 7]⟩
abbrev S32 : Shape := ⟨1, ![32]⟩
abbrev S64x32 : Shape := ⟨2, ![64, 32]⟩
abbrev S64 : Shape := ⟨1, ![64]⟩
abbrev S128x64 : Shape := ⟨2, ![128, 64]⟩
abbrev S128 : Shape := ⟨1, ![128]⟩
abbrev S64x128 : Shape := ⟨2, ![64, 128]⟩
abbrev S32x64 : Shape := ⟨2, ![32, 64]⟩
abbrev S32x32 : Shape := ⟨2, ![32, 32]⟩
abbrev S16x32 : Shape := ⟨2, ![16, 32]⟩
abbrev S16 : Shape := ⟨1, ![16]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S32x7 : S_.BroadcastsInDim S32x7 (![] : Fin 0 → Fin S32x7.rank)
  reducesTo_S32x7_S_d0_1 : S32x7.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S32x64 : S_.BroadcastsInDim S32x64 (![] : Fin 0 → Fin S32x64.rank)
  reducesTo_S32x64_S_d0_1 : S32x64.ReducesTo [0, 1] S_
  bcast_S_S32x32 : S_.BroadcastsInDim S32x32 (![] : Fin 0 → Fin S32x32.rank)
  reducesTo_S32x32_S_d0_1 : S32x32.ReducesTo [0, 1] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_

variable [Facts]

def fn_part6 {F : FTy → Type} [FloatOps F] (main_v98 : IVec S_ 1) (main_v101 : IVec S16 1) (main_c_39 : IVec S_ 1) : IVec S_ 1 :=
  let main_v102 : IVec S_ 1 := (fun x v => Host.reduce IntOp.andi x v reducesTo_S16_S_d0 h_S_) main_v101 main_c_39
  let main_v103 : IVec S_ 1 := andi main_v98 main_v102
  main_v103

def fn_part5 {F : FTy → Type} [FloatOps F] (main_arg19 : FVec F S32x32 .f32) (main_arg20 : FVec F S16x32 .f32) (main_arg21 : FVec F S16 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32x32 .f32 := Host.absf main_arg19
  let main_cst_34 : FVec F S_ .f32 := constant S_ .f32 0x7F800000#32
  let main_v90 : FVec F S32x32 .f32 := broadcastInDim S32x32 ![] bcast_S_S32x32 main_cst_34
  let main_v91 : IVec S32x32 1 := cmpf .olt main_v89 main_v90
  let main_c_35 : IVec S_ 1 := constantI S_ 1 1#1
  let main_v92 : IVec S_ 1 := (fun x v => Host.reduce IntOp.andi x v reducesTo_S32x32_S_d0_1 h_S_) main_v91 main_c_35
  let main_v93 : IVec S_ 1 := andi main_v88 main_v92
  let main_v94 : FVec F S16x32 .f32 := Host.absf main_arg20
  let main_cst_36 : FVec F S_ .f32 := constant S_ .f32 0x7F800000#32
  let main_v95 : FVec F S16x32 .f32 := broadcastInDim S16x32 ![] bcast_S_S16x32 main_cst_36
  let main_v96 : IVec S16x32 1 := cmpf .olt main_v94 main_v95
  let main_c_37 : IVec S_ 1 := constantI S_ 1 1#1
  let main_v97 : IVec S_ 1 := (fun x v => Host.reduce IntOp.andi x v reducesTo_S16x32_S_d0_1 h_S_) main_v96 main_c_37
  let main_v98 : IVec S_ 1 := andi main_v93 main_v97
  let main_v99 : FVec F S16 .f32 := Host.absf main_arg21
  let main_cst_38 : FVec F S_ .f32 := constant S_ .f32 0x7F800000#32
  let main_v100 : FVec F S16 .f32 := broadcastInDim S16 ![] bcast_S_S16 main_cst_38
  let main_v101 : IVec S16 1 := cmpf .olt main_v99 main_v100
  let main_c_39 : IVec S_ 1 := constantI S_ 1 1#1
  fn_part6 (F := F) main_v98 main_v101 main_c_39

def fn_part4 {F : FTy → Type} [FloatOps F] (main_arg15 : FVec F S32 .f32) (main_arg16 : FVec F S32x64 .f32) (main_arg17 : FVec F S32x32 .f32) (main_arg18 : FVec F S32 .f32) (main_arg19 : FVec F S32x32 .f32) (main_arg20 : FVec F S16x32 .f32) (main_arg21 : FVec F S16 .f32) (main_v63 : IVec S_ 1) (main_v67 : IVec S_ 1) : IVec S_ 1 :=
  let main_v68 : IVec S_ 1 := andi main_v63 main_v67
  let main_v69 : FVec F S32 .f32 := Host.absf main_arg15
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x64 .f32 := Host.absf main_arg16
  let main_cst_28 : FVec F S_ .f32 := constant S_ .f32 0x7F800000#32
  let main_v75 : FVec F S32x64 .f32 := broadcastInDim S32x64 ![] bcast_S_S32x64 main_cst_28
  let main_v76 : IVec S32x64 1 := cmpf .olt main_v74 main_v75
  let main_c_29 : IVec S_ 1 := constantI S_ 1 1#1
  let main_v77 : IVec S_ 1 := (fun x v => Host.reduce IntOp.andi x v reducesTo_S32x64_S_d0_1 h_S_) main_v76 main_c_29
  let main_v78 : IVec S_ 1 := andi main_v73 main_v77
  let main_v79 : FVec F S32x32 .f32 := Host.absf main_arg17
  let main_cst_30 : FVec F S_ .f32 := constant S_ .f32 0x7F800000#32
  let main_v80 : FVec F S32x32 .f32 := broadcastInDim S32x32 ![] bcast_S_S32x32 main_cst_30
  let main_v81 : IVec S32x32 1 := cmpf .olt main_v79 main_v80
  let main_c_31 : IVec S_ 1 := constantI S_ 1 1#1
  let main_v82 : IVec S_ 1 := (fun x v => Host.reduce IntOp.andi x v reducesTo_S32x32_S_d0_1 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S64 .f32) (main_arg13 : FVec F S64x128 .f32) (main_arg14 : FVec F S32x64 .f32) (main_arg15 : FVec F S32 .f32) (main_arg16 : FVec F S32x64 .f32) (main_arg17 : FVec F S32x32 .f32) (main_arg18 : FVec F S32 .f32) (main_arg19 : FVec F S32x32 .f32) (main_arg20 : FVec F S16x32 .f32) (main_arg21 : FVec F S16 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x128 .f32 := Host.absf main_arg13
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S32x64 .f32 := Host.absf main_arg14
  let main_cst_24 : FVec F S_ .f32 := constant S_ .f32 0x7F800000#32
  let main_v65 : FVec F S32x64 .f32 := broadcastInDim S32x64 ![] bcast_S_S32x64 main_cst_24
  let main_v66 : IVec S32x64 1 := cmpf .olt main_v64 main_v65
  let main_c_25 : IVec S_ 1 := constantI S_ 1 1#1
  let main_v67 : IVec S_ 1 := (fun x v => Host.reduce IntOp.andi x v reducesTo_S32x64_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S128x64 .f32) (main_arg9 : FVec F S128 .f32) (main_arg10 : FVec F S128x64 .f32) (main_arg11 : FVec F S64x128 .f32) (main_arg12 : FVec F S64 .f32) (main_arg13 : FVec F S64x128 .f32) (main_arg14 : FVec F S32x64 .f32) (main_arg15 : FVec F S32 .f32) (main_arg16 : FVec F S32x64 .f32) (main_arg17 : FVec F S32x32 .f32) (main_arg18 : FVec F S32 .f32) (main_arg19 : FVec F S32x32 .f32) (main_arg20 : FVec F S16x32 .f32) (main_arg21 : FVec F S16 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S64x32 .f32) (main_arg6 : FVec F S64 .f32) (main_arg7 : FVec F S64x32 .f32) (main_arg8 : FVec F S128x64 .f32) (main_arg9 : FVec F S128 .f32) (main_arg10 : FVec F S128x64 .f32) (main_arg11 : FVec F S64x128 .f32) (main_arg12 : FVec F S64 .f32) (main_arg13 : FVec F S64x128 .f32) (main_arg14 : FVec F S32x64 .f32) (main_arg15 : FVec F S32 .f32) (main_arg16 : FVec F S32x64 .f32) (main_arg17 : FVec F S32x32 .f32) (main_arg18 : FVec F S32 .f32) (main_arg19 : FVec F S32x32 .f32) (main_arg20 : FVec F S16x32 .f32) (main_arg21 : FVec F S16 .f32) (main_v13 : IVec S_ 1) (main_v16 : IVec S32x7 1) : IVec S_ 1 :=
  let main_c_5 : IVec S_ 1 := constantI S_ 1 1#1
  let main_v17 : IVec S_ 1 := (fun x v => Host.reduce IntOp.andi x v reducesTo_S32x7_S_d0_1 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S100000x7 .f32) (main_arg1 : IVec S2x1600000 32) (main_arg2 : FVec F S32x7 .f32) (main_arg3 : FVec F S32 .f32) (main_arg4 : FVec F S32x7 .f32) (main_arg5 : FVec F S64x32 .f32) (main_arg6 : FVec F S64 .f32) (main_arg7 : FVec F S64x32 .f32) (main_arg8 : FVec F S128x64 .f32) (main_arg9 : FVec F S128 .f32) (main_arg10 : FVec F S128x64 .f32) (main_arg11 : FVec F S64x128 .f32) (main_arg12 : FVec F S64 .f32) (main_arg13 : FVec F S64x128 .f32) (main_arg14 : FVec F S32x64 .f32) (main_arg15 : FVec F S32 .f32) (main_arg16 : FVec F S32x64 .f32) (main_arg17 : FVec F S32x32 .f32) (main_arg18 : FVec F S32 .f32) (main_arg19 : FVec F S32x32 .f32) (main_arg20 : FVec F S16x32 .f32) (main_arg21 : FVec F S16 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S32x7 .f32 := Host.absf main_arg2
  let main_cst_0 : FVec F S_ .f32 := constant S_ .f32 0x7F800000#32
  let main_v5 : FVec F S32x7 .f32 := broadcastInDim S32x7 ![] bcast_S_S32x7 main_cst_0
  let main_v6 : IVec S32x7 1 := cmpf .olt main_v4 main_v5
  let main_c_1 : IVec S_ 1 := constantI S_ 1 1#1
  let main_v7 : IVec S_ 1 := (fun x v => Host.reduce IntOp.andi x v reducesTo_S32x7_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x7 .f32 := Host.absf main_arg4
  let main_cst_4 : FVec F S_ .f32 := constant S_ .f32 0x7F800000#32
  let main_v15 : FVec F S32x7 .f32 := broadcastInDim S32x7 ![] bcast_S_S32x7 main_cst_4
  let main_v16 : IVec S32x7 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x7 : Shape := ⟨2, ![100000, 7]⟩
abbrev S2x1600000 : Shape := ⟨2, ![2, 1600000]⟩
abbrev S32x7 : Shape := ⟨2, ![32, 7]⟩
abbrev S32 : Shape := ⟨1, ![32]⟩
abbrev S64x32 : Shape := ⟨2, ![64, 32]⟩
abbrev S64 : Shape := ⟨1, ![64]⟩
abbrev S128x64 : Shape := ⟨2, ![128, 64]⟩
abbrev S128 : Shape := ⟨1, ![128]⟩
abbrev S64x128 : Shape := ⟨2, ![64, 128]⟩
abbrev S32x64 : Shape := ⟨2, ![32, 64]⟩
abbrev S32x32 : Shape := ⟨2, ![32, 32]⟩
abbrev S16x32 : Shape := ⟨2, ![16, 32]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x7 : Shape := ⟨2, ![1600000, 7]⟩
abbrev S7x32 : Shape := ⟨2, ![7, 32]⟩
abbrev S1x32 : Shape := ⟨2, ![1, 32]⟩
abbrev S100000x32 : Shape := ⟨2, ![100000, 32]⟩
abbrev S1600000x32 : Shape := ⟨2, ![1600000, 32]⟩
abbrev S1x64 : Shape := ⟨2, ![1, 64]⟩
abbrev S100000x64 : Shape := ⟨2, ![100000, 64]⟩
abbrev S1600000x64 : Shape := ⟨2, ![1600000, 64]⟩
abbrev S1x128 : Shape := ⟨2, ![1, 128]⟩
abbrev S100000x128 : Shape := ⟨2, ![100000, 128]⟩
abbrev S32x16 : Shape := ⟨2, ![32, 16]⟩
abbrev S100000x16 : Shape := ⟨2, ![100000, 16]⟩
abbrev S1600000x16 : Shape := ⟨2, ![1600000, 16]⟩
abbrev S1x16 : Shape := ⟨2, ![1, 16]⟩
abbrev S5000x7 : Shape := ⟨2, ![5000, 7]⟩
abbrev S5000x1 : Shape := ⟨2, ![5000, 1]⟩
abbrev S5000x32 : Shape := ⟨2, ![5000, 32]⟩
abbrev S5000x64 : Shape := ⟨2, ![5000, 64]⟩
abbrev S5000x128 : Shape := ⟨2, ![5000, 128]⟩
abbrev S5000x16 : Shape := ⟨2, ![5000, 16]⟩

abbrev nBuf : Space → Nat
  | .hbm => 185
  | .vmem => 79
  | .smem => 0
  | _ => 0

abbrev hbmTy0_0 (i : Nat) : BufTy := match i % 128 with
  | 0 => ⟨S100000x7, .f32⟩
  | 1 => ⟨S2x1600000, .i32⟩
  | 2 => ⟨S32x7, .f32⟩
  | 3 => ⟨S32, .f32⟩
  | 4 => ⟨S32x7, .f32⟩
  | 5 => ⟨S64x32, .f32⟩
  | 6 => ⟨S64, .f32⟩
  | 7 => ⟨S64x32, .f32⟩
  | 8 => ⟨S128x64, .f32⟩
  | 9 => ⟨S128, .f32⟩
  | 10 => ⟨S128x64, .f32⟩
  | 11 => ⟨S64x128, .f32⟩
  | 12 => ⟨S64, .f32⟩
  | 13 => ⟨S64x128, .f32⟩
  | 14 => ⟨S32x64, .f32⟩
  | 15 => ⟨S32, .f32⟩
  | 16 => ⟨S32x64, .f32⟩
  | 17 => ⟨S32x32, .f32⟩
  | 18 => ⟨S32, .f32⟩
  | 19 => ⟨S32x32, .f32⟩
  | 20 => ⟨S16x32, .f32⟩
  | 21 => ⟨S16, .f32⟩
  | 22 => ⟨S1x1600000, .i32⟩
  | 23 => ⟨S1600000, .i32⟩
  | 24 => ⟨S1x1600000, .i32⟩
  | 25 => ⟨S1600000, .i32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S100000x1, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x7, .f32⟩
  | 48 => ⟨S_, .f32⟩
  | 49 => ⟨S100000x7, .f32⟩
  | 50 => ⟨S1600000x1, .i32⟩
  | 51 => ⟨S100000x7, .f32⟩
  | 52 => ⟨S7x32, .f32⟩
  | 53 => ⟨S7x32, .f32⟩
  | 54 => ⟨S1x32, .f32⟩
  | 55 => ⟨S100000x32, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x32, .f32⟩
  | 65 => ⟨S_, .f32⟩
  | 66 => ⟨S100000x32, .f32⟩
  | 67 => ⟨S1600000x1, .i32⟩
  | 68 => ⟨S100000x32, .f32⟩
  | 69 => ⟨S32x64, .f32⟩
  | 70 => ⟨S32x64, .f32⟩
  | 71 => ⟨S1x64, .f32⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x64, .f32⟩
  | 82 => ⟨S_, .f32⟩
  | 83 => ⟨S100000x64, .f32⟩
  | 84 => ⟨S1600000x1, .i32⟩
  | 85 => ⟨S100000x64, .f32⟩
  | 86 => ⟨S64x128, .f32⟩
  | 87 => ⟨S64x128, .f32⟩
  | 88 => ⟨S1x128, .f32⟩
  | 89 => ⟨S100000x128, .f32⟩
  | 90 => ⟨S128x64, .f32⟩
  | 91 => ⟨S100000x64, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S_, .f32⟩
  | 102 => ⟨S100000x64, .f32⟩
  | 103 => ⟨S1600000x1, .i32⟩
  | 104 => ⟨S100000x64, .f32⟩
  | 105 => ⟨S128x64, .f32⟩
  | 106 => ⟨S1x64, .f32⟩
  | 107 => ⟨S100000x64, .f32⟩
  | 108 => ⟨S64x32, .f32⟩
  | 109 => ⟨S100000x32, .f32⟩
  | 110 => ⟨S_, .i32⟩
  | 111 => ⟨S1600000, .i32⟩
  | 112 => ⟨S1600000, .i1⟩
  | 113 => ⟨S_, .i32⟩
  | 114 => ⟨S1600000, .i32⟩
  | 115 => ⟨S1600000, .i32⟩
  | 116 => ⟨S1600000, .i32⟩
  | 117 => ⟨S1600000x1, .i32⟩
  | 118 => ⟨S1600000x32, .f32⟩
  | 119 => ⟨S_, .f32⟩
  | 120 => ⟨S100000x32, .f32⟩
  | 121 => ⟨S1600000x1, .i32⟩
  | 122 => ⟨S100000x32, .f32⟩
  | 123 => ⟨S64x32, .f32⟩
  | 124 => ⟨S1x32, .f32⟩
  | 125 => ⟨S100000x32, .f32⟩
  | 126 => ⟨S_, .i32⟩
  | 127 => ⟨S1600000, .i32⟩
  | _ => ⟨S100000x7, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x32, .f32⟩
  | 7 => ⟨S_, .f32⟩
  | 8 => ⟨S100000x32, .f32⟩
  | 9 => ⟨S1600000x1, .i32⟩
  | 10 => ⟨S100000x32, .f32⟩
  | 11 => ⟨S32x32, .f32⟩
  | 12 => ⟨S32x32, .f32⟩
  | 13 => ⟨S1x32, .f32⟩
  | 14 => ⟨S100000x32, .f32⟩
  | 15 => ⟨S_, .f32⟩
  | 16 => ⟨S100000, .f32⟩
  | 17 => ⟨S100000, .f32⟩
  | 18 => ⟨S100000, .f32⟩
  | 19 => ⟨S32x16, .f32⟩
  | 20 => ⟨S100000x16, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x16, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000x1, .f32⟩
  | 40 => ⟨S1600000x16, .f32⟩
  | 41 => ⟨S1600000x16, .f32⟩
  | 42 => ⟨S_, .f32⟩
  | 43 => ⟨S100000x16, .f32⟩
  | 44 => ⟨S1600000x1, .i32⟩
  | 45 => ⟨S100000x16, .f32⟩
  | 46 => ⟨S100000x1, .f32⟩
  | 47 => ⟨S100000x16, .f32⟩
  | 48 => ⟨S100000x16, .f32⟩
  | 49 => ⟨S100000x1, .f32⟩
  | 50 => ⟨S100000x1, .f32⟩
  | 51 => ⟨S100000x16, .f32⟩
  | 52 => ⟨S100000x16, .f32⟩
  | 53 => ⟨S100000x16, .f32⟩
  | 54 => ⟨S1x16, .f32⟩
  | 55 => ⟨S100000x16, .f32⟩
  | 56 => ⟨S100000x16, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | .local _ .vmem, ⟨0, _⟩ => ⟨S5000x7, .f32⟩
  | .local _ .vmem, ⟨1, _⟩ => ⟨S5000x7, .f32⟩
  | .local _ .vmem, ⟨2, _⟩ => ⟨S5000x1, .f32⟩
  | .local _ .vmem, ⟨3, _⟩ => ⟨S5000x1, .f32⟩
  | .local _ .vmem, ⟨4, _⟩ => ⟨S5000x7, .f32⟩
  | .local _ .vmem, ⟨5, _⟩ => ⟨S5000x7, .f32⟩
  | .local _ .vmem, ⟨6, _⟩ => ⟨S7x32, .f32⟩
  | .local _ .vmem, ⟨7, _⟩ => ⟨S1x32, .f32⟩
  | .local _ .vmem, ⟨8, _⟩ => ⟨S7x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x1, .f32⟩
  | .local _ .vmem, ⟨14, _⟩ => ⟨S5000x1, .f32⟩
  | .local _ .vmem, ⟨15, _⟩ => ⟨S5000x32, .f32⟩
  | .local _ .vmem, ⟨16, _⟩ => ⟨S5000x32, .f32⟩
  | .local _ .vmem, ⟨17, _⟩ => ⟨S32x64, .f32⟩
  | .local _ .vmem, ⟨18, _⟩ => ⟨S1x64, .f32⟩
  | .local _ .vmem, ⟨19, _⟩ => ⟨S32x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x1, .f32⟩
  | .local _ .vmem, ⟨25, _⟩ => ⟨S5000x1, .f32⟩
  | .local _ .vmem, ⟨26, _⟩ => ⟨S5000x64, .f32⟩
  | .local _ .vmem, ⟨27, _⟩ => ⟨S5000x64, .f32⟩
  | .local _ .vmem, ⟨28, _⟩ => ⟨S64x128, .f32⟩
  | .local _ .vmem, ⟨29, _⟩ => ⟨S1x128, .f32⟩
  | .local _ .vmem, ⟨30, _⟩ => ⟨S64x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S128x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x1, .f32⟩
  | .local _ .vmem, ⟨41, _⟩ => ⟨S5000x1, .f32⟩
  | .local _ .vmem, ⟨42, _⟩ => ⟨S5000x128, .f32⟩
  | .local _ .vmem, ⟨43, _⟩ => ⟨S5000x128, .f32⟩
  | .local _ .vmem, ⟨44, _⟩ => ⟨S128x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S64x32, .f32⟩
  | .local _ .vmem, ⟨51, _⟩ => ⟨S5000x32, .f32⟩
  | .local _ .vmem, ⟨52, _⟩ => ⟨S5000x32, .f32⟩
  | .local _ .vmem, ⟨53, _⟩ => ⟨S5000x32, .f32⟩
  | .local _ .vmem, ⟨54, _⟩ => ⟨S5000x32, .f32⟩
  | .local _ .vmem, ⟨55, _⟩ => ⟨S5000x1, .f32⟩
  | .local _ .vmem, ⟨56, _⟩ => ⟨S5000x1, .f32⟩
  | .local _ .vmem, ⟨57, _⟩ => ⟨S5000x64, .f32⟩
  | .local _ .vmem, ⟨58, _⟩ => ⟨S5000x64, .f32⟩
  | .local _ .vmem, ⟨59, _⟩ => ⟨S64x32, .f32⟩
  | .local _ .vmem, ⟨60, _⟩ => ⟨S1x32, .f32⟩
  | .local _ .vmem, ⟨61, _⟩ => ⟨S5000x32, .f32⟩
  | .local _ .vmem, ⟨62, _⟩ => ⟨S5000x32, .f32⟩
  | .local _ .vmem, ⟨63, _⟩ => ⟨S5000x32, .f32⟩
  | .local _ .vmem, ⟨64, _⟩ => ⟨S5000x32, .f32⟩
  | .local _ .vmem, ⟨65, _⟩ => ⟨S5000x1, .f32⟩
  | .local _ .vmem, ⟨66, _⟩ => ⟨S5000x1, .f32⟩
  | .local _ .vmem, ⟨67, _⟩ => ⟨S5000x32, .f32⟩
  | .local _ .vmem, ⟨68, _⟩ => ⟨S5000x32, .f32⟩
  | .local _ .vmem, ⟨69, _⟩ => ⟨S32x32, .f32⟩
  | .local _ .vmem, ⟨70, _⟩ => ⟨S1x32, .f32⟩
  | .local _ .vmem, ⟨71, _⟩ => ⟨S32x32, .f32⟩
  | .local _ .vmem, ⟨72, _⟩ => ⟨S5000x32, .f32⟩
  | .local _ .vmem, ⟨73, _⟩ => ⟨S5000x32, .f32⟩
  | .local _ .vmem, ⟨74, _⟩ => ⟨S5000x32, .f32⟩
  | .local _ .vmem, ⟨75, _⟩ => ⟨S5000x32, .f32⟩
  | .local _ .vmem, ⟨76, _⟩ => ⟨S32x16, .f32⟩
  | .local _ .vmem, ⟨77, _⟩ => ⟨S5000x16, .f32⟩
  | .local _ .vmem, ⟨78, _⟩ => ⟨S5000x16, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_cst : Ref sig .tc := ⟨.hbm, 26, rfl⟩
abbrev main_call0_v4 : Ref sig .tc := ⟨.hbm, 27, rfl⟩
abbrev main_call0_cst_0 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_v9 : Ref sig .tc := ⟨.hbm, 34, rfl⟩
abbrev main_call0_cst_2 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_c : Ref sig .tc := ⟨.hbm, 39, rfl⟩
abbrev main_call0_v13 : Ref sig .tc := ⟨.hbm, 40, rfl⟩
abbrev main_call0_v14 : Ref sig .tc := ⟨.hbm, 41, rfl⟩
abbrev main_call0_c_3 : Ref sig .tc := ⟨.hbm, 42, rfl⟩
abbrev main_call0_v15 : Ref sig .tc := ⟨.hbm, 43, rfl⟩
abbrev main_call0_v16 : Ref sig .tc := ⟨.hbm, 44, rfl⟩
abbrev main_call0_v17 : Ref sig .tc := ⟨.hbm, 45, rfl⟩
abbrev main_call0_v18 : Ref sig .tc := ⟨.hbm, 46, rfl⟩
abbrev main_call0_v19 : Ref sig .tc := ⟨.hbm, 47, rfl⟩
abbrev main_call0_cst_4 : Ref sig .tc := ⟨.hbm, 48, rfl⟩
abbrev main_call0_v20 : Ref sig .tc := ⟨.hbm, 49, rfl⟩
abbrev main_call0_v21 : Ref sig .tc := ⟨.hbm, 50, rfl⟩
abbrev main_call0_v22 : Ref sig .tc := ⟨.hbm, 51, rfl⟩
abbrev main_call0_v23 : Ref sig .tc := ⟨.hbm, 52, rfl⟩
abbrev main_call0_v24 : Ref sig .tc := ⟨.hbm, 53, rfl⟩
abbrev main_call0_v25 : Ref sig .tc := ⟨.hbm, 54, rfl⟩
abbrev main_call0_v26 : Ref sig .tc := ⟨.hbm, 55, rfl⟩
abbrev main_call0_c_5 : Ref sig .tc := ⟨.hbm, 56, rfl⟩
abbrev main_call0_v27 : Ref sig .tc := ⟨.hbm, 57, rfl⟩
abbrev main_call0_v28 : Ref sig .tc := ⟨.hbm, 58, rfl⟩
abbrev main_call0_c_6 : Ref sig .tc := ⟨.hbm, 59, rfl⟩
abbrev main_call0_v29 : Ref sig .tc := ⟨.hbm, 60, rfl⟩
abbrev main_call0_v30 : Ref sig .tc := ⟨.hbm, 61, rfl⟩
abbrev main_call0_v31 : Ref sig .tc := ⟨.hbm, 62, rfl⟩
abbrev main_call0_v32 : Ref sig .tc := ⟨.hbm, 63, rfl⟩
abbrev main_call0_v33 : Ref sig .tc := ⟨.hbm, 64, rfl⟩
abbrev main_call0_cst_7 : Ref sig .tc := ⟨.hbm, 65, rfl⟩
abbrev main_call0_v34 : Ref sig .tc := ⟨.hbm, 66, rfl⟩
abbrev main_call0_v35 : Ref sig .tc := ⟨.hbm, 67, rfl⟩
abbrev main_call0_v36 : Ref sig .tc := ⟨.hbm, 68, rfl⟩
abbrev main_call0_v37 : Ref sig .tc := ⟨.hbm, 69, rfl⟩
abbrev main_call0_v38 : Ref sig .tc := ⟨.hbm, 70, rfl⟩
abbrev main_call0_v39 : Ref sig .tc := ⟨.hbm, 71, rfl⟩
abbrev main_call0_v40 : Ref sig .tc := ⟨.hbm, 72, rfl⟩
abbrev main_call0_c_8 : Ref sig .tc := ⟨.hbm, 73, rfl⟩
abbrev main_call0_v41 : Ref sig .tc := ⟨.hbm, 74, rfl⟩
abbrev main_call0_v42 : Ref sig .tc := ⟨.hbm, 75, rfl⟩
abbrev main_call0_c_9 : Ref sig .tc := ⟨.hbm, 76, rfl⟩
abbrev main_call0_v43 : Ref sig .tc := ⟨.hbm, 77, rfl⟩
abbrev main_call0_v44 : Ref sig .tc := ⟨.hbm, 78, rfl⟩
abbrev main_call0_v45 : Ref sig .tc := ⟨.hbm, 79, rfl⟩
abbrev main_call0_v46 : Ref sig .tc := ⟨.hbm, 80, rfl⟩
abbrev main_call0_v47 : Ref sig .tc := ⟨.hbm, 81, rfl⟩
abbrev main_call0_cst_10 : Ref sig .tc := ⟨.hbm, 82, rfl⟩
abbrev main_call0_v48 : Ref sig .tc := ⟨.hbm, 83, rfl⟩
abbrev main_call0_v49 : Ref sig .tc := ⟨.hbm, 84, rfl⟩
abbrev main_call0_v50 : Ref sig .tc := ⟨.hbm, 85, rfl⟩
abbrev main_call0_v51 : Ref sig .tc := ⟨.hbm, 86, rfl⟩
abbrev main_call0_v52 : Ref sig .tc := ⟨.hbm, 87, rfl⟩
abbrev main_call0_v53 : Ref sig .tc := ⟨.hbm, 88, rfl⟩
abbrev main_call0_v54 : Ref sig .tc := ⟨.hbm, 89, rfl⟩
abbrev main_call0_v55 : Ref sig .tc := ⟨.hbm, 90, rfl⟩
abbrev main_call0_v56 : Ref sig .tc := ⟨.hbm, 91, rfl⟩
abbrev main_call0_c_11 : Ref sig .tc := ⟨.hbm, 92, rfl⟩
abbrev main_call0_v57 : Ref sig .tc := ⟨.hbm, 93, rfl⟩
abbrev main_call0_v58 : Ref sig .tc := ⟨.hbm, 94, rfl⟩
abbrev main_call0_c_12 : Ref sig .tc := ⟨.hbm, 95, rfl⟩
abbrev main_call0_v59 : Ref sig .tc := ⟨.hbm, 96, rfl⟩
abbrev main_call0_v60 : Ref sig .tc := ⟨.hbm, 97, rfl⟩
abbrev main_call0_v61 : Ref sig .tc := ⟨.hbm, 98, rfl⟩
abbrev main_call0_v62 : Ref sig .tc := ⟨.hbm, 99, rfl⟩
abbrev main_call0_v63 : Ref sig .tc := ⟨.hbm, 100, rfl⟩
abbrev main_call0_cst_13 : Ref sig .tc := ⟨.hbm, 101, rfl⟩
abbrev main_call0_v64 : Ref sig .tc := ⟨.hbm, 102, rfl⟩
abbrev main_call0_v65 : Ref sig .tc := ⟨.hbm, 103, rfl⟩
abbrev main_call0_v66 : Ref sig .tc := ⟨.hbm, 104, rfl⟩
abbrev main_call0_v67 : Ref sig .tc := ⟨.hbm, 105, rfl⟩
abbrev main_call0_v68 : Ref sig .tc := ⟨.hbm, 106, rfl⟩
abbrev main_call0_v69 : Ref sig .tc := ⟨.hbm, 107, rfl⟩
abbrev main_call0_v70 : Ref sig .tc := ⟨.hbm, 108, rfl⟩
abbrev main_call0_v71 : Ref sig .tc := ⟨.hbm, 109, rfl⟩
abbrev main_call0_c_14 : Ref sig .tc := ⟨.hbm, 110, rfl⟩
abbrev main_call0_v72 : Ref sig .tc := ⟨.hbm, 111, rfl⟩
abbrev main_call0_v73 : Ref sig .tc := ⟨.hbm, 112, rfl⟩
abbrev main_call0_c_15 : Ref sig .tc := ⟨.hbm, 113, rfl⟩
abbrev main_call0_v74 : Ref sig .tc := ⟨.hbm, 114, rfl⟩
abbrev main_call0_v75 : Ref sig .tc := ⟨.hbm, 115, rfl⟩
abbrev main_call0_v76 : Ref sig .tc := ⟨.hbm, 116, rfl⟩
abbrev main_call0_v77 : Ref sig .tc := ⟨.hbm, 117, rfl⟩
abbrev main_call0_v78 : Ref sig .tc := ⟨.hbm, 118, rfl⟩
abbrev main_call0_cst_16 : Ref sig .tc := ⟨.hbm, 119, rfl⟩
abbrev main_call0_v79 : Ref sig .tc := ⟨.hbm, 120, rfl⟩
abbrev main_call0_v80 : Ref sig .tc := ⟨.hbm, 121, rfl⟩
abbrev main_call0_v81 : Ref sig .tc := ⟨.hbm, 122, rfl⟩
abbrev main_call0_v82 : Ref sig .tc := ⟨.hbm, 123, rfl⟩
abbrev main_call0_v83 : Ref sig .tc := ⟨.hbm, 124, rfl⟩
abbrev main_call0_v84 : Ref sig .tc := ⟨.hbm, 125, rfl⟩
abbrev main_call0_c_17 : Ref sig .tc := ⟨.hbm, 126, rfl⟩
abbrev main_call0_v85 : Ref sig .tc := ⟨.hbm, 127, rfl⟩
abbrev main_call0_v86 : Ref sig .tc := ⟨.hbm, 128, rfl⟩
abbrev main_call0_c_18 : Ref sig .tc := ⟨.hbm, 129, rfl⟩
abbrev main_call0_v87 : Ref sig .tc := ⟨.hbm, 130, rfl⟩
abbrev main_call0_v88 : Ref sig .tc := ⟨.hbm, 131, rfl⟩
abbrev main_call0_v89 : Ref sig .tc := ⟨.hbm, 132, rfl⟩
abbrev main_call0_v90 : Ref sig .tc := ⟨.hbm, 133, rfl⟩
abbrev main_call0_v91 : Ref sig .tc := ⟨.hbm, 134, rfl⟩
abbrev main_call0_cst_19 : Ref sig .tc := ⟨.hbm, 135, rfl⟩
abbrev main_call0_v92 : Ref sig .tc := ⟨.hbm, 136, rfl⟩
abbrev main_call0_v93 : Ref sig .tc := ⟨.hbm, 137, rfl⟩
abbrev main_call0_v94 : Ref sig .tc := ⟨.hbm, 138, rfl⟩
abbrev main_call0_v95 : Ref sig .tc := ⟨.hbm, 139, rfl⟩
abbrev main_call0_v96 : Ref sig .tc := ⟨.hbm, 140, rfl⟩
abbrev main_call0_v97 : Ref sig .tc := ⟨.hbm, 141, rfl⟩
abbrev main_call0_v98 : Ref sig .tc := ⟨.hbm, 142, rfl⟩
abbrev main_call0_cst_20 : Ref sig .tc := ⟨.hbm, 143, rfl⟩
abbrev main_call0_v99 : Ref sig .tc := ⟨.hbm, 144, rfl⟩
abbrev main_call0_v100 : Ref sig .tc := ⟨.hbm, 145, rfl⟩
abbrev main_call0_v101 : Ref sig .tc := ⟨.hbm, 146, rfl⟩
abbrev main_call0_v102 : Ref sig .tc := ⟨.hbm, 147, rfl⟩
abbrev main_call0_v103 : Ref sig .tc := ⟨.hbm, 148, rfl⟩
abbrev main_call0_c_21 : Ref sig .tc := ⟨.hbm, 149, rfl⟩
abbrev main_call0_v104 : Ref sig .tc := ⟨.hbm, 150, rfl⟩
abbrev main_call0_v105 : Ref sig .tc := ⟨.hbm, 151, rfl⟩
abbrev main_call0_c_22 : Ref sig .tc := ⟨.hbm, 152, rfl⟩
abbrev main_call0_v106 : Ref sig .tc := ⟨.hbm, 153, rfl⟩
abbrev main_call0_v107 : Ref sig .tc := ⟨.hbm, 154, rfl⟩
abbrev main_call0_v108 : Ref sig .tc := ⟨.hbm, 155, rfl⟩
abbrev main_call0_v109 : Ref sig .tc := ⟨.hbm, 156, rfl⟩
abbrev main_call0_v110 : Ref sig .tc := ⟨.hbm, 157, rfl⟩
abbrev main_call0_c_23 : Ref sig .tc := ⟨.hbm, 158, rfl⟩
abbrev main_call0_v111 : Ref sig .tc := ⟨.hbm, 159, rfl⟩
abbrev main_call0_v112 : Ref sig .tc := ⟨.hbm, 160, rfl⟩
abbrev main_call0_c_24 : Ref sig .tc := ⟨.hbm, 161, rfl⟩
abbrev main_call0_v113 : Ref sig .tc := ⟨.hbm, 162, rfl⟩
abbrev main_call0_v114 : Ref sig .tc := ⟨.hbm, 163, rfl⟩
abbrev main_call0_v115 : Ref sig .tc := ⟨.hbm, 164, rfl⟩
abbrev main_call0_v116 : Ref sig .tc := ⟨.hbm, 165, rfl⟩
abbrev main_call0_v117 : Ref sig .tc := ⟨.hbm, 166, rfl⟩
abbrev main_call0_v118 : Ref sig .tc := ⟨.hbm, 167, rfl⟩
abbrev main_call0_v119 : Ref sig .tc := ⟨.hbm, 168, rfl⟩
abbrev main_call0_v120 : Ref sig .tc := ⟨.hbm, 169, rfl⟩
abbrev main_call0_cst_25 : Ref sig .tc := ⟨.hbm, 170, rfl⟩
abbrev main_call0_v121 : Ref sig .tc := ⟨.hbm, 171, rfl⟩
abbrev main_call0_v122 : Ref sig .tc := ⟨.hbm, 172, rfl⟩
abbrev main_call0_v123 : Ref sig .tc := ⟨.hbm, 173, rfl⟩
abbrev main_call0_v124 : Ref sig .tc := ⟨.hbm, 174, rfl⟩
abbrev main_call0_v125 : Ref sig .tc := ⟨.hbm, 175, rfl⟩
abbrev main_call0_v126 : Ref sig .tc := ⟨.hbm, 176, rfl⟩
abbrev main_call0_v127 : Ref sig .tc := ⟨.hbm, 177, rfl⟩
abbrev main_call0_v128 : Ref sig .tc := ⟨.hbm, 178, rfl⟩
abbrev main_call0_v129 : Ref sig .tc := ⟨.hbm, 179, rfl⟩
abbrev main_call0_v130 : Ref sig .tc := ⟨.hbm, 180, rfl⟩
abbrev main_call0_v131 : Ref sig .tc := ⟨.hbm, 181, rfl⟩
abbrev main_call0_v132 : Ref sig .tc := ⟨.hbm, 182, rfl⟩
abbrev main_call0_v133 : Ref sig .tc := ⟨.hbm, 183, rfl⟩
abbrev main_v0 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg2_0 : Ref sig .tc := ⟨.vmem, 36, rfl⟩
abbrev cc3_stg2_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg2_1 : Ref sig .tc := ⟨.vmem, 52, rfl⟩
abbrev cc6_stg0_0 : Ref sig .tc := ⟨.vmem, 53, rfl⟩
abbrev cc6_stg0_1 : Ref sig .tc := ⟨.vmem, 54, rfl⟩
abbrev cc6_stg1_0 : Ref sig .tc := ⟨.vmem, 55, rfl⟩
abbrev cc6_stg1_1 : Ref sig .tc := ⟨.vmem, 56, rfl⟩
abbrev cc6_stg2_0 : Ref sig .tc := ⟨.vmem, 57, rfl⟩
abbrev cc6_stg2_1 : Ref sig .tc := ⟨.vmem, 58, rfl⟩
abbrev cc6_stg3_0 : Ref sig .tc := ⟨.vmem, 59, rfl⟩
abbrev cc6_stg4_0 : Ref sig .tc := ⟨.vmem, 60, rfl⟩
abbrev cc6_stg5_0 : Ref sig .tc := ⟨.vmem, 61, rfl⟩
abbrev cc6_stg5_1 : Ref sig .tc := ⟨.vmem, 62, rfl⟩
abbrev cc7_stg0_0 : Ref sig .tc := ⟨.vmem, 63, rfl⟩
abbrev cc7_stg0_1 : Ref sig .tc := ⟨.vmem, 64, rfl⟩
abbrev cc7_stg1_0 : Ref sig .tc := ⟨.vmem, 65, rfl⟩
abbrev cc7_stg1_1 : Ref sig .tc := ⟨.vmem, 66, rfl⟩
abbrev cc7_stg2_0 : Ref sig .tc := ⟨.vmem, 67, rfl⟩
abbrev cc7_stg2_1 : Ref sig .tc := ⟨.vmem, 68, rfl⟩
abbrev cc7_stg3_0 : Ref sig .tc := ⟨.vmem, 69, rfl⟩
abbrev cc7_stg4_0 : Ref sig .tc := ⟨.vmem, 70, rfl⟩
abbrev cc7_stg5_0 : Ref sig .tc := ⟨.vmem, 71, rfl⟩
abbrev cc7_stg6_0 : Ref sig .tc := ⟨.vmem, 72, rfl⟩
abbrev cc7_stg6_1 : Ref sig .tc := ⟨.vmem, 73, rfl⟩
abbrev cc8_stg0_0 : Ref sig .tc := ⟨.vmem, 74, rfl⟩
abbrev cc8_stg0_1 : Ref sig .tc := ⟨.vmem, 75, rfl⟩
abbrev cc8_stg1_0 : Ref sig .tc := ⟨.vmem, 76, rfl⟩
abbrev cc8_stg2_0 : Ref sig .tc := ⟨.vmem, 77, rfl⟩
abbrev cc8_stg2_1 : Ref sig .tc := ⟨.vmem, 78, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem2_0 : DmaSem sig := 36
abbrev cc3_sem2_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem5_1 : DmaSem sig := 47
abbrev cc5_sem0_0 : DmaSem sig := 48
abbrev cc5_sem0_1 : DmaSem sig := 49
abbrev cc5_sem1_0 : DmaSem sig := 50
abbrev cc5_sem2_0 : DmaSem sig := 51
abbrev cc5_sem2_1 : DmaSem sig := 52
abbrev cc6_sem0_0 : DmaSem sig := 53
abbrev cc6_sem0_1 : DmaSem sig := 54
abbrev cc6_sem1_0 : DmaSem sig := 55
abbrev cc6_sem1_1 : DmaSem sig := 56
abbrev cc6_sem2_0 : DmaSem sig := 57
abbrev cc6_sem2_1 : DmaSem sig := 58
abbrev cc6_sem3_0 : DmaSem sig := 59
abbrev cc6_sem4_0 : DmaSem sig := 60
abbrev cc6_sem5_0 : DmaSem sig := 61
abbrev cc6_sem5_1 : DmaSem sig := 62
abbrev cc7_sem0_0 : DmaSem sig := 63
abbrev cc7_sem0_1 : DmaSem sig := 64
abbrev cc7_sem1_0 : DmaSem sig := 65
abbrev cc7_sem1_1 : DmaSem sig := 66
abbrev cc7_sem2_0 : DmaSem sig := 67
abbrev cc7_sem2_1 : DmaSem sig := 68
abbrev cc7_sem3_0 : DmaSem sig := 69
abbrev cc7_sem4_0 : DmaSem sig := 70
abbrev cc7_sem5_0 : DmaSem sig := 71
abbrev cc7_sem6_0 : DmaSem sig := 72
abbrev cc7_sem6_1 : DmaSem sig := 73
abbrev cc8_sem0_0 : DmaSem sig := 74
abbrev cc8_sem0_1 : DmaSem sig := 75
abbrev cc8_sem1_0 : DmaSem sig := 76
abbrev cc8_sem2_0 : DmaSem sig := 77
abbrev cc8_sem2_1 : DmaSem sig := 78

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x7 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S7x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S64x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x32 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S5000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S32x32 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x32 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S32x32 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x32 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S32x16 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x16 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x7 : S_.BroadcastsInDim S100000x7 (![] : Fin 0 → Fin S100000x7.rank)
  transposes_S32x7_S7x32_1_0 : S32x7.Transposes [1, 0] S7x32
  shapeCasts_S32_S1x32 : S32.ShapeCasts S1x32
  bcast_S_S100000x32 : S_.BroadcastsInDim S100000x32 (![] : Fin 0 → Fin S100000x32.rank)
  transposes_S64x32_S32x64_1_0 : S64x32.Transposes [1, 0] S32x64
  shapeCasts_S64_S1x64 : S64.ShapeCasts S1x64
  bcast_S_S100000x64 : S_.BroadcastsInDim S100000x64 (![] : Fin 0 → Fin S100000x64.rank)
  transposes_S128x64_S64x128_1_0 : S128x64.Transposes [1, 0] S64x128
  shapeCasts_S128_S1x128 : S128.ShapeCasts S1x128
  transposes_S64x128_S128x64_1_0 : S64x128.Transposes [1, 0] S128x64
  transposes_S32x64_S64x32_1_0 : S32x64.Transposes [1, 0] S64x32
  transposes_S32x32_S32x32_1_0 : S32x32.Transposes [1, 0] S32x32
  transposes_S16x32_S32x16_1_0 : S16x32.Transposes [1, 0] S32x16
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S5000x7_S5000x7_0_0 : ∀ a, (![0, 0] : Fin 2 → Nat) a + S5000x7.size a ≤ S5000x7.size a
  h_S5000x7 : 0 < S5000x7.numel
  shapeCasts_S5000x7_S5000x7 : S5000x7.ShapeCasts S5000x7
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x7 : S5000x1.Broadcasts S5000x7
  bitsLt_bf16_f32 : FTy.bits .bf16 < FTy.bits .f32
  inb_S7x32_S7x32_0_0 : ∀ a, (![0, 0] : Fin 2 → Nat) a + S7x32.size a ≤ S7x32.size a
  h_S7x32 : 0 < S7x32.numel
  shapeCasts_S7x32_S7x32 : S7x32.ShapeCasts S7x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  broadcasts_S5000x1_S5000x32 : S5000x1.Broadcasts S5000x32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S5000x16_S5000x16_0_0 : ∀ a, (![0, 0] : Fin 2 → Nat) a + S5000x16.size a ≤ S5000x16.size a
  h_S5000x16 : 0 < S5000x16.numel
  scatter_S100000_S1600000x1_S1600000_n_0_0_1_wf : ScatterDims.WF S100000 S1600000x1 S1600000 [] [0] [0] 1
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x16_S1600000x1_S1600000x16_1_0_n_n_0_1_116_wf : GatherDims.WF S100000x16 S1600000x1 S1600000x16 [1] [0] [] [0] [] 1 ![1, 16]
  gather_S100000_S1600000x1_S1600000_n_0_n_n_0_1_1_wf : GatherDims.WF S100000 S1600000x1 S1600000 [] [0] [] [0] [] 1 ![1]
  scatter_S100000x16_S1600000x1_S1600000x16_1_0_0_1_wf : ScatterDims.WF S100000x16 S1600000x1 S1600000x16 [1] [0] [0] 1
  dot_S5000x7_S7x32_S5000x32_1_0_0_1_n_n_wf : DotDims.WF S5000x7 S7x32 S5000x32 [1] [0] [0] [1] [] []
  dot_S5000x32_S32x64_S5000x64_1_0_0_1_n_n_wf : DotDims.WF S5000x32 S32x64 S5000x64 [1] [0] [0] [1] [] []
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  dot_S5000x64_S64x32_S5000x32_1_0_0_1_n_n_wf : DotDims.WF S5000x64 S64x32 S5000x32 [1] [0] [0] [1] [] []
  dot_S5000x32_S32x32_S5000x32_1_0_0_1_n_n_wf : DotDims.WF S5000x32 S32x32 S5000x32 [1] [0] [0] [1] [] []
  dot_S5000x32_S32x16_S5000x16_1_0_0_1_n_n_wf : DotDims.WF S5000x32 S32x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x7.size a ≤ S100000x7.size a
  hwx0_0 : ∀ i : grid0.Coords, EltTy.bits .f32 = 32 ∨ (Rect.block (s := S100000x7) S5000x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x7.size a ≤ S100000x7.size a
  hwx0_2 : ∀ i : grid0.Coords, EltTy.bits .f32 = 32 ∨ (Rect.block (s := S100000x7) S5000x7.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x32.size a ≤ S7x32.size a
  hwx0_3 : ∀ i : grid0.Coords, EltTy.bits .f32 = 32 ∨ (Rect.block (s := S7x32) S7x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S7x32.size a ≤ S7x32.size a
  hwx0_5 : ∀ i : grid0.Coords, EltTy.bits .f32 = 32 ∨ (Rect.block (s := S7x32) S7x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S100000x32.size a
  hwx0_6 : ∀ i : grid0.Coords, EltTy.bits .f32 = 32 ∨ (Rect.block (s := S100000x32) S5000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x64.size a ≤ S32x64.size a
  hwx1_5 : ∀ i : grid1.Coords, EltTy.bits .f32 = 32 ∨ (Rect.block (s := S32x64) S32x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .f32 = 32 ∨ (Rect.block (s := S64x128) S64x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x32.size a ≤ S64x32.size a
  hwx5_1 : ∀ i : grid5.Coords, EltTy.bits .f32 = 32 ∨ (Rect.block (s := S64x32) S64x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x32.size a ≤ S100000x32.size a
  hwx5_2 : ∀ i : grid5.Coords, EltTy.bits .f32 = 32 ∨ (Rect.block (s := S100000x32) S5000x32.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .f32 = 32 ∨ (Rect.block (s := S100000x1) S5000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x32.size a ≤ S64x32.size a
  hwx6_3 : ∀ i : grid6.Coords, EltTy.bits .f32 = 32 ∨ (Rect.block (s := S64x32) S64x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x32.size a ≤ S1x32.size a
  hwx6_4 : ∀ i : grid6.Coords, EltTy.bits .f32 = 32 ∨ (Rect.block (s := S1x32) S1x32.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x32.size a ≤ S100000x32.size a
  hwx6_5 : ∀ i : grid6.Coords, EltTy.bits .f32 = 32 ∨ (Rect.block (s := S100000x32) S5000x32.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S100000x32.size a
  hwx7_0 : ∀ i : grid7.Coords, EltTy.bits .f32 = 32 ∨ (Rect.block (s := S100000x32) S5000x32.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x32.size a ≤ S100000x32.size a
  hwx7_2 : ∀ i : grid7.Coords, EltTy.bits .f32 = 32 ∨ (Rect.block (s := S100000x32) S5000x32.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S32x32.size a ≤ S32x32.size a
  hwx7_3 : ∀ i : grid7.Coords, EltTy.bits .f32 = 32 ∨ (Rect.block (s := S32x32) S32x32.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x32.size a ≤ S1x32.size a
  hwx7_4 : ∀ i : grid7.Coords, EltTy.bits .f32 = 32 ∨ (Rect.block (s := S1x32) S1x32.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S32x32.size a ≤ S32x32.size a
  hwx7_5 : ∀ i : grid7.Coords, EltTy.bits .f32 = 32 ∨ (Rect.block (s := S32x32) S32x32.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x32.size a ≤ S100000x32.size a
  hwx7_6 : ∀ i : grid7.Coords, EltTy.bits .f32 = 32 ∨ (Rect.block (s := S100000x32) S5000x32.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x32.size a ≤ S100000x32.size a
  hwx8_0 : ∀ i : grid8.Coords, EltTy.bits .f32 = 32 ∨ (Rect.block (s := S100000x32) S5000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S32x16.size a ≤ S32x16.size a
  hwx8_1 : ∀ i : grid8.Coords, EltTy.bits .f32 = 32 ∨ (Rect.block (s := S32x16) S32x16.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x16.size a ≤ S100000x16.size a
  hwx8_2 : ∀ i : grid8.Coords, EltTy.bits .f32 = 32 ∨ (Rect.block (s := S100000x16) S5000x16.size (cc8_transform_2 i) (hinb8_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x7_S7x32_S5000x32_1_0_0_1_n_n : DotDims S5000x7 S7x32 S5000x32 where
  lhsContracting := [1]
  rhsContracting := [0]
  lhsNonContracting := [0]
  rhsNonContracting := [1]
  lhsBatch := []
  rhsBatch := []
  wf := dot_S5000x7_S7x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf

abbrev win0_0 : Pipeline.Window sig grid0 :=
  Pipeline.Window.ofSpec (Memref.whole main_call0_v22) S5000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x7.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v23) S7x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v25) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v24) S7x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v26) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v36) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v26) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v37) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v38) S32x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v40) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_call0_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v40) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v51) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v53) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v52) S64x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v54) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_call0_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v55) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v56) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_call0_v66) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v12) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v54) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_call0_v67) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_call0_v68) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_call0_v69) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_call0_v69) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v70) S64x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_call0_v71) S5000x32.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_call0_v81) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v12) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_call0_v69) S5000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_call0_v82) S64x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_call0_v83) S1x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_call0_v84) S5000x32.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_call0_v94) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_call0_v12) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_call0_v84) S5000x32.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_call0_v95) S32x32.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_call0_v97) S1x32.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_call0_v96) S32x32.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_call0_v98) S5000x32.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_call0_v98) S5000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_call0_v102) S32x16.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_call0_v103) S5000x16.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

class Facts : Prop extends Facts₀ where

variable [Facts]
-- ==== ReferenceIdeal.lean ====
abbrev S100000x7 : Shape := ⟨2, ![100000, 7]⟩
abbrev S2x1600000 : Shape := ⟨2, ![2, 1600000]⟩
abbrev S32x7 : Shape := ⟨2, ![32, 7]⟩
abbrev S32 : Shape := ⟨1, ![32]⟩
abbrev S64x32 : Shape := ⟨2, ![64, 32]⟩
abbrev S64 : Shape := ⟨1, ![64]⟩
abbrev S128x64 : Shape := ⟨2, ![128, 64]⟩
abbrev S128 : Shape := ⟨1, ![128]⟩
abbrev S64x128 : Shape := ⟨2, ![64, 128]⟩
abbrev S32x64 : Shape := ⟨2, ![32, 64]⟩
abbrev S32x32 : Shape := ⟨2, ![32, 32]⟩
abbrev S16x32 : Shape := ⟨2, ![16, 32]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x7 : Shape := ⟨2, ![1600000, 7]⟩
abbrev S7x32 : Shape := ⟨2, ![7, 32]⟩
abbrev S100000x32 : Shape := ⟨2, ![100000, 32]⟩
abbrev S1x32 : Shape := ⟨2, ![1, 32]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S100000x128 : Shape := ⟨2, ![100000, 128]⟩
abbrev S1x128 : Shape := ⟨2, ![1, 128]⟩
abbrev S1600000x128 : Shape := ⟨2, ![1600000, 128]⟩
abbrev S1700000 : Shape := ⟨1, ![1700000]⟩
abbrev S1700000x1 : Shape := ⟨2, ![1700000, 1]⟩
abbrev S32x16 : Shape := ⟨2, ![32, 16]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 242
  | .vmem => 0
  | .smem => 0
  | _ => 0

abbrev hbmTy0_0 (i : Nat) : BufTy := match i % 128 with
  | 0 => ⟨S100000x7, .f32⟩
  | 1 => ⟨S2x1600000, .i32⟩
  | 2 => ⟨S32x7, .f32⟩
  | 3 => ⟨S32, .f32⟩
  | 4 => ⟨S32x7, .f32⟩
  | 5 => ⟨S64x32, .f32⟩
  | 6 => ⟨S64, .f32⟩
  | 7 => ⟨S64x32, .f32⟩
  | 8 => ⟨S128x64, .f32⟩
  | 9 => ⟨S128, .f32⟩
  | 10 => ⟨S128x64, .f32⟩
  | 11 => ⟨S64x128, .f32⟩
  | 12 => ⟨S64, .f32⟩
  | 13 => ⟨S64x128, .f32⟩
  | 14 => ⟨S32x64, .f32⟩
  | 15 => ⟨S32, .f32⟩
  | 16 => ⟨S32x64, .f32⟩
  | 17 => ⟨S32x32, .f32⟩
  | 18 => ⟨S32, .f32⟩
  | 19 => ⟨S32x32, .f32⟩
  | 20 => ⟨S16x32, .f32⟩
  | 21 => ⟨S16, .f32⟩
  | 22 => ⟨S1x1600000, .i32⟩
  | 23 => ⟨S1600000, .i32⟩
  | 24 => ⟨S1x1600000, .i32⟩
  | 25 => ⟨S1600000, .i32⟩
  | 26 => ⟨S_, .f32⟩
  | 27 => ⟨S1600000, .f32⟩
  | 28 => ⟨S_, .f32⟩
  | 29 => ⟨S100000, .f32⟩
  | 30 => ⟨S1600000x1, .i32⟩
  | 31 => ⟨S100000, .f32⟩
  | 32 => ⟨S_, .f32⟩
  | 33 => ⟨S100000, .f32⟩
  | 34 => ⟨S100000, .f32⟩
  | 35 => ⟨S100000x1, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x7, .f32⟩
  | 45 => ⟨S_, .f32⟩
  | 46 => ⟨S100000x7, .f32⟩
  | 47 => ⟨S1600000x1, .i32⟩
  | 48 => ⟨S100000x7, .f32⟩
  | 49 => ⟨S100000x7, .f32⟩
  | 50 => ⟨S100000x7, .f32⟩
  | 51 => ⟨S7x32, .f32⟩
  | 52 => ⟨S100000x32, .f32⟩
  | 53 => ⟨S1x32, .f32⟩
  | 54 => ⟨S100000x32, .f32⟩
  | 55 => ⟨S100000x32, .f32⟩
  | 56 => ⟨S7x32, .f32⟩
  | 57 => ⟨S100000x32, .f32⟩
  | 58 => ⟨S100000x32, .f32⟩
  | 59 => ⟨S_, .f32⟩
  | 60 => ⟨S100000x32, .f32⟩
  | 61 => ⟨S100000x32, .f32⟩
  | 62 => ⟨S_, .i32⟩
  | 63 => ⟨S1600000, .i32⟩
  | 64 => ⟨S1600000, .i1⟩
  | 65 => ⟨S_, .i32⟩
  | 66 => ⟨S1600000, .i32⟩
  | 67 => ⟨S1600000, .i32⟩
  | 68 => ⟨S1600000, .i32⟩
  | 69 => ⟨S1600000x1, .i32⟩
  | 70 => ⟨S1600000x32, .f32⟩
  | 71 => ⟨S_, .f32⟩
  | 72 => ⟨S100000x32, .f32⟩
  | 73 => ⟨S1600000x1, .i32⟩
  | 74 => ⟨S100000x32, .f32⟩
  | 75 => ⟨S100000x32, .f32⟩
  | 76 => ⟨S100000x32, .f32⟩
  | 77 => ⟨S32x64, .f32⟩
  | 78 => ⟨S100000x64, .f32⟩
  | 79 => ⟨S1x64, .f32⟩
  | 80 => ⟨S100000x64, .f32⟩
  | 81 => ⟨S100000x64, .f32⟩
  | 82 => ⟨S32x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x64, .f32⟩
  | 97 => ⟨S_, .f32⟩
  | 98 => ⟨S100000x64, .f32⟩
  | 99 => ⟨S1600000x1, .i32⟩
  | 100 => ⟨S100000x64, .f32⟩
  | 101 => ⟨S100000x64, .f32⟩
  | 102 => ⟨S100000x64, .f32⟩
  | 103 => ⟨S64x128, .f32⟩
  | 104 => ⟨S100000x128, .f32⟩
  | 105 => ⟨S1x128, .f32⟩
  | 106 => ⟨S100000x128, .f32⟩
  | 107 => ⟨S100000x128, .f32⟩
  | 108 => ⟨S64x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S_, .i32⟩
  | 115 => ⟨S1600000, .i32⟩
  | 116 => ⟨S1600000, .i1⟩
  | 117 => ⟨S_, .i32⟩
  | 118 => ⟨S1600000, .i32⟩
  | 119 => ⟨S1600000, .i32⟩
  | 120 => ⟨S1600000, .i32⟩
  | 121 => ⟨S1600000x1, .i32⟩
  | 122 => ⟨S1600000x128, .f32⟩
  | 123 => ⟨S_, .f32⟩
  | 124 => ⟨S100000x128, .f32⟩
  | 125 => ⟨S1600000x1, .i32⟩
  | 126 => ⟨S100000x128, .f32⟩
  | 127 => ⟨S100000x128, .f32⟩
  | _ => ⟨S100000x7, .f32⟩

abbrev hbmTy0_1 (i : Nat) : BufTy := match i % 128 with
  | 0 => ⟨S100000x128, .f32⟩
  | 1 => ⟨S128x64, .f32⟩
  | 2 => ⟨S100000x64, .f32⟩
  | 3 => ⟨S1x64, .f32⟩
  | 4 => ⟨S100000x64, .f32⟩
  | 5 => ⟨S100000x64, .f32⟩
  | 6 => ⟨S128x64, .f32⟩
  | 7 => ⟨S100000x64, .f32⟩
  | 8 => ⟨S100000x64, .f32⟩
  | 9 => ⟨S_, .f32⟩
  | 10 => ⟨S100000x64, .f32⟩
  | 11 => ⟨S100000x64, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x64, .f32⟩
  | 21 => ⟨S_, .f32⟩
  | 22 => ⟨S100000x64, .f32⟩
  | 23 => ⟨S1600000x1, .i32⟩
  | 24 => ⟨S100000x64, .f32⟩
  | 25 => ⟨S100000x64, .f32⟩
  | 26 => ⟨S100000x64, .f32⟩
  | 27 => ⟨S64x32, .f32⟩
  | 28 => ⟨S100000x32, .f32⟩
  | 29 => ⟨S1x32, .f32⟩
  | 30 => ⟨S100000x32, .f32⟩
  | 31 => ⟨S100000x32, .f32⟩
  | 32 => ⟨S64x32, .f32⟩
  | 33 => ⟨S100000x32, .f32⟩
  | 34 => ⟨S100000x32, .f32⟩
  | 35 => ⟨S_, .f32⟩
  | 36 => ⟨S100000x32, .f32⟩
  | 37 => ⟨S100000x32, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x32, .f32⟩
  | 47 => ⟨S_, .f32⟩
  | 48 => ⟨S100000x32, .f32⟩
  | 49 => ⟨S1600000x1, .i32⟩
  | 50 => ⟨S100000x32, .f32⟩
  | 51 => ⟨S100000x32, .f32⟩
  | 52 => ⟨S100000x32, .f32⟩
  | 53 => ⟨S32x32, .f32⟩
  | 54 => ⟨S100000x32, .f32⟩
  | 55 => ⟨S1x32, .f32⟩
  | 56 => ⟨S100000x32, .f32⟩
  | 57 => ⟨S100000x32, .f32⟩
  | 58 => ⟨S32x32, .f32⟩
  | 59 => ⟨S100000x32, .f32⟩
  | 60 => ⟨S100000x32, .f32⟩
  | 61 => ⟨S_, .f32⟩
  | 62 => ⟨S100000x32, .f32⟩
  | 63 => ⟨S100000x32, .f32⟩
  | 64 => ⟨S100000, .i32⟩
  | 65 => ⟨S1700000, .i32⟩
  | 66 => ⟨S1700000, .i32⟩
  | 67 => ⟨S_, .f32⟩
  | 68 => ⟨S1700000, .f32⟩
  | 69 => ⟨S_, .f32⟩
  | 70 => ⟨S100000, .f32⟩
  | 71 => ⟨S1700000x1, .i32⟩
  | 72 => ⟨S100000, .f32⟩
  | 73 => ⟨S100000, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000, .f32⟩
  | 92 => ⟨S1700000, .f32⟩
  | 93 => ⟨S1700000x1, .f32⟩
  | 94 => ⟨S32x16, .f32⟩
  | 95 => ⟨S100000x16, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x16, .f32⟩
  | 105 => ⟨S1700000x16, .f32⟩
  | 106 => ⟨S1700000x16, .f32⟩
  | 107 => ⟨S_, .f32⟩
  | 108 => ⟨S100000x16, .f32⟩
  | 109 => ⟨S1700000x1, .i32⟩
  | 110 => ⟨S100000x16, .f32⟩
  | 111 => ⟨S1x16, .f32⟩
  | 112 => ⟨S100000x16, .f32⟩
  | 113 => ⟨S100000x16, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_cst_3 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call0_cst : Ref sig .tc := ⟨.hbm, 59, rfl⟩
abbrev main_call0_v0 : Ref sig .tc := ⟨.hbm, 60, rfl⟩
abbrev main_v31 : Ref sig .tc := ⟨.hbm, 61, rfl⟩
abbrev main_c_4 : Ref sig .tc := ⟨.hbm, 62, rfl⟩
abbrev main_v32 : Ref sig .tc := ⟨.hbm, 63, rfl⟩
abbrev main_v33 : Ref sig .tc := ⟨.hbm, 64, rfl⟩
abbrev main_c_5 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_call1_cst : Ref sig .tc := ⟨.hbm, 85, rfl⟩
abbrev main_call1_v0 : Ref sig .tc := ⟨.hbm, 86, rfl⟩
abbrev main_v52 : Ref sig .tc := ⟨.hbm, 87, rfl⟩
abbrev main_c_7 : Ref sig .tc := ⟨.hbm, 88, rfl⟩
abbrev main_v53 : Ref sig .tc := ⟨.hbm, 89, rfl⟩
abbrev main_v54 : Ref sig .tc := ⟨.hbm, 90, rfl⟩
abbrev main_c_8 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_9 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_call2_cst : Ref sig .tc := ⟨.hbm, 111, rfl⟩
abbrev main_call2_v0 : Ref sig .tc := ⟨.hbm, 112, rfl⟩
abbrev main_v73 : Ref sig .tc := ⟨.hbm, 113, rfl⟩
abbrev main_c_10 : Ref sig .tc := ⟨.hbm, 114, rfl⟩
abbrev main_v74 : Ref sig .tc := ⟨.hbm, 115, rfl⟩
abbrev main_v75 : Ref sig .tc := ⟨.hbm, 116, rfl⟩
abbrev main_c_11 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_12 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_call3_cst : Ref sig .tc := ⟨.hbm, 137, rfl⟩
abbrev main_call3_v0 : Ref sig .tc := ⟨.hbm, 138, rfl⟩
abbrev main_v94 : Ref sig .tc := ⟨.hbm, 139, rfl⟩
abbrev main_c_13 : Ref sig .tc := ⟨.hbm, 140, rfl⟩
abbrev main_v95 : Ref sig .tc := ⟨.hbm, 141, rfl⟩
abbrev main_v96 : Ref sig .tc := ⟨.hbm, 142, rfl⟩
abbrev main_c_14 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_15 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_call4_cst : Ref sig .tc := ⟨.hbm, 163, rfl⟩
abbrev main_call4_v0 : Ref sig .tc := ⟨.hbm, 164, rfl⟩
abbrev main_v115 : Ref sig .tc := ⟨.hbm, 165, rfl⟩
abbrev main_c_16 : Ref sig .tc := ⟨.hbm, 166, rfl⟩
abbrev main_v116 : Ref sig .tc := ⟨.hbm, 167, rfl⟩
abbrev main_v117 : Ref sig .tc := ⟨.hbm, 168, rfl⟩
abbrev main_c_17 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_cst_18 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_call5_cst : Ref sig .tc := ⟨.hbm, 189, rfl⟩
abbrev main_call5_v0 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_cst_19 : Ref sig .tc := ⟨.hbm, 195, rfl⟩
abbrev main_v140 : Ref sig .tc := ⟨.hbm, 196, rfl⟩
abbrev main_cst_20 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_c_21 : Ref sig .tc := ⟨.hbm, 202, rfl⟩
abbrev main_v145 : Ref sig .tc := ⟨.hbm, 203, rfl⟩
abbrev main_v146 : Ref sig .tc := ⟨.hbm, 204, rfl⟩
abbrev main_c_22 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_c_23 : Ref sig .tc := ⟨.hbm, 211, rfl⟩
abbrev main_v152 : Ref sig .tc := ⟨.hbm, 212, rfl⟩
abbrev main_v153 : Ref sig .tc := ⟨.hbm, 213, rfl⟩
abbrev main_c_24 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_c_25 : Ref sig .tc := ⟨.hbm, 224, rfl⟩
abbrev main_v163 : Ref sig .tc := ⟨.hbm, 225, rfl⟩
abbrev main_v164 : Ref sig .tc := ⟨.hbm, 226, rfl⟩
abbrev main_c_26 : Ref sig .tc := ⟨.hbm, 227, rfl⟩
abbrev main_v165 : Ref sig .tc := ⟨.hbm, 228, rfl⟩
abbrev main_v166 : Ref sig .tc := ⟨.hbm, 229, rfl⟩
abbrev main_v167 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_cst_27 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x7 : S_.BroadcastsInDim S100000x7 (![] : Fin 0 → Fin S100000x7.rank)
  bcast_S100000x1_S100000x7_0_1 : S100000x1.BroadcastsInDim S100000x7 (![0, 1] : Fin 2 → Fin S100000x7.rank)
  transposes_S32x7_S7x32_1_0 : S32x7.Transposes [1, 0] S7x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  transposes_S64x32_S32x64_1_0 : S64x32.Transposes [1, 0] S32x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  transposes_S32x64_S64x32_1_0 : S32x64.Transposes [1, 0] S64x32
  transposes_S32x32_S32x32_1_0 : S32x32.Transposes [1, 0] S32x32
  concatenates_S1600000_S100000_S1700000_d0 : Shape.Concatenates [S1600000, S100000] S1700000 0
  bcast_S_S1700000 : S_.BroadcastsInDim S1700000 (![] : Fin 0 → Fin S1700000.rank)
  bcast_S1700000_S1700000x1_0 : S1700000.BroadcastsInDim S1700000x1 (![0] : Fin 1 → Fin S1700000x1.rank)
  transposes_S16x32_S32x16_1_0 : S16x32.Transposes [1, 0] S32x16
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1600000x1_S1600000_n_0_0_1_wf : ScatterDims.WF S100000 S1600000x1 S1600000 [] [0] [0] 1
  gather_S100000x7_S1600000x1_S1600000x7_1_0_n_n_0_1_17_wf : GatherDims.WF S100000x7 S1600000x1 S1600000x7 [1] [0] [] [0] [] 1 ![1, 7]
  scatter_S100000x7_S1600000x1_S1600000x7_1_0_0_1_wf : ScatterDims.WF S100000x7 S1600000x1 S1600000x7 [1] [0] [0] 1
  dot_S100000x7_S7x32_S100000x32_1_0_0_1_n_n_wf : DotDims.WF S100000x7 S7x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x32_S100000x32_1_0_0_1_n_n_wf : DotDims.WF S100000x64 S64x32 S100000x32 [1] [0] [0] [1] [] []
  dot_S100000x32_S32x32_S100000x32_1_0_0_1_n_n_wf : DotDims.WF S100000x32 S32x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x7_S1600000x1_S1600000x7_1_0_n_n_0_1_17 : GatherDims S100000x7 S1600000x1 S1600000x7 where
  offsetDims := [1]
  collapsedSliceDims := [0]
  operandBatchingDims := []
  startIndicesBatchingDims := []
  startIndexMap := [0]
  indexVectorDim := 1
  sliceSizes := ![1, 7]
  wf := gather_S100000x7_S1600000x1_S1600000x7_1_0_n_n_0_1_17_wf
def scatter_S100000x7_S1600000x1_S1600000x7_1_0_0_1 : ScatterDims S100000x7 S1600000x1 S1600000x7 where
  updateWindowDims := [1]
  insertedWindowDims := [0]
  scatterDimsToOperandDims := [0]
  indexVectorDim := 1
  wf := scatter_S100000x7_S1600000x1_S1600000x7_1_0_0_1_wf
def dot_S100000x7_S7x32_S100000x32_1_0_0_1_n_n : DotDims S100000x7 S7x32 S100000x32 where
  lhsContracting := [1]
  rhsContracting := [0]
  lhsNonContracting := [0]
  rhsNonContracting := [1]
  lhsBatch := []
  rhsBatch := []
  wf := dot_S100000x7_S7x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KRun.lean ====
/-
  The idealized kernel's run with its result named: every weakly fair execution of the program ends, nothing faulting,
  with the result array at what the fold of the program's segments leaves there — the host stretches' operations
  applied in order, each region's output arrays at what its grid points wrote back — and the argument arrays as
  launched. The frame certificate states the same run with only the arguments in its conclusion; here the final
  thread state is read at the result buffer as well.
-/
import proofs.«170208_j90074054132246_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- The run, with the result buffer read off the last boundary's contents. -/
theorem run_value : θ_run defs (onTc (τ := τ) (main (F := F))) ⟨m, fun _ => 0, ρ⟩ (fun r => ∀ c : Dev nD,
      r.2.mem ((c.tc : Thread nD τ).loc main_v0) = W19 m ρ c (Proc.devRef .tc main_v0) ∧
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v0 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c),
       (h c _ (mem_uc main_arg14 (by decide))).trans (W19_main_arg14 m ρ c),
       (h c _ (mem_uc main_arg15 (by decide))).trans (W19_main_arg15 m ρ c),
       (h c _ (mem_uc main_arg16 (by decide))).trans (W19_main_arg16 m ρ c),
       (h c _ (mem_uc main_arg17 (by decide))).trans (W19_main_arg17 m ρ c),
       (h c _ (mem_uc main_arg18 (by decide))).trans (W19_main_arg18 m ρ c),
       (h c _ (mem_uc main_arg19 (by decide))).trans (W19_main_arg19 m ρ c),
       (h c _ (mem_uc main_arg20 (by decide))).trans (W19_main_arg20 m ρ c),
       (h c _ (mem_uc main_arg21 (by decide))).trans (W19_main_arg21 m ρ c)⟩)

end Cert.KernelIdeal.KRun

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.LibLreluRows.lean ====
/-
  Single entries of a leaky rectifier and of a bias laid along the rows of a matrix, at exact (extended real) values.

  lrelu with slope 0.2 of one value (lr), and of a vector in the two spellings a tiled body and a host program give it
  (a comparison with a splat zero, a product with a splat 0.2 and a select — the constants scalars splat, or rank-0
  arrays broadcast), read at an index as lr of the entry, by computation. A bias vector of n entries laid along every
  row of an [m, n] matrix, read at entry (P, k) as entry k of the vector, in the two spellings: the vector broadcast
  along axis 1 of a one-row matrix and that row broadcast down the rows (biasRows_apply), and a one-row matrix, cast
  to its own shape, broadcast down the rows (rowDown_apply); a vector cast to a one-row matrix read at (0, k)
  (rowCast_apply).
-/
import Idealize.ShloMosaic.PureOps.Ideal.Laws
import Idealize.ShloMosaic.Lib.Pipeline.Value
import Idealize.ShloMosaic.Lib.ValueIdx
import Idealize.ShloMosaic.Lib.ValueLayout
import Idealize.ShloMosaic.Lib.KernelVsHost

noncomputable section

namespace Cert.LibLreluRows

open Idealize.ShloMosaic Idealize.ShloMosaic.ValueIdx

/-- lrelu on one value: v where v ≥ 0, and 0.2·v elsewhere (0.2 as its single-precision pattern). -/
def lr (v : EReal) : EReal :=
  Scalar.select (FloatOps.cmpf (F := Ideal) (φ := .f32) .oge v (Ideal.ofBits .f32 0x00000000#32)) v
    (Ideal.ofBits .f32 0x3E4CCCCD#32 * v)

/-- lrelu of a vector as a comparison with a splat zero, a product with a splat 0.2 and a select, at one index. -/
theorem lrelu_splat_apply {s : Shape} (v : FVec Ideal s .f32) (i : s.Idx) :
    select (cmpf .oge v (broadcast s (Scalar.ofBits (F := Ideal) .f32 0x00000000#32))) v
      (mulf (broadcast s (Scalar.ofBits (F := Ideal) .f32 0x3E4CCCCD#32)) v) i = lr (v i) := rfl

/-- The same with the two constants rank-0 arrays broadcast to the shape. -/
theorem lrelu_bcast_apply {s : Shape} (h : (⟨0, ![]⟩ : Shape).BroadcastsInDim s ![]) (v : FVec Ideal s .f32) (i : s.Idx) :
    select (cmpf .oge v (broadcastInDim s ![] h (constant (F := Ideal) ⟨0, ![]⟩ .f32 0x00000000#32))) v
      (mulf (broadcastInDim s ![] h (id (constant (F := Ideal) ⟨0, ![]⟩ .f32 0x3E4CCCCD#32))) v) i = lr (v i) := rfl

/-- lrelu of a vector: a comparison with a splat zero, a product with a splat 0.2 and a select. -/
def lrv {s : Shape} (v : FVec Ideal s .f32) : FVec Ideal s .f32 :=
  select (cmpf .oge v (broadcast s (Scalar.ofBits (F := Ideal) .f32 0x00000000#32))) v
    (mulf (broadcast s (Scalar.ofBits (F := Ideal) .f32 0x3E4CCCCD#32)) v)

theorem lrv_apply {s : Shape} (v : FVec Ideal s .f32) (i : s.Idx) : lrv v i = lr (v i) := rfl

/-- A vector of n entries read as a one-row matrix: entry (0, k) is entry k. -/
theorem rowCast_apply {α : Type} {n : Nat} (h : (⟨1, ![n]⟩ : Shape).ShapeCasts ⟨2, ![1, n]⟩)
    (b : (⟨1, ![n]⟩ : Shape).Idx → α) (k : Fin n) :
    shapeCast ⟨2, ![1, n]⟩ b h (ix2 (0 : Fin 1) k) = b (ix1 k) :=
  (shapeCast_addUnit_apply ![n] b h (ix2 (0 : Fin 1) k)).trans
    (congrArg b (funext fun a => match a with | ⟨0, _⟩ => rfl))

/-- A vector broadcast along axis 1 of a one-row matrix and that row broadcast down m rows: entry (P, k) is entry k. -/
theorem biasRows_apply {α : Type} {m n : Nat} (h1 : (⟨1, ![n]⟩ : Shape).BroadcastsInDim ⟨2, ![1, n]⟩ ![1])
    (h2 : (⟨2, ![1, n]⟩ : Shape).BroadcastsInDim ⟨2, ![m, n]⟩ ![0, 1]) (b : (⟨1, ![n]⟩ : Shape).Idx → α)
    (P : Fin m) (k : Fin n) :
    broadcastInDim ⟨2, ![m, n]⟩ ![0, 1] h2 (broadcastInDim ⟨2, ![1, n]⟩ ![1] h1 b) (ix2 P k) = b (ix1 k) := by
  rw [broadcastInDim_oneRow_apply]
  refine broadcastInDim_apply ![1] h1 b (ix2 (0 : Fin 1) k) (ix1 k) ?_
  intro a
  match a with
  | ⟨0, _⟩ =>
    show k.val = if n = 1 then 0 else k.val
    split
    · have := k.isLt; omega
    · rfl

/-- A one-row matrix (cast to its own shape) broadcast down m rows: entry (p, k) is the row's entry (0, k). -/
theorem rowDown_apply {α : Type} {m n : Nat} (hs : (⟨2, ![1, n]⟩ : Shape).ShapeCasts ⟨2, ![1, n]⟩)
    (hb : (⟨2, ![1, n]⟩ : Shape).Broadcasts ⟨2, ![m, n]⟩) (x : (⟨2, ![1, n]⟩ : Shape).Idx → α) (p : Fin m) (k : Fin n) :
    broadcastTo ⟨2, ![m, n]⟩ (shapeCast ⟨2, ![1, n]⟩ x hs) hb (ix2 p k) = x (ix2 (0 : Fin 1) k) := by
  rw [broadcastTo_1b_ab_apply, shapeCast_self]

end Cert.LibLreluRows

end
-- ==== Proof.LibDenseRows.lean ====
/-
  Dense stages of a graph network read entry by entry, at exact (extended real) values.

    mm X W       entry (p, q) = Σ_k X[p, k] · W[k, q]        the matrix product
    act A b      entry (p, k) = max(A[p, k] + b[k], 0)        a bias laid along every row, then the rectifier
    addRow A b   entry (p, k) = A[p, k] + b[k]                a bias laid along every row

  A tiled body multiplies one block of rows by a whole weight matrix on the matrix unit, its operands narrowed to half
  precision first (at exact values the narrowing changes nothing) and its accumulator zero; a host program takes the
  whole product by a dot product. Both are read here at one entry as the same sum over the contracted index. The bias
  reaches the tiled body as a one-row matrix broadcast down the rows and the host program as a vector broadcast twice.
-/
import Idealize.ShloMosaic.PureOps.Ideal.Laws
import Idealize.ShloMosaic.Lib.ValueIdx
import Idealize.ShloMosaic.Lib.ValueLayout
import Idealize.ShloMosaic.Lib.Pipeline.Value
import proofs.«170208_j90074054132246_2_alg».proof.Proof.LibPlainContract
import proofs.«170208_j90074054132246_2_alg».proof.Proof.LibLreluRows

noncomputable section

namespace Cert.Dense

open Idealize.ShloMosaic Idealize.ShloMosaic.ValueIdx

variable {N K C : Nat}

/-- An N-by-K array of extended reals. -/
abbrev Mat (N K : Nat) : Type := (⟨2, ![N, K]⟩ : Shape).Idx → EReal
/-- A vector of K extended reals. -/
abbrev Row (K : Nat) : Type := (⟨1, ![K]⟩ : Shape).Idx → EReal

/-- The row and the column of an entry. -/
abbrev rowOf (i : (⟨2, ![N, K]⟩ : Shape).Idx) : Fin N := ⟨(i 0).val, idx2_lt0 i⟩
abbrev colOf (i : (⟨2, ![N, K]⟩ : Shape).Idx) : Fin K := ⟨(i 1).val, idx2_lt1 i⟩

/-- The matrix product. -/
def mm (X : Mat N K) (W : Mat K C) : Mat N C := fun i => ∑ k : Fin K, X (ix2 (rowOf i) k) * W (ix2 k (colOf i))
/-- A bias along every row, then the rectifier. -/
def act (A : Mat N K) (b : Row K) : Mat N K := fun i => max (A i + b (ix1 (colOf i))) 0
/-- A bias along every row. -/
def addRow (A : Mat N K) (b : Row K) : Mat N K := fun i => A i + b (ix1 (colOf i))

/-- A one-row bias along every row, then the rectifier. -/
def actRow (A : Mat N K) (b : Mat 1 K) : Mat N K := fun i => max (A i + b (ix2 (0 : Fin 1) (colOf i))) 0
/-- A one-row bias along every row. -/
def addRowRow (A : Mat N K) (b : Mat 1 K) : Mat N K := fun i => A i + b (ix2 (0 : Fin 1) (colOf i))

/-- The one-row bias that is a vector cast to a one-row matrix acts as the vector. -/
theorem actRow_cast (A : Mat N K) (v : Row K) (h : (⟨1, ![K]⟩ : Shape).ShapeCasts ⟨2, ![1, K]⟩) :
    actRow A (shapeCast ⟨2, ![1, K]⟩ v h) = act A v := by
  funext i
  exact congrArg (fun z => max (A i + z) 0) (Cert.LibLreluRows.rowCast_apply h v (colOf i))
theorem addRowRow_cast (A : Mat N K) (v : Row K) (h : (⟨1, ![K]⟩ : Shape).ShapeCasts ⟨2, ![1, K]⟩) :
    addRowRow A (shapeCast ⟨2, ![1, K]⟩ v h) = addRow A v := by
  funext i
  exact congrArg (fun z => A i + z) (Cert.LibLreluRows.rowCast_apply h v (colOf i))

theorem mm_apply (X : Mat N K) (W : Mat K C) (p : Fin N) (q : Fin C) :
    mm X W (ix2 p q) = ∑ k : Fin K, X (ix2 p k) * W (ix2 k q) := rfl
theorem act_apply (A : Mat N K) (b : Row K) (p : Fin N) (k : Fin K) :
    act A b (ix2 p k) = max (A (ix2 p k) + b (ix1 k)) 0 := rfl
theorem addRow_apply (A : Mat N K) (b : Row K) (p : Fin N) (k : Fin K) :
    addRow A b (ix2 p k) = A (ix2 p k) + b (ix1 k) := rfl
theorem actRow_apply (A : Mat N K) (b : Mat 1 K) (p : Fin N) (k : Fin K) :
    actRow A b (ix2 p k) = max (A (ix2 p k) + b (ix2 (0 : Fin 1) k)) 0 := rfl
theorem addRowRow_apply (A : Mat N K) (b : Mat 1 K) (p : Fin N) (k : Fin K) :
    addRowRow A b (ix2 p k) = A (ix2 p k) + b (ix2 (0 : Fin 1) k) := rfl

/-! ## The tiled body's stages at one entry -/

/-- The matrix unit's product of two narrowed operands into the zero accumulator is the plain sum. -/
theorem tileProduct_apply (M K C : Nat) (prec : Option ContractPrecision)
    (h0 h1 : FTy.bf16.bits < FTy.f32.bits)
    (x : FVec Ideal ⟨2, ![M, K]⟩ .f32) (w : FVec Ideal ⟨2, ![K, C]⟩ .f32) (p : Fin M) (q : Fin C) :
    matmul (DotDims.plain M K C) prec (truncf .bf16 x h0) (truncf .bf16 w h1)
        (constant ⟨2, ![M, C]⟩ .f32 0x00000000#32) (ix2 p q)
      = ∑ k : Fin K, x (ix2 p k) * w (ix2 k q) :=
  Cert.LibPlainContract.matmul_plain_apply M K C prec (truncf .bf16 x h0) (truncf .bf16 w h1) p q

/-- A block of rows plus a one-row bias broadcast down the rows, rectified against a splat zero, at one entry. -/
theorem tileAct_apply (M K : Nat)
    (hs0 : (⟨2, ![M, K]⟩ : Shape).ShapeCasts ⟨2, ![M, K]⟩) (hs1 : (⟨2, ![1, K]⟩ : Shape).ShapeCasts ⟨2, ![1, K]⟩)
    (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    maximumf (addf (shapeCast ⟨2, ![M, K]⟩ x hs0) (broadcastTo ⟨2, ![M, K]⟩ (shapeCast ⟨2, ![1, K]⟩ b hs1) hb))
        (broadcast ⟨2, ![M, K]⟩ (Scalar.ofBits (F := Ideal) .f32 0x00000000#32)) (ix2 p k)
      = max (x (ix2 p k) + b (ix2 (0 : Fin 1) k)) 0 := by
  show max (shapeCast ⟨2, ![M, K]⟩ x hs0 (ix2 p k) + broadcastTo ⟨2, ![M, K]⟩ (shapeCast ⟨2, ![1, K]⟩ b hs1) hb (ix2 p k))
      (Ideal.ofBits .f32 0x00000000#32) = _
  rw [shapeCast_self, Cert.LibLreluRows.rowDown_apply, Ideal.ofBits_zero_f32]

/-- A block of rows plus a one-row bias broadcast down the rows (no rectifier), at one entry. -/
theorem tileAddRow_apply (M K : Nat)
    (hs1 : (⟨2, ![1, K]⟩ : Shape).ShapeCasts ⟨2, ![1, K]⟩) (hb : (⟨2, ![1, K]⟩ : Shape).Broadcasts ⟨2, ![M, K]⟩)
    (x : FVec Ideal ⟨2, ![M, K]⟩ .f32) (b : FVec Ideal ⟨2, ![1, K]⟩ .f32) (p : Fin M) (k : Fin K) :
    addf x (broadcastTo ⟨2, ![M, K]⟩ (shapeCast ⟨2, ![1, K]⟩ b hs1) hb) (ix2 p k)
      = x (ix2 p k) + b (ix2 (0 : Fin 1) k) := by
  show x (ix2 p k) + broadcastTo ⟨2, ![M, K]⟩ (shapeCast ⟨2, ![1, K]⟩ b hs1) hb (ix2 p k) = _
  rw [Cert.LibLreluRows.rowDown_apply]

/-- The rectifier against a splat zero, at one entry. -/
theorem tileRelu_apply (M K : Nat) (x : FVec Ideal ⟨2, ![M, K]⟩ .f32) (i : (⟨2, ![M, K]⟩ : Shape).Idx) :
    maximumf x (broadcast ⟨2, ![M, K]⟩ (Scalar.ofBits (F := Ideal) .f32 0x00000000#32)) i = max (x i) 0 := by
  show max (x i) (Ideal.ofBits .f32 0x00000000#32) = _
  rw [Ideal.ofBits_zero_f32]

/-! ## The host program's stages at one entry -/

/-- The host's dot product of two matrices is the plain sum. -/
theorem hostProduct_apply (M K C : Nat) (prec : Option ContractPrecision)
    (x : FVec Ideal ⟨2, ![M, K]⟩ .f32) (w : FVec Ideal ⟨2, ![K, C]⟩ .f32) (p : Fin M) (q : Fin C) :
    Host.dotGeneral (DotDims.plain M K C) prec x w (ix2 p q) = ∑ k : Fin K, x (ix2 p k) * w (ix2 k q) := by
  simp only [Host.dotGeneral]
  exact Cert.LibPlainContract.dotGeneral_plain_apply M K C prec _ x w p q

/-- A bias vector broadcast to a one-row matrix and down the rows, added, at one entry. -/
theorem hostAddRow_apply (M K : Nat) (h1 : (⟨1, ![K]⟩ : Shape).BroadcastsInDim ⟨2, ![1, K]⟩ ![1])
    (h2 : (⟨2, ![1, K]⟩ : Shape).BroadcastsInDim ⟨2, ![M, K]⟩ ![0, 1])
    (x : FVec Ideal ⟨2, ![M, K]⟩ .f32) (b : FVec Ideal ⟨1, ![K]⟩ .f32) (p : Fin M) (k : Fin K) :
    addf x (broadcastInDim ⟨2, ![M, K]⟩ ![0, 1] h2 (broadcastInDim ⟨2, ![1, K]⟩ ![1] h1 b)) (ix2 p k)
      = x (ix2 p k) + b (ix1 k) := by
  show x (ix2 p k) + broadcastInDim ⟨2, ![M, K]⟩ ![0, 1] h2 (broadcastInDim ⟨2, ![1, K]⟩ ![1] h1 b) (ix2 p k) = _
  rw [Cert.LibLreluRows.biasRows_apply]

/-- The rectifier against a rank-0 zero broadcast over the array, at one entry. -/
theorem hostRelu_apply (M K : Nat) (h : (⟨0, ![]⟩ : Shape).BroadcastsInDim ⟨2, ![M, K]⟩ ![])
    (x : FVec Ideal ⟨2, ![M, K]⟩ .f32) (i : (⟨2, ![M, K]⟩ : Shape).Idx) :
    maximumf x (broadcastInDim ⟨2, ![M, K]⟩ ![] h (constant (F := Ideal) ⟨0, ![]⟩ .f32 0x00000000#32)) i = max (x i) 0 := by
  show max (x i) (Ideal.ofBits .f32 0x00000000#32) = _
  rw [Ideal.ofBits_zero_f32]

end Cert.Dense

end
-- ==== Proof.LibSageLayer.lean ====
/-
  One mean-aggregating graph convolution layer on the extended reals, in the two arrangements the two programs use,
  and the law that joins them.

  Write s for the neighbour sums (an N-by-K array), h for the nodes' own features, c for the clamped degree of each
  node. The reference divides each neighbour sum by the degree, projects it, adds the bias and then the node's own
  projection:  max(((Σ_k (s[n,k] / c[n]) · wl[k,q]) + b[q]) + Σ_k h[n,k] · wr[k,q], 0).
  The tiled body multiplies by the reciprocal column inv[n] = 1 / c[n], adds the two projections first and the bias
  last:        max(((Σ_k (s[n,k] · inv[n]) · wl[k,q]) + Σ_k h[n,k] · wr[k,q]) + b[q], 0).
  The division of the extended reals is x · y⁻¹ off y = 0, so s · (1 / c) = s / c for every extended real s as soon
  as c ≠ 0, and c = max(count, 1) is never 0. The three summands are regrouped by commutativity and associativity of
  the addition alone. No summand is asked to be finite.
-/
import Idealize.ShloMosaic.PureOps.Ideal.Laws
import Idealize.ShloMosaic.Lib.ValueIdx
import proofs.«170208_j90074054132246_2_alg».proof.Proof.LibDenseRows

noncomputable section

namespace Cert.Sage

open Idealize.ShloMosaic Idealize.ShloMosaic.ValueIdx Cert.Dense

variable {N K C : Nat}

/-- Multiplying by the reciprocal of a nonzero extended real is dividing by it, for every extended real numerator. -/
theorem mul_recip (s c : EReal) (hc : c ≠ 0) : s * Ideal.div 1 c = Ideal.div s c := by
  unfold Ideal.div
  rw [if_neg hc, if_neg hc, one_mul]

/-- A count clamped below by one is not zero, whatever the count. -/
theorem clamp_ne_zero (x : EReal) : max x 1 ≠ 0 := by
  have h : (0 : EReal) < max x 1 := lt_of_lt_of_le zero_lt_one (le_max_right x 1)
  exact ne_of_gt h

/-- One layer as the reference states it. -/
def layerRef (s h : Mat N K) (c : Row N) (wl wr : Mat K C) (b : Row C) : Mat N C := fun i =>
  max (((∑ k : Fin K, Ideal.div (s (ix2 (rowOf i) k)) (c (ix1 (rowOf i))) * wl (ix2 k (colOf i))) + b (ix1 (colOf i)))
        + ∑ k : Fin K, h (ix2 (rowOf i) k) * wr (ix2 k (colOf i))) 0

/-- One layer as the tiled body computes it, from the reciprocal column and the one-row bias. -/
def layerTile (s h : Mat N K) (inv : Mat N 1) (wl wr : Mat K C) (b : Mat 1 C) : Mat N C := fun i =>
  max (((∑ k : Fin K, (s (ix2 (rowOf i) k) * inv (ix2 (rowOf i) (0 : Fin 1))) * wl (ix2 k (colOf i)))
        + ∑ k : Fin K, h (ix2 (rowOf i) k) * wr (ix2 k (colOf i))) + b (ix2 (0 : Fin 1) (colOf i))) 0

theorem layerRef_apply (s h : Mat N K) (c : Row N) (wl wr : Mat K C) (b : Row C) (p : Fin N) (q : Fin C) :
    layerRef s h c wl wr b (ix2 p q)
      = max (((∑ k : Fin K, Ideal.div (s (ix2 p k)) (c (ix1 p)) * wl (ix2 k q)) + b (ix1 q))
          + ∑ k : Fin K, h (ix2 p k) * wr (ix2 k q)) 0 := rfl

theorem layerTile_apply (s h : Mat N K) (inv : Mat N 1) (wl wr : Mat K C) (b : Mat 1 C) (p : Fin N) (q : Fin C) :
    layerTile s h inv wl wr b (ix2 p q)
      = max (((∑ k : Fin K, (s (ix2 p k) * inv (ix2 p (0 : Fin 1))) * wl (ix2 k q))
          + ∑ k : Fin K, h (ix2 p k) * wr (ix2 k q)) + b (ix2 (0 : Fin 1) q)) 0 := rfl

/-- The two arrangements of a layer are one array, when the reciprocal column is 1 / c of a nowhere-zero c and the
    one-row bias is the bias vector. -/
theorem layerTile_eq_layerRef (s h : Mat N K) (c : Row N) (inv : Mat N 1) (wl wr : Mat K C) (b : Row C) (b1 : Mat 1 C)
    (hc : ∀ p : Fin N, c (ix1 p) ≠ 0) (hinv : ∀ p : Fin N, inv (ix2 p (0 : Fin 1)) = Ideal.div 1 (c (ix1 p)))
    (hb : ∀ q : Fin C, b1 (ix2 (0 : Fin 1) q) = b (ix1 q)) :
    layerTile s h inv wl wr b1 = layerRef s h c wl wr b := by
  funext i
  unfold layerTile layerRef
  rw [hinv, hb, add_right_comm]
  refine congrArg (fun z => max ((z + b (ix1 (colOf i))) + ∑ k : Fin K, h (ix2 (rowOf i) k) * wr (ix2 k (colOf i))) 0) ?_
  refine Finset.sum_congr rfl fun k _ => ?_
  rw [mul_recip _ _ (hc _)]

/-- The linear head on the rectified features: a projection to one column plus a bias. -/
def headRef (a : Mat N K) (wf : Mat K C) (b : Row C) : Mat N C := fun i =>
  (∑ k : Fin K, a (ix2 (rowOf i) k) * wf (ix2 k (colOf i))) + b (ix1 (colOf i))

theorem headRef_apply (a : Mat N K) (wf : Mat K C) (b : Row C) (p : Fin N) (q : Fin C) :
    headRef a wf b (ix2 p q) = (∑ k : Fin K, a (ix2 p k) * wf (ix2 k q)) + b (ix1 q) := rfl

/-- The head as the tiled body computes it, with a one-row bias. -/
def headTile (a : Mat N K) (wf : Mat K C) (b : Mat 1 C) : Mat N C := fun i =>
  (∑ k : Fin K, a (ix2 (rowOf i) k) * wf (ix2 k (colOf i))) + b (ix2 (0 : Fin 1) (colOf i))

theorem headTile_apply (a : Mat N K) (wf : Mat K C) (b : Mat 1 C) (p : Fin N) (q : Fin C) :
    headTile a wf b (ix2 p q) = (∑ k : Fin K, a (ix2 p k) * wf (ix2 k q)) + b (ix2 (0 : Fin 1) q) := rfl

/-- The two heads are one array when the one-row bias is the bias vector. -/
theorem headTile_eq_headRef (a : Mat N K) (wf : Mat K C) (b : Row C) (b1 : Mat 1 C)
    (hb : ∀ q : Fin C, b1 (ix2 (0 : Fin 1) q) = b (ix1 q)) : headTile a wf b1 = headRef a wf b := by
  funext i
  unfold headTile headRef
  rw [hb]

end Cert.Sage

end
-- ==== Proof.Spec.lean ====
/-
  A six-layer mean-aggregating graph network followed by a symmetric-normalised graph convolution, as whole arrays of
  extended reals, in the two arrangements the two programs compute.

  Edges are given by three functions: src e, the row a gather at edge e's source index reads; hit e n, "edge e's
  destination index names node n" (what a scatter-add tests); dcl e, the row a gather at edge e's destination index
  reads. deg n counts the edges that hit n; cnt n = max(deg n, 1).

  One layer, reference arrangement (layerR): max((Σ_k (agg h)[n,k] / cnt n · Wl[q,k] + bl[q]) + Σ_k h[n,k] · Wr[q,k], 0).
  Tiled arrangement (layerK): the same with the quotient replaced by a product with 1 / cnt n and the bias added last.
  Projected-first arrangement (layerP): the neighbour sums are taken of the rows already projected by Wl.
  The closing convolution, reference arrangement (gcnR): the self loops are N more edges (i → i) appended to the
  list, the inverse root degree counts them, and every edge carries dinv[src] · dinv[dst].
  Kernel arrangement (gcnK): the self loop's term is added densely and dinv[n] is taken out of the sum over the edges.
-/
import Idealize.ShloMosaic.PureOps.Ideal.Laws
import Idealize.ShloMosaic.Lib.ValueIdx
import proofs.«170208_j90074054132246_2_alg».proof.Proof.LibDenseRows
import proofs.«170208_j90074054132246_2_alg».proof.Proof.LibSageLayer

noncomputable section

namespace Cert.Net

open Idealize.ShloMosaic Idealize.ShloMosaic.ValueIdx Cert.Dense

variable {N E K C : Nat}

/-- The node a rank-1 index names. -/
abbrev nodeOf (i : (⟨1, ![N]⟩ : Shape).Idx) : Fin N := ⟨(i 0).val, (i 0).isLt⟩

section Edges

variable (src : Fin E → Fin N) (hit : Fin E → Fin N → Prop) [∀ e n, Decidable (hit e n)] (dcl : Fin E → Fin N)

/-- Neighbour sums: zero plus, over the edges that arrive at the entry's node, the source row's entry. -/
def agg (T : Mat N C) : Mat N C := fun i =>
  (0 : EReal) + ∑ e : Fin E, if hit e (rowOf i) then T (ix2 (src e) (colOf i)) else 0

/-- The number of edges arriving at a node. -/
def degN (n : Fin N) : EReal := (0 : EReal) + ∑ e : Fin E, if hit e n then (1 : EReal) else 0
/-- The count clamped below by one. -/
def cntN (n : Fin N) : EReal := max (degN hit n) 1
def cnt : Row N := fun i => cntN hit (nodeOf i)
/-- The reciprocal of the clamped count, as a column. -/
def recipCol : Mat N 1 := fun i => Ideal.div 1 (cntN hit (rowOf i))

/-- A weight matrix used transposed. -/
def tr (W : Mat C K) : Mat K C := fun i => W (ix2 (colOf i) (rowOf i))
/-- A vector as a one-row matrix. -/
def rowMat (b : Row C) : Mat 1 C := fun i => b (ix1 (colOf i))

theorem tr_apply (W : Mat C K) (k : Fin K) (q : Fin C) : tr W (ix2 k q) = W (ix2 q k) := rfl
theorem rowMat_apply (b : Row C) (q : Fin C) : rowMat b (ix2 (0 : Fin 1) q) = b (ix1 q) := rfl
theorem recipCol_apply (p : Fin N) : recipCol hit (ix2 p (0 : Fin 1)) = Ideal.div 1 (cntN hit p) := rfl
theorem cnt_apply (p : Fin N) : cnt hit (ix1 p) = cntN hit p := rfl
theorem agg_apply (T : Mat N C) (p : Fin N) (q : Fin C) :
    agg src hit T (ix2 p q) = (0 : EReal) + ∑ e : Fin E, if hit e p then T (ix2 (src e) q) else 0 := rfl

/-- One layer as the reference arranges it. -/
def layerR (h : Mat N K) (Wl Wr : Mat C K) (bl : Row C) : Mat N C :=
  Cert.Sage.layerRef (agg src hit h) h (cnt hit) (tr Wl) (tr Wr) bl
/-- One layer as a fused tile computes it. -/
def layerK (h : Mat N K) (Wl Wr : Mat C K) (bl : Row C) : Mat N C :=
  Cert.Sage.layerTile (agg src hit h) h (recipCol hit) (tr Wl) (tr Wr) (rowMat bl)

/-- The tile of a layer whose neighbour sums arrive already projected. -/
def preTile (aggw : Mat N C) (h : Mat N K) (inv : Mat N 1) (wr : Mat K C) (b : Mat 1 C) : Mat N C := fun i =>
  max (((aggw i * inv (ix2 (rowOf i) (0 : Fin 1))) + ∑ k : Fin K, h (ix2 (rowOf i) k) * wr (ix2 k (colOf i)))
        + b (ix2 (0 : Fin 1) (colOf i))) 0
theorem preTile_apply (aggw : Mat N C) (h : Mat N K) (inv : Mat N 1) (wr : Mat K C) (b : Mat 1 C) (p : Fin N) (q : Fin C) :
    preTile aggw h inv wr b (ix2 p q)
      = max (((aggw (ix2 p q) * inv (ix2 p (0 : Fin 1))) + ∑ k : Fin K, h (ix2 p k) * wr (ix2 k q)) + b (ix2 (0 : Fin 1) q)) 0 := rfl
/-- One layer with the projection by Wl taken before the neighbour sums. -/
def layerP (h : Mat N K) (Wl Wr : Mat C K) (bl : Row C) : Mat N C :=
  preTile (agg src hit (mm h (tr Wl))) h (recipCol hit) (tr Wr) (rowMat bl)

/-! ## The closing convolution -/

/-- Inverse root degree, the self loop added as one. -/
def dinvK (n : Fin N) : EReal := Ideal.rsqrt (degN hit n + 1)

/-- The kernel's arrangement. -/
def gcnK (hg : Mat N C) (bg : Row C) : Mat N C := fun i =>
  ((dinvK hit (rowOf i) * ((0 : EReal) + ∑ e : Fin E,
        if hit e (rowOf i) then hg (ix2 (src e) (colOf i)) * dinvK hit (src e) else 0))
      + hg i * (dinvK hit (rowOf i) * dinvK hit (rowOf i))) + bg (ix1 (colOf i))

/-- The edge list with the N self loops appended: source row, destination row, destination test. -/
def srcL (t : Fin (E + N)) : Fin N := if h : t.val < E then src ⟨t.val, h⟩ else ⟨t.val - E, by omega⟩
def dstL (t : Fin (E + N)) : Fin N := if h : t.val < E then dcl ⟨t.val, h⟩ else ⟨t.val - E, by omega⟩
def hitL (t : Fin (E + N)) (n : Fin N) : Prop := if h : t.val < E then hit ⟨t.val, h⟩ n else t.val - E = n.val
instance (t : Fin (E + N)) (n : Fin N) : Decidable (hitL hit t n) := by unfold hitL; exact inferInstance

/-- Inverse root degree, the self loops counted among the edges. -/
def dinvR (n : Fin N) : EReal := Ideal.rsqrt ((0 : EReal) + ∑ t : Fin (E + N), if hitL hit t n then (1 : EReal) else 0)

/-- The reference's arrangement. -/
def gcnR (hg : Mat N C) (bg : Row C) : Mat N C := fun i =>
  ((0 : EReal) + ∑ t : Fin (E + N), if hitL hit t (rowOf i) then
      hg (ix2 (srcL src t) (colOf i)) * (dinvR hit (srcL src t) * dinvR hit (dstL dcl t)) else 0) + bg (ix1 (colOf i))

/-! ## The two networks -/

/-- The reference: six layers in the reference arrangement, a projection to 16 columns, the closing convolution. -/
def netR (x : Mat N 7) (Wl1 Wr1 : Mat 32 7) (bl1 : Row 32) (Wl2 Wr2 : Mat 64 32) (bl2 : Row 64)
    (Wl3 Wr3 : Mat 128 64) (bl3 : Row 128) (Wl4 Wr4 : Mat 64 128) (bl4 : Row 64) (Wl5 Wr5 : Mat 32 64) (bl5 : Row 32)
    (Wl6 Wr6 : Mat 32 32) (bl6 : Row 32) (Wg : Mat 16 32) (bg : Row 16) : Mat N 16 :=
  gcnR src hit dcl (mm (layerR src hit (layerR src hit (layerR src hit (layerR src hit (layerR src hit (layerR src hit x
    Wl1 Wr1 bl1) Wl2 Wr2 bl2) Wl3 Wr3 bl3) Wl4 Wr4 bl4) Wl5 Wr5 bl5) Wl6 Wr6 bl6) (tr Wg)) bg

/-- The kernel: layers 1, 2, 3 and 6 fused, layers 4 and 5 projected first, the closing convolution folded. -/
def netK (x : Mat N 7) (Wl1 Wr1 : Mat 32 7) (bl1 : Row 32) (Wl2 Wr2 : Mat 64 32) (bl2 : Row 64)
    (Wl3 Wr3 : Mat 128 64) (bl3 : Row 128) (Wl4 Wr4 : Mat 64 128) (bl4 : Row 64) (Wl5 Wr5 : Mat 32 64) (bl5 : Row 32)
    (Wl6 Wr6 : Mat 32 32) (bl6 : Row 32) (Wg : Mat 16 32) (bg : Row 16) : Mat N 16 :=
  gcnK src hit (mm (layerK src hit (layerP src hit (layerP src hit (layerK src hit (layerK src hit (layerK src hit x
    Wl1 Wr1 bl1) Wl2 Wr2 bl2) Wl3 Wr3 bl3) Wl4 Wr4 bl4) Wl5 Wr5 bl5) Wl6 Wr6 bl6) (tr Wg)) bg

end Edges

/-! ## The edge functions of an index array [2, E] over N = 100000 nodes -/

/-- numpy's negative indices: a start index below zero counts from the end. -/
def wrapIdx (v : BitVec 32) : BitVec 32 := Scalar.select (IntOp.cmpi .slt v 0#32) (IntOp.addi v 100000#32) v
/-- A gather's start index read signed and clamped into the table. -/
def clampN (v : BitVec 32) : Fin 100000 := ⟨min v.toInt.toNat 99999, by omega⟩

def srcOf (ei : IVec ⟨2, ![2, E]⟩ 32) (e : Fin E) : Fin 100000 := clampN (wrapIdx (ei (ix2 (0 : Fin 2) e)))
def dclOf (ei : IVec ⟨2, ![2, E]⟩ 32) (e : Fin E) : Fin 100000 := clampN (wrapIdx (ei (ix2 (1 : Fin 2) e)))
def hitOf (ei : IVec ⟨2, ![2, E]⟩ 32) (e : Fin E) (n : Fin 100000) : Prop := (ei (ix2 (1 : Fin 2) e)).toInt = (n.val : Int)
instance (ei : IVec ⟨2, ![2, E]⟩ 32) (e : Fin E) (n : Fin 100000) : Decidable (hitOf ei e n) := by unfold hitOf; exact inferInstance

end Cert.Net

end
-- ==== Proof.LibGatherRows.lean ====
/-
  A gather of whole rows, and of single entries, at a column of start indices.

  Indexing a table x of N rows and C columns at an integer vector idx of length P (x[idx]) lowers to a gather whose
  start indices form a P-by-1 column: result entry (p, c) is x at (r, c), where the row r is the start index idx[p, 0]
  read as a signed integer and clamped into [0, N - 1]. Indexing a vector v of length N the same way gives, at p, the
  entry v[r] at the same clamped row r. Both reads are stated through one name for the clamped row, so that two
  gathers at one index column are seen to read the same row.
-/
import Idealize.ShloMosaic.Lib.ValueIdx

namespace Cert.LibGatherRows

open Idealize.ShloMosaic Idealize.ShloMosaic.ValueIdx

variable {α : Type}

/-- The row a start index names: the integer idx[p, 0] read signed and clamped into [0, N - 1]. -/
def clampRow {N P w : Nat} (hN : 0 < N) (idx : IVec ⟨2, ![P, 1]⟩ w) (p : Fin P) : Fin N :=
  ⟨min (idx (ix2 p (0 : Fin 1))).toInt.toNat (N - 1), by omega⟩

/-- The dimension numbers of x[idx] for a table x : [N, C] and a column of start indices [P, 1]: the row axis is
    collapsed and indexed, the column axis is carried whole. -/
abbrev rowsDims (N C P : Nat)
    (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- The dimension numbers of v[idx] for a vector v : [N] and a column of start indices [P, 1]. -/
abbrev entriesDims (N P : Nat)
    (wf : GatherDims.WF ⟨1, ![N]⟩ ⟨2, ![P, 1]⟩ ⟨1, ![P]⟩ [] [0] [] [0] [] 1 ![1]) :
    GatherDims ⟨1, ![N]⟩ ⟨2, ![P, 1]⟩ ⟨1, ![P]⟩ where
  offsetDims := []
  collapsedSliceDims := [0]
  operandBatchingDims := []
  startIndicesBatchingDims := []
  startIndexMap := [0]
  indexVectorDim := 1
  sliceSizes := ![1]
  wf := wf

/-- The gather of rows read at (p, c): the table at (the clamped row of idx[p, 0], c). -/
theorem gather_rows_apply {N C P w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ w) (p : Fin P) (c : Fin C) :
    Host.gather (rowsDims N C P wf) x idx (ix2 p c) = x (ix2 (clampRow hN idx p) c) := by
  unfold Host.gather
  congr 1
  funext a
  refine Fin.ext ?_
  match a with
  | ⟨0, _⟩ =>
    show (rowsDims N C P wf).start (ix2 p c) idx 0 + (rowsDims N C P wf).batchCoord (ix2 p c) 0
      + (rowsDims N C P wf).offCoord (ix2 p c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C P wf).startIndexMap from List.mem_singleton.mpr rfl)]
    have hsi : (rowsDims N C P wf).siIdx (ix2 p c) ⟨List.idxOf (0 : Fin 2) (rowsDims N C P wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    show (rowsDims N C P wf).start (ix2 p c) idx 1 + (rowsDims N C P wf).batchCoord (ix2 p c) 1
      + (rowsDims N C P wf).offCoord (ix2 p c) 1 = c.val
    rw [GatherDims.batchCoord_eq_zero _ _ _ List.not_mem_nil]
    have hs : (rowsDims N C P wf).start (ix2 p c) idx 1 = 0 := by
      unfold GatherDims.start
      rw [dif_neg (show (1 : Fin 2) ∉ ([0] : List (Fin 2)) by decide)]
    rw [hs]
    have hk : (1 : Fin 2) ∈ (rowsDims N C P wf).sKept :=
      (GatherDims.mem_sKept _ _).mpr ⟨(show (1 : Fin 2) ∉ ([0] : List (Fin 2)) by decide), List.not_mem_nil⟩
    unfold GatherDims.offCoord
    rw [dif_pos hk, Nat.zero_add]
    have hz : ∀ z : Fin (⟨2, ![P, C]⟩ : Shape).rank, z = 1 → (ix2 p c z).val = c.val := by
      intro z hz; subst hz; rfl
    exact hz _ (List.mem_singleton.mp (List.getElem_mem _))

/-- The gather of entries read at p: the vector at the clamped row of idx[p, 0]. -/
theorem gather_entries_apply {N P w : Nat} (hN : 0 < N)
    (wf : GatherDims.WF ⟨1, ![N]⟩ ⟨2, ![P, 1]⟩ ⟨1, ![P]⟩ [] [0] [] [0] [] 1 ![1])
    (v : (⟨1, ![N]⟩ : Shape).Idx → α) (idx : IVec ⟨2, ![P, 1]⟩ w) (p : Fin P) :
    Host.gather (entriesDims N P wf) v idx (ix1 p) = v (ix1 (clampRow hN idx p)) := by
  unfold Host.gather
  congr 1
  funext a
  obtain rfl : a = 0 := Subsingleton.elim _ _
  refine Fin.ext ?_
  show (entriesDims N P wf).start (ix1 p) idx 0 + (entriesDims N P wf).batchCoord (ix1 p) 0
    + (entriesDims N P wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entriesDims N P wf).startIndexMap from List.mem_singleton.mpr rfl)]
  have hsi : (entriesDims N P wf).siIdx (ix1 p) ⟨List.idxOf (0 : Fin 1) (entriesDims N P wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

end Cert.LibGatherRows
-- ==== Proof.LibScatterRows2.lean ====
/-
  A scatter-add of whole rows of a matrix along the leading axis, read at an element.

  The operand is an [M, C] array, the updates are T rows [T, C], and the start indices are a column [T, 1] of
  integers: row t of the updates is added into row idx[t, 0] of the operand (update window axis [1], inserted window
  axis [0], the one index component naming operand axis 0, index vector axis 1). The start index is read SIGNED and is
  not clamped: a row whose start index is negative or at least M is dropped. Read at element (m, c) the result is the
  operand's element plus the sum, over the rows t whose start index is m, of the update's element (t, c).
-/
import Idealize.ShloMosaic.PureOps.Ideal
import Idealize.ShloMosaic.Lib.ValueIdx

noncomputable section

namespace Cert.Lib.ScatterRows2

open Idealize.ShloMosaic Idealize.ShloMosaic.ValueIdx

/-- The dimension numbers of a scatter of whole rows `[T, C]` into `[M, C]` along axis 0 at a column `[T, 1]` of
    start indices; their conditions `wf` are decided on a program's literal shapes. -/
abbrev rowsDims (M T C : Nat)
    (wf : ScatterDims.WF ⟨2, ![M, C]⟩ ⟨2, ![T, 1]⟩ ⟨2, ![T, C]⟩ [1] [0] [0] 1) :
    ScatterDims ⟨2, ![M, C]⟩ ⟨2, ![T, 1]⟩ ⟨2, ![T, C]⟩ where
  updateWindowDims := [1]
  insertedWindowDims := [0]
  scatterDimsToOperandDims := [0]
  indexVectorDim := 1
  wf := wf

variable {M T C : Nat} (wf : ScatterDims.WF ⟨2, ![M, C]⟩ ⟨2, ![T, 1]⟩ ⟨2, ![T, C]⟩ [1] [0] [0] 1) {w : Nat}

/-- On the scattered axis the window of update row `t` starts at the start index `idx[t, 0]`, read signed. -/
theorem start_zero (t : Fin T) (c : Fin C) (idx : IVec ⟨2, ![T, 1]⟩ w) :
    (rowsDims M T C wf).start (ix2 t c) idx 0 = (idx (ix2 t 0)).toInt := by
  unfold ScatterDims.start
  rw [dif_pos (show (0 : Fin 2) ∈ (rowsDims M T C wf).scatterDimsToOperandDims from List.mem_singleton.mpr rfl)]
  have hsi : (rowsDims M T C wf).siIdx (ix2 t c) ⟨List.idxOf (0 : Fin 2) (rowsDims M T C wf).scatterDimsToOperandDims,
      List.idxOf_lt_length_iff.2 (List.mem_singleton.mpr rfl)⟩ = ix2 t 0 := by
    funext a; refine Fin.ext ?_
    match a with
    | ⟨0, _⟩ => rfl
    | ⟨1, _⟩ => rfl
  rw [hsi]

/-- On the window axis the window starts at `0`. -/
theorem start_one (t : Fin T) (c : Fin C) (idx : IVec ⟨2, ![T, 1]⟩ w) :
    (rowsDims M T C wf).start (ix2 t c) idx 1 = 0 := by
  unfold ScatterDims.start
  rw [dif_neg (show ¬ (1 : Fin 2) ∈ ([0] : List (Fin 2)) from by decide)]

/-- The scattered axis is an inserted one: the window coordinate there is `0`. -/
theorem window_zero (t : Fin T) (c : Fin C) :
    (rowsDims M T C wf).window (ix2 t c) 0 = 0 := by
  unfold ScatterDims.window
  have h : ¬ (0 : Fin 2) ∈ (rowsDims M T C wf).sKept := (show ¬ (0 : Fin 2) ∈ ([1] : List (Fin 2)) from by decide)
  rw [dif_neg h]

/-- The window coordinate on operand axis 1 is the update's coordinate on its axis 1. -/
theorem window_one (t : Fin T) (c : Fin C) :
    (rowsDims M T C wf).window (ix2 t c) 1 = c.val := by
  unfold ScatterDims.window
  have h : (1 : Fin 2) ∈ (rowsDims M T C wf).sKept := (show (1 : Fin 2) ∈ ([1] : List (Fin 2)) from by decide)
  rw [dif_pos h]
  rfl

/-- Where an update row lands: update element `(t, c')` lands on operand element `(m, c)` exactly when the
    start index of row `t`, read signed, is `m`, and the window coordinates agree. -/
theorem resultIdx?_eq_some_iff (t : Fin T) (c' c : Fin C) (m : Fin M) (idx : IVec ⟨2, ![T, 1]⟩ w) :
    (rowsDims M T C wf).resultIdx? (ix2 t c') idx = some (ix2 m c) ↔
      (idx (ix2 t 0)).toInt = (m.val : Int) ∧ c' = c := by
  unfold ScatterDims.resultIdx?
  constructor
  · intro h
    split at h
    · rename_i hh
      have e := Option.some.inj h
      have e0 : ((rowsDims M T C wf).start (ix2 t c') idx 0 + (rowsDims M T C wf).window (ix2 t c') 0).toNat = m.val :=
        congrArg (fun i : (⟨2, ![M, C]⟩ : Shape).Idx => (i 0).val) e
      have e1 : ((rowsDims M T C wf).start (ix2 t c') idx 1 + (rowsDims M T C wf).window (ix2 t c') 1).toNat = c.val :=
        congrArg (fun i : (⟨2, ![M, C]⟩ : Shape).Idx => (i 1).val) e
      have h0 := (hh 0).1
      rw [start_zero, window_zero] at e0 h0
      rw [start_one, window_one] at e1
      refine ⟨?_, Fin.ext ?_⟩
      · omega
      · omega
    · cases h
  · rintro ⟨h0, rfl⟩
    have hh : ∀ a, 0 ≤ (rowsDims M T C wf).start (ix2 t c') idx a + (rowsDims M T C wf).window (ix2 t c') a ∧
        (rowsDims M T C wf).start (ix2 t c') idx a + (rowsDims M T C wf).window (ix2 t c') a <
          ((⟨2, ![M, C]⟩ : Shape).size a : Int) := by
      intro a
      match a with
      | ⟨0, _⟩ =>
        have := m.isLt
        show 0 ≤ (rowsDims M T C wf).start (ix2 t c') idx 0 + (rowsDims M T C wf).window (ix2 t c') 0 ∧
          (rowsDims M T C wf).start (ix2 t c') idx 0 + (rowsDims M T C wf).window (ix2 t c') 0 < (M : Int)
        rw [start_zero, window_zero, h0]; omega
      | ⟨1, _⟩ =>
        have := c'.isLt
        show 0 ≤ (rowsDims M T C wf).start (ix2 t c') idx 1 + (rowsDims M T C wf).window (ix2 t c') 1 ∧
          (rowsDims M T C wf).start (ix2 t c') idx 1 + (rowsDims M T C wf).window (ix2 t c') 1 < (C : Int)
        rw [start_one, window_one]; omega
    rw [dif_pos hh]
    refine congrArg some (funext fun a => Fin.ext ?_)
    match a with
    | ⟨0, _⟩ =>
      show ((rowsDims M T C wf).start (ix2 t c') idx 0 + (rowsDims M T C wf).window (ix2 t c') 0).toNat = m.val
      rw [start_zero, window_zero, h0]; omega
    | ⟨1, _⟩ =>
      show ((rowsDims M T C wf).start (ix2 t c') idx 1 + (rowsDims M T C wf).window (ix2 t c') 1).toNat = c'.val
      rw [start_one, window_one]; omega

/-- A scatter-add of whole rows read at an element: the operand's element plus the sum, over the rows whose start index
    (read signed) is `m`, of the row's element in the same column. -/
theorem scatterAdd_rows_apply {φ : FTy} (x : FVec Ideal ⟨2, ![M, C]⟩ φ) (idx : IVec ⟨2, ![T, 1]⟩ w)
    (upd : FVec Ideal ⟨2, ![T, C]⟩ φ) (m : Fin M) (c : Fin C) :
    Host.scatterAdd (F := Ideal) (rowsDims M T C wf) x idx upd (ix2 m c) =
      x (ix2 m c) + ∑ t : Fin T, if (idx (ix2 t 0)).toInt = (m.val : Int) then upd (ix2 t c) else 0 := by
  show Ideal.hostScatterAdd (rowsDims M T C wf) x idx upd (ix2 m c) = _
  unfold Ideal.hostScatterAdd
  refine congrArg (x (ix2 m c) + ·) ?_
  rw [← Finset.sum_filter]
  have key : ∀ j : (⟨2, ![T, C]⟩ : Shape).Idx,
      (rowsDims M T C wf).resultIdx? j idx = some (ix2 m c) ↔
        (idx (ix2 (j 0) 0)).toInt = (m.val : Int) ∧ j 1 = c := by
    intro j
    have e : (rowsDims M T C wf).resultIdx? j idx = (rowsDims M T C wf).resultIdx? (ix2 (j 0) (j 1)) idx :=
      congrArg (fun q => (rowsDims M T C wf).resultIdx? q idx) (eq_ix2 j)
    rw [e]
    exact resultIdx?_eq_some_iff wf (j 0) (j 1) c m idx
  refine Finset.sum_bij' (fun j _ => j 0) (fun t _ => ix2 t c) ?_ ?_ ?_ ?_ ?_
  · intro j hj
    rw [Finset.mem_filter] at hj
    exact Finset.mem_filter.2 ⟨Finset.mem_univ _, ((key j).1 hj.2).1⟩
  · intro t ht
    rw [Finset.mem_filter] at ht
    exact Finset.mem_filter.2 ⟨Finset.mem_univ _, (key (ix2 t c)).2 ⟨ht.2, rfl⟩⟩
  · intro j hj
    rw [Finset.mem_filter] at hj
    obtain ⟨-, hc⟩ := (key j).1 hj.2
    show ix2 (j 0) c = j
    rw [← hc]
    exact (eq_ix2 j).symm
  · intro t _
    rfl
  · intro j hj
    rw [Finset.mem_filter] at hj
    obtain ⟨-, hc⟩ := (key j).1 hj.2
    show upd j = upd (ix2 (j 0) c)
    rw [← hc]
    exact congrArg upd (eq_ix2 j)

end Cert.Lib.ScatterRows2

end
-- ==== Proof.LibScatterVec.lean ====
/-
  A scatter-add of single elements into a vector, read at an element.

  The operand is a vector [M], the updates are a vector [T], and the start indices are a column [T, 1] of integers:
  element t of the updates is added into element idx[t, 0] of the operand (no update window axis, inserted window
  axis [0], the one index component naming operand axis 0, index vector axis 1). The start index is read SIGNED and is
  not clamped: an update whose start index is negative or at least M is dropped. Read at element m the result is the
  operand's element plus the sum, over the positions t whose start index is m, of the update's element t. The sum is
  the exact one of the extended reals, an additive commutative monoid: nothing is asked of finiteness or cancellation.
-/
import Idealize.ShloMosaic.PureOps.Ideal
import Idealize.ShloMosaic.Lib.ValueIdx

noncomputable section

namespace Cert.Lib.ScatterVec

open Idealize.ShloMosaic Idealize.ShloMosaic.ValueIdx

/-- The dimension numbers of a scatter of single elements `[T]` into a vector `[M]` at a column `[T, 1]` of
    start indices; their conditions `wf` are decided on a program's literal shapes. -/
abbrev vecDims (M T : Nat)
    (wf : ScatterDims.WF ⟨1, ![M]⟩ ⟨2, ![T, 1]⟩ ⟨1, ![T]⟩ [] [0] [0] 1) :
    ScatterDims ⟨1, ![M]⟩ ⟨2, ![T, 1]⟩ ⟨1, ![T]⟩ where
  updateWindowDims := []
  insertedWindowDims := [0]
  scatterDimsToOperandDims := [0]
  indexVectorDim := 1
  wf := wf

variable {M T : Nat} (wf : ScatterDims.WF ⟨1, ![M]⟩ ⟨2, ![T, 1]⟩ ⟨1, ![T]⟩ [] [0] [0] 1) {w : Nat}

/-- On the operand's one axis the window of update element `t` starts at the start index `idx[t, 0]`, read signed. -/
theorem start_zero (t : Fin T) (idx : IVec ⟨2, ![T, 1]⟩ w) :
    (vecDims M T wf).start (ix1 t) idx 0 = (idx (ix2 t 0)).toInt := by
  unfold ScatterDims.start
  rw [dif_pos (show (0 : Fin 1) ∈ (vecDims M T wf).scatterDimsToOperandDims from List.mem_singleton.mpr rfl)]
  have hsi : (vecDims M T wf).siIdx (ix1 t) ⟨List.idxOf (0 : Fin 1) (vecDims M T wf).scatterDimsToOperandDims,
      List.idxOf_lt_length_iff.2 (List.mem_singleton.mpr rfl)⟩ = ix2 t 0 := by
    funext a; refine Fin.ext ?_
    match a with
    | ⟨0, _⟩ => rfl
    | ⟨1, _⟩ => rfl
  rw [hsi]

/-- The operand's one axis is an inserted one: the window coordinate there is `0`. -/
theorem window_zero (t : Fin T) :
    (vecDims M T wf).window (ix1 t) 0 = 0 := by
  unfold ScatterDims.window
  have h : ¬ (0 : Fin 1) ∈ (vecDims M T wf).sKept := (show ¬ (0 : Fin 1) ∈ ([] : List (Fin 1)) from by decide)
  rw [dif_neg h]

/-- Where an update element lands: update element `t` lands on operand element `m` exactly when the start index
    of `t`, read signed, is `m`. -/
theorem resultIdx?_eq_some_iff (t : Fin T) (m : Fin M) (idx : IVec ⟨2, ![T, 1]⟩ w) :
    (vecDims M T wf).resultIdx? (ix1 t) idx = some (ix1 m) ↔ (idx (ix2 t 0)).toInt = (m.val : Int) := by
  unfold ScatterDims.resultIdx?
  constructor
  · intro h
    split at h
    · rename_i hh
      have e := Option.some.inj h
      have e0 : ((vecDims M T wf).start (ix1 t) idx 0 + (vecDims M T wf).window (ix1 t) 0).toNat = m.val :=
        congrArg (fun i : (⟨1, ![M]⟩ : Shape).Idx => (i 0).val) e
      have h0 := (hh 0).1
      rw [start_zero, window_zero] at e0 h0
      omega
    · cases h
  · intro h0
    have hh : ∀ a, 0 ≤ (vecDims M T wf).start (ix1 t) idx a + (vecDims M T wf).window (ix1 t) a ∧
        (vecDims M T wf).start (ix1 t) idx a + (vecDims M T wf).window (ix1 t) a <
          ((⟨1, ![M]⟩ : Shape).size a : Int) := by
      intro a
      match a with
      | ⟨0, _⟩ =>
        have := m.isLt
        show 0 ≤ (vecDims M T wf).start (ix1 t) idx 0 + (vecDims M T wf).window (ix1 t) 0 ∧
          (vecDims M T wf).start (ix1 t) idx 0 + (vecDims M T wf).window (ix1 t) 0 < (M : Int)
        rw [start_zero, window_zero, h0]; omega
    rw [dif_pos hh]
    refine congrArg some (funext fun a => Fin.ext ?_)
    match a with
    | ⟨0, _⟩ =>
      show ((vecDims M T wf).start (ix1 t) idx 0 + (vecDims M T wf).window (ix1 t) 0).toNat = m.val
      rw [start_zero, window_zero, h0]; omega

/-- A scatter-add of single elements into a vector read at an element: the operand's element plus the sum, over the
    update positions whose start index (read signed) is `m`, of the update's element. -/
theorem scatterAdd_vec_apply {φ : FTy} (x : FVec Ideal ⟨1, ![M]⟩ φ) (idx : IVec ⟨2, ![T, 1]⟩ w)
    (upd : FVec Ideal ⟨1, ![T]⟩ φ) (m : Fin M) :
    Host.scatterAdd (F := Ideal) (vecDims M T wf) x idx upd (ix1 m) =
      x (ix1 m) + ∑ t : Fin T, if (idx (ix2 t 0)).toInt = (m.val : Int) then upd (ix1 t) else 0 := by
  show Ideal.hostScatterAdd (vecDims M T wf) x idx upd (ix1 m) = _
  unfold Ideal.hostScatterAdd
  refine congrArg (x (ix1 m) + ·) ?_
  rw [← Finset.sum_filter]
  have key : ∀ j : (⟨1, ![T]⟩ : Shape).Idx,
      (vecDims M T wf).resultIdx? j idx = some (ix1 m) ↔ (idx (ix2 (j 0) 0)).toInt = (m.val : Int) := by
    intro j
    have e : (vecDims M T wf).resultIdx? j idx = (vecDims M T wf).resultIdx? (ix1 (j 0)) idx :=
      congrArg (fun q => (vecDims M T wf).resultIdx? q idx) (eq_ix1 j)
    rw [e]
    exact resultIdx?_eq_some_iff wf (j 0) m idx
  refine Finset.sum_bij' (fun j _ => j 0) (fun t _ => ix1 t) ?_ ?_ ?_ ?_ ?_
  · intro j hj
    rw [Finset.mem_filter] at hj
    exact Finset.mem_filter.2 ⟨Finset.mem_univ _, (key j).1 hj.2⟩
  · intro t ht
    rw [Finset.mem_filter] at ht
    exact Finset.mem_filter.2 ⟨Finset.mem_univ _, (key (ix1 t)).2 ht.2⟩
  · intro j _
    exact (eq_ix1 j).symm
  · intro t _
    rfl
  · intro j _
    exact congrArg upd (eq_ix1 j)

end Cert.Lib.ScatterVec

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LibGraphAgg.lean ====
/-
  The host operations of a graph convolution (message passing along edges), read at an entry, on the extended reals.
  Built on the row scatter-add, row gather, keep-dims and bias-row readings of the lemma files it imports.

  Rows of a table are gathered at the source node of each edge, scaled by the edge's normalisation weight and
  scatter-added into the row of the edge's destination node: entry (n, c) of the result is zero plus the sum over the
  edges whose destination is n of weight(e) · table(source(e), c). The self-loop term scales row n by the square of
  the node's inverse root degree, kept as a column; a bias vector is laid along every row; two matrices laid side by
  side are read in the left or the right one.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«170208_j90074054132246_2_alg».proof.Proof.LibScatterRows2
import proofs.«170208_j90074054132246_2_alg».proof.Proof.LibGatherRows
import proofs.«170208_j90074054132246_2_alg».proof.Proof.LibKeepdims
import proofs.«170208_j90074054132246_2_alg».proof.Proof.LibLreluRows
import proofs.«170208_j90074054132246_2_alg».proof.Proof.LibPlainContract

noncomputable section

namespace Cert.LibGraphAgg

open Idealize.ShloMosaic Idealize.ShloMosaic.ValueIdx

variable {N E C : ℕ}

/-- Rows gathered at each edge's source, scaled by the edge's weight and scatter-added at the edge's destination,
    read at entry (n, c). -/
theorem agg_apply (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (hz : (⟨0, ![]⟩ : Shape).BroadcastsInDim ⟨2, ![N, C]⟩ ![])
    (h1 : (⟨1, ![E]⟩ : Shape).BroadcastsInDim ⟨2, ![E, 1]⟩ (![0] : Fin 1 → Fin (⟨2, ![E, 1]⟩ : Shape).rank))
    (h2 : (⟨2, ![E, 1]⟩ : Shape).BroadcastsInDim ⟨2, ![E, C]⟩ (![0, 1] : Fin 2 → Fin (⟨2, ![E, C]⟩ : Shape).rank))
    (T : FVec Ideal ⟨2, ![N, C]⟩ .f32) (nrm : FVec Ideal ⟨1, ![E]⟩ .f32) (src dst : IVec ⟨2, ![E, 1]⟩ 32)
    (n : Fin N) (c : Fin C) :
    Host.scatterAdd (F := Ideal) (Cert.Lib.ScatterRows2.rowsDims N E C wfS)
        (broadcastInDim ⟨2, ![N, C]⟩ ![] hz (constant (F := Ideal) ⟨0, ![]⟩ .f32 0x00000000#32)) dst
        (mulf (broadcastInDim ⟨2, ![E, C]⟩ ![0, 1] h2 (broadcastInDim ⟨2, ![E, 1]⟩ ![0] h1 nrm))
          (Host.gather (Cert.LibGatherRows.rowsDims N C E wfG) T src)) (ix2 n c)
      = (0 : EReal) + ∑ e : Fin E, if (dst (ix2 e 0)).toInt = (n.val : Int) then
            nrm (ix1 e) * T (ix2 (Cert.LibGatherRows.clampRow hN src e) c) else 0 := by
  rw [Cert.Lib.ScatterRows2.scatterAdd_rows_apply]
  congr 1
  · rw [broadcastInDim_scalar_apply]
    exact Ideal.ofBits_zero_f32
  · refine Finset.sum_congr rfl fun e _ => ?_
    congr 1
    show (broadcastInDim ⟨2, ![E, C]⟩ ![0, 1] h2 (broadcastInDim ⟨2, ![E, 1]⟩ ![0] h1 nrm) (ix2 e c))
        * (Host.gather (Cert.LibGatherRows.rowsDims N C E wfG) T src (ix2 e c)) = _
    rw [Cert.Lib.Keepdims.broadcastInDim_a1_ab_apply, Cert.Lib.Keepdims.broadcastInDim_a_a1_apply,
      Cert.LibGatherRows.gather_rows_apply hN]

/-- A per-node scalar kept as a column and spread along the rows, read at entry (n, c). -/
theorem spread_apply {α : Type} {a b : ℕ} (v : (⟨1, ![a]⟩ : Shape).Idx → α)
    (h1 : (⟨1, ![a]⟩ : Shape).BroadcastsInDim ⟨2, ![a, 1]⟩ (![0] : Fin 1 → Fin (⟨2, ![a, 1]⟩ : Shape).rank))
    (h2 : (⟨2, ![a, 1]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h2 (broadcastInDim ⟨2, ![a, 1]⟩ ![0] h1 v) (ix2 p c) = v (ix1 p) := by
  rw [Cert.Lib.Keepdims.broadcastInDim_a1_ab_apply, Cert.Lib.Keepdims.broadcastInDim_a_a1_apply]

/-- Two [n, 64] matrices laid side by side, read in the left one. -/
theorem concat_left {α : Type} {n : ℕ} (x y : (⟨2, ![n, 64]⟩ : Shape).Idx → α)
    (h : Shape.Concatenates [(⟨2, ![n, 64]⟩ : Shape), ⟨2, ![n, 64]⟩] ⟨2, ![n, 128]⟩ 1) (p : Fin n) (k : Fin 64) :
    concatenate ⟨2, ![n, 128]⟩ 1 [⟨⟨2, ![n, 64]⟩, x⟩, ⟨⟨2, ![n, 64]⟩, y⟩] h (ix2 p (Fin.castAdd 64 k)) = x (ix2 p k) :=
  concatenate_pair_apply_left 1 x y h _ rfl (ix2 p k) (fun b => by
    match b with
    | ⟨0, _⟩ => rfl
    | ⟨1, _⟩ => rfl)

/-- Two [n, 64] matrices laid side by side, read in the right one. -/
theorem concat_right {α : Type} {n : ℕ} (x y : (⟨2, ![n, 64]⟩ : Shape).Idx → α)
    (h : Shape.Concatenates [(⟨2, ![n, 64]⟩ : Shape), ⟨2, ![n, 64]⟩] ⟨2, ![n, 128]⟩ 1) (p : Fin n) (k : Fin 64) :
    concatenate ⟨2, ![n, 128]⟩ 1 [⟨⟨2, ![n, 64]⟩, x⟩, ⟨⟨2, ![n, 64]⟩, y⟩] h (ix2 p (Fin.natAdd 64 k)) = y (ix2 p k) :=
  concatenate_pair_apply_right 1 x y h _ rfl rfl (ix2 p k) (fun b hb => by
    match b with
    | ⟨0, _⟩ => rfl
    | ⟨1, _⟩ => exact absurd rfl hb) (by
    show k.val + 64 = 64 + k.val
    omega)

end Cert.LibGraphAgg

end
-- ==== Proof.HostRead.lean ====
/-
  Host operations of a graph network read in the terms of the network's specification (Spec.lean).

  The edge list is an integer array [2, E]: row 0 holds each edge's source node, row 1 its destination node. A row is
  cut out and reshaped to a vector. Indexing a table at the source vector first adds N = 100000 to the negative entries
  (wrapIdx) and then gathers at the entry read signed and clamped (clampN): the row gathered for edge e is row
  srcOf e of the table. A scatter-add at the destination vector adds edge e's row into row n exactly when the
  destination entry, read signed, is n (hitOf). So a scatter-add of gathered rows into a zero array is the neighbour
  sum agg, a scatter-add of ones into a zero vector is the degree, its maximum with one the clamped count, and one
  over that, kept as a column, the reciprocal column. A weight matrix transposed is tr, a bias laid out as one row is
  rowMat, and the reference's layer (quotient by the count, projection, bias, own projection, rectifier) is layerRef.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«170208_j90074054132246_2_alg».proof.Proof.Spec
import proofs.«170208_j90074054132246_2_alg».proof.Proof.LibGatherRows
import proofs.«170208_j90074054132246_2_alg».proof.Proof.LibScatterRows2
import proofs.«170208_j90074054132246_2_alg».proof.Proof.LibScatterVec
import proofs.«170208_j90074054132246_2_alg».proof.Proof.LibKeepdims
import proofs.«170208_j90074054132246_2_alg».proof.Proof.LibGraphAgg

noncomputable section

namespace Cert.HostRead

open Idealize.ShloMosaic Idealize.ShloMosaic.ValueIdx Cert.Dense Cert.Net

variable {E P K C : Nat}

/-- Every index of a matrix is a pair of a row and a column. -/
theorem exists_ix2 {a b : Nat} (i : (⟨2, ![a, b]⟩ : Shape).Idx) : ∃ (p : Fin a) (q : Fin b), i = ix2 p q :=
  ⟨i 0, i 1, eq_ix2 i⟩
/-- Every index of a vector is one position. -/
theorem exists_ix1 {a : Nat} (i : (⟨1, ![a]⟩ : Shape).Idx) : ∃ p : Fin a, i = ix1 p := ⟨i 0, eq_ix1 i⟩

/-! ## The two rows of the edge list as vectors -/

/-- Row 0 of the edge list, reshaped to a vector, at position e. -/
theorem idxRow0_apply (ei : IVec ⟨2, ![2, E]⟩ 32) (hs : (⟨2, ![2, E]⟩ : Shape).Slices ![0, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![0, 0] ei hs) hc (ix1 e) = ei (ix2 (0 : Fin 2) e) :=
  (shapeCast_1a_a_apply _ hc e).trans (slice2_axis0_apply 0 ei hs (0 : Fin 1) e (0 : Fin 2) rfl)

/-- Row 1 of the edge list, reshaped to a vector, at position e. -/
theorem idxRow1_apply (ei : IVec ⟨2, ![2, E]⟩ 32) (hs : (⟨2, ![2, E]⟩ : Shape).Slices ![1, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![1, 0] ei hs) hc (ix1 e) = ei (ix2 (1 : Fin 2) e) :=
  (shapeCast_1a_a_apply _ hc e).trans (slice2_axis0_apply 1 ei hs (0 : Fin 1) e (1 : Fin 2) rfl)

/-! ## Negative indices counted from the end, and the row a gather reads -/

/-- A vector of node indices with N added to its negative entries. -/
abbrev wrapVec (S : IVec ⟨1, ![P]⟩ 32) (h0 h1 : (⟨0, ![]⟩ : Shape).BroadcastsInDim ⟨1, ![P]⟩ ![]) : IVec ⟨1, ![P]⟩ 32 :=
  select (cmpi .slt S (broadcastInDim ⟨1, ![P]⟩ ![] h0 (constantI ⟨0, ![]⟩ 32 0#32)))
    (addi S (broadcastInDim ⟨1, ![P]⟩ ![] h1 (constantI ⟨0, ![]⟩ 32 100000#32))) S

theorem wrapVec_apply (S : IVec ⟨1, ![P]⟩ 32) (h0 h1 : (⟨0, ![]⟩ : Shape).BroadcastsInDim ⟨1, ![P]⟩ ![]) (e : Fin P) :
    wrapVec S h0 h1 (ix1 e) = wrapIdx (S (ix1 e)) := by
  show Scalar.select (IntOp.cmpi .slt (S (ix1 e)) (broadcastInDim ⟨1, ![P]⟩ ![] h0 (constantI ⟨0, ![]⟩ 32 0#32) (ix1 e)))
      (IntOp.addi (S (ix1 e)) (broadcastInDim ⟨1, ![P]⟩ ![] h1 (constantI ⟨0, ![]⟩ 32 100000#32) (ix1 e))) (S (ix1 e)) = _
  rw [broadcastInDim_scalar_apply, broadcastInDim_scalar_apply]
  rfl

/-- The wrapped vector kept as a column of start indices. -/
theorem wrapCol_apply (S : IVec ⟨1, ![P]⟩ 32) (h0 h1 : (⟨0, ![]⟩ : Shape).BroadcastsInDim ⟨1, ![P]⟩ ![])
    (hc : (⟨1, ![P]⟩ : Shape).BroadcastsInDim ⟨2, ![P, 1]⟩ ![0]) (e : Fin P) (u : Fin 1) :
    broadcastInDim ⟨2, ![P, 1]⟩ ![0] hc (wrapVec S h0 h1) (ix2 e u) = wrapIdx (S (ix1 e)) := by
  rw [Cert.Lib.Keepdims.broadcastInDim_a_a1_apply]
  exact wrapVec_apply S h0 h1 e

/-- A vector kept as a column of start indices. -/
theorem col_apply {α : Type} (D : (⟨1, ![P]⟩ : Shape).Idx → α) (hc : (⟨1, ![P]⟩ : Shape).BroadcastsInDim ⟨2, ![P, 1]⟩ ![0])
    (e : Fin P) (u : Fin 1) : broadcastInDim ⟨2, ![P, 1]⟩ ![0] hc D (ix2 e u) = D (ix1 e) :=
  Cert.Lib.Keepdims.broadcastInDim_a_a1_apply D hc e u

/-- The row a gather reads at the wrapped column: the wrapped index, read signed and clamped. -/
theorem clampRow_wrapCol (hN : 0 < 100000) (S : IVec ⟨1, ![P]⟩ 32) (h0 h1 : (⟨0, ![]⟩ : Shape).BroadcastsInDim ⟨1, ![P]⟩ ![])
    (hc : (⟨1, ![P]⟩ : Shape).BroadcastsInDim ⟨2, ![P, 1]⟩ ![0]) (e : Fin P) :
    Cert.LibGatherRows.clampRow (N := 100000) hN (broadcastInDim ⟨2, ![P, 1]⟩ ![0] hc (wrapVec S h0 h1)) e
      = clampN (wrapIdx (S (ix1 e))) := by
  refine Fin.ext ?_
  show min (broadcastInDim ⟨2, ![P, 1]⟩ ![0] hc (wrapVec S h0 h1) (ix2 e (0 : Fin 1))).toInt.toNat (100000 - 1)
      = min (wrapIdx (S (ix1 e))).toInt.toNat 99999
  rw [wrapCol_apply]

/-! ## Neighbour sums -/

/-- Rows gathered at the wrapped source column and scatter-added at the destination column into a zero array: the
    neighbour sums of the specification. The two index vectors are any vectors that read as the edge list's rows. -/
theorem agg_eq (hN : 0 < 100000)
    (wfS : ScatterDims.WF ⟨2, ![100000, C]⟩ ⟨2, ![E, 1]⟩ ⟨2, ![E, C]⟩ [1] [0] [0] 1)
    (wfG : GatherDims.WF ⟨2, ![100000, C]⟩ ⟨2, ![E, 1]⟩ ⟨2, ![E, C]⟩ [1] [0] [] [0] [] 1 ![1, C])
    (hz : (⟨0, ![]⟩ : Shape).BroadcastsInDim ⟨2, ![100000, C]⟩ ![])
    (h0 h1 : (⟨0, ![]⟩ : Shape).BroadcastsInDim ⟨1, ![E]⟩ ![])
    (hcS hcD : (⟨1, ![E]⟩ : Shape).BroadcastsInDim ⟨2, ![E, 1]⟩ ![0])
    (ei : IVec ⟨2, ![2, E]⟩ 32) (S D : IVec ⟨1, ![E]⟩ 32)
    (hS : ∀ e : Fin E, S (ix1 e) = ei (ix2 (0 : Fin 2) e)) (hD : ∀ e : Fin E, D (ix1 e) = ei (ix2 (1 : Fin 2) e))
    (T : FVec Ideal ⟨2, ![100000, C]⟩ .f32) :
    Host.scatterAdd (F := Ideal) (Cert.Lib.ScatterRows2.rowsDims 100000 E C wfS)
        (broadcastInDim ⟨2, ![100000, C]⟩ ![] hz (constant (F := Ideal) ⟨0, ![]⟩ .f32 0x00000000#32))
        (broadcastInDim ⟨2, ![E, 1]⟩ ![0] hcD D)
        (Host.gather (Cert.LibGatherRows.rowsDims 100000 C E wfG) T (broadcastInDim ⟨2, ![E, 1]⟩ ![0] hcS (wrapVec S h0 h1)))
      = agg (srcOf ei) (hitOf ei) T := by
  funext i
  obtain ⟨p, q, rfl⟩ := exists_ix2 i
  rw [Cert.Lib.ScatterRows2.scatterAdd_rows_apply, agg_apply]
  refine congr (congrArg HAdd.hAdd ?_) (Finset.sum_congr rfl fun e _ => ?_)
  · rw [broadcastInDim_scalar_apply]
    exact Ideal.ofBits_zero_f32
  · rw [col_apply, hD, Cert.LibGatherRows.gather_rows_apply hN, clampRow_wrapCol, hS]
    exact if_congr Iff.rfl rfl rfl

/-! ## Degrees, counts and the reciprocal column -/

/-- Ones scatter-added at the destination column into a zero vector: the number of edges arriving at a node. -/
theorem deg_apply (wf : ScatterDims.WF ⟨1, ![100000]⟩ ⟨2, ![E, 1]⟩ ⟨1, ![E]⟩ [] [0] [0] 1)
    (hz : (⟨0, ![]⟩ : Shape).BroadcastsInDim ⟨1, ![100000]⟩ ![]) (h1 : (⟨0, ![]⟩ : Shape).BroadcastsInDim ⟨1, ![E]⟩ ![])
    (hcD : (⟨1, ![E]⟩ : Shape).BroadcastsInDim ⟨2, ![E, 1]⟩ ![0])
    (ei : IVec ⟨2, ![2, E]⟩ 32) (D : IVec ⟨1, ![E]⟩ 32) (hD : ∀ e : Fin E, D (ix1 e) = ei (ix2 (1 : Fin 2) e))
    (n : Fin 100000) :
    Host.scatterAdd (F := Ideal) (Cert.Lib.ScatterVec.vecDims 100000 E wf)
        (broadcastInDim ⟨1, ![100000]⟩ ![] hz (constant (F := Ideal) ⟨0, ![]⟩ .f32 0x00000000#32))
        (broadcastInDim ⟨2, ![E, 1]⟩ ![0] hcD D)
        (broadcastInDim ⟨1, ![E]⟩ ![] h1 (constant (F := Ideal) ⟨0, ![]⟩ .f32 0x3F800000#32)) (ix1 n)
      = degN (hitOf ei) n := by
  rw [Cert.Lib.ScatterVec.scatterAdd_vec_apply]
  unfold degN
  refine congr (congrArg HAdd.hAdd ?_) (Finset.sum_congr rfl fun e _ => ?_)
  · rw [broadcastInDim_scalar_apply]
    exact Ideal.ofBits_zero_f32
  · rw [col_apply, hD, broadcastInDim_scalar_apply]
    exact if_congr Iff.rfl Ideal.ofBits_one_f32 rfl

/-- The degree clamped below by a splat one: the clamped count, as a whole vector. -/
theorem cnt_eq (wf : ScatterDims.WF ⟨1, ![100000]⟩ ⟨2, ![E, 1]⟩ ⟨1, ![E]⟩ [] [0] [0] 1)
    (hz ho : (⟨0, ![]⟩ : Shape).BroadcastsInDim ⟨1, ![100000]⟩ ![]) (h1 : (⟨0, ![]⟩ : Shape).BroadcastsInDim ⟨1, ![E]⟩ ![])
    (hcD : (⟨1, ![E]⟩ : Shape).BroadcastsInDim ⟨2, ![E, 1]⟩ ![0])
    (ei : IVec ⟨2, ![2, E]⟩ 32) (D : IVec ⟨1, ![E]⟩ 32) (hD : ∀ e : Fin E, D (ix1 e) = ei (ix2 (1 : Fin 2) e)) :
    maximumf (Host.scatterAdd (F := Ideal) (Cert.Lib.ScatterVec.vecDims 100000 E wf)
        (broadcastInDim ⟨1, ![100000]⟩ ![] hz (constant (F := Ideal) ⟨0, ![]⟩ .f32 0x00000000#32))
        (broadcastInDim ⟨2, ![E, 1]⟩ ![0] hcD D)
        (broadcastInDim ⟨1, ![E]⟩ ![] h1 (constant (F := Ideal) ⟨0, ![]⟩ .f32 0x3F800000#32)))
        (broadcastInDim ⟨1, ![100000]⟩ ![] ho (constant (F := Ideal) ⟨0, ![]⟩ .f32 0x3F800000#32))
      = cnt (hitOf ei) := by
  funext i
  obtain ⟨n, rfl⟩ := exists_ix1 i
  show max (Host.scatterAdd (F := Ideal) (Cert.Lib.ScatterVec.vecDims 100000 E wf) _ _ _ (ix1 n))
      (broadcastInDim ⟨1, ![100000]⟩ ![] ho (constant (F := Ideal) ⟨0, ![]⟩ .f32 0x3F800000#32) (ix1 n)) = cntN (hitOf ei) n
  rw [deg_apply wf hz h1 hcD ei D hD n, broadcastInDim_scalar_apply]
  exact congrArg (max (degN (hitOf ei) n)) Ideal.ofBits_one_f32

/-- One over a count vector, kept as a column: the reciprocal column. -/
theorem recipCol_eq {N : Nat} (hit : Fin E → Fin N → Prop) [∀ e n, Decidable (hit e n)]
    (ho : (⟨0, ![]⟩ : Shape).BroadcastsInDim ⟨1, ![N]⟩ ![]) (hc : (⟨1, ![N]⟩ : Shape).BroadcastsInDim ⟨2, ![N, 1]⟩ ![0])
    (cv : FVec Ideal ⟨1, ![N]⟩ .f32) (hcv : cv = cnt hit) :
    broadcastInDim ⟨2, ![N, 1]⟩ ![0] hc
        (Host.divf (broadcastInDim ⟨1, ![N]⟩ ![] ho (constant (F := Ideal) ⟨0, ![]⟩ .f32 0x3F800000#32)) cv)
      = recipCol hit := by
  subst hcv
  funext i
  obtain ⟨p, q, rfl⟩ := exists_ix2 i
  rw [col_apply]
  show Ideal.div (broadcastInDim ⟨1, ![N]⟩ ![] ho (constant (F := Ideal) ⟨0, ![]⟩ .f32 0x3F800000#32) (ix1 p)) (cnt hit (ix1 p)) = _
  rw [broadcastInDim_scalar_apply]
  exact congrArg (fun z => Ideal.div z (cntN hit p)) Ideal.ofBits_one_f32

/-! ## Weights and biases -/

/-- A weight matrix transposed. -/
theorem tr_eq (W : FVec Ideal ⟨2, ![C, K]⟩ .f32) (h : (⟨2, ![C, K]⟩ : Shape).Transposes [1, 0] ⟨2, ![K, C]⟩) :
    transpose ⟨2, ![K, C]⟩ [1, 0] W h = tr W := by
  funext i
  obtain ⟨k, q, rfl⟩ := exists_ix2 i
  exact transpose_ix2_apply W h k q

/-- A bias vector laid out as a one-row matrix by a broadcast. -/
theorem rowMat_eq (b : FVec Ideal ⟨1, ![C]⟩ .f32) (h : (⟨1, ![C]⟩ : Shape).BroadcastsInDim ⟨2, ![1, C]⟩ ![1]) :
    broadcastInDim ⟨2, ![1, C]⟩ ![1] h b = rowMat b := by
  funext i
  obtain ⟨u, q, rfl⟩ := exists_ix2 i
  refine broadcastInDim_apply _ h b (ix2 u q) (ix1 q) fun ax => ?_
  match ax with
  | ⟨0, _⟩ =>
    show q.val = if C = 1 then 0 else q.val
    split
    · have := q.isLt; omega
    · rfl

/-- A bias vector laid out as a one-row matrix by a reshape. -/
theorem rowMat_cast_eq (b : FVec Ideal ⟨1, ![C]⟩ .f32) (h : (⟨1, ![C]⟩ : Shape).ShapeCasts ⟨2, ![1, C]⟩) :
    shapeCast ⟨2, ![1, C]⟩ b h = rowMat b := by
  funext i
  obtain ⟨u, q, rfl⟩ := exists_ix2 i
  exact shapeCast_a_1a_apply b h u q

/-! ## One layer as the reference computes it -/

/-- The reference's layer from the neighbour sums s, the features h and the count vector c: the quotient s / c is
    projected by the transposed Wl, the bias is laid along the rows, the features' projection by the transposed Wr is
    added, and the result is rectified. -/
theorem layerRef_eq {N : Nat} (h1 : (⟨1, ![N]⟩ : Shape).BroadcastsInDim ⟨2, ![N, 1]⟩ ![0])
    (h2 : (⟨2, ![N, 1]⟩ : Shape).BroadcastsInDim ⟨2, ![N, K]⟩ ![0, 1])
    (htl htr : (⟨2, ![C, K]⟩ : Shape).Transposes [1, 0] ⟨2, ![K, C]⟩)
    (hb1 : (⟨1, ![C]⟩ : Shape).BroadcastsInDim ⟨2, ![1, C]⟩ ![1])
    (hb2 : (⟨2, ![1, C]⟩ : Shape).BroadcastsInDim ⟨2, ![N, C]⟩ ![0, 1])
    (hz : (⟨0, ![]⟩ : Shape).BroadcastsInDim ⟨2, ![N, C]⟩ ![])
    (s h : FVec Ideal ⟨2, ![N, K]⟩ .f32) (c : FVec Ideal ⟨1, ![N]⟩ .f32)
    (Wl Wr : FVec Ideal ⟨2, ![C, K]⟩ .f32) (bl : FVec Ideal ⟨1, ![C]⟩ .f32) :
    maximumf
        (addf
          (addf
            (Host.dotGeneral (DotDims.plain N K C) none
              (Host.divf s (broadcastInDim ⟨2, ![N, K]⟩ ![0, 1] h2 (broadcastInDim ⟨2, ![N, 1]⟩ ![0] h1 c)))
              (transpose ⟨2, ![K, C]⟩ [1, 0] Wl htl))
            (broadcastInDim ⟨2, ![N, C]⟩ ![0, 1] hb2 (broadcastInDim ⟨2, ![1, C]⟩ ![1] hb1 bl)))
          (Host.dotGeneral (DotDims.plain N K C) none h (transpose ⟨2, ![K, C]⟩ [1, 0] Wr htr)))
        (broadcastInDim ⟨2, ![N, C]⟩ ![] hz (constant (F := Ideal) ⟨0, ![]⟩ .f32 0x00000000#32))
      = Cert.Sage.layerRef s h c (tr Wl) (tr Wr) bl := by
  funext i
  obtain ⟨p, q, rfl⟩ := exists_ix2 i
  rw [Cert.Dense.hostRelu_apply, Cert.Sage.layerRef_apply, tr_eq Wl htl, tr_eq Wr htr]
  refine congrArg (fun z => max z 0) ?_
  show (Host.dotGeneral (DotDims.plain N K C) none _ (tr Wl) (ix2 p q)
      + broadcastInDim ⟨2, ![N, C]⟩ ![0, 1] hb2 (broadcastInDim ⟨2, ![1, C]⟩ ![1] hb1 bl) (ix2 p q))
      + Host.dotGeneral (DotDims.plain N K C) none h (tr Wr) (ix2 p q) = _
  rw [Cert.Dense.hostProduct_apply, Cert.Dense.hostProduct_apply, Cert.LibLreluRows.biasRows_apply]
  refine congrArg (fun z => (z + bl (ix1 q)) + ∑ k : Fin K, h (ix2 p k) * tr Wr (ix2 k q)) ?_
  refine Finset.sum_congr rfl fun k _ => ?_
  refine congrArg (fun z => z * tr Wl (ix2 k q)) ?_
  show Ideal.div (s (ix2 p k)) (broadcastInDim ⟨2, ![N, K]⟩ ![0, 1] h2 (broadcastInDim ⟨2, ![N, 1]⟩ ![0] h1 c) (ix2 p k)) = _
  rw [Cert.LibGraphAgg.spread_apply]

/-- The features' product with a transposed weight matrix. -/
theorem mm_tr_eq {N : Nat} (ht : (⟨2, ![C, K]⟩ : Shape).Transposes [1, 0] ⟨2, ![K, C]⟩)
    (X : FVec Ideal ⟨2, ![N, K]⟩ .f32) (W : FVec Ideal ⟨2, ![C, K]⟩ .f32) :
    Host.dotGeneral (DotDims.plain N K C) none X (transpose ⟨2, ![K, C]⟩ [1, 0] W ht) = mm X (tr W) := by
  funext i
  obtain ⟨p, q, rfl⟩ := exists_ix2 i
  rw [tr_eq W ht, Cert.Dense.hostProduct_apply, mm_apply]

/-- The reference's layer on the host, from the features, the two index vectors and the count vector: the layer of
    the specification in the reference's arrangement. -/
theorem layerR_eq (hN : 0 < 100000)
    (wfS : ScatterDims.WF ⟨2, ![100000, K]⟩ ⟨2, ![E, 1]⟩ ⟨2, ![E, K]⟩ [1] [0] [0] 1)
    (wfG : GatherDims.WF ⟨2, ![100000, K]⟩ ⟨2, ![E, 1]⟩ ⟨2, ![E, K]⟩ [1] [0] [] [0] [] 1 ![1, K])
    (hzK : (⟨0, ![]⟩ : Shape).BroadcastsInDim ⟨2, ![100000, K]⟩ ![])
    (h0 h1 : (⟨0, ![]⟩ : Shape).BroadcastsInDim ⟨1, ![E]⟩ ![])
    (hcS hcD : (⟨1, ![E]⟩ : Shape).BroadcastsInDim ⟨2, ![E, 1]⟩ ![0])
    (hk1 : (⟨1, ![100000]⟩ : Shape).BroadcastsInDim ⟨2, ![100000, 1]⟩ ![0])
    (hk2 : (⟨2, ![100000, 1]⟩ : Shape).BroadcastsInDim ⟨2, ![100000, K]⟩ ![0, 1])
    (htl htr : (⟨2, ![C, K]⟩ : Shape).Transposes [1, 0] ⟨2, ![K, C]⟩)
    (hb1 : (⟨1, ![C]⟩ : Shape).BroadcastsInDim ⟨2, ![1, C]⟩ ![1])
    (hb2 : (⟨2, ![1, C]⟩ : Shape).BroadcastsInDim ⟨2, ![100000, C]⟩ ![0, 1])
    (hz : (⟨0, ![]⟩ : Shape).BroadcastsInDim ⟨2, ![100000, C]⟩ ![])
    (ei : IVec ⟨2, ![2, E]⟩ 32) (S D : IVec ⟨1, ![E]⟩ 32)
    (hS : ∀ e : Fin E, S (ix1 e) = ei (ix2 (0 : Fin 2) e)) (hD : ∀ e : Fin E, D (ix1 e) = ei (ix2 (1 : Fin 2) e))
    (h : FVec Ideal ⟨2, ![100000, K]⟩ .f32) (cv : FVec Ideal ⟨1, ![100000]⟩ .f32) (hcv : cv = cnt (hitOf ei))
    (Wl Wr : FVec Ideal ⟨2, ![C, K]⟩ .f32) (bl : FVec Ideal ⟨1, ![C]⟩ .f32) :
    maximumf
        (addf
          (addf
            (Host.dotGeneral (DotDims.plain 100000 K C) none
              (Host.divf
                (Host.scatterAdd (F := Ideal) (Cert.Lib.ScatterRows2.rowsDims 100000 E K wfS)
                  (broadcastInDim ⟨2, ![100000, K]⟩ ![] hzK (constant (F := Ideal) ⟨0, ![]⟩ .f32 0x00000000#32))
                  (broadcastInDim ⟨2, ![E, 1]⟩ ![0] hcD D)
                  (Host.gather (Cert.LibGatherRows.rowsDims 100000 K E wfG) h
                    (broadcastInDim ⟨2, ![E, 1]⟩ ![0] hcS (wrapVec S h0 h1))))
                (broadcastInDim ⟨2, ![100000, K]⟩ ![0, 1] hk2 (broadcastInDim ⟨2, ![100000, 1]⟩ ![0] hk1 cv)))
              (transpose ⟨2, ![K, C]⟩ [1, 0] Wl htl))
            (broadcastInDim ⟨2, ![100000, C]⟩ ![0, 1] hb2 (broadcastInDim ⟨2, ![1, C]⟩ ![1] hb1 bl)))
          (Host.dotGeneral (DotDims.plain 100000 K C) none h (transpose ⟨2, ![K, C]⟩ [1, 0] Wr htr)))
        (broadcastInDim ⟨2, ![100000, C]⟩ ![] hz (constant (F := Ideal) ⟨0, ![]⟩ .f32 0x00000000#32))
      = layerR (srcOf ei) (hitOf ei) h Wl Wr bl := by
  subst hcv
  rw [agg_eq hN wfS wfG hzK h0 h1 hcS hcD ei S D hS hD h]
  exact layerRef_eq hk1 hk2 htl htr hb1 hb2 hz (agg (srcOf ei) (hitOf ei) h) h (cnt (hitOf ei)) Wl Wr bl

end Cert.HostRead

end
-- ==== Proof.FoldTac.lean ====
/-
  One tactic for the walk of a buffer across a host stretch: a stretch's operations each write one buffer, named in
  the program; a buffer with another name is none of them, so the fold of the stretch leaves it as it was.
-/
import proofs.«170208_j90074054132246_2_alg».proof.Proof.Gen.KernelIdeal.Frame

namespace Cert.KernelIdeal.Fold

open Idealize.ShloMosaic

/-- Closes `after ops V b = V b` for a literal stretch `ops` and a buffer `b` none of its operations writes. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

end Cert.KernelIdeal.Fold
-- ==== Proof.FoldIdx.lean ====
/-
  Buffers that keep their contents from one segment boundary of the program to a later one: a host stretch
  leaves a buffer none of its operations writes, and a region leaves every buffer that is not one of its
  output arrays (an input array is read, not written). Each line below walks one buffer one boundary further.
-/
import proofs.«170208_j90074054132246_2_alg».proof.Proof.FoldTac

set_option maxRecDepth 16384

noncomputable section

namespace Cert.KernelIdeal.Fold

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem v1_at2 : W2 m ρ c (Proc.devRef .tc main_call0_v1) = W1 m ρ c (Proc.devRef .tc main_call0_v1) :=
  (W2_of_ne m ρ c main_call0_v1 (by decide))
theorem v1_at3 : W3 m ρ c (Proc.devRef .tc main_call0_v1) = W1 m ρ c (Proc.devRef .tc main_call0_v1) :=
  ((by host_keeps hostOps1) : W3 m ρ c (Proc.devRef .tc main_call0_v1) = W2 m ρ c (Proc.devRef .tc main_call0_v1)).trans (v1_at2 m ρ c)
theorem v1_at4 : W4 m ρ c (Proc.devRef .tc main_call0_v1) = W1 m ρ c (Proc.devRef .tc main_call0_v1) :=
  ((W4_of_ne m ρ c main_call0_v1 (by decide)) : W4 m ρ c (Proc.devRef .tc main_call0_v1) = W3 m ρ c (Proc.devRef .tc main_call0_v1)).trans (v1_at3 m ρ c)
theorem v1_at5 : W5 m ρ c (Proc.devRef .tc main_call0_v1) = W1 m ρ c (Proc.devRef .tc main_call0_v1) :=
  ((by host_keeps hostOps2) : W5 m ρ c (Proc.devRef .tc main_call0_v1) = W4 m ρ c (Proc.devRef .tc main_call0_v1)).trans (v1_at4 m ρ c)
theorem v1_at6 : W6 m ρ c (Proc.devRef .tc main_call0_v1) = W1 m ρ c (Proc.devRef .tc main_call0_v1) :=
  ((W6_of_ne m ρ c main_call0_v1 (by decide)) : W6 m ρ c (Proc.devRef .tc main_call0_v1) = W5 m ρ c (Proc.devRef .tc main_call0_v1)).trans (v1_at5 m ρ c)
theorem v1_at7 : W7 m ρ c (Proc.devRef .tc main_call0_v1) = W1 m ρ c (Proc.devRef .tc main_call0_v1) :=
  ((by host_keeps hostOps3) : W7 m ρ c (Proc.devRef .tc main_call0_v1) = W6 m ρ c (Proc.devRef .tc main_call0_v1)).trans (v1_at6 m ρ c)
theorem v1_at8 : W8 m ρ c (Proc.devRef .tc main_call0_v1) = W1 m ρ c (Proc.devRef .tc main_call0_v1) :=
  ((W8_of_ne m ρ c main_call0_v1 (by decide)) : W8 m ρ c (Proc.devRef .tc main_call0_v1) = W7 m ρ c (Proc.devRef .tc main_call0_v1)).trans (v1_at7 m ρ c)
theorem v1_at9 : W9 m ρ c (Proc.devRef .tc main_call0_v1) = W1 m ρ c (Proc.devRef .tc main_call0_v1) :=
  ((by host_keeps hostOps4) : W9 m ρ c (Proc.devRef .tc main_call0_v1) = W8 m ρ c (Proc.devRef .tc main_call0_v1)).trans (v1_at8 m ρ c)
theorem v1_at10 : W10 m ρ c (Proc.devRef .tc main_call0_v1) = W1 m ρ c (Proc.devRef .tc main_call0_v1) :=
  ((W10_of_ne m ρ c main_call0_v1 (by decide)) : W10 m ρ c (Proc.devRef .tc main_call0_v1) = W9 m ρ c (Proc.devRef .tc main_call0_v1)).trans (v1_at9 m ρ c)
theorem v1_at11 : W11 m ρ c (Proc.devRef .tc main_call0_v1) = W1 m ρ c (Proc.devRef .tc main_call0_v1) :=
  ((by host_keeps hostOps5) : W11 m ρ c (Proc.devRef .tc main_call0_v1) = W10 m ρ c (Proc.devRef .tc main_call0_v1)).trans (v1_at10 m ρ c)
theorem v1_at12 : W12 m ρ c (Proc.devRef .tc main_call0_v1) = W1 m ρ c (Proc.devRef .tc main_call0_v1) :=
  ((W12_of_ne m ρ c main_call0_v1 (by decide)) : W12 m ρ c (Proc.devRef .tc main_call0_v1) = W11 m ρ c (Proc.devRef .tc main_call0_v1)).trans (v1_at11 m ρ c)
theorem v1_at13 : W13 m ρ c (Proc.devRef .tc main_call0_v1) = W1 m ρ c (Proc.devRef .tc main_call0_v1) :=
  ((by host_keeps hostOps6) : W13 m ρ c (Proc.devRef .tc main_call0_v1) = W12 m ρ c (Proc.devRef .tc main_call0_v1)).trans (v1_at12 m ρ c)
theorem v1_at14 : W14 m ρ c (Proc.devRef .tc main_call0_v1) = W1 m ρ c (Proc.devRef .tc main_call0_v1) :=
  ((W14_of_ne m ρ c main_call0_v1 (by decide)) : W14 m ρ c (Proc.devRef .tc main_call0_v1) = W13 m ρ c (Proc.devRef .tc main_call0_v1)).trans (v1_at13 m ρ c)
theorem v1_at15 : W15 m ρ c (Proc.devRef .tc main_call0_v1) = W1 m ρ c (Proc.devRef .tc main_call0_v1) :=
  ((by host_keeps hostOps7) : W15 m ρ c (Proc.devRef .tc main_call0_v1) = W14 m ρ c (Proc.devRef .tc main_call0_v1)).trans (v1_at14 m ρ c)
theorem v1_at16 : W16 m ρ c (Proc.devRef .tc main_call0_v1) = W1 m ρ c (Proc.devRef .tc main_call0_v1) :=
  ((W16_of_ne m ρ c main_call0_v1 (by decide)) : W16 m ρ c (Proc.devRef .tc main_call0_v1) = W15 m ρ c (Proc.devRef .tc main_call0_v1)).trans (v1_at15 m ρ c)
theorem v1_at17 : W17 m ρ c (Proc.devRef .tc main_call0_v1) = W1 m ρ c (Proc.devRef .tc main_call0_v1) :=
  ((by host_keeps hostOps8) : W17 m ρ c (Proc.devRef .tc main_call0_v1) = W16 m ρ c (Proc.devRef .tc main_call0_v1)).trans (v1_at16 m ρ c)
theorem v1_at18 : W18 m ρ c (Proc.devRef .tc main_call0_v1) = W1 m ρ c (Proc.devRef .tc main_call0_v1) :=
  ((W18_of_ne m ρ c main_call0_v1 (by decide)) : W18 m ρ c (Proc.devRef .tc main_call0_v1) = W17 m ρ c (Proc.devRef .tc main_call0_v1)).trans (v1_at17 m ρ c)

theorem v3_at2 : W2 m ρ c (Proc.devRef .tc main_call0_v3) = W1 m ρ c (Proc.devRef .tc main_call0_v3) :=
  (W2_of_ne m ρ c main_call0_v3 (by decide))
theorem v3_at3 : W3 m ρ c (Proc.devRef .tc main_call0_v3) = W1 m ρ c (Proc.devRef .tc main_call0_v3) :=
  ((by host_keeps hostOps1) : W3 m ρ c (Proc.devRef .tc main_call0_v3) = W2 m ρ c (Proc.devRef .tc main_call0_v3)).trans (v3_at2 m ρ c)
theorem v3_at4 : W4 m ρ c (Proc.devRef .tc main_call0_v3) = W1 m ρ c (Proc.devRef .tc main_call0_v3) :=
  ((W4_of_ne m ρ c main_call0_v3 (by decide)) : W4 m ρ c (Proc.devRef .tc main_call0_v3) = W3 m ρ c (Proc.devRef .tc main_call0_v3)).trans (v3_at3 m ρ c)
theorem v3_at5 : W5 m ρ c (Proc.devRef .tc main_call0_v3) = W1 m ρ c (Proc.devRef .tc main_call0_v3) :=
  ((by host_keeps hostOps2) : W5 m ρ c (Proc.devRef .tc main_call0_v3) = W4 m ρ c (Proc.devRef .tc main_call0_v3)).trans (v3_at4 m ρ c)
theorem v3_at6 : W6 m ρ c (Proc.devRef .tc main_call0_v3) = W1 m ρ c (Proc.devRef .tc main_call0_v3) :=
  ((W6_of_ne m ρ c main_call0_v3 (by decide)) : W6 m ρ c (Proc.devRef .tc main_call0_v3) = W5 m ρ c (Proc.devRef .tc main_call0_v3)).trans (v3_at5 m ρ c)
theorem v3_at7 : W7 m ρ c (Proc.devRef .tc main_call0_v3) = W1 m ρ c (Proc.devRef .tc main_call0_v3) :=
  ((by host_keeps hostOps3) : W7 m ρ c (Proc.devRef .tc main_call0_v3) = W6 m ρ c (Proc.devRef .tc main_call0_v3)).trans (v3_at6 m ρ c)
theorem v3_at8 : W8 m ρ c (Proc.devRef .tc main_call0_v3) = W1 m ρ c (Proc.devRef .tc main_call0_v3) :=
  ((W8_of_ne m ρ c main_call0_v3 (by decide)) : W8 m ρ c (Proc.devRef .tc main_call0_v3) = W7 m ρ c (Proc.devRef .tc main_call0_v3)).trans (v3_at7 m ρ c)
theorem v3_at9 : W9 m ρ c (Proc.devRef .tc main_call0_v3) = W1 m ρ c (Proc.devRef .tc main_call0_v3) :=
  ((by host_keeps hostOps4) : W9 m ρ c (Proc.devRef .tc main_call0_v3) = W8 m ρ c (Proc.devRef .tc main_call0_v3)).trans (v3_at8 m ρ c)
theorem v3_at10 : W10 m ρ c (Proc.devRef .tc main_call0_v3) = W1 m ρ c (Proc.devRef .tc main_call0_v3) :=
  ((W10_of_ne m ρ c main_call0_v3 (by decide)) : W10 m ρ c (Proc.devRef .tc main_call0_v3) = W9 m ρ c (Proc.devRef .tc main_call0_v3)).trans (v3_at9 m ρ c)
theorem v3_at11 : W11 m ρ c (Proc.devRef .tc main_call0_v3) = W1 m ρ c (Proc.devRef .tc main_call0_v3) :=
  ((by host_keeps hostOps5) : W11 m ρ c (Proc.devRef .tc main_call0_v3) = W10 m ρ c (Proc.devRef .tc main_call0_v3)).trans (v3_at10 m ρ c)
theorem v3_at12 : W12 m ρ c (Proc.devRef .tc main_call0_v3) = W1 m ρ c (Proc.devRef .tc main_call0_v3) :=
  ((W12_of_ne m ρ c main_call0_v3 (by decide)) : W12 m ρ c (Proc.devRef .tc main_call0_v3) = W11 m ρ c (Proc.devRef .tc main_call0_v3)).trans (v3_at11 m ρ c)
theorem v3_at13 : W13 m ρ c (Proc.devRef .tc main_call0_v3) = W1 m ρ c (Proc.devRef .tc main_call0_v3) :=
  ((by host_keeps hostOps6) : W13 m ρ c (Proc.devRef .tc main_call0_v3) = W12 m ρ c (Proc.devRef .tc main_call0_v3)).trans (v3_at12 m ρ c)
theorem v3_at14 : W14 m ρ c (Proc.devRef .tc main_call0_v3) = W1 m ρ c (Proc.devRef .tc main_call0_v3) :=
  ((W14_of_ne m ρ c main_call0_v3 (by decide)) : W14 m ρ c (Proc.devRef .tc main_call0_v3) = W13 m ρ c (Proc.devRef .tc main_call0_v3)).trans (v3_at13 m ρ c)
theorem v3_at15 : W15 m ρ c (Proc.devRef .tc main_call0_v3) = W1 m ρ c (Proc.devRef .tc main_call0_v3) :=
  ((by host_keeps hostOps7) : W15 m ρ c (Proc.devRef .tc main_call0_v3) = W14 m ρ c (Proc.devRef .tc main_call0_v3)).trans (v3_at14 m ρ c)
theorem v3_at16 : W16 m ρ c (Proc.devRef .tc main_call0_v3) = W1 m ρ c (Proc.devRef .tc main_call0_v3) :=
  ((W16_of_ne m ρ c main_call0_v3 (by decide)) : W16 m ρ c (Proc.devRef .tc main_call0_v3) = W15 m ρ c (Proc.devRef .tc main_call0_v3)).trans (v3_at15 m ρ c)
theorem v3_at17 : W17 m ρ c (Proc.devRef .tc main_call0_v3) = W1 m ρ c (Proc.devRef .tc main_call0_v3) :=
  ((by host_keeps hostOps8) : W17 m ρ c (Proc.devRef .tc main_call0_v3) = W16 m ρ c (Proc.devRef .tc main_call0_v3)).trans (v3_at16 m ρ c)
theorem v3_at18 : W18 m ρ c (Proc.devRef .tc main_call0_v3) = W1 m ρ c (Proc.devRef .tc main_call0_v3) :=
  ((W18_of_ne m ρ c main_call0_v3 (by decide)) : W18 m ρ c (Proc.devRef .tc main_call0_v3) = W17 m ρ c (Proc.devRef .tc main_call0_v3)).trans (v3_at17 m ρ c)

end Cert.KernelIdeal.Fold

end
-- ==== Proof.FoldDeg.lean ====
/-
  Buffers that keep their contents from one segment boundary of the program to a later one: a host stretch
  leaves a buffer none of its operations writes, and a region leaves every buffer that is not one of its
  output arrays (an input array is read, not written). Each line below walks one buffer one boundary further.
-/
import proofs.«170208_j90074054132246_2_alg».proof.Proof.FoldTac

set_option maxRecDepth 16384

noncomputable section

namespace Cert.KernelIdeal.Fold

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem v7_at2 : W2 m ρ c (Proc.devRef .tc main_call0_v7) = W1 m ρ c (Proc.devRef .tc main_call0_v7) :=
  (W2_of_ne m ρ c main_call0_v7 (by decide))
theorem v7_at3 : W3 m ρ c (Proc.devRef .tc main_call0_v7) = W1 m ρ c (Proc.devRef .tc main_call0_v7) :=
  ((by host_keeps hostOps1) : W3 m ρ c (Proc.devRef .tc main_call0_v7) = W2 m ρ c (Proc.devRef .tc main_call0_v7)).trans (v7_at2 m ρ c)
theorem v7_at4 : W4 m ρ c (Proc.devRef .tc main_call0_v7) = W1 m ρ c (Proc.devRef .tc main_call0_v7) :=
  ((W4_of_ne m ρ c main_call0_v7 (by decide)) : W4 m ρ c (Proc.devRef .tc main_call0_v7) = W3 m ρ c (Proc.devRef .tc main_call0_v7)).trans (v7_at3 m ρ c)
theorem v7_at5 : W5 m ρ c (Proc.devRef .tc main_call0_v7) = W1 m ρ c (Proc.devRef .tc main_call0_v7) :=
  ((by host_keeps hostOps2) : W5 m ρ c (Proc.devRef .tc main_call0_v7) = W4 m ρ c (Proc.devRef .tc main_call0_v7)).trans (v7_at4 m ρ c)
theorem v7_at6 : W6 m ρ c (Proc.devRef .tc main_call0_v7) = W1 m ρ c (Proc.devRef .tc main_call0_v7) :=
  ((W6_of_ne m ρ c main_call0_v7 (by decide)) : W6 m ρ c (Proc.devRef .tc main_call0_v7) = W5 m ρ c (Proc.devRef .tc main_call0_v7)).trans (v7_at5 m ρ c)
theorem v7_at7 : W7 m ρ c (Proc.devRef .tc main_call0_v7) = W1 m ρ c (Proc.devRef .tc main_call0_v7) :=
  ((by host_keeps hostOps3) : W7 m ρ c (Proc.devRef .tc main_call0_v7) = W6 m ρ c (Proc.devRef .tc main_call0_v7)).trans (v7_at6 m ρ c)
theorem v7_at8 : W8 m ρ c (Proc.devRef .tc main_call0_v7) = W1 m ρ c (Proc.devRef .tc main_call0_v7) :=
  ((W8_of_ne m ρ c main_call0_v7 (by decide)) : W8 m ρ c (Proc.devRef .tc main_call0_v7) = W7 m ρ c (Proc.devRef .tc main_call0_v7)).trans (v7_at7 m ρ c)
theorem v7_at9 : W9 m ρ c (Proc.devRef .tc main_call0_v7) = W1 m ρ c (Proc.devRef .tc main_call0_v7) :=
  ((by host_keeps hostOps4) : W9 m ρ c (Proc.devRef .tc main_call0_v7) = W8 m ρ c (Proc.devRef .tc main_call0_v7)).trans (v7_at8 m ρ c)
theorem v7_at10 : W10 m ρ c (Proc.devRef .tc main_call0_v7) = W1 m ρ c (Proc.devRef .tc main_call0_v7) :=
  ((W10_of_ne m ρ c main_call0_v7 (by decide)) : W10 m ρ c (Proc.devRef .tc main_call0_v7) = W9 m ρ c (Proc.devRef .tc main_call0_v7)).trans (v7_at9 m ρ c)
theorem v7_at11 : W11 m ρ c (Proc.devRef .tc main_call0_v7) = W1 m ρ c (Proc.devRef .tc main_call0_v7) :=
  ((by host_keeps hostOps5) : W11 m ρ c (Proc.devRef .tc main_call0_v7) = W10 m ρ c (Proc.devRef .tc main_call0_v7)).trans (v7_at10 m ρ c)
theorem v7_at12 : W12 m ρ c (Proc.devRef .tc main_call0_v7) = W1 m ρ c (Proc.devRef .tc main_call0_v7) :=
  ((W12_of_ne m ρ c main_call0_v7 (by decide)) : W12 m ρ c (Proc.devRef .tc main_call0_v7) = W11 m ρ c (Proc.devRef .tc main_call0_v7)).trans (v7_at11 m ρ c)
theorem v7_at13 : W13 m ρ c (Proc.devRef .tc main_call0_v7) = W1 m ρ c (Proc.devRef .tc main_call0_v7) :=
  ((by host_keeps hostOps6) : W13 m ρ c (Proc.devRef .tc main_call0_v7) = W12 m ρ c (Proc.devRef .tc main_call0_v7)).trans (v7_at12 m ρ c)
theorem v7_at14 : W14 m ρ c (Proc.devRef .tc main_call0_v7) = W1 m ρ c (Proc.devRef .tc main_call0_v7) :=
  ((W14_of_ne m ρ c main_call0_v7 (by decide)) : W14 m ρ c (Proc.devRef .tc main_call0_v7) = W13 m ρ c (Proc.devRef .tc main_call0_v7)).trans (v7_at13 m ρ c)
theorem v7_at15 : W15 m ρ c (Proc.devRef .tc main_call0_v7) = W1 m ρ c (Proc.devRef .tc main_call0_v7) :=
  ((by host_keeps hostOps7) : W15 m ρ c (Proc.devRef .tc main_call0_v7) = W14 m ρ c (Proc.devRef .tc main_call0_v7)).trans (v7_at14 m ρ c)
theorem v7_at16 : W16 m ρ c (Proc.devRef .tc main_call0_v7) = W1 m ρ c (Proc.devRef .tc main_call0_v7) :=
  ((W16_of_ne m ρ c main_call0_v7 (by decide)) : W16 m ρ c (Proc.devRef .tc main_call0_v7) = W15 m ρ c (Proc.devRef .tc main_call0_v7)).trans (v7_at15 m ρ c)

theorem v12_at2 : W2 m ρ c (Proc.devRef .tc main_call0_v12) = W1 m ρ c (Proc.devRef .tc main_call0_v12) :=
  ((W2_arr m ρ c 1).trans (((dat0 (V1 m ρ) c).arrAt_in 1 rfl _).trans (A_eq0 (V1 m ρ) c 1)))
theorem v12_at3 : W3 m ρ c (Proc.devRef .tc main_call0_v12) = W1 m ρ c (Proc.devRef .tc main_call0_v12) :=
  ((by host_keeps hostOps1) : W3 m ρ c (Proc.devRef .tc main_call0_v12) = W2 m ρ c (Proc.devRef .tc main_call0_v12)).trans (v12_at2 m ρ c)
theorem v12_at4 : W4 m ρ c (Proc.devRef .tc main_call0_v12) = W1 m ρ c (Proc.devRef .tc main_call0_v12) :=
  (((W4_arr m ρ c 1).trans (((dat1 (V3 m ρ) c).arrAt_in 1 rfl _).trans (A_eq1 (V3 m ρ) c 1))) : W4 m ρ c (Proc.devRef .tc main_call0_v12) = W3 m ρ c (Proc.devRef .tc main_call0_v12)).trans (v12_at3 m ρ c)
theorem v12_at5 : W5 m ρ c (Proc.devRef .tc main_call0_v12) = W1 m ρ c (Proc.devRef .tc main_call0_v12) :=
  ((by host_keeps hostOps2) : W5 m ρ c (Proc.devRef .tc main_call0_v12) = W4 m ρ c (Proc.devRef .tc main_call0_v12)).trans (v12_at4 m ρ c)
theorem v12_at6 : W6 m ρ c (Proc.devRef .tc main_call0_v12) = W1 m ρ c (Proc.devRef .tc main_call0_v12) :=
  (((W6_arr m ρ c 1).trans (((dat2 (V5 m ρ) c).arrAt_in 1 rfl _).trans (A_eq2 (V5 m ρ) c 1))) : W6 m ρ c (Proc.devRef .tc main_call0_v12) = W5 m ρ c (Proc.devRef .tc main_call0_v12)).trans (v12_at5 m ρ c)
theorem v12_at7 : W7 m ρ c (Proc.devRef .tc main_call0_v12) = W1 m ρ c (Proc.devRef .tc main_call0_v12) :=
  ((by host_keeps hostOps3) : W7 m ρ c (Proc.devRef .tc main_call0_v12) = W6 m ρ c (Proc.devRef .tc main_call0_v12)).trans (v12_at6 m ρ c)
theorem v12_at8 : W8 m ρ c (Proc.devRef .tc main_call0_v12) = W1 m ρ c (Proc.devRef .tc main_call0_v12) :=
  ((W8_of_ne m ρ c main_call0_v12 (by decide)) : W8 m ρ c (Proc.devRef .tc main_call0_v12) = W7 m ρ c (Proc.devRef .tc main_call0_v12)).trans (v12_at7 m ρ c)
theorem v12_at9 : W9 m ρ c (Proc.devRef .tc main_call0_v12) = W1 m ρ c (Proc.devRef .tc main_call0_v12) :=
  ((by host_keeps hostOps4) : W9 m ρ c (Proc.devRef .tc main_call0_v12) = W8 m ρ c (Proc.devRef .tc main_call0_v12)).trans (v12_at8 m ρ c)
theorem v12_at10 : W10 m ρ c (Proc.devRef .tc main_call0_v12) = W1 m ρ c (Proc.devRef .tc main_call0_v12) :=
  (((W10_arr m ρ c 1).trans (((dat4 (V9 m ρ) c).arrAt_in 1 rfl _).trans (A_eq4 (V9 m ρ) c 1))) : W10 m ρ c (Proc.devRef .tc main_call0_v12) = W9 m ρ c (Proc.devRef .tc main_call0_v12)).trans (v12_at9 m ρ c)
theorem v12_at11 : W11 m ρ c (Proc.devRef .tc main_call0_v12) = W1 m ρ c (Proc.devRef .tc main_call0_v12) :=
  ((by host_keeps hostOps5) : W11 m ρ c (Proc.devRef .tc main_call0_v12) = W10 m ρ c (Proc.devRef .tc main_call0_v12)).trans (v12_at10 m ρ c)
theorem v12_at12 : W12 m ρ c (Proc.devRef .tc main_call0_v12) = W1 m ρ c (Proc.devRef .tc main_call0_v12) :=
  ((W12_of_ne m ρ c main_call0_v12 (by decide)) : W12 m ρ c (Proc.devRef .tc main_call0_v12) = W11 m ρ c (Proc.devRef .tc main_call0_v12)).trans (v12_at11 m ρ c)
theorem v12_at13 : W13 m ρ c (Proc.devRef .tc main_call0_v12) = W1 m ρ c (Proc.devRef .tc main_call0_v12) :=
  ((by host_keeps hostOps6) : W13 m ρ c (Proc.devRef .tc main_call0_v12) = W12 m ρ c (Proc.devRef .tc main_call0_v12)).trans (v12_at12 m ρ c)
theorem v12_at14 : W14 m ρ c (Proc.devRef .tc main_call0_v12) = W1 m ρ c (Proc.devRef .tc main_call0_v12) :=
  (((W14_arr m ρ c 1).trans (((dat6 (V13 m ρ) c).arrAt_in 1 rfl _).trans (A_eq6 (V13 m ρ) c 1))) : W14 m ρ c (Proc.devRef .tc main_call0_v12) = W13 m ρ c (Proc.devRef .tc main_call0_v12)).trans (v12_at13 m ρ c)
theorem v12_at15 : W15 m ρ c (Proc.devRef .tc main_call0_v12) = W1 m ρ c (Proc.devRef .tc main_call0_v12) :=
  ((by host_keeps hostOps7) : W15 m ρ c (Proc.devRef .tc main_call0_v12) = W14 m ρ c (Proc.devRef .tc main_call0_v12)).trans (v12_at14 m ρ c)

end Cert.KernelIdeal.Fold

end
-- ==== Proof.FoldMid.lean ====
/-
  Buffers that keep their contents from one segment boundary of the program to a later one: a host stretch
  leaves a buffer none of its operations writes, and a region leaves every buffer that is not one of its
  output arrays (an input array is read, not written). Each line below walks one buffer one boundary further.
-/
import proofs.«170208_j90074054132246_2_alg».proof.Proof.FoldTac

set_option maxRecDepth 16384

noncomputable section

namespace Cert.KernelIdeal.Fold

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem v26_at3 : W3 m ρ c (Proc.devRef .tc main_call0_v26) = W2 m ρ c (Proc.devRef .tc main_call0_v26) :=
  (by host_keeps hostOps1)

theorem v40_at5 : W5 m ρ c (Proc.devRef .tc main_call0_v40) = W4 m ρ c (Proc.devRef .tc main_call0_v40) :=
  (by host_keeps hostOps2)

theorem v54_at7 : W7 m ρ c (Proc.devRef .tc main_call0_v54) = W6 m ρ c (Proc.devRef .tc main_call0_v54) :=
  (by host_keeps hostOps3)
theorem v54_at8 : W8 m ρ c (Proc.devRef .tc main_call0_v54) = W6 m ρ c (Proc.devRef .tc main_call0_v54) :=
  (((W8_arr m ρ c 0).trans (((dat3 (V7 m ρ) c).arrAt_in 0 rfl _).trans (A_eq3 (V7 m ρ) c 0))) : W8 m ρ c (Proc.devRef .tc main_call0_v54) = W7 m ρ c (Proc.devRef .tc main_call0_v54)).trans (v54_at7 m ρ c)
theorem v54_at9 : W9 m ρ c (Proc.devRef .tc main_call0_v54) = W6 m ρ c (Proc.devRef .tc main_call0_v54) :=
  ((by host_keeps hostOps4) : W9 m ρ c (Proc.devRef .tc main_call0_v54) = W8 m ρ c (Proc.devRef .tc main_call0_v54)).trans (v54_at8 m ρ c)

theorem v69_at11 : W11 m ρ c (Proc.devRef .tc main_call0_v69) = W10 m ρ c (Proc.devRef .tc main_call0_v69) :=
  (by host_keeps hostOps5)
theorem v69_at12 : W12 m ρ c (Proc.devRef .tc main_call0_v69) = W10 m ρ c (Proc.devRef .tc main_call0_v69) :=
  (((W12_arr m ρ c 0).trans (((dat5 (V11 m ρ) c).arrAt_in 0 rfl _).trans (A_eq5 (V11 m ρ) c 0))) : W12 m ρ c (Proc.devRef .tc main_call0_v69) = W11 m ρ c (Proc.devRef .tc main_call0_v69)).trans (v69_at11 m ρ c)
theorem v69_at13 : W13 m ρ c (Proc.devRef .tc main_call0_v69) = W10 m ρ c (Proc.devRef .tc main_call0_v69) :=
  ((by host_keeps hostOps6) : W13 m ρ c (Proc.devRef .tc main_call0_v69) = W12 m ρ c (Proc.devRef .tc main_call0_v69)).trans (v69_at12 m ρ c)

theorem v84_at15 : W15 m ρ c (Proc.devRef .tc main_call0_v84) = W14 m ρ c (Proc.devRef .tc main_call0_v84) :=
  (by host_keeps hostOps7)

theorem v98_at17 : W17 m ρ c (Proc.devRef .tc main_call0_v98) = W16 m ρ c (Proc.devRef .tc main_call0_v98) :=
  (by host_keeps hostOps8)

theorem v101_at18 : W18 m ρ c (Proc.devRef .tc main_call0_v101) = W17 m ρ c (Proc.devRef .tc main_call0_v101) :=
  (W18_of_ne m ρ c main_call0_v101 (by decide))

end Cert.KernelIdeal.Fold

end
-- ==== Proof.FoldArgsA.lean ====
/-
  Buffers that keep their contents from one segment boundary of the program to a later one: a host stretch
  leaves a buffer none of its operations writes, and a region leaves every buffer that is not one of its
  output arrays (an input array is read, not written). Each line below walks one buffer one boundary further.
-/
import proofs.«170208_j90074054132246_2_alg».proof.Proof.FoldTac

set_option maxRecDepth 16384

noncomputable section

namespace Cert.KernelIdeal.Fold

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem arg5_at0 : W0 m ρ c (Proc.devRef .tc main_arg5) = m ((c : Thread nD τ).loc main_arg5) := rfl
theorem arg5_at1 : W1 m ρ c (Proc.devRef .tc main_arg5) = m ((c : Thread nD τ).loc main_arg5) :=
  ((by host_keeps hostOps0) : W1 m ρ c (Proc.devRef .tc main_arg5) = W0 m ρ c (Proc.devRef .tc main_arg5)).trans (arg5_at0 m ρ c)
theorem arg5_at2 : W2 m ρ c (Proc.devRef .tc main_arg5) = m ((c : Thread nD τ).loc main_arg5) :=
  ((W2_of_ne m ρ c main_arg5 (by decide)) : W2 m ρ c (Proc.devRef .tc main_arg5) = W1 m ρ c (Proc.devRef .tc main_arg5)).trans (arg5_at1 m ρ c)

theorem arg6_at0 : W0 m ρ c (Proc.devRef .tc main_arg6) = m ((c : Thread nD τ).loc main_arg6) := rfl
theorem arg6_at1 : W1 m ρ c (Proc.devRef .tc main_arg6) = m ((c : Thread nD τ).loc main_arg6) :=
  ((by host_keeps hostOps0) : W1 m ρ c (Proc.devRef .tc main_arg6) = W0 m ρ c (Proc.devRef .tc main_arg6)).trans (arg6_at0 m ρ c)
theorem arg6_at2 : W2 m ρ c (Proc.devRef .tc main_arg6) = m ((c : Thread nD τ).loc main_arg6) :=
  ((W2_of_ne m ρ c main_arg6 (by decide)) : W2 m ρ c (Proc.devRef .tc main_arg6) = W1 m ρ c (Proc.devRef .tc main_arg6)).trans (arg6_at1 m ρ c)

theorem arg7_at0 : W0 m ρ c (Proc.devRef .tc main_arg7) = m ((c : Thread nD τ).loc main_arg7) := rfl
theorem arg7_at1 : W1 m ρ c (Proc.devRef .tc main_arg7) = m ((c : Thread nD τ).loc main_arg7) :=
  ((by host_keeps hostOps0) : W1 m ρ c (Proc.devRef .tc main_arg7) = W0 m ρ c (Proc.devRef .tc main_arg7)).trans (arg7_at0 m ρ c)
theorem arg7_at2 : W2 m ρ c (Proc.devRef .tc main_arg7) = m ((c : Thread nD τ).loc main_arg7) :=
  ((W2_of_ne m ρ c main_arg7 (by decide)) : W2 m ρ c (Proc.devRef .tc main_arg7) = W1 m ρ c (Proc.devRef .tc main_arg7)).trans (arg7_at1 m ρ c)

theorem arg8_at0 : W0 m ρ c (Proc.devRef .tc main_arg8) = m ((c : Thread nD τ).loc main_arg8) := rfl
theorem arg8_at1 : W1 m ρ c (Proc.devRef .tc main_arg8) = m ((c : Thread nD τ).loc main_arg8) :=
  ((by host_keeps hostOps0) : W1 m ρ c (Proc.devRef .tc main_arg8) = W0 m ρ c (Proc.devRef .tc main_arg8)).trans (arg8_at0 m ρ c)
theorem arg8_at2 : W2 m ρ c (Proc.devRef .tc main_arg8) = m ((c : Thread nD τ).loc main_arg8) :=
  ((W2_of_ne m ρ c main_arg8 (by decide)) : W2 m ρ c (Proc.devRef .tc main_arg8) = W1 m ρ c (Proc.devRef .tc main_arg8)).trans (arg8_at1 m ρ c)
theorem arg8_at3 : W3 m ρ c (Proc.devRef .tc main_arg8) = m ((c : Thread nD τ).loc main_arg8) :=
  ((by host_keeps hostOps1) : W3 m ρ c (Proc.devRef .tc main_arg8) = W2 m ρ c (Proc.devRef .tc main_arg8)).trans (arg8_at2 m ρ c)
theorem arg8_at4 : W4 m ρ c (Proc.devRef .tc main_arg8) = m ((c : Thread nD τ).loc main_arg8) :=
  ((W4_of_ne m ρ c main_arg8 (by decide)) : W4 m ρ c (Proc.devRef .tc main_arg8) = W3 m ρ c (Proc.devRef .tc main_arg8)).trans (arg8_at3 m ρ c)

theorem arg9_at0 : W0 m ρ c (Proc.devRef .tc main_arg9) = m ((c : Thread nD τ).loc main_arg9) := rfl
theorem arg9_at1 : W1 m ρ c (Proc.devRef .tc main_arg9) = m ((c : Thread nD τ).loc main_arg9) :=
  ((by host_keeps hostOps0) : W1 m ρ c (Proc.devRef .tc main_arg9) = W0 m ρ c (Proc.devRef .tc main_arg9)).trans (arg9_at0 m ρ c)
theorem arg9_at2 : W2 m ρ c (Proc.devRef .tc main_arg9) = m ((c : Thread nD τ).loc main_arg9) :=
  ((W2_of_ne m ρ c main_arg9 (by decide)) : W2 m ρ c (Proc.devRef .tc main_arg9) = W1 m ρ c (Proc.devRef .tc main_arg9)).trans (arg9_at1 m ρ c)
theorem arg9_at3 : W3 m ρ c (Proc.devRef .tc main_arg9) = m ((c : Thread nD τ).loc main_arg9) :=
  ((by host_keeps hostOps1) : W3 m ρ c (Proc.devRef .tc main_arg9) = W2 m ρ c (Proc.devRef .tc main_arg9)).trans (arg9_at2 m ρ c)
theorem arg9_at4 : W4 m ρ c (Proc.devRef .tc main_arg9) = m ((c : Thread nD τ).loc main_arg9) :=
  ((W4_of_ne m ρ c main_arg9 (by decide)) : W4 m ρ c (Proc.devRef .tc main_arg9) = W3 m ρ c (Proc.devRef .tc main_arg9)).trans (arg9_at3 m ρ c)

theorem arg10_at0 : W0 m ρ c (Proc.devRef .tc main_arg10) = m ((c : Thread nD τ).loc main_arg10) := rfl
theorem arg10_at1 : W1 m ρ c (Proc.devRef .tc main_arg10) = m ((c : Thread nD τ).loc main_arg10) :=
  ((by host_keeps hostOps0) : W1 m ρ c (Proc.devRef .tc main_arg10) = W0 m ρ c (Proc.devRef .tc main_arg10)).trans (arg10_at0 m ρ c)
theorem arg10_at2 : W2 m ρ c (Proc.devRef .tc main_arg10) = m ((c : Thread nD τ).loc main_arg10) :=
  ((W2_of_ne m ρ c main_arg10 (by decide)) : W2 m ρ c (Proc.devRef .tc main_arg10) = W1 m ρ c (Proc.devRef .tc main_arg10)).trans (arg10_at1 m ρ c)
theorem arg10_at3 : W3 m ρ c (Proc.devRef .tc main_arg10) = m ((c : Thread nD τ).loc main_arg10) :=
  ((by host_keeps hostOps1) : W3 m ρ c (Proc.devRef .tc main_arg10) = W2 m ρ c (Proc.devRef .tc main_arg10)).trans (arg10_at2 m ρ c)
theorem arg10_at4 : W4 m ρ c (Proc.devRef .tc main_arg10) = m ((c : Thread nD τ).loc main_arg10) :=
  ((W4_of_ne m ρ c main_arg10 (by decide)) : W4 m ρ c (Proc.devRef .tc main_arg10) = W3 m ρ c (Proc.devRef .tc main_arg10)).trans (arg10_at3 m ρ c)

theorem arg11_at0 : W0 m ρ c (Proc.devRef .tc main_arg11) = m ((c : Thread nD τ).loc main_arg11) := rfl
theorem arg11_at1 : W1 m ρ c (Proc.devRef .tc main_arg11) = m ((c : Thread nD τ).loc main_arg11) :=
  ((by host_keeps hostOps0) : W1 m ρ c (Proc.devRef .tc main_arg11) = W0 m ρ c (Proc.devRef .tc main_arg11)).trans (arg11_at0 m ρ c)
theorem arg11_at2 : W2 m ρ c (Proc.devRef .tc main_arg11) = m ((c : Thread nD τ).loc main_arg11) :=
  ((W2_of_ne m ρ c main_arg11 (by decide)) : W2 m ρ c (Proc.devRef .tc main_arg11) = W1 m ρ c (Proc.devRef .tc main_arg11)).trans (arg11_at1 m ρ c)
theorem arg11_at3 : W3 m ρ c (Proc.devRef .tc main_arg11) = m ((c : Thread nD τ).loc main_arg11) :=
  ((by host_keeps hostOps1) : W3 m ρ c (Proc.devRef .tc main_arg11) = W2 m ρ c (Proc.devRef .tc main_arg11)).trans (arg11_at2 m ρ c)
theorem arg11_at4 : W4 m ρ c (Proc.devRef .tc main_arg11) = m ((c : Thread nD τ).loc main_arg11) :=
  ((W4_of_ne m ρ c main_arg11 (by decide)) : W4 m ρ c (Proc.devRef .tc main_arg11) = W3 m ρ c (Proc.devRef .tc main_arg11)).trans (arg11_at3 m ρ c)
theorem arg11_at5 : W5 m ρ c (Proc.devRef .tc main_arg11) = m ((c : Thread nD τ).loc main_arg11) :=
  ((by host_keeps hostOps2) : W5 m ρ c (Proc.devRef .tc main_arg11) = W4 m ρ c (Proc.devRef .tc main_arg11)).trans (arg11_at4 m ρ c)
theorem arg11_at6 : W6 m ρ c (Proc.devRef .tc main_arg11) = m ((c : Thread nD τ).loc main_arg11) :=
  ((W6_of_ne m ρ c main_arg11 (by decide)) : W6 m ρ c (Proc.devRef .tc main_arg11) = W5 m ρ c (Proc.devRef .tc main_arg11)).trans (arg11_at5 m ρ c)

theorem arg12_at0 : W0 m ρ c (Proc.devRef .tc main_arg12) = m ((c : Thread nD τ).loc main_arg12) := rfl
theorem arg12_at1 : W1 m ρ c (Proc.devRef .tc main_arg12) = m ((c : Thread nD τ).loc main_arg12) :=
  ((by host_keeps hostOps0) : W1 m ρ c (Proc.devRef .tc main_arg12) = W0 m ρ c (Proc.devRef .tc main_arg12)).trans (arg12_at0 m ρ c)
theorem arg12_at2 : W2 m ρ c (Proc.devRef .tc main_arg12) = m ((c : Thread nD τ).loc main_arg12) :=
  ((W2_of_ne m ρ c main_arg12 (by decide)) : W2 m ρ c (Proc.devRef .tc main_arg12) = W1 m ρ c (Proc.devRef .tc main_arg12)).trans (arg12_at1 m ρ c)
theorem arg12_at3 : W3 m ρ c (Proc.devRef .tc main_arg12) = m ((c : Thread nD τ).loc main_arg12) :=
  ((by host_keeps hostOps1) : W3 m ρ c (Proc.devRef .tc main_arg12) = W2 m ρ c (Proc.devRef .tc main_arg12)).trans (arg12_at2 m ρ c)
theorem arg12_at4 : W4 m ρ c (Proc.devRef .tc main_arg12) = m ((c : Thread nD τ).loc main_arg12) :=
  ((W4_of_ne m ρ c main_arg12 (by decide)) : W4 m ρ c (Proc.devRef .tc main_arg12) = W3 m ρ c (Proc.devRef .tc main_arg12)).trans (arg12_at3 m ρ c)
theorem arg12_at5 : W5 m ρ c (Proc.devRef .tc main_arg12) = m ((c : Thread nD τ).loc main_arg12) :=
  ((by host_keeps hostOps2) : W5 m ρ c (Proc.devRef .tc main_arg12) = W4 m ρ c (Proc.devRef .tc main_arg12)).trans (arg12_at4 m ρ c)
theorem arg12_at6 : W6 m ρ c (Proc.devRef .tc main_arg12) = m ((c : Thread nD τ).loc main_arg12) :=
  ((W6_of_ne m ρ c main_arg12 (by decide)) : W6 m ρ c (Proc.devRef .tc main_arg12) = W5 m ρ c (Proc.devRef .tc main_arg12)).trans (arg12_at5 m ρ c)
theorem arg12_at7 : W7 m ρ c (Proc.devRef .tc main_arg12) = m ((c : Thread nD τ).loc main_arg12) :=
  ((by host_keeps hostOps3) : W7 m ρ c (Proc.devRef .tc main_arg12) = W6 m ρ c (Proc.devRef .tc main_arg12)).trans (arg12_at6 m ρ c)
theorem arg12_at8 : W8 m ρ c (Proc.devRef .tc main_arg12) = m ((c : Thread nD τ).loc main_arg12) :=
  ((W8_of_ne m ρ c main_arg12 (by decide)) : W8 m ρ c (Proc.devRef .tc main_arg12) = W7 m ρ c (Proc.devRef .tc main_arg12)).trans (arg12_at7 m ρ c)

theorem arg13_at0 : W0 m ρ c (Proc.devRef .tc main_arg13) = m ((c : Thread nD τ).loc main_arg13) := rfl
theorem arg13_at1 : W1 m ρ c (Proc.devRef .tc main_arg13) = m ((c : Thread nD τ).loc main_arg13) :=
  ((by host_keeps hostOps0) : W1 m ρ c (Proc.devRef .tc main_arg13) = W0 m ρ c (Proc.devRef .tc main_arg13)).trans (arg13_at0 m ρ c)
theorem arg13_at2 : W2 m ρ c (Proc.devRef .tc main_arg13) = m ((c : Thread nD τ).loc main_arg13) :=
  ((W2_of_ne m ρ c main_arg13 (by decide)) : W2 m ρ c (Proc.devRef .tc main_arg13) = W1 m ρ c (Proc.devRef .tc main_arg13)).trans (arg13_at1 m ρ c)
theorem arg13_at3 : W3 m ρ c (Proc.devRef .tc main_arg13) = m ((c : Thread nD τ).loc main_arg13) :=
  ((by host_keeps hostOps1) : W3 m ρ c (Proc.devRef .tc main_arg13) = W2 m ρ c (Proc.devRef .tc main_arg13)).trans (arg13_at2 m ρ c)
theorem arg13_at4 : W4 m ρ c (Proc.devRef .tc main_arg13) = m ((c : Thread nD τ).loc main_arg13) :=
  ((W4_of_ne m ρ c main_arg13 (by decide)) : W4 m ρ c (Proc.devRef .tc main_arg13) = W3 m ρ c (Proc.devRef .tc main_arg13)).trans (arg13_at3 m ρ c)
theorem arg13_at5 : W5 m ρ c (Proc.devRef .tc main_arg13) = m ((c : Thread nD τ).loc main_arg13) :=
  ((by host_keeps hostOps2) : W5 m ρ c (Proc.devRef .tc main_arg13) = W4 m ρ c (Proc.devRef .tc main_arg13)).trans (arg13_at4 m ρ c)
theorem arg13_at6 : W6 m ρ c (Proc.devRef .tc main_arg13) = m ((c : Thread nD τ).loc main_arg13) :=
  ((W6_of_ne m ρ c main_arg13 (by decide)) : W6 m ρ c (Proc.devRef .tc main_arg13) = W5 m ρ c (Proc.devRef .tc main_arg13)).trans (arg13_at5 m ρ c)
theorem arg13_at7 : W7 m ρ c (Proc.devRef .tc main_arg13) = m ((c : Thread nD τ).loc main_arg13) :=
  ((by host_keeps hostOps3) : W7 m ρ c (Proc.devRef .tc main_arg13) = W6 m ρ c (Proc.devRef .tc main_arg13)).trans (arg13_at6 m ρ c)
theorem arg13_at8 : W8 m ρ c (Proc.devRef .tc main_arg13) = m ((c : Thread nD τ).loc main_arg13) :=
  ((W8_of_ne m ρ c main_arg13 (by decide)) : W8 m ρ c (Proc.devRef .tc main_arg13) = W7 m ρ c (Proc.devRef .tc main_arg13)).trans (arg13_at7 m ρ c)

theorem arg14_at0 : W0 m ρ c (Proc.devRef .tc main_arg14) = m ((c : Thread nD τ).loc main_arg14) := rfl
theorem arg14_at1 : W1 m ρ c (Proc.devRef .tc main_arg14) = m ((c : Thread nD τ).loc main_arg14) :=
  ((by host_keeps hostOps0) : W1 m ρ c (Proc.devRef .tc main_arg14) = W0 m ρ c (Proc.devRef .tc main_arg14)).trans (arg14_at0 m ρ c)
theorem arg14_at2 : W2 m ρ c (Proc.devRef .tc main_arg14) = m ((c : Thread nD τ).loc main_arg14) :=
  ((W2_of_ne m ρ c main_arg14 (by decide)) : W2 m ρ c (Proc.devRef .tc main_arg14) = W1 m ρ c (Proc.devRef .tc main_arg14)).trans (arg14_at1 m ρ c)
theorem arg14_at3 : W3 m ρ c (Proc.devRef .tc main_arg14) = m ((c : Thread nD τ).loc main_arg14) :=
  ((by host_keeps hostOps1) : W3 m ρ c (Proc.devRef .tc main_arg14) = W2 m ρ c (Proc.devRef .tc main_arg14)).trans (arg14_at2 m ρ c)
theorem arg14_at4 : W4 m ρ c (Proc.devRef .tc main_arg14) = m ((c : Thread nD τ).loc main_arg14) :=
  ((W4_of_ne m ρ c main_arg14 (by decide)) : W4 m ρ c (Proc.devRef .tc main_arg14) = W3 m ρ c (Proc.devRef .tc main_arg14)).trans (arg14_at3 m ρ c)
theorem arg14_at5 : W5 m ρ c (Proc.devRef .tc main_arg14) = m ((c : Thread nD τ).loc main_arg14) :=
  ((by host_keeps hostOps2) : W5 m ρ c (Proc.devRef .tc main_arg14) = W4 m ρ c (Proc.devRef .tc main_arg14)).trans (arg14_at4 m ρ c)
theorem arg14_at6 : W6 m ρ c (Proc.devRef .tc main_arg14) = m ((c : Thread nD τ).loc main_arg14) :=
  ((W6_of_ne m ρ c main_arg14 (by decide)) : W6 m ρ c (Proc.devRef .tc main_arg14) = W5 m ρ c (Proc.devRef .tc main_arg14)).trans (arg14_at5 m ρ c)
theorem arg14_at7 : W7 m ρ c (Proc.devRef .tc main_arg14) = m ((c : Thread nD τ).loc main_arg14) :=
  ((by host_keeps hostOps3) : W7 m ρ c (Proc.devRef .tc main_arg14) = W6 m ρ c (Proc.devRef .tc main_arg14)).trans (arg14_at6 m ρ c)
theorem arg14_at8 : W8 m ρ c (Proc.devRef .tc main_arg14) = m ((c : Thread nD τ).loc main_arg14) :=
  ((W8_of_ne m ρ c main_arg14 (by decide)) : W8 m ρ c (Proc.devRef .tc main_arg14) = W7 m ρ c (Proc.devRef .tc main_arg14)).trans (arg14_at7 m ρ c)
theorem arg14_at9 : W9 m ρ c (Proc.devRef .tc main_arg14) = m ((c : Thread nD τ).loc main_arg14) :=
  ((by host_keeps hostOps4) : W9 m ρ c (Proc.devRef .tc main_arg14) = W8 m ρ c (Proc.devRef .tc main_arg14)).trans (arg14_at8 m ρ c)
theorem arg14_at10 : W10 m ρ c (Proc.devRef .tc main_arg14) = m ((c : Thread nD τ).loc main_arg14) :=
  ((W10_of_ne m ρ c main_arg14 (by decide)) : W10 m ρ c (Proc.devRef .tc main_arg14) = W9 m ρ c (Proc.devRef .tc main_arg14)).trans (arg14_at9 m ρ c)

end Cert.KernelIdeal.Fold

end
-- ==== Proof.FoldArgsB.lean ====
/-
  Buffers that keep their contents from one segment boundary of the program to a later one: a host stretch
  leaves a buffer none of its operations writes, and a region leaves every buffer that is not one of its
  output arrays (an input array is read, not written). Each line below walks one buffer one boundary further.
-/
import proofs.«170208_j90074054132246_2_alg».proof.Proof.FoldTac

set_option maxRecDepth 16384

noncomputable section

namespace Cert.KernelIdeal.Fold

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem arg15_at0 : W0 m ρ c (Proc.devRef .tc main_arg15) = m ((c : Thread nD τ).loc main_arg15) := rfl
theorem arg15_at1 : W1 m ρ c (Proc.devRef .tc main_arg15) = m ((c : Thread nD τ).loc main_arg15) :=
  ((by host_keeps hostOps0) : W1 m ρ c (Proc.devRef .tc main_arg15) = W0 m ρ c (Proc.devRef .tc main_arg15)).trans (arg15_at0 m ρ c)
theorem arg15_at2 : W2 m ρ c (Proc.devRef .tc main_arg15) = m ((c : Thread nD τ).loc main_arg15) :=
  ((W2_of_ne m ρ c main_arg15 (by decide)) : W2 m ρ c (Proc.devRef .tc main_arg15) = W1 m ρ c (Proc.devRef .tc main_arg15)).trans (arg15_at1 m ρ c)
theorem arg15_at3 : W3 m ρ c (Proc.devRef .tc main_arg15) = m ((c : Thread nD τ).loc main_arg15) :=
  ((by host_keeps hostOps1) : W3 m ρ c (Proc.devRef .tc main_arg15) = W2 m ρ c (Proc.devRef .tc main_arg15)).trans (arg15_at2 m ρ c)
theorem arg15_at4 : W4 m ρ c (Proc.devRef .tc main_arg15) = m ((c : Thread nD τ).loc main_arg15) :=
  ((W4_of_ne m ρ c main_arg15 (by decide)) : W4 m ρ c (Proc.devRef .tc main_arg15) = W3 m ρ c (Proc.devRef .tc main_arg15)).trans (arg15_at3 m ρ c)
theorem arg15_at5 : W5 m ρ c (Proc.devRef .tc main_arg15) = m ((c : Thread nD τ).loc main_arg15) :=
  ((by host_keeps hostOps2) : W5 m ρ c (Proc.devRef .tc main_arg15) = W4 m ρ c (Proc.devRef .tc main_arg15)).trans (arg15_at4 m ρ c)
theorem arg15_at6 : W6 m ρ c (Proc.devRef .tc main_arg15) = m ((c : Thread nD τ).loc main_arg15) :=
  ((W6_of_ne m ρ c main_arg15 (by decide)) : W6 m ρ c (Proc.devRef .tc main_arg15) = W5 m ρ c (Proc.devRef .tc main_arg15)).trans (arg15_at5 m ρ c)
theorem arg15_at7 : W7 m ρ c (Proc.devRef .tc main_arg15) = m ((c : Thread nD τ).loc main_arg15) :=
  ((by host_keeps hostOps3) : W7 m ρ c (Proc.devRef .tc main_arg15) = W6 m ρ c (Proc.devRef .tc main_arg15)).trans (arg15_at6 m ρ c)
theorem arg15_at8 : W8 m ρ c (Proc.devRef .tc main_arg15) = m ((c : Thread nD τ).loc main_arg15) :=
  ((W8_of_ne m ρ c main_arg15 (by decide)) : W8 m ρ c (Proc.devRef .tc main_arg15) = W7 m ρ c (Proc.devRef .tc main_arg15)).trans (arg15_at7 m ρ c)
theorem arg15_at9 : W9 m ρ c (Proc.devRef .tc main_arg15) = m ((c : Thread nD τ).loc main_arg15) :=
  ((by host_keeps hostOps4) : W9 m ρ c (Proc.devRef .tc main_arg15) = W8 m ρ c (Proc.devRef .tc main_arg15)).trans (arg15_at8 m ρ c)
theorem arg15_at10 : W10 m ρ c (Proc.devRef .tc main_arg15) = m ((c : Thread nD τ).loc main_arg15) :=
  ((W10_of_ne m ρ c main_arg15 (by decide)) : W10 m ρ c (Proc.devRef .tc main_arg15) = W9 m ρ c (Proc.devRef .tc main_arg15)).trans (arg15_at9 m ρ c)
theorem arg15_at11 : W11 m ρ c (Proc.devRef .tc main_arg15) = m ((c : Thread nD τ).loc main_arg15) :=
  ((by host_keeps hostOps5) : W11 m ρ c (Proc.devRef .tc main_arg15) = W10 m ρ c (Proc.devRef .tc main_arg15)).trans (arg15_at10 m ρ c)
theorem arg15_at12 : W12 m ρ c (Proc.devRef .tc main_arg15) = m ((c : Thread nD τ).loc main_arg15) :=
  ((W12_of_ne m ρ c main_arg15 (by decide)) : W12 m ρ c (Proc.devRef .tc main_arg15) = W11 m ρ c (Proc.devRef .tc main_arg15)).trans (arg15_at11 m ρ c)

theorem arg16_at0 : W0 m ρ c (Proc.devRef .tc main_arg16) = m ((c : Thread nD τ).loc main_arg16) := rfl
theorem arg16_at1 : W1 m ρ c (Proc.devRef .tc main_arg16) = m ((c : Thread nD τ).loc main_arg16) :=
  ((by host_keeps hostOps0) : W1 m ρ c (Proc.devRef .tc main_arg16) = W0 m ρ c (Proc.devRef .tc main_arg16)).trans (arg16_at0 m ρ c)
theorem arg16_at2 : W2 m ρ c (Proc.devRef .tc main_arg16) = m ((c : Thread nD τ).loc main_arg16) :=
  ((W2_of_ne m ρ c main_arg16 (by decide)) : W2 m ρ c (Proc.devRef .tc main_arg16) = W1 m ρ c (Proc.devRef .tc main_arg16)).trans (arg16_at1 m ρ c)
theorem arg16_at3 : W3 m ρ c (Proc.devRef .tc main_arg16) = m ((c : Thread nD τ).loc main_arg16) :=
  ((by host_keeps hostOps1) : W3 m ρ c (Proc.devRef .tc main_arg16) = W2 m ρ c (Proc.devRef .tc main_arg16)).trans (arg16_at2 m ρ c)
theorem arg16_at4 : W4 m ρ c (Proc.devRef .tc main_arg16) = m ((c : Thread nD τ).loc main_arg16) :=
  ((W4_of_ne m ρ c main_arg16 (by decide)) : W4 m ρ c (Proc.devRef .tc main_arg16) = W3 m ρ c (Proc.devRef .tc main_arg16)).trans (arg16_at3 m ρ c)
theorem arg16_at5 : W5 m ρ c (Proc.devRef .tc main_arg16) = m ((c : Thread nD τ).loc main_arg16) :=
  ((by host_keeps hostOps2) : W5 m ρ c (Proc.devRef .tc main_arg16) = W4 m ρ c (Proc.devRef .tc main_arg16)).trans (arg16_at4 m ρ c)
theorem arg16_at6 : W6 m ρ c (Proc.devRef .tc main_arg16) = m ((c : Thread nD τ).loc main_arg16) :=
  ((W6_of_ne m ρ c main_arg16 (by decide)) : W6 m ρ c (Proc.devRef .tc main_arg16) = W5 m ρ c (Proc.devRef .tc main_arg16)).trans (arg16_at5 m ρ c)
theorem arg16_at7 : W7 m ρ c (Proc.devRef .tc main_arg16) = m ((c : Thread nD τ).loc main_arg16) :=
  ((by host_keeps hostOps3) : W7 m ρ c (Proc.devRef .tc main_arg16) = W6 m ρ c (Proc.devRef .tc main_arg16)).trans (arg16_at6 m ρ c)
theorem arg16_at8 : W8 m ρ c (Proc.devRef .tc main_arg16) = m ((c : Thread nD τ).loc main_arg16) :=
  ((W8_of_ne m ρ c main_arg16 (by decide)) : W8 m ρ c (Proc.devRef .tc main_arg16) = W7 m ρ c (Proc.devRef .tc main_arg16)).trans (arg16_at7 m ρ c)
theorem arg16_at9 : W9 m ρ c (Proc.devRef .tc main_arg16) = m ((c : Thread nD τ).loc main_arg16) :=
  ((by host_keeps hostOps4) : W9 m ρ c (Proc.devRef .tc main_arg16) = W8 m ρ c (Proc.devRef .tc main_arg16)).trans (arg16_at8 m ρ c)
theorem arg16_at10 : W10 m ρ c (Proc.devRef .tc main_arg16) = m ((c : Thread nD τ).loc main_arg16) :=
  ((W10_of_ne m ρ c main_arg16 (by decide)) : W10 m ρ c (Proc.devRef .tc main_arg16) = W9 m ρ c (Proc.devRef .tc main_arg16)).trans (arg16_at9 m ρ c)
theorem arg16_at11 : W11 m ρ c (Proc.devRef .tc main_arg16) = m ((c : Thread nD τ).loc main_arg16) :=
  ((by host_keeps hostOps5) : W11 m ρ c (Proc.devRef .tc main_arg16) = W10 m ρ c (Proc.devRef .tc main_arg16)).trans (arg16_at10 m ρ c)
theorem arg16_at12 : W12 m ρ c (Proc.devRef .tc main_arg16) = m ((c : Thread nD τ).loc main_arg16) :=
  ((W12_of_ne m ρ c main_arg16 (by decide)) : W12 m ρ c (Proc.devRef .tc main_arg16) = W11 m ρ c (Proc.devRef .tc main_arg16)).trans (arg16_at11 m ρ c)

theorem arg17_at0 : W0 m ρ c (Proc.devRef .tc main_arg17) = m ((c : Thread nD τ).loc main_arg17) := rfl
theorem arg17_at1 : W1 m ρ c (Proc.devRef .tc main_arg17) = m ((c : Thread nD τ).loc main_arg17) :=
  ((by host_keeps hostOps0) : W1 m ρ c (Proc.devRef .tc main_arg17) = W0 m ρ c (Proc.devRef .tc main_arg17)).trans (arg17_at0 m ρ c)
theorem arg17_at2 : W2 m ρ c (Proc.devRef .tc main_arg17) = m ((c : Thread nD τ).loc main_arg17) :=
  ((W2_of_ne m ρ c main_arg17 (by decide)) : W2 m ρ c (Proc.devRef .tc main_arg17) = W1 m ρ c (Proc.devRef .tc main_arg17)).trans (arg17_at1 m ρ c)
theorem arg17_at3 : W3 m ρ c (Proc.devRef .tc main_arg17) = m ((c : Thread nD τ).loc main_arg17) :=
  ((by host_keeps hostOps1) : W3 m ρ c (Proc.devRef .tc main_arg17) = W2 m ρ c (Proc.devRef .tc main_arg17)).trans (arg17_at2 m ρ c)
theorem arg17_at4 : W4 m ρ c (Proc.devRef .tc main_arg17) = m ((c : Thread nD τ).loc main_arg17) :=
  ((W4_of_ne m ρ c main_arg17 (by decide)) : W4 m ρ c (Proc.devRef .tc main_arg17) = W3 m ρ c (Proc.devRef .tc main_arg17)).trans (arg17_at3 m ρ c)
theorem arg17_at5 : W5 m ρ c (Proc.devRef .tc main_arg17) = m ((c : Thread nD τ).loc main_arg17) :=
  ((by host_keeps hostOps2) : W5 m ρ c (Proc.devRef .tc main_arg17) = W4 m ρ c (Proc.devRef .tc main_arg17)).trans (arg17_at4 m ρ c)
theorem arg17_at6 : W6 m ρ c (Proc.devRef .tc main_arg17) = m ((c : Thread nD τ).loc main_arg17) :=
  ((W6_of_ne m ρ c main_arg17 (by decide)) : W6 m ρ c (Proc.devRef .tc main_arg17) = W5 m ρ c (Proc.devRef .tc main_arg17)).trans (arg17_at5 m ρ c)
theorem arg17_at7 : W7 m ρ c (Proc.devRef .tc main_arg17) = m ((c : Thread nD τ).loc main_arg17) :=
  ((by host_keeps hostOps3) : W7 m ρ c (Proc.devRef .tc main_arg17) = W6 m ρ c (Proc.devRef .tc main_arg17)).trans (arg17_at6 m ρ c)
theorem arg17_at8 : W8 m ρ c (Proc.devRef .tc main_arg17) = m ((c : Thread nD τ).loc main_arg17) :=
  ((W8_of_ne m ρ c main_arg17 (by decide)) : W8 m ρ c (Proc.devRef .tc main_arg17) = W7 m ρ c (Proc.devRef .tc main_arg17)).trans (arg17_at7 m ρ c)
theorem arg17_at9 : W9 m ρ c (Proc.devRef .tc main_arg17) = m ((c : Thread nD τ).loc main_arg17) :=
  ((by host_keeps hostOps4) : W9 m ρ c (Proc.devRef .tc main_arg17) = W8 m ρ c (Proc.devRef .tc main_arg17)).trans (arg17_at8 m ρ c)
theorem arg17_at10 : W10 m ρ c (Proc.devRef .tc main_arg17) = m ((c : Thread nD τ).loc main_arg17) :=
  ((W10_of_ne m ρ c main_arg17 (by decide)) : W10 m ρ c (Proc.devRef .tc main_arg17) = W9 m ρ c (Proc.devRef .tc main_arg17)).trans (arg17_at9 m ρ c)
theorem arg17_at11 : W11 m ρ c (Proc.devRef .tc main_arg17) = m ((c : Thread nD τ).loc main_arg17) :=
  ((by host_keeps hostOps5) : W11 m ρ c (Proc.devRef .tc main_arg17) = W10 m ρ c (Proc.devRef .tc main_arg17)).trans (arg17_at10 m ρ c)
theorem arg17_at12 : W12 m ρ c (Proc.devRef .tc main_arg17) = m ((c : Thread nD τ).loc main_arg17) :=
  ((W12_of_ne m ρ c main_arg17 (by decide)) : W12 m ρ c (Proc.devRef .tc main_arg17) = W11 m ρ c (Proc.devRef .tc main_arg17)).trans (arg17_at11 m ρ c)
theorem arg17_at13 : W13 m ρ c (Proc.devRef .tc main_arg17) = m ((c : Thread nD τ).loc main_arg17) :=
  ((by host_keeps hostOps6) : W13 m ρ c (Proc.devRef .tc main_arg17) = W12 m ρ c (Proc.devRef .tc main_arg17)).trans (arg17_at12 m ρ c)
theorem arg17_at14 : W14 m ρ c (Proc.devRef .tc main_arg17) = m ((c : Thread nD τ).loc main_arg17) :=
  ((W14_of_ne m ρ c main_arg17 (by decide)) : W14 m ρ c (Proc.devRef .tc main_arg17) = W13 m ρ c (Proc.devRef .tc main_arg17)).trans (arg17_at13 m ρ c)

theorem arg18_at0 : W0 m ρ c (Proc.devRef .tc main_arg18) = m ((c : Thread nD τ).loc main_arg18) := rfl
theorem arg18_at1 : W1 m ρ c (Proc.devRef .tc main_arg18) = m ((c : Thread nD τ).loc main_arg18) :=
  ((by host_keeps hostOps0) : W1 m ρ c (Proc.devRef .tc main_arg18) = W0 m ρ c (Proc.devRef .tc main_arg18)).trans (arg18_at0 m ρ c)
theorem arg18_at2 : W2 m ρ c (Proc.devRef .tc main_arg18) = m ((c : Thread nD τ).loc main_arg18) :=
  ((W2_of_ne m ρ c main_arg18 (by decide)) : W2 m ρ c (Proc.devRef .tc main_arg18) = W1 m ρ c (Proc.devRef .tc main_arg18)).trans (arg18_at1 m ρ c)
theorem arg18_at3 : W3 m ρ c (Proc.devRef .tc main_arg18) = m ((c : Thread nD τ).loc main_arg18) :=
  ((by host_keeps hostOps1) : W3 m ρ c (Proc.devRef .tc main_arg18) = W2 m ρ c (Proc.devRef .tc main_arg18)).trans (arg18_at2 m ρ c)
theorem arg18_at4 : W4 m ρ c (Proc.devRef .tc main_arg18) = m ((c : Thread nD τ).loc main_arg18) :=
  ((W4_of_ne m ρ c main_arg18 (by decide)) : W4 m ρ c (Proc.devRef .tc main_arg18) = W3 m ρ c (Proc.devRef .tc main_arg18)).trans (arg18_at3 m ρ c)
theorem arg18_at5 : W5 m ρ c (Proc.devRef .tc main_arg18) = m ((c : Thread nD τ).loc main_arg18) :=
  ((by host_keeps hostOps2) : W5 m ρ c (Proc.devRef .tc main_arg18) = W4 m ρ c (Proc.devRef .tc main_arg18)).trans (arg18_at4 m ρ c)
theorem arg18_at6 : W6 m ρ c (Proc.devRef .tc main_arg18) = m ((c : Thread nD τ).loc main_arg18) :=
  ((W6_of_ne m ρ c main_arg18 (by decide)) : W6 m ρ c (Proc.devRef .tc main_arg18) = W5 m ρ c (Proc.devRef .tc main_arg18)).trans (arg18_at5 m ρ c)
theorem arg18_at7 : W7 m ρ c (Proc.devRef .tc main_arg18) = m ((c : Thread nD τ).loc main_arg18) :=
  ((by host_keeps hostOps3) : W7 m ρ c (Proc.devRef .tc main_arg18) = W6 m ρ c (Proc.devRef .tc main_arg18)).trans (arg18_at6 m ρ c)
theorem arg18_at8 : W8 m ρ c (Proc.devRef .tc main_arg18) = m ((c : Thread nD τ).loc main_arg18) :=
  ((W8_of_ne m ρ c main_arg18 (by decide)) : W8 m ρ c (Proc.devRef .tc main_arg18) = W7 m ρ c (Proc.devRef .tc main_arg18)).trans (arg18_at7 m ρ c)
theorem arg18_at9 : W9 m ρ c (Proc.devRef .tc main_arg18) = m ((c : Thread nD τ).loc main_arg18) :=
  ((by host_keeps hostOps4) : W9 m ρ c (Proc.devRef .tc main_arg18) = W8 m ρ c (Proc.devRef .tc main_arg18)).trans (arg18_at8 m ρ c)
theorem arg18_at10 : W10 m ρ c (Proc.devRef .tc main_arg18) = m ((c : Thread nD τ).loc main_arg18) :=
  ((W10_of_ne m ρ c main_arg18 (by decide)) : W10 m ρ c (Proc.devRef .tc main_arg18) = W9 m ρ c (Proc.devRef .tc main_arg18)).trans (arg18_at9 m ρ c)
theorem arg18_at11 : W11 m ρ c (Proc.devRef .tc main_arg18) = m ((c : Thread nD τ).loc main_arg18) :=
  ((by host_keeps hostOps5) : W11 m ρ c (Proc.devRef .tc main_arg18) = W10 m ρ c (Proc.devRef .tc main_arg18)).trans (arg18_at10 m ρ c)
theorem arg18_at12 : W12 m ρ c (Proc.devRef .tc main_arg18) = m ((c : Thread nD τ).loc main_arg18) :=
  ((W12_of_ne m ρ c main_arg18 (by decide)) : W12 m ρ c (Proc.devRef .tc main_arg18) = W11 m ρ c (Proc.devRef .tc main_arg18)).trans (arg18_at11 m ρ c)
theorem arg18_at13 : W13 m ρ c (Proc.devRef .tc main_arg18) = m ((c : Thread nD τ).loc main_arg18) :=
  ((by host_keeps hostOps6) : W13 m ρ c (Proc.devRef .tc main_arg18) = W12 m ρ c (Proc.devRef .tc main_arg18)).trans (arg18_at12 m ρ c)
theorem arg18_at14 : W14 m ρ c (Proc.devRef .tc main_arg18) = m ((c : Thread nD τ).loc main_arg18) :=
  ((W14_of_ne m ρ c main_arg18 (by decide)) : W14 m ρ c (Proc.devRef .tc main_arg18) = W13 m ρ c (Proc.devRef .tc main_arg18)).trans (arg18_at13 m ρ c)

theorem arg19_at0 : W0 m ρ c (Proc.devRef .tc main_arg19) = m ((c : Thread nD τ).loc main_arg19) := rfl
theorem arg19_at1 : W1 m ρ c (Proc.devRef .tc main_arg19) = m ((c : Thread nD τ).loc main_arg19) :=
  ((by host_keeps hostOps0) : W1 m ρ c (Proc.devRef .tc main_arg19) = W0 m ρ c (Proc.devRef .tc main_arg19)).trans (arg19_at0 m ρ c)
theorem arg19_at2 : W2 m ρ c (Proc.devRef .tc main_arg19) = m ((c : Thread nD τ).loc main_arg19) :=
  ((W2_of_ne m ρ c main_arg19 (by decide)) : W2 m ρ c (Proc.devRef .tc main_arg19) = W1 m ρ c (Proc.devRef .tc main_arg19)).trans (arg19_at1 m ρ c)
theorem arg19_at3 : W3 m ρ c (Proc.devRef .tc main_arg19) = m ((c : Thread nD τ).loc main_arg19) :=
  ((by host_keeps hostOps1) : W3 m ρ c (Proc.devRef .tc main_arg19) = W2 m ρ c (Proc.devRef .tc main_arg19)).trans (arg19_at2 m ρ c)
theorem arg19_at4 : W4 m ρ c (Proc.devRef .tc main_arg19) = m ((c : Thread nD τ).loc main_arg19) :=
  ((W4_of_ne m ρ c main_arg19 (by decide)) : W4 m ρ c (Proc.devRef .tc main_arg19) = W3 m ρ c (Proc.devRef .tc main_arg19)).trans (arg19_at3 m ρ c)
theorem arg19_at5 : W5 m ρ c (Proc.devRef .tc main_arg19) = m ((c : Thread nD τ).loc main_arg19) :=
  ((by host_keeps hostOps2) : W5 m ρ c (Proc.devRef .tc main_arg19) = W4 m ρ c (Proc.devRef .tc main_arg19)).trans (arg19_at4 m ρ c)
theorem arg19_at6 : W6 m ρ c (Proc.devRef .tc main_arg19) = m ((c : Thread nD τ).loc main_arg19) :=
  ((W6_of_ne m ρ c main_arg19 (by decide)) : W6 m ρ c (Proc.devRef .tc main_arg19) = W5 m ρ c (Proc.devRef .tc main_arg19)).trans (arg19_at5 m ρ c)
theorem arg19_at7 : W7 m ρ c (Proc.devRef .tc main_arg19) = m ((c : Thread nD τ).loc main_arg19) :=
  ((by host_keeps hostOps3) : W7 m ρ c (Proc.devRef .tc main_arg19) = W6 m ρ c (Proc.devRef .tc main_arg19)).trans (arg19_at6 m ρ c)
theorem arg19_at8 : W8 m ρ c (Proc.devRef .tc main_arg19) = m ((c : Thread nD τ).loc main_arg19) :=
  ((W8_of_ne m ρ c main_arg19 (by decide)) : W8 m ρ c (Proc.devRef .tc main_arg19) = W7 m ρ c (Proc.devRef .tc main_arg19)).trans (arg19_at7 m ρ c)
theorem arg19_at9 : W9 m ρ c (Proc.devRef .tc main_arg19) = m ((c : Thread nD τ).loc main_arg19) :=
  ((by host_keeps hostOps4) : W9 m ρ c (Proc.devRef .tc main_arg19) = W8 m ρ c (Proc.devRef .tc main_arg19)).trans (arg19_at8 m ρ c)
theorem arg19_at10 : W10 m ρ c (Proc.devRef .tc main_arg19) = m ((c : Thread nD τ).loc main_arg19) :=
  ((W10_of_ne m ρ c main_arg19 (by decide)) : W10 m ρ c (Proc.devRef .tc main_arg19) = W9 m ρ c (Proc.devRef .tc main_arg19)).trans (arg19_at9 m ρ c)
theorem arg19_at11 : W11 m ρ c (Proc.devRef .tc main_arg19) = m ((c : Thread nD τ).loc main_arg19) :=
  ((by host_keeps hostOps5) : W11 m ρ c (Proc.devRef .tc main_arg19) = W10 m ρ c (Proc.devRef .tc main_arg19)).trans (arg19_at10 m ρ c)
theorem arg19_at12 : W12 m ρ c (Proc.devRef .tc main_arg19) = m ((c : Thread nD τ).loc main_arg19) :=
  ((W12_of_ne m ρ c main_arg19 (by decide)) : W12 m ρ c (Proc.devRef .tc main_arg19) = W11 m ρ c (Proc.devRef .tc main_arg19)).trans (arg19_at11 m ρ c)
theorem arg19_at13 : W13 m ρ c (Proc.devRef .tc main_arg19) = m ((c : Thread nD τ).loc main_arg19) :=
  ((by host_keeps hostOps6) : W13 m ρ c (Proc.devRef .tc main_arg19) = W12 m ρ c (Proc.devRef .tc main_arg19)).trans (arg19_at12 m ρ c)
theorem arg19_at14 : W14 m ρ c (Proc.devRef .tc main_arg19) = m ((c : Thread nD τ).loc main_arg19) :=
  ((W14_of_ne m ρ c main_arg19 (by decide)) : W14 m ρ c (Proc.devRef .tc main_arg19) = W13 m ρ c (Proc.devRef .tc main_arg19)).trans (arg19_at13 m ρ c)

end Cert.KernelIdeal.Fold

end
-- ==== Proof.FoldArgsC.lean ====
/-
  Buffers that keep their contents from one segment boundary of the program to a later one: a host stretch
  leaves a buffer none of its operations writes, and a region leaves every buffer that is not one of its
  output arrays (an input array is read, not written). Each line below walks one buffer one boundary further.
-/
import proofs.«170208_j90074054132246_2_alg».proof.Proof.FoldTac

set_option maxRecDepth 16384

noncomputable section

namespace Cert.KernelIdeal.Fold

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

theorem arg20_at0 : W0 m ρ c (Proc.devRef .tc main_arg20) = m ((c : Thread nD τ).loc main_arg20) := rfl
theorem arg20_at1 : W1 m ρ c (Proc.devRef .tc main_arg20) = m ((c : Thread nD τ).loc main_arg20) :=
  ((by host_keeps hostOps0) : W1 m ρ c (Proc.devRef .tc main_arg20) = W0 m ρ c (Proc.devRef .tc main_arg20)).trans (arg20_at0 m ρ c)
theorem arg20_at2 : W2 m ρ c (Proc.devRef .tc main_arg20) = m ((c : Thread nD τ).loc main_arg20) :=
  ((W2_of_ne m ρ c main_arg20 (by decide)) : W2 m ρ c (Proc.devRef .tc main_arg20) = W1 m ρ c (Proc.devRef .tc main_arg20)).trans (arg20_at1 m ρ c)
theorem arg20_at3 : W3 m ρ c (Proc.devRef .tc main_arg20) = m ((c : Thread nD τ).loc main_arg20) :=
  ((by host_keeps hostOps1) : W3 m ρ c (Proc.devRef .tc main_arg20) = W2 m ρ c (Proc.devRef .tc main_arg20)).trans (arg20_at2 m ρ c)
theorem arg20_at4 : W4 m ρ c (Proc.devRef .tc main_arg20) = m ((c : Thread nD τ).loc main_arg20) :=
  ((W4_of_ne m ρ c main_arg20 (by decide)) : W4 m ρ c (Proc.devRef .tc main_arg20) = W3 m ρ c (Proc.devRef .tc main_arg20)).trans (arg20_at3 m ρ c)
theorem arg20_at5 : W5 m ρ c (Proc.devRef .tc main_arg20) = m ((c : Thread nD τ).loc main_arg20) :=
  ((by host_keeps hostOps2) : W5 m ρ c (Proc.devRef .tc main_arg20) = W4 m ρ c (Proc.devRef .tc main_arg20)).trans (arg20_at4 m ρ c)
theorem arg20_at6 : W6 m ρ c (Proc.devRef .tc main_arg20) = m ((c : Thread nD τ).loc main_arg20) :=
  ((W6_of_ne m ρ c main_arg20 (by decide)) : W6 m ρ c (Proc.devRef .tc main_arg20) = W5 m ρ c (Proc.devRef .tc main_arg20)).trans (arg20_at5 m ρ c)
theorem arg20_at7 : W7 m ρ c (Proc.devRef .tc main_arg20) = m ((c : Thread nD τ).loc main_arg20) :=
  ((by host_keeps hostOps3) : W7 m ρ c (Proc.devRef .tc main_arg20) = W6 m ρ c (Proc.devRef .tc main_arg20)).trans (arg20_at6 m ρ c)
theorem arg20_at8 : W8 m ρ c (Proc.devRef .tc main_arg20) = m ((c : Thread nD τ).loc main_arg20) :=
  ((W8_of_ne m ρ c main_arg20 (by decide)) : W8 m ρ c (Proc.devRef .tc main_arg20) = W7 m ρ c (Proc.devRef .tc main_arg20)).trans (arg20_at7 m ρ c)
theorem arg20_at9 : W9 m ρ c (Proc.devRef .tc main_arg20) = m ((c : Thread nD τ).loc main_arg20) :=
  ((by host_keeps hostOps4) : W9 m ρ c (Proc.devRef .tc main_arg20) = W8 m ρ c (Proc.devRef .tc main_arg20)).trans (arg20_at8 m ρ c)
theorem arg20_at10 : W10 m ρ c (Proc.devRef .tc main_arg20) = m ((c : Thread nD τ).loc main_arg20) :=
  ((W10_of_ne m ρ c main_arg20 (by decide)) : W10 m ρ c (Proc.devRef .tc main_arg20) = W9 m ρ c (Proc.devRef .tc main_arg20)).trans (arg20_at9 m ρ c)
theorem arg20_at11 : W11 m ρ c (Proc.devRef .tc main_arg20) = m ((c : Thread nD τ).loc main_arg20) :=
  ((by host_keeps hostOps5) : W11 m ρ c (Proc.devRef .tc main_arg20) = W10 m ρ c (Proc.devRef .tc main_arg20)).trans (arg20_at10 m ρ c)
theorem arg20_at12 : W12 m ρ c (Proc.devRef .tc main_arg20) = m ((c : Thread nD τ).loc main_arg20) :=
  ((W12_of_ne m ρ c main_arg20 (by decide)) : W12 m ρ c (Proc.devRef .tc main_arg20) = W11 m ρ c (Proc.devRef .tc main_arg20)).trans (arg20_at11 m ρ c)
theorem arg20_at13 : W13 m ρ c (Proc.devRef .tc main_arg20) = m ((c : Thread nD τ).loc main_arg20) :=
  ((by host_keeps hostOps6) : W13 m ρ c (Proc.devRef .tc main_arg20) = W12 m ρ c (Proc.devRef .tc main_arg20)).trans (arg20_at12 m ρ c)
theorem arg20_at14 : W14 m ρ c (Proc.devRef .tc main_arg20) = m ((c : Thread nD τ).loc main_arg20) :=
  ((W14_of_ne m ρ c main_arg20 (by decide)) : W14 m ρ c (Proc.devRef .tc main_arg20) = W13 m ρ c (Proc.devRef .tc main_arg20)).trans (arg20_at13 m ρ c)
theorem arg20_at15 : W15 m ρ c (Proc.devRef .tc main_arg20) = m ((c : Thread nD τ).loc main_arg20) :=
  ((by host_keeps hostOps7) : W15 m ρ c (Proc.devRef .tc main_arg20) = W14 m ρ c (Proc.devRef .tc main_arg20)).trans (arg20_at14 m ρ c)
theorem arg20_at16 : W16 m ρ c (Proc.devRef .tc main_arg20) = m ((c : Thread nD τ).loc main_arg20) :=
  ((W16_of_ne m ρ c main_arg20 (by decide)) : W16 m ρ c (Proc.devRef .tc main_arg20) = W15 m ρ c (Proc.devRef .tc main_arg20)).trans (arg20_at15 m ρ c)

theorem arg21_at0 : W0 m ρ c (Proc.devRef .tc main_arg21) = m ((c : Thread nD τ).loc main_arg21) := rfl
theorem arg21_at1 : W1 m ρ c (Proc.devRef .tc main_arg21) = m ((c : Thread nD τ).loc main_arg21) :=
  ((by host_keeps hostOps0) : W1 m ρ c (Proc.devRef .tc main_arg21) = W0 m ρ c (Proc.devRef .tc main_arg21)).trans (arg21_at0 m ρ c)
theorem arg21_at2 : W2 m ρ c (Proc.devRef .tc main_arg21) = m ((c : Thread nD τ).loc main_arg21) :=
  ((W2_of_ne m ρ c main_arg21 (by decide)) : W2 m ρ c (Proc.devRef .tc main_arg21) = W1 m ρ c (Proc.devRef .tc main_arg21)).trans (arg21_at1 m ρ c)
theorem arg21_at3 : W3 m ρ c (Proc.devRef .tc main_arg21) = m ((c : Thread nD τ).loc main_arg21) :=
  ((by host_keeps hostOps1) : W3 m ρ c (Proc.devRef .tc main_arg21) = W2 m ρ c (Proc.devRef .tc main_arg21)).trans (arg21_at2 m ρ c)
theorem arg21_at4 : W4 m ρ c (Proc.devRef .tc main_arg21) = m ((c : Thread nD τ).loc main_arg21) :=
  ((W4_of_ne m ρ c main_arg21 (by decide)) : W4 m ρ c (Proc.devRef .tc main_arg21) = W3 m ρ c (Proc.devRef .tc main_arg21)).trans (arg21_at3 m ρ c)
theorem arg21_at5 : W5 m ρ c (Proc.devRef .tc main_arg21) = m ((c : Thread nD τ).loc main_arg21) :=
  ((by host_keeps hostOps2) : W5 m ρ c (Proc.devRef .tc main_arg21) = W4 m ρ c (Proc.devRef .tc main_arg21)).trans (arg21_at4 m ρ c)
theorem arg21_at6 : W6 m ρ c (Proc.devRef .tc main_arg21) = m ((c : Thread nD τ).loc main_arg21) :=
  ((W6_of_ne m ρ c main_arg21 (by decide)) : W6 m ρ c (Proc.devRef .tc main_arg21) = W5 m ρ c (Proc.devRef .tc main_arg21)).trans (arg21_at5 m ρ c)
theorem arg21_at7 : W7 m ρ c (Proc.devRef .tc main_arg21) = m ((c : Thread nD τ).loc main_arg21) :=
  ((by host_keeps hostOps3) : W7 m ρ c (Proc.devRef .tc main_arg21) = W6 m ρ c (Proc.devRef .tc main_arg21)).trans (arg21_at6 m ρ c)
theorem arg21_at8 : W8 m ρ c (Proc.devRef .tc main_arg21) = m ((c : Thread nD τ).loc main_arg21) :=
  ((W8_of_ne m ρ c main_arg21 (by decide)) : W8 m ρ c (Proc.devRef .tc main_arg21) = W7 m ρ c (Proc.devRef .tc main_arg21)).trans (arg21_at7 m ρ c)
theorem arg21_at9 : W9 m ρ c (Proc.devRef .tc main_arg21) = m ((c : Thread nD τ).loc main_arg21) :=
  ((by host_keeps hostOps4) : W9 m ρ c (Proc.devRef .tc main_arg21) = W8 m ρ c (Proc.devRef .tc main_arg21)).trans (arg21_at8 m ρ c)
theorem arg21_at10 : W10 m ρ c (Proc.devRef .tc main_arg21) = m ((c : Thread nD τ).loc main_arg21) :=
  ((W10_of_ne m ρ c main_arg21 (by decide)) : W10 m ρ c (Proc.devRef .tc main_arg21) = W9 m ρ c (Proc.devRef .tc main_arg21)).trans (arg21_at9 m ρ c)
theorem arg21_at11 : W11 m ρ c (Proc.devRef .tc main_arg21) = m ((c : Thread nD τ).loc main_arg21) :=
  ((by host_keeps hostOps5) : W11 m ρ c (Proc.devRef .tc main_arg21) = W10 m ρ c (Proc.devRef .tc main_arg21)).trans (arg21_at10 m ρ c)
theorem arg21_at12 : W12 m ρ c (Proc.devRef .tc main_arg21) = m ((c : Thread nD τ).loc main_arg21) :=
  ((W12_of_ne m ρ c main_arg21 (by decide)) : W12 m ρ c (Proc.devRef .tc main_arg21) = W11 m ρ c (Proc.devRef .tc main_arg21)).trans (arg21_at11 m ρ c)
theorem arg21_at13 : W13 m ρ c (Proc.devRef .tc main_arg21) = m ((c : Thread nD τ).loc main_arg21) :=
  ((by host_keeps hostOps6) : W13 m ρ c (Proc.devRef .tc main_arg21) = W12 m ρ c (Proc.devRef .tc main_arg21)).trans (arg21_at12 m ρ c)
theorem arg21_at14 : W14 m ρ c (Proc.devRef .tc main_arg21) = m ((c : Thread nD τ).loc main_arg21) :=
  ((W14_of_ne m ρ c main_arg21 (by decide)) : W14 m ρ c (Proc.devRef .tc main_arg21) = W13 m ρ c (Proc.devRef .tc main_arg21)).trans (arg21_at13 m ρ c)
theorem arg21_at15 : W15 m ρ c (Proc.devRef .tc main_arg21) = m ((c : Thread nD τ).loc main_arg21) :=
  ((by host_keeps hostOps7) : W15 m ρ c (Proc.devRef .tc main_arg21) = W14 m ρ c (Proc.devRef .tc main_arg21)).trans (arg21_at14 m ρ c)
theorem arg21_at16 : W16 m ρ c (Proc.devRef .tc main_arg21) = m ((c : Thread nD τ).loc main_arg21) :=
  ((W16_of_ne m ρ c main_arg21 (by decide)) : W16 m ρ c (Proc.devRef .tc main_arg21) = W15 m ρ c (Proc.devRef .tc main_arg21)).trans (arg21_at15 m ρ c)
theorem arg21_at17 : W17 m ρ c (Proc.devRef .tc main_arg21) = m ((c : Thread nD τ).loc main_arg21) :=
  ((by host_keeps hostOps8) : W17 m ρ c (Proc.devRef .tc main_arg21) = W16 m ρ c (Proc.devRef .tc main_arg21)).trans (arg21_at16 m ρ c)
theorem arg21_at18 : W18 m ρ c (Proc.devRef .tc main_arg21) = m ((c : Thread nD τ).loc main_arg21) :=
  ((W18_of_ne m ρ c main_arg21 (by decide)) : W18 m ρ c (Proc.devRef .tc main_arg21) = W17 m ρ c (Proc.devRef .tc main_arg21)).trans (arg21_at17 m ρ c)

theorem arg0_at0 : W0 m ρ c (Proc.devRef .tc main_arg0) = m ((c : Thread nD τ).loc main_arg0) := rfl
theorem arg0_at1 : W1 m ρ c (Proc.devRef .tc main_arg0) = m ((c : Thread nD τ).loc main_arg0) :=
  ((by host_keeps hostOps0) : W1 m ρ c (Proc.devRef .tc main_arg0) = W0 m ρ c (Proc.devRef .tc main_arg0)).trans (arg0_at0 m ρ c)

theorem arg1_at0 : W0 m ρ c (Proc.devRef .tc main_arg1) = m ((c : Thread nD τ).loc main_arg1) := rfl

theorem arg2_at0 : W0 m ρ c (Proc.devRef .tc main_arg2) = m ((c : Thread nD τ).loc main_arg2) := rfl

theorem arg3_at0 : W0 m ρ c (Proc.devRef .tc main_arg3) = m ((c : Thread nD τ).loc main_arg3) := rfl

theorem arg4_at0 : W0 m ρ c (Proc.devRef .tc main_arg4) = m ((c : Thread nD τ).loc main_arg4) := rfl

end Cert.KernelIdeal.Fold

end
-- ==== Proof.KVBase.lean ====
/-
  What the idealized kernel's host stretches compute, boundary by boundary, in the terms of the network's
  specification: the two rows of the edge list as index vectors, the reciprocal column 1 / max(count, 1), each layer's
  neighbour sums (rows gathered at the wrapped source index, scatter-added at the destination index), the weights
  transposed and the bias as one row.
-/
import proofs.«170208_j90074054132246_2_alg».proof.Proof.Gen.KernelIdeal.Frame
import proofs.«170208_j90074054132246_2_alg».proof.Proof.HostRead
import proofs.«170208_j90074054132246_2_alg».proof.Proof.Spec
import proofs.«170208_j90074054132246_2_alg».proof.Proof.FoldIdx
import proofs.«170208_j90074054132246_2_alg».proof.Proof.FoldDeg
import proofs.«170208_j90074054132246_2_alg».proof.Proof.FoldMid
import proofs.«170208_j90074054132246_2_alg».proof.Proof.FoldArgsA
import proofs.«170208_j90074054132246_2_alg».proof.Proof.FoldArgsB
import proofs.«170208_j90074054132246_2_alg».proof.Proof.FoldArgsC
import Idealize.ShloMosaic.PureOps.Ideal
import Idealize.ShloMosaic.Lib.StableHlo.Run

set_option maxRecDepth 16384

noncomputable section

namespace Cert.KernelIdeal.KValue

open Cert.KernelIdeal Cert.KernelIdeal.Gen Cert.KernelIdeal.Fold
open Idealize.ShloMosaic Idealize.ShloMosaic.TcCoe Idealize.SL.Sem Idealize.ShloMosaic.StableHlo
open Idealize.ShloMosaic.ValueIdx Cert.Dense Cert.Net

variable (m : (ℓ : Loc nD τ sig) → Buf (Elt Ideal) ℓ) (ρ : Dev nD → PrngReg) (c : Dev nD)

/-! ## The arguments, at their mathematical types -/

/-- The edge list [2, E]. -/
abbrev EI : IVec ⟨2, ![2, 1600000]⟩ 32 := m ((c : Thread nD τ).loc main_arg1)
abbrev X0 : Mat 100000 7 := m ((c : Thread nD τ).loc main_arg0)
abbrev Wl1 : Mat 32 7 := m ((c : Thread nD τ).loc main_arg2)
abbrev Bl1 : Row 32 := m ((c : Thread nD τ).loc main_arg3)
abbrev Wr1 : Mat 32 7 := m ((c : Thread nD τ).loc main_arg4)
abbrev Wl2 : Mat 64 32 := m ((c : Thread nD τ).loc main_arg5)
abbrev Bl2 : Row 64 := m ((c : Thread nD τ).loc main_arg6)
abbrev Wr2 : Mat 64 32 := m ((c : Thread nD τ).loc main_arg7)
abbrev Wl3 : Mat 128 64 := m ((c : Thread nD τ).loc main_arg8)
abbrev Bl3 : Row 128 := m ((c : Thread nD τ).loc main_arg9)
abbrev Wr3 : Mat 128 64 := m ((c : Thread nD τ).loc main_arg10)
abbrev Wl4 : Mat 64 128 := m ((c : Thread nD τ).loc main_arg11)
abbrev Bl4 : Row 64 := m ((c : Thread nD τ).loc main_arg12)
abbrev Wr4 : Mat 64 128 := m ((c : Thread nD τ).loc main_arg13)
abbrev Wl5 : Mat 32 64 := m ((c : Thread nD τ).loc main_arg14)
abbrev Bl5 : Row 32 := m ((c : Thread nD τ).loc main_arg15)
abbrev Wr5 : Mat 32 64 := m ((c : Thread nD τ).loc main_arg16)
abbrev Wl6 : Mat 32 32 := m ((c : Thread nD τ).loc main_arg17)
abbrev Bl6 : Row 32 := m ((c : Thread nD τ).loc main_arg18)
abbrev Wr6 : Mat 32 32 := m ((c : Thread nD τ).loc main_arg19)
abbrev Wg : Mat 16 32 := m ((c : Thread nD τ).loc main_arg20)
abbrev Bg : Row 16 := m ((c : Thread nD τ).loc main_arg21)

/-- The two rows of the edge list as vectors. -/
abbrev SV : IVec ⟨1, ![1600000]⟩ 32 :=
  shapeCast S1600000 (extractStridedSlice S1x1600000 ![0, 0] (EI m c) slices_S2x1600000_S1x1600000_0_0) shapeCasts_S1x1600000_S1600000
abbrev DV : IVec ⟨1, ![1600000]⟩ 32 :=
  shapeCast S1600000 (extractStridedSlice S1x1600000 ![1, 0] (EI m c) slices_S2x1600000_S1x1600000_1_0) shapeCasts_S1x1600000_S1600000

theorem hSV (e : Fin 1600000) : SV m c (ix1 e) = EI m c (ix2 (0 : Fin 2) e) := Cert.HostRead.idxRow0_apply (EI m c) _ _ e
theorem hDV (e : Fin 1600000) : DV m c (ix1 e) = EI m c (ix2 (1 : Fin 2) e) := Cert.HostRead.idxRow1_apply (EI m c) _ _ e

/-- The source rows and the destination test of the edge list. -/
abbrev SRC : Fin 1600000 → Fin 100000 := srcOf (EI m c)
abbrev HIT : Fin 1600000 → Fin 100000 → Prop := hitOf (EI m c)

/-! ## The first stretch -/

/-- The neighbour sums over host operations, at any width. -/
theorem aggHost {C : Nat} (rs : ScatterDims ⟨2, ![100000, C]⟩ ⟨2, ![1600000, 1]⟩ ⟨2, ![1600000, C]⟩)
    (wfS) (hrs : rs = Cert.Lib.ScatterRows2.rowsDims 100000 1600000 C wfS)
    (rg : GatherDims ⟨2, ![100000, C]⟩ ⟨2, ![1600000, 1]⟩ ⟨2, ![1600000, C]⟩)
    (wfG) (hrg : rg = Cert.LibGatherRows.rowsDims 100000 C 1600000 wfG)
    (hz : (⟨0, ![]⟩ : Shape).BroadcastsInDim ⟨2, ![100000, C]⟩ ![]) (T : Mat 100000 C) :
    Host.scatterAdd (F := Ideal) rs (broadcastInDim ⟨2, ![100000, C]⟩ ![] hz (constant (F := Ideal) S_ .f32 0x00000000#32))
        (broadcastInDim S1600000x1 ![0] bcast_S1600000_S1600000x1_0 (DV m c))
        (Host.gather rg T (broadcastInDim S1600000x1 ![0] bcast_S1600000_S1600000x1_0
          (select (cmpi .slt (SV m c) (broadcastInDim S1600000 ![] bcast_S_S1600000 (constantI S_ 32 0#32)))
            (addi (SV m c) (broadcastInDim S1600000 ![] bcast_S_S1600000 (constantI S_ 32 100000#32))) (SV m c))))
      = agg (SRC m c) (HIT m c) T := by
  subst hrs hrg
  exact Cert.HostRead.agg_eq (by decide) wfS wfG hz bcast_S_S1600000 bcast_S_S1600000 bcast_S1600000_S1600000x1_0
    bcast_S1600000_S1600000x1_0 (EI m c) (SV m c) (DV m c) (hSV m c) (hDV m c) T

/-- The reciprocal column over host operations. -/
theorem recipHost :
    broadcastInDim S100000x1 ![0] bcast_S100000_S100000x1_0
      (Host.divf (broadcastInDim S100000 ![] bcast_S_S100000 (constant (F := Ideal) S_ .f32 0x3F800000#32))
        (maximumf (Host.scatterAdd (F := Ideal) scatter_S100000_S1600000x1_S1600000_n_0_0_1
            (broadcastInDim S100000 ![] bcast_S_S100000 (constant (F := Ideal) S_ .f32 0x00000000#32))
            (broadcastInDim S1600000x1 ![0] bcast_S1600000_S1600000x1_0 (DV m c))
            (broadcastInDim S1600000 ![] bcast_S_S1600000 (constant (F := Ideal) S_ .f32 0x3F800000#32)))
          (broadcastInDim S100000 ![] bcast_S_S100000 (constant (F := Ideal) S_ .f32 0x3F800000#32))))
      = recipCol (HIT m c) :=
  Cert.HostRead.recipCol_eq (HIT m c) bcast_S_S100000 bcast_S100000_S100000x1_0 _
    (Cert.HostRead.cnt_eq scatter_S100000_S1600000x1_S1600000_n_0_0_1_wf bcast_S_S100000 bcast_S_S100000 bcast_S_S1600000
      bcast_S1600000_S1600000x1_0 (EI m c) (DV m c) (hDV m c))

/-- The degree vector over host operations, at a node. -/
abbrev DegV : Row 100000 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 (DV m c))
    (broadcastInDim S1600000 ![] bcast_S_S1600000 (constant (F := Ideal) S_ .f32 0x3F800000#32))

theorem degV_apply (n : Fin 100000) : DegV m c (ix1 n) = degN (HIT m c) n :=
  Cert.HostRead.deg_apply scatter_S100000_S1600000x1_S1600000_n_0_0_1_wf bcast_S_S100000 bcast_S_S1600000
    bcast_S1600000_S1600000x1_0 (EI m c) (DV m c) (hDV m c) n

end Cert.KernelIdeal.KValue

end
-- ==== Proof.KV0a.lean ====
/-
  The first stretch: the two rows of the edge list as index vectors, and the first layer's neighbour sums.
-/
import proofs.«170208_j90074054132246_2_alg».proof.Proof.KVBase

set_option maxRecDepth 16384

noncomputable section

namespace Cert.KernelIdeal.KValue

open Cert.KernelIdeal Cert.KernelIdeal.Gen Cert.KernelIdeal.Fold
open Idealize.ShloMosaic Idealize.ShloMosaic.TcCoe Idealize.SL.Sem Idealize.ShloMosaic.StableHlo
open Idealize.ShloMosaic.ValueIdx Cert.Dense Cert.Net

variable (m : (ℓ : Loc nD τ sig) → Buf (Elt Ideal) ℓ) (ρ : Dev nD → PrngReg) (c : Dev nD)

set_option maxHeartbeats 8000000 in
theorem s0_v1 : (W1 m ρ c (Proc.devRef .tc main_call0_v1) : IVec ⟨1, ![1600000]⟩ 32) = SV m c := by
  show StableHlo.after hostOps0 _ _ = _
  dsimp only [hostOps0]
  after_results_simp
  rfl

set_option maxHeartbeats 8000000 in
theorem s0_v3 : (W1 m ρ c (Proc.devRef .tc main_call0_v3) : IVec ⟨1, ![1600000]⟩ 32) = DV m c := by
  show StableHlo.after hostOps0 _ _ = _
  dsimp only [hostOps0]
  after_results_simp
  rfl

set_option maxHeartbeats 8000000 in
theorem s0_v22 : (W1 m ρ c (Proc.devRef .tc main_call0_v22) : Mat 100000 7) = agg (SRC m c) (HIT m c) (X0 m c) := by
  show StableHlo.after hostOps0 _ _ = _
  dsimp only [hostOps0]
  after_results_simp
  exact aggHost m c scatter_S100000x7_S1600000x1_S1600000x7_1_0_0_1 scatter_S100000x7_S1600000x1_S1600000x7_1_0_0_1_wf rfl
    gather_S100000x7_S1600000x1_S1600000x7_1_0_n_n_0_1_17 gather_S100000x7_S1600000x1_S1600000x7_1_0_n_n_0_1_17_wf rfl
    bcast_S_S100000x7 (X0 m c)

end Cert.KernelIdeal.KValue

end
-- ==== Proof.KV0b.lean ====
/-
  The first stretch: the reciprocal column, the degree vector, the first layer's weights transposed and its bias as one row.
-/
import proofs.«170208_j90074054132246_2_alg».proof.Proof.KVBase

set_option maxRecDepth 16384

noncomputable section

namespace Cert.KernelIdeal.KValue

open Cert.KernelIdeal Cert.KernelIdeal.Gen Cert.KernelIdeal.Fold
open Idealize.ShloMosaic Idealize.ShloMosaic.TcCoe Idealize.SL.Sem Idealize.ShloMosaic.StableHlo
open Idealize.ShloMosaic.ValueIdx Cert.Dense Cert.Net

variable (m : (ℓ : Loc nD τ sig) → Buf (Elt Ideal) ℓ) (ρ : Dev nD → PrngReg) (c : Dev nD)

/-- Equal vectors kept as columns are equal columns. -/
theorem colOf_congr (x x' : Row 100000) (h : x = x') :
    broadcastInDim S100000x1 ![0] bcast_S100000_S100000x1_0 x = broadcastInDim S100000x1 ![0] bcast_S100000_S100000x1_0 x' := by
  subst h; rfl

set_option maxHeartbeats 8000000 in
theorem s0_v12 : (W1 m ρ c (Proc.devRef .tc main_call0_v12) : Mat 100000 1) = recipCol (HIT m c) := by
  show StableHlo.after hostOps0 _ _ = _
  dsimp only [hostOps0]
  after_results_simp
  refine Eq.trans ?_ (recipHost m c)
  refine colOf_congr _ _ ?_
  refine congrArg₂ Host.divf ?_ ?_
  · rfl
  · refine congrArg₂ maximumf ?_ ?_
    · rfl
    · rfl

set_option maxHeartbeats 8000000 in
theorem s0_v7 : (W1 m ρ c (Proc.devRef .tc main_call0_v7) : Row 100000) = DegV m c := by
  show StableHlo.after hostOps0 _ _ = _
  dsimp only [hostOps0]
  after_results_simp
  rfl

set_option maxHeartbeats 8000000 in
theorem s0_v23 : (W1 m ρ c (Proc.devRef .tc main_call0_v23) : Mat 7 32) = tr (Wl1 m c) := by
  show StableHlo.after hostOps0 _ _ = _
  dsimp only [hostOps0]
  after_results_simp
  exact Cert.HostRead.tr_eq (Wl1 m c) transposes_S32x7_S7x32_1_0

set_option maxHeartbeats 8000000 in
theorem s0_v24 : (W1 m ρ c (Proc.devRef .tc main_call0_v24) : Mat 7 32) = tr (Wr1 m c) := by
  show StableHlo.after hostOps0 _ _ = _
  dsimp only [hostOps0]
  after_results_simp
  exact Cert.HostRead.tr_eq (Wr1 m c) transposes_S32x7_S7x32_1_0

set_option maxHeartbeats 8000000 in
theorem s0_v25 : (W1 m ρ c (Proc.devRef .tc main_call0_v25) : Mat 1 32) = rowMat (Bl1 m c) := by
  show StableHlo.after hostOps0 _ _ = _
  dsimp only [hostOps0]
  after_results_simp
  exact Cert.HostRead.rowMat_cast_eq (Bl1 m c) shapeCasts_S32_S1x32

end Cert.KernelIdeal.KValue

end
-- ==== Proof.KV1.lean ====
/-
  The stretch before the second layer: its neighbour sums, its weights transposed, its bias as one row.
-/
import proofs.«170208_j90074054132246_2_alg».proof.Proof.KVBase
import proofs.«170208_j90074054132246_2_alg».proof.Proof.KV0a

set_option maxRecDepth 16384

noncomputable section

namespace Cert.KernelIdeal.KValue

open Cert.KernelIdeal Cert.KernelIdeal.Gen Cert.KernelIdeal.Fold
open Idealize.ShloMosaic Idealize.ShloMosaic.TcCoe Idealize.SL.Sem Idealize.ShloMosaic.StableHlo
open Idealize.ShloMosaic.ValueIdx Cert.Dense Cert.Net

variable (m : (ℓ : Loc nD τ sig) → Buf (Elt Ideal) ℓ) (ρ : Dev nD → PrngReg) (c : Dev nD)

set_option maxHeartbeats 8000000 in
theorem s1_v36 (h : Mat 100000 32) (hh : W2 m ρ c (Proc.devRef .tc main_call0_v26) = h) :
    (W3 m ρ c (Proc.devRef .tc main_call0_v36) : Mat 100000 32) = agg (SRC m c) (HIT m c) h := by
  show StableHlo.after hostOps1 _ _ = _
  dsimp only [hostOps1]
  after_results_simp
  rw [v1_at2 m ρ c, v3_at2 m ρ c, s0_v1 m ρ c, s0_v3 m ρ c, hh]
  exact aggHost m c scatter_S100000x32_S1600000x1_S1600000x32_1_0_0_1 scatter_S100000x32_S1600000x1_S1600000x32_1_0_0_1_wf rfl
    gather_S100000x32_S1600000x1_S1600000x32_1_0_n_n_0_1_132 gather_S100000x32_S1600000x1_S1600000x32_1_0_n_n_0_1_132_wf rfl
    bcast_S_S100000x32 h

set_option maxHeartbeats 8000000 in
theorem s1_v37 : (W3 m ρ c (Proc.devRef .tc main_call0_v37) : Mat 32 64) = tr (Wl2 m c) := by
  show StableHlo.after hostOps1 _ _ = _
  dsimp only [hostOps1]
  after_results_simp
  rw [arg5_at2 m ρ c]
  exact Cert.HostRead.tr_eq (Wl2 m c) transposes_S64x32_S32x64_1_0

set_option maxHeartbeats 8000000 in
theorem s1_v38 : (W3 m ρ c (Proc.devRef .tc main_call0_v38) : Mat 32 64) = tr (Wr2 m c) := by
  show StableHlo.after hostOps1 _ _ = _
  dsimp only [hostOps1]
  after_results_simp
  rw [arg7_at2 m ρ c]
  exact Cert.HostRead.tr_eq (Wr2 m c) transposes_S64x32_S32x64_1_0

set_option maxHeartbeats 8000000 in
theorem s1_v39 : (W3 m ρ c (Proc.devRef .tc main_call0_v39) : Mat 1 64) = rowMat (Bl2 m c) := by
  show StableHlo.after hostOps1 _ _ = _
  dsimp only [hostOps1]
  after_results_simp
  rw [arg6_at2 m ρ c]
  exact Cert.HostRead.rowMat_cast_eq (Bl2 m c) shapeCasts_S64_S1x64

end Cert.KernelIdeal.KValue

end
-- ==== Proof.KV2.lean ====
/-
  The stretches before the third layer and before the fourth layer's projection.
-/
import proofs.«170208_j90074054132246_2_alg».proof.Proof.KVBase
import proofs.«170208_j90074054132246_2_alg».proof.Proof.KV0a

set_option maxRecDepth 16384

noncomputable section

namespace Cert.KernelIdeal.KValue

open Cert.KernelIdeal Cert.KernelIdeal.Gen Cert.KernelIdeal.Fold
open Idealize.ShloMosaic Idealize.ShloMosaic.TcCoe Idealize.SL.Sem Idealize.ShloMosaic.StableHlo
open Idealize.ShloMosaic.ValueIdx Cert.Dense Cert.Net

variable (m : (ℓ : Loc nD τ sig) → Buf (Elt Ideal) ℓ) (ρ : Dev nD → PrngReg) (c : Dev nD)

set_option maxHeartbeats 8000000 in
theorem s2_v50 (h : Mat 100000 64) (hh : W4 m ρ c (Proc.devRef .tc main_call0_v40) = h) :
    (W5 m ρ c (Proc.devRef .tc main_call0_v50) : Mat 100000 64) = agg (SRC m c) (HIT m c) h := by
  show StableHlo.after hostOps2 _ _ = _
  dsimp only [hostOps2]
  after_results_simp
  rw [v1_at4 m ρ c, v3_at4 m ρ c, s0_v1 m ρ c, s0_v3 m ρ c, hh]
  exact aggHost m c scatter_S100000x64_S1600000x1_S1600000x64_1_0_0_1 scatter_S100000x64_S1600000x1_S1600000x64_1_0_0_1_wf rfl
    gather_S100000x64_S1600000x1_S1600000x64_1_0_n_n_0_1_164 gather_S100000x64_S1600000x1_S1600000x64_1_0_n_n_0_1_164_wf rfl
    bcast_S_S100000x64 h

set_option maxHeartbeats 8000000 in
theorem s2_v51 : (W5 m ρ c (Proc.devRef .tc main_call0_v51) : Mat 64 128) = tr (Wl3 m c) := by
  show StableHlo.after hostOps2 _ _ = _
  dsimp only [hostOps2]
  after_results_simp
  rw [arg8_at4 m ρ c]
  exact Cert.HostRead.tr_eq (Wl3 m c) transposes_S128x64_S64x128_1_0

set_option maxHeartbeats 8000000 in
theorem s2_v52 : (W5 m ρ c (Proc.devRef .tc main_call0_v52) : Mat 64 128) = tr (Wr3 m c) := by
  show StableHlo.after hostOps2 _ _ = _
  dsimp only [hostOps2]
  after_results_simp
  rw [arg10_at4 m ρ c]
  exact Cert.HostRead.tr_eq (Wr3 m c) transposes_S128x64_S64x128_1_0

set_option maxHeartbeats 8000000 in
theorem s2_v53 : (W5 m ρ c (Proc.devRef .tc main_call0_v53) : Mat 1 128) = rowMat (Bl3 m c) := by
  show StableHlo.after hostOps2 _ _ = _
  dsimp only [hostOps2]
  after_results_simp
  rw [arg9_at4 m ρ c]
  exact Cert.HostRead.rowMat_cast_eq (Bl3 m c) shapeCasts_S128_S1x128

set_option maxHeartbeats 8000000 in
theorem s3_v55 : (W7 m ρ c (Proc.devRef .tc main_call0_v55) : Mat 128 64) = tr (Wl4 m c) := by
  show StableHlo.after hostOps3 _ _ = _
  dsimp only [hostOps3]
  after_results_simp
  rw [arg11_at6 m ρ c]
  exact Cert.HostRead.tr_eq (Wl4 m c) transposes_S64x128_S128x64_1_0

end Cert.KernelIdeal.KValue

end
-- ==== Proof.KV4.lean ====
/-
  The stretches before the fourth layer's combine and the fifth layer's projection.
-/
import proofs.«170208_j90074054132246_2_alg».proof.Proof.KVBase
import proofs.«170208_j90074054132246_2_alg».proof.Proof.KV0a

set_option maxRecDepth 16384

noncomputable section

namespace Cert.KernelIdeal.KValue

open Cert.KernelIdeal Cert.KernelIdeal.Gen Cert.KernelIdeal.Fold
open Idealize.ShloMosaic Idealize.ShloMosaic.TcCoe Idealize.SL.Sem Idealize.ShloMosaic.StableHlo
open Idealize.ShloMosaic.ValueIdx Cert.Dense Cert.Net

variable (m : (ℓ : Loc nD τ sig) → Buf (Elt Ideal) ℓ) (ρ : Dev nD → PrngReg) (c : Dev nD)

set_option maxHeartbeats 8000000 in
theorem s4_v66 (h : Mat 100000 64) (hh : W8 m ρ c (Proc.devRef .tc main_call0_v56) = h) :
    (W9 m ρ c (Proc.devRef .tc main_call0_v66) : Mat 100000 64) = agg (SRC m c) (HIT m c) h := by
  show StableHlo.after hostOps4 _ _ = _
  dsimp only [hostOps4]
  after_results_simp
  rw [v1_at8 m ρ c, v3_at8 m ρ c, s0_v1 m ρ c, s0_v3 m ρ c, hh]
  exact aggHost m c scatter_S100000x64_S1600000x1_S1600000x64_1_0_0_1 scatter_S100000x64_S1600000x1_S1600000x64_1_0_0_1_wf rfl
    gather_S100000x64_S1600000x1_S1600000x64_1_0_n_n_0_1_164 gather_S100000x64_S1600000x1_S1600000x64_1_0_n_n_0_1_164_wf rfl
    bcast_S_S100000x64 h

set_option maxHeartbeats 8000000 in
theorem s4_v67 : (W9 m ρ c (Proc.devRef .tc main_call0_v67) : Mat 128 64) = tr (Wr4 m c) := by
  show StableHlo.after hostOps4 _ _ = _
  dsimp only [hostOps4]
  after_results_simp
  rw [arg13_at8 m ρ c]
  exact Cert.HostRead.tr_eq (Wr4 m c) transposes_S64x128_S128x64_1_0

set_option maxHeartbeats 8000000 in
theorem s4_v68 : (W9 m ρ c (Proc.devRef .tc main_call0_v68) : Mat 1 64) = rowMat (Bl4 m c) := by
  show StableHlo.after hostOps4 _ _ = _
  dsimp only [hostOps4]
  after_results_simp
  rw [arg12_at8 m ρ c]
  exact Cert.HostRead.rowMat_cast_eq (Bl4 m c) shapeCasts_S64_S1x64

set_option maxHeartbeats 8000000 in
theorem s5_v70 : (W11 m ρ c (Proc.devRef .tc main_call0_v70) : Mat 64 32) = tr (Wl5 m c) := by
  show StableHlo.after hostOps5 _ _ = _
  dsimp only [hostOps5]
  after_results_simp
  rw [arg14_at10 m ρ c]
  exact Cert.HostRead.tr_eq (Wl5 m c) transposes_S32x64_S64x32_1_0

end Cert.KernelIdeal.KValue

end
-- ==== Proof.KV6.lean ====
/-
  The stretch before the fifth layer's combine.
-/
import proofs.«170208_j90074054132246_2_alg».proof.Proof.KVBase
import proofs.«170208_j90074054132246_2_alg».proof.Proof.KV0a

set_option maxRecDepth 16384

noncomputable section

namespace Cert.KernelIdeal.KValue

open Cert.KernelIdeal Cert.KernelIdeal.Gen Cert.KernelIdeal.Fold
open Idealize.ShloMosaic Idealize.ShloMosaic.TcCoe Idealize.SL.Sem Idealize.ShloMosaic.StableHlo
open Idealize.ShloMosaic.ValueIdx Cert.Dense Cert.Net

variable (m : (ℓ : Loc nD τ sig) → Buf (Elt Ideal) ℓ) (ρ : Dev nD → PrngReg) (c : Dev nD)

set_option maxHeartbeats 8000000 in
theorem s6_v81 (h : Mat 100000 32) (hh : W12 m ρ c (Proc.devRef .tc main_call0_v71) = h) :
    (W13 m ρ c (Proc.devRef .tc main_call0_v81) : Mat 100000 32) = agg (SRC m c) (HIT m c) h := by
  show StableHlo.after hostOps6 _ _ = _
  dsimp only [hostOps6]
  after_results_simp
  rw [v1_at12 m ρ c, v3_at12 m ρ c, s0_v1 m ρ c, s0_v3 m ρ c, hh]
  exact aggHost m c scatter_S100000x32_S1600000x1_S1600000x32_1_0_0_1 scatter_S100000x32_S1600000x1_S1600000x32_1_0_0_1_wf rfl
    gather_S100000x32_S1600000x1_S1600000x32_1_0_n_n_0_1_132 gather_S100000x32_S1600000x1_S1600000x32_1_0_n_n_0_1_132_wf rfl
    bcast_S_S100000x32 h

set_option maxHeartbeats 8000000 in
theorem s6_v82 : (W13 m ρ c (Proc.devRef .tc main_call0_v82) : Mat 64 32) = tr (Wr5 m c) := by
  show StableHlo.after hostOps6 _ _ = _
  dsimp only [hostOps6]
  after_results_simp
  rw [arg16_at12 m ρ c]
  exact Cert.HostRead.tr_eq (Wr5 m c) transposes_S32x64_S64x32_1_0

set_option maxHeartbeats 8000000 in
theorem s6_v83 : (W13 m ρ c (Proc.devRef .tc main_call0_v83) : Mat 1 32) = rowMat (Bl5 m c) := by
  show StableHlo.after hostOps6 _ _ = _
  dsimp only [hostOps6]
  after_results_simp
  rw [arg15_at12 m ρ c]
  exact Cert.HostRead.rowMat_cast_eq (Bl5 m c) shapeCasts_S32_S1x32

end Cert.KernelIdeal.KValue

end
-- ==== Proof.KV7.lean ====
/-
  The stretches before the sixth layer and before the closing projection.
-/
import proofs.«170208_j90074054132246_2_alg».proof.Proof.KVBase
import proofs.«170208_j90074054132246_2_alg».proof.Proof.KV0a

set_option maxRecDepth 16384

noncomputable section

namespace Cert.KernelIdeal.KValue

open Cert.KernelIdeal Cert.KernelIdeal.Gen Cert.KernelIdeal.Fold
open Idealize.ShloMosaic Idealize.ShloMosaic.TcCoe Idealize.SL.Sem Idealize.ShloMosaic.StableHlo
open Idealize.ShloMosaic.ValueIdx Cert.Dense Cert.Net

variable (m : (ℓ : Loc nD τ sig) → Buf (Elt Ideal) ℓ) (ρ : Dev nD → PrngReg) (c : Dev nD)

set_option maxHeartbeats 8000000 in
theorem s7_v94 (h : Mat 100000 32) (hh : W14 m ρ c (Proc.devRef .tc main_call0_v84) = h) :
    (W15 m ρ c (Proc.devRef .tc main_call0_v94) : Mat 100000 32) = agg (SRC m c) (HIT m c) h := by
  show StableHlo.after hostOps7 _ _ = _
  dsimp only [hostOps7]
  after_results_simp
  rw [v1_at14 m ρ c, v3_at14 m ρ c, s0_v1 m ρ c, s0_v3 m ρ c, hh]
  exact aggHost m c scatter_S100000x32_S1600000x1_S1600000x32_1_0_0_1 scatter_S100000x32_S1600000x1_S1600000x32_1_0_0_1_wf rfl
    gather_S100000x32_S1600000x1_S1600000x32_1_0_n_n_0_1_132 gather_S100000x32_S1600000x1_S1600000x32_1_0_n_n_0_1_132_wf rfl
    bcast_S_S100000x32 h

set_option maxHeartbeats 8000000 in
theorem s7_v95 : (W15 m ρ c (Proc.devRef .tc main_call0_v95) : Mat 32 32) = tr (Wl6 m c) := by
  show StableHlo.after hostOps7 _ _ = _
  dsimp only [hostOps7]
  after_results_simp
  rw [arg17_at14 m ρ c]
  exact Cert.HostRead.tr_eq (Wl6 m c) transposes_S32x32_S32x32_1_0

set_option maxHeartbeats 8000000 in
theorem s7_v96 : (W15 m ρ c (Proc.devRef .tc main_call0_v96) : Mat 32 32) = tr (Wr6 m c) := by
  show StableHlo.after hostOps7 _ _ = _
  dsimp only [hostOps7]
  after_results_simp
  rw [arg19_at14 m ρ c]
  exact Cert.HostRead.tr_eq (Wr6 m c) transposes_S32x32_S32x32_1_0

set_option maxHeartbeats 8000000 in
theorem s7_v97 : (W15 m ρ c (Proc.devRef .tc main_call0_v97) : Mat 1 32) = rowMat (Bl6 m c) := by
  show StableHlo.after hostOps7 _ _ = _
  dsimp only [hostOps7]
  after_results_simp
  rw [arg18_at14 m ρ c]
  exact Cert.HostRead.rowMat_cast_eq (Bl6 m c) shapeCasts_S32_S1x32

set_option maxHeartbeats 8000000 in
theorem s8_v102 : (W17 m ρ c (Proc.devRef .tc main_call0_v102) : Mat 32 16) = tr (Wg m c) := by
  show StableHlo.after hostOps8 _ _ = _
  dsimp only [hostOps8]
  after_results_simp
  rw [arg20_at16 m ρ c]
  exact Cert.HostRead.tr_eq (Wg m c) transposes_S16x32_S32x16_1_0

end Cert.KernelIdeal.KValue

end
-- ==== Proof.RefReadGcn.lean ====
/-
  The closing graph convolution of the reference, read in the terms of the specification.

  The reference appends the N = 100000 self loops to the edge list: each index vector of length E is joined with the
  vector 0, 1, …, N - 1. A position t < E of a joined vector reads the edge list; a position t ≥ E reads t - E, which is
  not negative and is less than N, so adding N to negative entries leaves it alone, reading it signed and clamping it
  into the table gives node t - E, and a scatter-add lands it on node t - E. Hence the gathers at the joined source
  and destination vectors read rows srcL and dstL, and the scatter-adds at the joined destination vector test hitL.
  The inverse root degree is the reciprocal root of a scatter-add of ones over the joined list; each edge's rows are
  scaled by the product of the two gathered inverse root degrees, scatter-added, and the bias is laid along the rows.
-/
import Idealize.ShloMosaic.Lib.Affine
import proofs.«170208_j90074054132246_2_alg».proof.Proof.HostRead

noncomputable section

namespace Cert.HostRead

open Idealize.ShloMosaic Idealize.ShloMosaic.ValueIdx Cert.Dense Cert.Net

variable {E C : Nat}

/-- The host's reciprocal root at an index. -/
theorem hostRsqrt_apply {s : Shape} {φ : FTy} (x : FVec Ideal s φ) (i : s.Idx) : Host.rsqrt x i = Ideal.rsqrt (x i) := rfl

/-! ## A loop index as a word -/

theorem toInt_ofNat_small (i : Nat) (h : i < 100000) : (BitVec.ofNat 32 i).toInt = (i : Int) := by
  have hm : i % 2 ^ 32 = i := Nat.mod_eq_of_lt (lt_trans h (by norm_num))
  rw [BitVec.toInt_eq_toNat_cond, BitVec.toNat_ofNat, hm, if_pos (lt_trans (show 2 * i < 2 * 100000 by omega) (by norm_num))]

/-- Adding N to the negative entries leaves an entry that is not negative alone. -/
theorem wrapIdx_of_nonneg (v : BitVec 32) (h : 0 ≤ v.toInt) : wrapIdx v = v := by
  unfold wrapIdx Scalar.select
  refine if_neg fun hc => ?_
  have hlt : v.toInt < (0#32 : BitVec 32).toInt := IntOp.cmpi_slt.mp hc
  have h0 : (0#32 : BitVec 32).toInt = 0 := by decide
  omega

theorem wrapIdx_ofNat (i : Nat) (h : i < 100000) : wrapIdx (BitVec.ofNat 32 i) = BitVec.ofNat 32 i :=
  wrapIdx_of_nonneg _ (by rw [toInt_ofNat_small i h]; exact Int.natCast_nonneg i)

theorem clampN_ofNat (i : Nat) (h : i < 100000) : clampN (BitVec.ofNat 32 i) = ⟨i, h⟩ := by
  unfold clampN
  refine Fin.ext ?_
  show min (BitVec.ofNat 32 i).toInt.toNat 99999 = i
  rw [toInt_ofNat_small i h, Int.toNat_natCast]
  omega

/-! ## An index vector joined with the loop indices -/

/-- An index vector of length E followed by 0, 1, …, N - 1. -/
abbrev catVec (S : IVec ⟨1, ![E]⟩ 32)
    (hcat : Shape.Concatenates [(⟨1, ![E]⟩ : Shape), ⟨1, ![100000]⟩] ⟨1, ![E + 100000]⟩ 0) : IVec ⟨1, ![E + 100000]⟩ 32 :=
  concatenate ⟨1, ![E + 100000]⟩ 0 [⟨⟨1, ![E]⟩, S⟩, ⟨⟨1, ![100000]⟩, iotaInDim ⟨1, ![100000]⟩ 32 0⟩] hcat

theorem catVec_lt (S : IVec ⟨1, ![E]⟩ 32)
    (hcat : Shape.Concatenates [(⟨1, ![E]⟩ : Shape), ⟨1, ![100000]⟩] ⟨1, ![E + 100000]⟩ 0)
    (t : Fin (E + 100000)) (h : t.val < E) : catVec S hcat (ix1 t) = S (ix1 ⟨t.val, h⟩) :=
  concatenate_pair_apply_left 0 S _ hcat (ix1 t) rfl (ix1 ⟨t.val, h⟩) (fun b => by
    match b with
    | ⟨0, _⟩ => rfl)

theorem catVec_ge (S : IVec ⟨1, ![E]⟩ 32)
    (hcat : Shape.Concatenates [(⟨1, ![E]⟩ : Shape), ⟨1, ![100000]⟩] ⟨1, ![E + 100000]⟩ 0)
    (t : Fin (E + 100000)) (h : ¬ t.val < E) : catVec S hcat (ix1 t) = BitVec.ofNat 32 (t.val - E) := by
  have hlt : t.val - E < 100000 := by have := t.isLt; omega
  refine (concatenate_pair_apply_right 0 S (iotaInDim ⟨1, ![100000]⟩ 32 0) hcat (ix1 t) rfl rfl (ix1 ⟨t.val - E, hlt⟩)
    (fun b hb => by
      match b with
      | ⟨0, _⟩ => exact absurd rfl hb) (by
      show (t.val - E) + E = t.val
      omega)).trans ?_
  rfl

section Joined

variable (ei : IVec ⟨2, ![2, E]⟩ 32) (S D : IVec ⟨1, ![E]⟩ 32)
  (hS : ∀ e : Fin E, S (ix1 e) = ei (ix2 (0 : Fin 2) e)) (hD : ∀ e : Fin E, D (ix1 e) = ei (ix2 (1 : Fin 2) e))
  (hcat : Shape.Concatenates [(⟨1, ![E]⟩ : Shape), ⟨1, ![100000]⟩] ⟨1, ![E + 100000]⟩ 0)

include hS in
/-- The row a gather reads at the joined, wrapped source vector. -/
theorem srcL_eq (t : Fin (E + 100000)) : clampN (wrapIdx (catVec S hcat (ix1 t))) = srcL (srcOf ei) t := by
  unfold srcL
  by_cases h : t.val < E
  · rw [catVec_lt S hcat t h, hS, dif_pos h]
    rfl
  · have hlt : t.val - E < 100000 := by have := t.isLt; omega
    rw [catVec_ge S hcat t h, wrapIdx_ofNat _ hlt, clampN_ofNat _ hlt, dif_neg h]

include hD in
/-- The row a gather reads at the joined, wrapped destination vector. -/
theorem dstL_eq (t : Fin (E + 100000)) : clampN (wrapIdx (catVec D hcat (ix1 t))) = dstL (dclOf ei) t := by
  unfold dstL
  by_cases h : t.val < E
  · rw [catVec_lt D hcat t h, hD, dif_pos h]
    rfl
  · have hlt : t.val - E < 100000 := by have := t.isLt; omega
    rw [catVec_ge D hcat t h, wrapIdx_ofNat _ hlt, clampN_ofNat _ hlt, dif_neg h]

include hD in
/-- The node a scatter-add at the joined destination vector lands on. -/
theorem hitL_iff (t : Fin (E + 100000)) (n : Fin 100000) :
    (catVec D hcat (ix1 t)).toInt = (n.val : Int) ↔ hitL (hitOf ei) t n := by
  unfold hitL
  by_cases h : t.val < E
  · rw [catVec_lt D hcat t h, hD, dif_pos h]
    exact Iff.rfl
  · have hlt : t.val - E < 100000 := by have := t.isLt; omega
    rw [catVec_ge D hcat t h, toInt_ofNat_small _ hlt, dif_neg h]
    exact Int.natCast_inj

include hD in
/-- The reciprocal root of the ones scatter-added at the joined destination vector: the inverse root degree. -/
theorem dinvR_apply (wf : ScatterDims.WF ⟨1, ![100000]⟩ ⟨2, ![E + 100000, 1]⟩ ⟨1, ![E + 100000]⟩ [] [0] [0] 1)
    (hz : (⟨0, ![]⟩ : Shape).BroadcastsInDim ⟨1, ![100000]⟩ ![])
    (h1 : (⟨0, ![]⟩ : Shape).BroadcastsInDim ⟨1, ![E + 100000]⟩ ![])
    (hc : (⟨1, ![E + 100000]⟩ : Shape).BroadcastsInDim ⟨2, ![E + 100000, 1]⟩ ![0]) (n : Fin 100000) :
    Host.rsqrt (Host.scatterAdd (F := Ideal) (Cert.Lib.ScatterVec.vecDims 100000 (E + 100000) wf)
        (broadcastInDim ⟨1, ![100000]⟩ ![] hz (constant (F := Ideal) ⟨0, ![]⟩ .f32 0x00000000#32))
        (broadcastInDim ⟨2, ![E + 100000, 1]⟩ ![0] hc (catVec D hcat))
        (broadcastInDim ⟨1, ![E + 100000]⟩ ![] h1 (constant (F := Ideal) ⟨0, ![]⟩ .f32 0x3F800000#32))) (ix1 n)
      = dinvR (hitOf ei) n := by
  refine (hostRsqrt_apply _ (ix1 n)).trans ?_
  unfold dinvR
  refine congrArg Ideal.rsqrt ?_
  rw [Cert.Lib.ScatterVec.scatterAdd_vec_apply]
  refine congr (congrArg HAdd.hAdd ?_) (Finset.sum_congr rfl fun t _ => ?_)
  · rw [broadcastInDim_scalar_apply]
    exact Ideal.ofBits_zero_f32
  · rw [col_apply, broadcastInDim_scalar_apply]
    exact if_congr (hitL_iff ei D hD hcat t n) Ideal.ofBits_one_f32 rfl

theorem gcnR_apply {N : Nat} (src : Fin E → Fin N) (hit : Fin E → Fin N → Prop) [∀ e n, Decidable (hit e n)] (dcl : Fin E → Fin N)
    (hg : Mat N C) (bg : Row C) (p : Fin N) (q : Fin C) :
    gcnR src hit dcl hg bg (ix2 p q)
      = ((0 : EReal) + ∑ t : Fin (E + N), if hitL hit t p then
          hg (ix2 (srcL src t) q) * (dinvR hit (srcL src t) * dinvR hit (dstL dcl t)) else 0) + bg (ix1 q) := rfl

include hS hD in
/-- The reference's closing convolution on the host: rows of hg gathered at the joined source vector, scaled by the
    product of the inverse root degrees gathered at the two joined vectors, scatter-added at the joined destination
    vector into a zero array, plus the bias along the rows. -/
theorem gcnR_eq (hN : 0 < 100000)
    (wfS : ScatterDims.WF ⟨2, ![100000, C]⟩ ⟨2, ![E + 100000, 1]⟩ ⟨2, ![E + 100000, C]⟩ [1] [0] [0] 1)
    (wfG : GatherDims.WF ⟨2, ![100000, C]⟩ ⟨2, ![E + 100000, 1]⟩ ⟨2, ![E + 100000, C]⟩ [1] [0] [] [0] [] 1 ![1, C])
    (wfE : GatherDims.WF ⟨1, ![100000]⟩ ⟨2, ![E + 100000, 1]⟩ ⟨1, ![E + 100000]⟩ [] [0] [] [0] [] 1 ![1])
    (hz : (⟨0, ![]⟩ : Shape).BroadcastsInDim ⟨2, ![100000, C]⟩ ![])
    (a0 a1 b0 b1 c0 c1 : (⟨0, ![]⟩ : Shape).BroadcastsInDim ⟨1, ![E + 100000]⟩ ![])
    (hcA hcB hcC hcD hcN : (⟨1, ![E + 100000]⟩ : Shape).BroadcastsInDim ⟨2, ![E + 100000, 1]⟩ ![0])
    (h2 : (⟨2, ![E + 100000, 1]⟩ : Shape).BroadcastsInDim ⟨2, ![E + 100000, C]⟩ ![0, 1])
    (hb1 : (⟨1, ![C]⟩ : Shape).BroadcastsInDim ⟨2, ![1, C]⟩ ![1])
    (hb2 : (⟨2, ![1, C]⟩ : Shape).BroadcastsInDim ⟨2, ![100000, C]⟩ ![0, 1])
    (dv : FVec Ideal ⟨1, ![100000]⟩ .f32) (hdv : ∀ n : Fin 100000, dv (ix1 n) = dinvR (hitOf ei) n)
    (hg : FVec Ideal ⟨2, ![100000, C]⟩ .f32) (bg : FVec Ideal ⟨1, ![C]⟩ .f32) :
    addf
        (Host.scatterAdd (F := Ideal) (Cert.Lib.ScatterRows2.rowsDims 100000 (E + 100000) C wfS)
          (broadcastInDim ⟨2, ![100000, C]⟩ ![] hz (constant (F := Ideal) ⟨0, ![]⟩ .f32 0x00000000#32))
          (broadcastInDim ⟨2, ![E + 100000, 1]⟩ ![0] hcD (catVec D hcat))
          (mulf
            (Host.gather (Cert.LibGatherRows.rowsDims 100000 C (E + 100000) wfG) hg
              (broadcastInDim ⟨2, ![E + 100000, 1]⟩ ![0] hcC (wrapVec (catVec S hcat) c0 c1)))
            (broadcastInDim ⟨2, ![E + 100000, C]⟩ ![0, 1] h2
              (broadcastInDim ⟨2, ![E + 100000, 1]⟩ ![0] hcN
                (mulf
                  (Host.gather (Cert.LibGatherRows.entriesDims 100000 (E + 100000) wfE) dv
                    (broadcastInDim ⟨2, ![E + 100000, 1]⟩ ![0] hcA (wrapVec (catVec S hcat) a0 a1)))
                  (Host.gather (Cert.LibGatherRows.entriesDims 100000 (E + 100000) wfE) dv
                    (broadcastInDim ⟨2, ![E + 100000, 1]⟩ ![0] hcB (wrapVec (catVec D hcat) b0 b1))))))))
        (broadcastInDim ⟨2, ![100000, C]⟩ ![0, 1] hb2 (broadcastInDim ⟨2, ![1, C]⟩ ![1] hb1 bg))
      = gcnR (srcOf ei) (hitOf ei) (dclOf ei) hg bg := by
  funext i
  obtain ⟨p, q, rfl⟩ := exists_ix2 i
  rw [gcnR_apply, addf_apply, Cert.Lib.ScatterRows2.scatterAdd_rows_apply, Cert.LibLreluRows.biasRows_apply]
  refine congrArg (fun z => z + bg (ix1 q)) ?_
  refine congr (congrArg HAdd.hAdd ?_) (Finset.sum_congr rfl fun t _ => ?_)
  · rw [broadcastInDim_scalar_apply]
    exact Ideal.ofBits_zero_f32
  · rw [col_apply]
    refine if_congr (hitL_iff ei D hD hcat t p) ?_ rfl
    rw [mulf_apply, Cert.LibGatherRows.gather_rows_apply hN, clampRow_wrapCol, Cert.LibGraphAgg.spread_apply, mulf_apply,
      Cert.LibGatherRows.gather_entries_apply hN, Cert.LibGatherRows.gather_entries_apply hN, clampRow_wrapCol,
      clampRow_wrapCol, srcL_eq ei S hS hcat t, dstL_eq ei D hD hcat t, hdv, hdv]

end Joined

end Cert.HostRead

end
-- ==== Proof.KGcnHost.lean ====
/-
  The closing graph convolution in the folded arrangement, over host operations, read in the terms of the
  specification.

  Here the self loop is not an edge: the inverse root degree is the reciprocal root of the degree plus one, the rows
  gathered at each edge's source are scaled by the source's inverse root degree alone and scatter-added at the edge's
  destination, the sum is scaled by the destination's inverse root degree afterwards, and the node's own row, scaled by
  the square of its inverse root degree, is added densely before the bias.
-/
import proofs.«170208_j90074054132246_2_alg».proof.Proof.HostRead
import proofs.«170208_j90074054132246_2_alg».proof.Proof.RefReadGcn

noncomputable section

namespace Cert.HostRead

open Idealize.ShloMosaic Idealize.ShloMosaic.ValueIdx Cert.Dense Cert.Net

variable {E C : Nat}

theorem gcnK_apply {N : Nat} (src : Fin E → Fin N) (hit : Fin E → Fin N → Prop) [∀ e n, Decidable (hit e n)]
    (hg : Mat N C) (bg : Row C) (p : Fin N) (q : Fin C) :
    gcnK src hit hg bg (ix2 p q)
      = ((dinvK hit p * ((0 : EReal) + ∑ e : Fin E, if hit e p then hg (ix2 (src e) q) * dinvK hit (src e) else 0))
          + hg (ix2 p q) * (dinvK hit p * dinvK hit p)) + bg (ix1 q) := rfl

/-- The reciprocal root of the degree plus a splat one: the inverse root degree with the self loop added as one. -/
theorem dinvK_host (ei : IVec ⟨2, ![2, E]⟩ 32) (deg : FVec Ideal ⟨1, ![100000]⟩ .f32)
    (hdeg : ∀ n : Fin 100000, deg (ix1 n) = degN (hitOf ei) n)
    (ho : (⟨0, ![]⟩ : Shape).BroadcastsInDim ⟨1, ![100000]⟩ ![]) (n : Fin 100000) :
    Host.rsqrt (addf deg (broadcastInDim ⟨1, ![100000]⟩ ![] ho (constant (F := Ideal) ⟨0, ![]⟩ .f32 0x3F800000#32))) (ix1 n)
      = dinvK (hitOf ei) n := by
  refine (hostRsqrt_apply _ (ix1 n)).trans ?_
  unfold dinvK
  refine congrArg Ideal.rsqrt ?_
  rw [addf_apply, hdeg, broadcastInDim_scalar_apply]
  exact congrArg (fun z => degN (hitOf ei) n + z) Ideal.ofBits_one_f32

/-- The folded closing convolution on the host: the specification's convolution in the folded arrangement. -/
theorem gcnK_host (hN : 0 < 100000)
    (wfS : ScatterDims.WF ⟨2, ![100000, C]⟩ ⟨2, ![E, 1]⟩ ⟨2, ![E, C]⟩ [1] [0] [0] 1)
    (wfG : GatherDims.WF ⟨2, ![100000, C]⟩ ⟨2, ![E, 1]⟩ ⟨2, ![E, C]⟩ [1] [0] [] [0] [] 1 ![1, C])
    (wfV : GatherDims.WF ⟨1, ![100000]⟩ ⟨2, ![E, 1]⟩ ⟨1, ![E]⟩ [] [0] [] [0] [] 1 ![1])
    (hz : (⟨0, ![]⟩ : Shape).BroadcastsInDim ⟨2, ![100000, C]⟩ ![])
    (h0 h1 : (⟨0, ![]⟩ : Shape).BroadcastsInDim ⟨1, ![E]⟩ ![])
    (hcE : (⟨1, ![E]⟩ : Shape).BroadcastsInDim ⟨2, ![E, 1]⟩ ![0])
    (hEC : (⟨2, ![E, 1]⟩ : Shape).BroadcastsInDim ⟨2, ![E, C]⟩ ![0, 1])
    (hcN : (⟨1, ![100000]⟩ : Shape).BroadcastsInDim ⟨2, ![100000, 1]⟩ ![0])
    (hNC : (⟨2, ![100000, 1]⟩ : Shape).BroadcastsInDim ⟨2, ![100000, C]⟩ ![0, 1])
    (hb1 : (⟨1, ![C]⟩ : Shape).BroadcastsInDim ⟨2, ![1, C]⟩ ![1])
    (hb2 : (⟨2, ![1, C]⟩ : Shape).BroadcastsInDim ⟨2, ![100000, C]⟩ ![0, 1])
    (ei : IVec ⟨2, ![2, E]⟩ 32) (S D : IVec ⟨1, ![E]⟩ 32)
    (hS : ∀ e : Fin E, S (ix1 e) = ei (ix2 (0 : Fin 2) e)) (hD : ∀ e : Fin E, D (ix1 e) = ei (ix2 (1 : Fin 2) e))
    (hg : FVec Ideal ⟨2, ![100000, C]⟩ .f32) (dv : FVec Ideal ⟨1, ![100000]⟩ .f32)
    (hdv : ∀ n : Fin 100000, dv (ix1 n) = dinvK (hitOf ei) n) (bg : FVec Ideal ⟨1, ![C]⟩ .f32) :
    addf (addf
        (mulf (broadcastInDim ⟨2, ![100000, C]⟩ ![0, 1] hNC (broadcastInDim ⟨2, ![100000, 1]⟩ ![0] hcN dv))
          (Host.scatterAdd (F := Ideal) (Cert.Lib.ScatterRows2.rowsDims 100000 E C wfS)
            (broadcastInDim ⟨2, ![100000, C]⟩ ![] hz (constant (F := Ideal) ⟨0, ![]⟩ .f32 0x00000000#32))
            (broadcastInDim ⟨2, ![E, 1]⟩ ![0] hcE D)
            (mulf (Host.gather (Cert.LibGatherRows.rowsDims 100000 C E wfG) hg (broadcastInDim ⟨2, ![E, 1]⟩ ![0] hcE (wrapVec S h0 h1)))
              (broadcastInDim ⟨2, ![E, C]⟩ ![0, 1] hEC (broadcastInDim ⟨2, ![E, 1]⟩ ![0] hcE
                (Host.gather (Cert.LibGatherRows.entriesDims 100000 E wfV) dv (broadcastInDim ⟨2, ![E, 1]⟩ ![0] hcE (wrapVec S h0 h1))))))))
        (mulf hg (broadcastInDim ⟨2, ![100000, C]⟩ ![0, 1] hNC
          (mulf (broadcastInDim ⟨2, ![100000, 1]⟩ ![0] hcN dv) (broadcastInDim ⟨2, ![100000, 1]⟩ ![0] hcN dv)))))
      (broadcastInDim ⟨2, ![100000, C]⟩ ![0, 1] hb2 (broadcastInDim ⟨2, ![1, C]⟩ ![1] hb1 bg))
    = gcnK (srcOf ei) (hitOf ei) hg bg := by
  funext i
  obtain ⟨p, q, rfl⟩ := exists_ix2 i
  have hA : broadcastInDim ⟨2, ![100000, C]⟩ ![0, 1] hNC (broadcastInDim ⟨2, ![100000, 1]⟩ ![0] hcN dv) (ix2 p q)
      = dinvK (hitOf ei) p := (Cert.LibGraphAgg.spread_apply dv hcN hNC p q).trans (hdv p)
  have hB : Host.scatterAdd (F := Ideal) (Cert.Lib.ScatterRows2.rowsDims 100000 E C wfS)
        (broadcastInDim ⟨2, ![100000, C]⟩ ![] hz (constant (F := Ideal) ⟨0, ![]⟩ .f32 0x00000000#32))
        (broadcastInDim ⟨2, ![E, 1]⟩ ![0] hcE D)
        (mulf (Host.gather (Cert.LibGatherRows.rowsDims 100000 C E wfG) hg (broadcastInDim ⟨2, ![E, 1]⟩ ![0] hcE (wrapVec S h0 h1)))
          (broadcastInDim ⟨2, ![E, C]⟩ ![0, 1] hEC (broadcastInDim ⟨2, ![E, 1]⟩ ![0] hcE
            (Host.gather (Cert.LibGatherRows.entriesDims 100000 E wfV) dv (broadcastInDim ⟨2, ![E, 1]⟩ ![0] hcE (wrapVec S h0 h1))))))
        (ix2 p q)
      = (0 : EReal) + ∑ e : Fin E,
          if hitOf ei e p then hg (ix2 (srcOf ei e) q) * dinvK (hitOf ei) (srcOf ei e) else 0 := by
    rw [Cert.Lib.ScatterRows2.scatterAdd_rows_apply]
    refine congr (congrArg HAdd.hAdd ?_) (Finset.sum_congr rfl fun e _ => ?_)
    · rw [broadcastInDim_scalar_apply]
      exact Ideal.ofBits_zero_f32
    · have hsrc : clampN (wrapIdx (S (ix1 e))) = srcOf ei e := congrArg (fun v => clampN (wrapIdx v)) (hS e)
      rw [col_apply, hD]
      refine if_congr Iff.rfl ?_ rfl
      rw [mulf_apply, Cert.LibGatherRows.gather_rows_apply hN, clampRow_wrapCol, Cert.LibGraphAgg.spread_apply,
        Cert.LibGatherRows.gather_entries_apply hN, clampRow_wrapCol, hsrc, hdv]
  have hC : broadcastInDim ⟨2, ![100000, C]⟩ ![0, 1] hNC
        (mulf (broadcastInDim ⟨2, ![100000, 1]⟩ ![0] hcN dv) (broadcastInDim ⟨2, ![100000, 1]⟩ ![0] hcN dv)) (ix2 p q)
      = dinvK (hitOf ei) p * dinvK (hitOf ei) p := by
    rw [Cert.Lib.Keepdims.broadcastInDim_a1_ab_apply, mulf_apply, col_apply, hdv]
  rw [gcnK_apply, addf_apply, addf_apply, mulf_apply, mulf_apply, hA, hB, hC, Cert.LibLreluRows.biasRows_apply]

end Cert.HostRead

end
-- ==== Proof.KV9.lean ====
/-
  The stretches around the closing projection: the inverse root degree of every node, and the closing convolution
  over the projected rows (the self loop's term added densely, the node's own factor taken out of the sum over edges).
-/
import proofs.«170208_j90074054132246_2_alg».proof.Proof.KVBase
import proofs.«170208_j90074054132246_2_alg».proof.Proof.KV0a
import proofs.«170208_j90074054132246_2_alg».proof.Proof.KV0b
import proofs.«170208_j90074054132246_2_alg».proof.Proof.KGcnHost

set_option maxRecDepth 16384

noncomputable section

namespace Cert.KernelIdeal.KValue

open Cert.KernelIdeal Cert.KernelIdeal.Gen Cert.KernelIdeal.Fold
open Idealize.ShloMosaic Idealize.ShloMosaic.TcCoe Idealize.SL.Sem Idealize.ShloMosaic.StableHlo
open Idealize.ShloMosaic.ValueIdx Cert.Dense Cert.Net

variable (m : (ℓ : Loc nD τ sig) → Buf (Elt Ideal) ℓ) (ρ : Dev nD → PrngReg) (c : Dev nD)

/-- A value written to a buffer at the buffer's type and read back at the value's type is the value. -/
theorem ofBuf_toBuf {sg : RefSig} {Val : EltTy → Type} {T : BufTy} (x : StableHlo.TRef sg T) (v : T.Contents Val) :
    x.ofBuf (x.toBuf v) = v := by
  obtain ⟨r, h, h2, h3⟩ := x
  subst h
  rfl

/-- The inverse root degree over host operations. -/
abbrev DinvV : Row 100000 :=
  Host.rsqrt (addf (DegV m c) (broadcastInDim S100000 ![] bcast_S_S100000 (constant (F := Ideal) S_ .f32 0x3F800000#32)))

theorem dinvV_apply (n : Fin 100000) : DinvV m c (ix1 n) = dinvK (HIT m c) n :=
  Cert.HostRead.dinvK_host (ei := EI m c) (DegV m c) (degV_apply m c) bcast_S_S100000 n

set_option maxHeartbeats 8000000 in
theorem s8_v101 : (W17 m ρ c (Proc.devRef .tc main_call0_v101) : Row 100000) = DinvV m c := by
  show StableHlo.after hostOps8 _ _ = _
  dsimp only [hostOps8]
  after_results_simp
  simp only [ofBuf_toBuf]
  rw [v7_at16 m ρ c, s0_v7 m ρ c]
  rfl

set_option maxHeartbeats 16000000 in
theorem s9_out (hg : Mat 100000 16) (hh : W18 m ρ c (Proc.devRef .tc main_call0_v103) = hg) :
    (W19 m ρ c (Proc.devRef .tc main_v0) : Mat 100000 16) = gcnK (SRC m c) (HIT m c) hg (Bg m c) := by
  show StableHlo.after hostOps9 _ _ = _
  dsimp only [hostOps9]
  after_results_simp
  simp only [ofBuf_toBuf]
  rw [v1_at18 m ρ c, v3_at18 m ρ c, s0_v1 m ρ c, s0_v3 m ρ c, hh, v101_at18 m ρ c, s8_v101 m ρ c, arg21_at18 m ρ c]
  exact Cert.HostRead.gcnK_host (by decide) scatter_S100000x16_S1600000x1_S1600000x16_1_0_0_1_wf
    gather_S100000x16_S1600000x1_S1600000x16_1_0_n_n_0_1_116_wf gather_S100000_S1600000x1_S1600000_n_0_n_n_0_1_1_wf
    bcast_S_S100000x16 bcast_S_S1600000 bcast_S_S1600000 bcast_S1600000_S1600000x1_0 bcast_S1600000x1_S1600000x16_0_1
    bcast_S100000_S100000x1_0 bcast_S100000x1_S100000x16_0_1 bcast_S16_S1x16_1 bcast_S1x16_S100000x16_0_1
    (EI m c) (SV m c) (DV m c) (hSV m c) (hDV m c) hg (DinvV m c) (dinvV_apply m c) (Bg m c)

end Cert.KernelIdeal.KValue

end
-- ==== Proof.Tile.lean ====
/-
  The three tiled bodies of the network, each read at one entry of the block of rows it leaves.

  A body receives M rows of its row-blocked operands and the whole weight matrices, and leaves M rows of C columns.

    fused     max(((Σ_k (s[p,k] · r[p,0]) · wl[k,q]) + Σ_k h[p,k] · wr[k,q]) + b[0,q], 0)
              the neighbour sums s scaled row by row by the reciprocal column r, the two products on the matrix
              unit (operands narrowed to half precision, accumulator zero), the one-row bias broadcast down the
              rows, the rectifier against a splat zero;
    projected max(((a[p,q] · r[p,0]) + Σ_k h[p,k] · wr[k,q]) + b[0,q], 0)
              the neighbour sums a arrive already projected, so only the node's own product is taken;
    linear    Σ_k h[p,k] · w[k,q].

  Every operand is first cast to its own shape (the identity); the first layer's body narrows the node features
  without that cast, so the fused body is stated in both spellings, with one reading. At exact values the
  narrowing is the identity and a product into the zero accumulator is the plain sum over the contracted index.
  The bodies are generic in the extents M, K, C; their side conditions are propositions, so one statement serves
  every shape of the network.
-/
import Idealize.ShloMosaic.PureOps.Ideal.Laws
import Idealize.ShloMosaic.Lib.ValueIdx
import Idealize.ShloMosaic.Lib.ValueLayout
import Idealize.ShloMosaic.Lib.Pipeline.Value
import proofs.«170208_j90074054132246_2_alg».proof.Proof.LibDenseRows
import proofs.«170208_j90074054132246_2_alg».proof.Proof.LibKeepdims

noncomputable section

namespace Cert.Tile

open Idealize.ShloMosaic Idealize.ShloMosaic.ValueIdx Cert.Dense

/-- The zero offsets of a whole-buffer access, however they are spelt. -/
theorem hz : (![0, 0] : Fin 2 → Nat) = fun _ => 0 := funext fun a => by fin_cases a <;> rfl

/-- A block of rows scaled row by row by a one-column block: both cast to their own shapes, the column spread
    over the columns, the product entry by entry. -/
def scaled (M K : Nat)
    (hxx : (⟨2, ![M, K]⟩ : Shape).ShapeCasts ⟨2, ![M, K]⟩) (hcc : (⟨2, ![M, 1]⟩ : Shape).ShapeCasts ⟨2, ![M, 1]⟩)
    (hck : (⟨2, ![M, 1]⟩ : Shape).Broadcasts ⟨2, ![M, K]⟩)
    (x : FVec Ideal ⟨2, ![M, K]⟩ .f32) (r : FVec Ideal ⟨2, ![M, 1]⟩ .f32) : FVec Ideal ⟨2, ![M, K]⟩ .f32 :=
  mulf (shapeCast ⟨2, ![M, K]⟩ x hxx) (broadcastTo ⟨2, ![M, K]⟩ (shapeCast ⟨2, ![M, 1]⟩ r hcc) hck)

theorem scaled_apply (M K : Nat)
    (hxx : (⟨2, ![M, K]⟩ : Shape).ShapeCasts ⟨2, ![M, K]⟩) (hcc : (⟨2, ![M, 1]⟩ : Shape).ShapeCasts ⟨2, ![M, 1]⟩)
    (hck : (⟨2, ![M, 1]⟩ : Shape).Broadcasts ⟨2, ![M, K]⟩)
    (x : FVec Ideal ⟨2, ![M, K]⟩ .f32) (r : FVec Ideal ⟨2, ![M, 1]⟩ .f32) (p : Fin M) (k : Fin K) :
    scaled M K hxx hcc hck x r (ix2 p k) = x (ix2 p k) * r (ix2 p (0 : Fin 1)) := by
  show shapeCast ⟨2, ![M, K]⟩ x hxx (ix2 p k)
      * broadcastTo ⟨2, ![M, K]⟩ (shapeCast ⟨2, ![M, 1]⟩ r hcc) hck (ix2 p k) = _
  rw [Cert.Lib.Keepdims.broadcastTo_a1_ab_apply, shapeCast_self, shapeCast_self]

/-- A block of rows times a whole weight matrix on the matrix unit: the weights cast to their own shape, both
    operands narrowed, the accumulator zero. -/
def product (M K C : Nat) (hlt : FTy.bf16.bits < FTy.f32.bits)
    (hww : (⟨2, ![K, C]⟩ : Shape).ShapeCasts ⟨2, ![K, C]⟩) (D : DotDims ⟨2, ![M, K]⟩ ⟨2, ![K, C]⟩ ⟨2, ![M, C]⟩)
    (u : FVec Ideal ⟨2, ![M, K]⟩ .f32) (w : FVec Ideal ⟨2, ![K, C]⟩ .f32) : FVec Ideal ⟨2, ![M, C]⟩ .f32 :=
  matmul D none (truncf .bf16 u hlt) (truncf .bf16 (shapeCast ⟨2, ![K, C]⟩ w hww) hlt)
    (constant ⟨2, ![M, C]⟩ .f32 0x00000000#32)

theorem product_apply (M K C : Nat) (hlt : FTy.bf16.bits < FTy.f32.bits)
    (hww : (⟨2, ![K, C]⟩ : Shape).ShapeCasts ⟨2, ![K, C]⟩) (D : DotDims ⟨2, ![M, K]⟩ ⟨2, ![K, C]⟩ ⟨2, ![M, C]⟩)
    (hD : D = DotDims.plain M K C)
    (u : FVec Ideal ⟨2, ![M, K]⟩ .f32) (w : FVec Ideal ⟨2, ![K, C]⟩ .f32) (p : Fin M) (q : Fin C) :
    product M K C hlt hww D u w (ix2 p q) = ∑ k : Fin K, u (ix2 p k) * w (ix2 k q) := by
  subst hD
  refine (tileProduct_apply M K C none hlt hlt u (shapeCast ⟨2, ![K, C]⟩ w hww) p q).trans ?_
  rw [shapeCast_self]

/-- The closing stages shared by the fused and the projected body: the one-row bias cast to its own shape and
    broadcast down the rows, added, and the rectifier against a splat zero. -/
def biasRelu (M C : Nat) (hbb : (⟨2, ![1, C]⟩ : Shape).ShapeCasts ⟨2, ![1, C]⟩)
    (hbo : (⟨2, ![1, C]⟩ : Shape).Broadcasts ⟨2, ![M, C]⟩)
    (y : FVec Ideal ⟨2, ![M, C]⟩ .f32) (b : FVec Ideal ⟨2, ![1, C]⟩ .f32) : FVec Ideal ⟨2, ![M, C]⟩ .f32 :=
  maximumf (addf y (broadcastTo ⟨2, ![M, C]⟩ (shapeCast ⟨2, ![1, C]⟩ b hbb) hbo))
    (broadcast ⟨2, ![M, C]⟩ (Scalar.ofBits (F := Ideal) .f32 0x00000000#32))

theorem biasRelu_apply (M C : Nat) (hbb : (⟨2, ![1, C]⟩ : Shape).ShapeCasts ⟨2, ![1, C]⟩)
    (hbo : (⟨2, ![1, C]⟩ : Shape).Broadcasts ⟨2, ![M, C]⟩)
    (y : FVec Ideal ⟨2, ![M, C]⟩ .f32) (b : FVec Ideal ⟨2, ![1, C]⟩ .f32) (p : Fin M) (q : Fin C) :
    biasRelu M C hbb hbo y b (ix2 p q) = max (y (ix2 p q) + b (ix2 (0 : Fin 1) q)) 0 := by
  refine (tileRelu_apply M C _ (ix2 p q)).trans ?_
  exact congrArg (fun z => max z 0) (tileAddRow_apply M C hbb hbo y b p q)

/-! ## The fused body -/

/-- The fused body from the scaled neighbour sums on: the node features enter as given (cast or not). -/
def fusedFrom (M K C : Nat) (hlt : FTy.bf16.bits < FTy.f32.bits)
    (hww : (⟨2, ![K, C]⟩ : Shape).ShapeCasts ⟨2, ![K, C]⟩) (hbb : (⟨2, ![1, C]⟩ : Shape).ShapeCasts ⟨2, ![1, C]⟩)
    (hbo : (⟨2, ![1, C]⟩ : Shape).Broadcasts ⟨2, ![M, C]⟩) (D : DotDims ⟨2, ![M, K]⟩ ⟨2, ![K, C]⟩ ⟨2, ![M, C]⟩)
    (u hq : FVec Ideal ⟨2, ![M, K]⟩ .f32) (wl wr : FVec Ideal ⟨2, ![K, C]⟩ .f32) (b : FVec Ideal ⟨2, ![1, C]⟩ .f32) :
    FVec Ideal ⟨2, ![M, C]⟩ .f32 :=
  biasRelu M C hbb hbo (addf (product M K C hlt hww D u wl) (product M K C hlt hww D hq wr)) b

theorem fusedFrom_apply (M K C : Nat) (hlt : FTy.bf16.bits < FTy.f32.bits)
    (hww : (⟨2, ![K, C]⟩ : Shape).ShapeCasts ⟨2, ![K, C]⟩) (hbb : (⟨2, ![1, C]⟩ : Shape).ShapeCasts ⟨2, ![1, C]⟩)
    (hbo : (⟨2, ![1, C]⟩ : Shape).Broadcasts ⟨2, ![M, C]⟩) (D : DotDims ⟨2, ![M, K]⟩ ⟨2, ![K, C]⟩ ⟨2, ![M, C]⟩)
    (hD : D = DotDims.plain M K C)
    (u hq : FVec Ideal ⟨2, ![M, K]⟩ .f32) (wl wr : FVec Ideal ⟨2, ![K, C]⟩ .f32) (b : FVec Ideal ⟨2, ![1, C]⟩ .f32)
    (p : Fin M) (q : Fin C) :
    fusedFrom M K C hlt hww hbb hbo D u hq wl wr b (ix2 p q)
      = max (((∑ k : Fin K, u (ix2 p k) * wl (ix2 k q)) + ∑ k : Fin K, hq (ix2 p k) * wr (ix2 k q))
          + b (ix2 (0 : Fin 1) q)) 0 := by
  refine (biasRelu_apply M C hbb hbo _ b p q).trans ?_
  refine congrArg (fun z => max (z + b (ix2 (0 : Fin 1) q)) 0) ?_
  show product M K C hlt hww D u wl (ix2 p q) + product M K C hlt hww D hq wr (ix2 p q) = _
  rw [product_apply M K C hlt hww D hD u wl p q, product_apply M K C hlt hww D hD hq wr p q]

/-- The fused body, the node features narrowed as loaded (the first layer's spelling). -/
def fusedBody0 (M K C : Nat)
    (hxx : (⟨2, ![M, K]⟩ : Shape).ShapeCasts ⟨2, ![M, K]⟩) (hcc : (⟨2, ![M, 1]⟩ : Shape).ShapeCasts ⟨2, ![M, 1]⟩)
    (hck : (⟨2, ![M, 1]⟩ : Shape).Broadcasts ⟨2, ![M, K]⟩) (hlt : FTy.bf16.bits < FTy.f32.bits)
    (hww : (⟨2, ![K, C]⟩ : Shape).ShapeCasts ⟨2, ![K, C]⟩) (hbb : (⟨2, ![1, C]⟩ : Shape).ShapeCasts ⟨2, ![1, C]⟩)
    (hbo : (⟨2, ![1, C]⟩ : Shape).Broadcasts ⟨2, ![M, C]⟩) (D : DotDims ⟨2, ![M, K]⟩ ⟨2, ![K, C]⟩ ⟨2, ![M, C]⟩)
    (s : FVec Ideal ⟨2, ![M, K]⟩ .f32) (r : FVec Ideal ⟨2, ![M, 1]⟩ .f32) (h : FVec Ideal ⟨2, ![M, K]⟩ .f32)
    (wl wr : FVec Ideal ⟨2, ![K, C]⟩ .f32) (b : FVec Ideal ⟨2, ![1, C]⟩ .f32) : FVec Ideal ⟨2, ![M, C]⟩ .f32 :=
  fusedFrom M K C hlt hww hbb hbo D (scaled M K hxx hcc hck s r) h wl wr b

/-- The fused body, the node features cast to their own shape before the narrowing (the later layers' spelling). -/
def fusedBody (M K C : Nat)
    (hxx : (⟨2, ![M, K]⟩ : Shape).ShapeCasts ⟨2, ![M, K]⟩) (hcc : (⟨2, ![M, 1]⟩ : Shape).ShapeCasts ⟨2, ![M, 1]⟩)
    (hck : (⟨2, ![M, 1]⟩ : Shape).Broadcasts ⟨2, ![M, K]⟩) (hlt : FTy.bf16.bits < FTy.f32.bits)
    (hww : (⟨2, ![K, C]⟩ : Shape).ShapeCasts ⟨2, ![K, C]⟩) (hbb : (⟨2, ![1, C]⟩ : Shape).ShapeCasts ⟨2, ![1, C]⟩)
    (hbo : (⟨2, ![1, C]⟩ : Shape).Broadcasts ⟨2, ![M, C]⟩) (D : DotDims ⟨2, ![M, K]⟩ ⟨2, ![K, C]⟩ ⟨2, ![M, C]⟩)
    (s : FVec Ideal ⟨2, ![M, K]⟩ .f32) (r : FVec Ideal ⟨2, ![M, 1]⟩ .f32) (h : FVec Ideal ⟨2, ![M, K]⟩ .f32)
    (wl wr : FVec Ideal ⟨2, ![K, C]⟩ .f32) (b : FVec Ideal ⟨2, ![1, C]⟩ .f32) : FVec Ideal ⟨2, ![M, C]⟩ .f32 :=
  fusedFrom M K C hlt hww hbb hbo D (scaled M K hxx hcc hck s r) (shapeCast ⟨2, ![M, K]⟩ h hxx) wl wr b

theorem fusedBody0_apply (M K C : Nat)
    (hxx : (⟨2, ![M, K]⟩ : Shape).ShapeCasts ⟨2, ![M, K]⟩) (hcc : (⟨2, ![M, 1]⟩ : Shape).ShapeCasts ⟨2, ![M, 1]⟩)
    (hck : (⟨2, ![M, 1]⟩ : Shape).Broadcasts ⟨2, ![M, K]⟩) (hlt : FTy.bf16.bits < FTy.f32.bits)
    (hww : (⟨2, ![K, C]⟩ : Shape).ShapeCasts ⟨2, ![K, C]⟩) (hbb : (⟨2, ![1, C]⟩ : Shape).ShapeCasts ⟨2, ![1, C]⟩)
    (hbo : (⟨2, ![1, C]⟩ : Shape).Broadcasts ⟨2, ![M, C]⟩) (D : DotDims ⟨2, ![M, K]⟩ ⟨2, ![K, C]⟩ ⟨2, ![M, C]⟩)
    (hD : D = DotDims.plain M K C)
    (s : FVec Ideal ⟨2, ![M, K]⟩ .f32) (r : FVec Ideal ⟨2, ![M, 1]⟩ .f32) (h : FVec Ideal ⟨2, ![M, K]⟩ .f32)
    (wl wr : FVec Ideal ⟨2, ![K, C]⟩ .f32) (b : FVec Ideal ⟨2, ![1, C]⟩ .f32) (p : Fin M) (q : Fin C) :
    fusedBody0 M K C hxx hcc hck hlt hww hbb hbo D s r h wl wr b (ix2 p q)
      = max (((∑ k : Fin K, (s (ix2 p k) * r (ix2 p (0 : Fin 1))) * wl (ix2 k q))
          + ∑ k : Fin K, h (ix2 p k) * wr (ix2 k q)) + b (ix2 (0 : Fin 1) q)) 0 := by
  refine (fusedFrom_apply M K C hlt hww hbb hbo D hD _ h wl wr b p q).trans ?_
  refine congrArg (fun z => max ((z + ∑ k : Fin K, h (ix2 p k) * wr (ix2 k q)) + b (ix2 (0 : Fin 1) q)) 0) ?_
  refine Finset.sum_congr rfl fun k _ => ?_
  rw [scaled_apply]

theorem fusedBody_apply (M K C : Nat)
    (hxx : (⟨2, ![M, K]⟩ : Shape).ShapeCasts ⟨2, ![M, K]⟩) (hcc : (⟨2, ![M, 1]⟩ : Shape).ShapeCasts ⟨2, ![M, 1]⟩)
    (hck : (⟨2, ![M, 1]⟩ : Shape).Broadcasts ⟨2, ![M, K]⟩) (hlt : FTy.bf16.bits < FTy.f32.bits)
    (hww : (⟨2, ![K, C]⟩ : Shape).ShapeCasts ⟨2, ![K, C]⟩) (hbb : (⟨2, ![1, C]⟩ : Shape).ShapeCasts ⟨2, ![1, C]⟩)
    (hbo : (⟨2, ![1, C]⟩ : Shape).Broadcasts ⟨2, ![M, C]⟩) (D : DotDims ⟨2, ![M, K]⟩ ⟨2, ![K, C]⟩ ⟨2, ![M, C]⟩)
    (hD : D = DotDims.plain M K C)
    (s : FVec Ideal ⟨2, ![M, K]⟩ .f32) (r : FVec Ideal ⟨2, ![M, 1]⟩ .f32) (h : FVec Ideal ⟨2, ![M, K]⟩ .f32)
    (wl wr : FVec Ideal ⟨2, ![K, C]⟩ .f32) (b : FVec Ideal ⟨2, ![1, C]⟩ .f32) (p : Fin M) (q : Fin C) :
    fusedBody M K C hxx hcc hck hlt hww hbb hbo D s r h wl wr b (ix2 p q)
      = max (((∑ k : Fin K, (s (ix2 p k) * r (ix2 p (0 : Fin 1))) * wl (ix2 k q))
          + ∑ k : Fin K, h (ix2 p k) * wr (ix2 k q)) + b (ix2 (0 : Fin 1) q)) 0 := by
  refine (fusedFrom_apply M K C hlt hww hbb hbo D hD _ _ wl wr b p q).trans ?_
  rw [shapeCast_self]
  refine congrArg (fun z => max ((z + ∑ k : Fin K, h (ix2 p k) * wr (ix2 k q)) + b (ix2 (0 : Fin 1) q)) 0) ?_
  refine Finset.sum_congr rfl fun k _ => ?_
  rw [scaled_apply]

/-! ## The projected body -/

/-- The body of a layer whose neighbour sums arrive already projected. -/
def preBody (M K C : Nat)
    (hoo : (⟨2, ![M, C]⟩ : Shape).ShapeCasts ⟨2, ![M, C]⟩) (hcc : (⟨2, ![M, 1]⟩ : Shape).ShapeCasts ⟨2, ![M, 1]⟩)
    (hco : (⟨2, ![M, 1]⟩ : Shape).Broadcasts ⟨2, ![M, C]⟩)
    (hxx : (⟨2, ![M, K]⟩ : Shape).ShapeCasts ⟨2, ![M, K]⟩) (hlt : FTy.bf16.bits < FTy.f32.bits)
    (hww : (⟨2, ![K, C]⟩ : Shape).ShapeCasts ⟨2, ![K, C]⟩) (hbb : (⟨2, ![1, C]⟩ : Shape).ShapeCasts ⟨2, ![1, C]⟩)
    (hbo : (⟨2, ![1, C]⟩ : Shape).Broadcasts ⟨2, ![M, C]⟩) (D : DotDims ⟨2, ![M, K]⟩ ⟨2, ![K, C]⟩ ⟨2, ![M, C]⟩)
    (a : FVec Ideal ⟨2, ![M, C]⟩ .f32) (r : FVec Ideal ⟨2, ![M, 1]⟩ .f32) (h : FVec Ideal ⟨2, ![M, K]⟩ .f32)
    (wr : FVec Ideal ⟨2, ![K, C]⟩ .f32) (b : FVec Ideal ⟨2, ![1, C]⟩ .f32) : FVec Ideal ⟨2, ![M, C]⟩ .f32 :=
  biasRelu M C hbb hbo
    (addf (scaled M C hoo hcc hco a r) (product M K C hlt hww D (shapeCast ⟨2, ![M, K]⟩ h hxx) wr)) b

theorem preBody_apply (M K C : Nat)
    (hoo : (⟨2, ![M, C]⟩ : Shape).ShapeCasts ⟨2, ![M, C]⟩) (hcc : (⟨2, ![M, 1]⟩ : Shape).ShapeCasts ⟨2, ![M, 1]⟩)
    (hco : (⟨2, ![M, 1]⟩ : Shape).Broadcasts ⟨2, ![M, C]⟩)
    (hxx : (⟨2, ![M, K]⟩ : Shape).ShapeCasts ⟨2, ![M, K]⟩) (hlt : FTy.bf16.bits < FTy.f32.bits)
    (hww : (⟨2, ![K, C]⟩ : Shape).ShapeCasts ⟨2, ![K, C]⟩) (hbb : (⟨2, ![1, C]⟩ : Shape).ShapeCasts ⟨2, ![1, C]⟩)
    (hbo : (⟨2, ![1, C]⟩ : Shape).Broadcasts ⟨2, ![M, C]⟩) (D : DotDims ⟨2, ![M, K]⟩ ⟨2, ![K, C]⟩ ⟨2, ![M, C]⟩)
    (hD : D = DotDims.plain M K C)
    (a : FVec Ideal ⟨2, ![M, C]⟩ .f32) (r : FVec Ideal ⟨2, ![M, 1]⟩ .f32) (h : FVec Ideal ⟨2, ![M, K]⟩ .f32)
    (wr : FVec Ideal ⟨2, ![K, C]⟩ .f32) (b : FVec Ideal ⟨2, ![1, C]⟩ .f32) (p : Fin M) (q : Fin C) :
    preBody M K C hoo hcc hco hxx hlt hww hbb hbo D a r h wr b (ix2 p q)
      = max (((a (ix2 p q) * r (ix2 p (0 : Fin 1))) + ∑ k : Fin K, h (ix2 p k) * wr (ix2 k q))
          + b (ix2 (0 : Fin 1) q)) 0 := by
  refine (biasRelu_apply M C hbb hbo _ b p q).trans ?_
  refine congrArg (fun z => max (z + b (ix2 (0 : Fin 1) q)) 0) ?_
  show scaled M C hoo hcc hco a r (ix2 p q)
      + product M K C hlt hww D (shapeCast ⟨2, ![M, K]⟩ h hxx) wr (ix2 p q) = _
  rw [scaled_apply, product_apply M K C hlt hww D hD _ wr p q, shapeCast_self]

/-! ## The linear body -/

/-- The projection alone: the features cast to their own shape, narrowed, times the weights. -/
def linBody (M K C : Nat) (hxx : (⟨2, ![M, K]⟩ : Shape).ShapeCasts ⟨2, ![M, K]⟩) (hlt : FTy.bf16.bits < FTy.f32.bits)
    (hww : (⟨2, ![K, C]⟩ : Shape).ShapeCasts ⟨2, ![K, C]⟩) (D : DotDims ⟨2, ![M, K]⟩ ⟨2, ![K, C]⟩ ⟨2, ![M, C]⟩)
    (h : FVec Ideal ⟨2, ![M, K]⟩ .f32) (w : FVec Ideal ⟨2, ![K, C]⟩ .f32) : FVec Ideal ⟨2, ![M, C]⟩ .f32 :=
  product M K C hlt hww D (shapeCast ⟨2, ![M, K]⟩ h hxx) w

theorem linBody_apply (M K C : Nat) (hxx : (⟨2, ![M, K]⟩ : Shape).ShapeCasts ⟨2, ![M, K]⟩)
    (hlt : FTy.bf16.bits < FTy.f32.bits) (hww : (⟨2, ![K, C]⟩ : Shape).ShapeCasts ⟨2, ![K, C]⟩)
    (D : DotDims ⟨2, ![M, K]⟩ ⟨2, ![K, C]⟩ ⟨2, ![M, C]⟩) (hD : D = DotDims.plain M K C)
    (h : FVec Ideal ⟨2, ![M, K]⟩ .f32) (w : FVec Ideal ⟨2, ![K, C]⟩ .f32) (p : Fin M) (q : Fin C) :
    linBody M K C hxx hlt hww D h w (ix2 p q) = ∑ k : Fin K, h (ix2 p k) * w (ix2 k q) := by
  refine (product_apply M K C hlt hww D hD _ w p q).trans ?_
  rw [shapeCast_self]

end Cert.Tile

end
-- ==== Proof.Region0.lean ====
/-
  What the first fused layer's region leaves in its output array, as one function of the arrays it finds on entry.

  The region runs its body at 20 grid points. At point t the body receives rows 5000·t … 5000·t + 4999 of the
  neighbour sums, of the reciprocal column and of the node features, and the whole two weight matrices and one-row
  bias, and it leaves rows 5000·t … 5000·t + 4999 of the output. Entry (p, q) of what it leaves is
  max(((Σ_k (s[5000·t + p, k] · r[5000·t + p, 0]) · wl[k, q]) + Σ_k h[5000·t + p, k] · wr[k, q]) + b[0, q], 0):
  the tiled layer of the whole arrays at row 5000·t + p. Row R of the output lies in the block of point R / 5000, so
  the 20 blocks cover the array and it ends holding the tiled layer everywhere.
-/
import proofs.«170208_j90074054132246_2_alg».proof.Proof.Gen.KernelIdeal.Frame
import Idealize.ShloMosaic.Lib.Pipeline.Value
import proofs.«170208_j90074054132246_2_alg».proof.Proof.Tile
import proofs.«170208_j90074054132246_2_alg».proof.Proof.LibSageLayer

noncomputable section

namespace Cert.KernelIdeal.Regions

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

/-! ## The body at one entry -/

/-- The stored value is the fused body of the loaded blocks. -/
theorem pay0_eq (x0 : Vec Ideal S5000x7 .f32) (x1 : Vec Ideal S5000x1 .f32) (x2 : Vec Ideal S5000x7 .f32)
    (x3 x5 : Vec Ideal S7x32 .f32) (x4 : Vec Ideal S1x32 .f32) :
    k0_pay1 (F := Ideal) x0 x1 x2 x3 x5 x4
      = Cert.Tile.fusedBody0 5000 7 32 shapeCasts_S5000x7_S5000x7 shapeCasts_S5000x1_S5000x1 broadcasts_S5000x1_S5000x7
          bitsLt_bf16_f32 shapeCasts_S7x32_S7x32 shapeCasts_S1x32_S1x32 broadcasts_S1x32_S5000x32
          dot_S5000x7_S7x32_S5000x32_1_0_0_1_n_n x0 x1 x2 x3 x5 x4 := rfl

/-- What the body leaves in the output window's buffer, at entry (p, q), from the input windows' blocks. -/
theorem out0_apply (x0 : Vec Ideal S5000x7 .f32) (x1 : Vec Ideal S5000x1 .f32) (x2 : Vec Ideal S5000x7 .f32)
    (x3 : Vec Ideal S7x32 .f32) (x4 : Vec Ideal S1x32 .f32) (x5 : Vec Ideal S7x32 .f32) (p : Fin 5000) (q : Fin 32) :
    out0_6 (F := Ideal) x0 x1 x2 x3 x4 x5 (ix2 p q)
      = max (((∑ k : Fin 7, (x0 (ix2 p k) * x1 (ix2 p (0 : Fin 1))) * x3 (ix2 k q))
          + ∑ k : Fin 7, x2 (ix2 p k) * x5 (ix2 k q)) + x4 (ix2 (0 : Fin 1) q)) 0 := by
  unfold out0_6
  rw [View.canon_unit_zero Cert.Tile.hz]
  simp only [View.ld_unit_zero (S := S5000x7) Cert.Tile.hz, View.ld_unit_zero (S := S5000x1) Cert.Tile.hz,
    View.ld_unit_zero (S := S7x32) Cert.Tile.hz, View.ld_unit_zero (S := S1x32) Cert.Tile.hz]
  rw [pay0_eq]
  exact Cert.Tile.fusedBody0_apply 5000 7 32 shapeCasts_S5000x7_S5000x7 shapeCasts_S5000x1_S5000x1
    broadcasts_S5000x1_S5000x7 bitsLt_bf16_f32 shapeCasts_S7x32_S7x32 shapeCasts_S1x32_S1x32 broadcasts_S1x32_S5000x32
    dot_S5000x7_S7x32_S5000x32_1_0_0_1_n_n rfl x0 x1 x2 x3 x5 x4 p q

/-- The output block at an entry, when the row-blocked inputs are rows 5000·n + p of whole arrays and the others are
    whole arrays: the tiled layer of the whole arrays at the entry's place in the array. -/
theorem point0 (A0 : Mat 100000 7) (A1 : Mat 100000 1) (A2 : Mat 100000 7) (A3 A5 : Mat 7 32) (A4 : Mat 1 32)
    (x0 : Vec Ideal S5000x7 .f32) (x1 : Vec Ideal S5000x1 .f32) (x2 : Vec Ideal S5000x7 .f32)
    (x3 : Vec Ideal S7x32 .f32) (x4 : Vec Ideal S1x32 .f32) (x5 : Vec Ideal S7x32 .f32) (n : Nat)
    (h0 : ∀ (p : Fin 5000) (k : Fin 7) (P : Fin 100000), P.val = 5000 * n + p.val → x0 (ix2 p k) = A0 (ix2 P k))
    (h1 : ∀ (p : Fin 5000) (k : Fin 1) (P : Fin 100000), P.val = 5000 * n + p.val → x1 (ix2 p k) = A1 (ix2 P k))
    (h2 : ∀ (p : Fin 5000) (k : Fin 7) (P : Fin 100000), P.val = 5000 * n + p.val → x2 (ix2 p k) = A2 (ix2 P k))
    (h3 : x3 = A3) (h4 : x4 = A4) (h5 : x5 = A5)
    (j : S5000x32.Idx) (i : S100000x32.Idx) (hi0 : (i 0).val = 5000 * n + (j 0).val) (hi1 : (i 1).val = (j 1).val) :
    out0_6 (F := Ideal) x0 x1 x2 x3 x4 x5 j = Cert.Sage.layerTile A0 A2 A1 A3 A5 A4 i := by
  obtain ⟨p, q, rfl⟩ : ∃ (p : Fin 5000) (q : Fin 32), j = ix2 p q := ⟨j 0, j 1, eq_ix2 j⟩
  obtain ⟨P, Q, rfl⟩ : ∃ (P : Fin 100000) (Q : Fin 32), i = ix2 P Q := ⟨i 0, i 1, eq_ix2 i⟩
  have hP : P.val = 5000 * n + p.val := hi0
  obtain rfl : Q = q := Fin.ext hi1
  rw [out0_apply, Cert.Sage.layerTile_apply, h3, h4, h5, h1 p 0 P hP]
  refine congrArg (fun z => max (z + A4 (ix2 (0 : Fin 1) Q)) 0) ?_
  refine congrArg₂ (· + ·) (Finset.sum_congr rfl fun k _ => ?_) (Finset.sum_congr rfl fun k _ => ?_)
  · rw [h0 p k P hP]
  · rw [h2 p k P hP]

/-! ## The windows' blocks as rows of the arrays -/

/-- The printed index maps, decided over the grid: a row-blocked window is at block (t, 0) at point t, a whole
    window at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Window 0's block at point t is rows 5000·t … of the neighbour sums. -/
theorem blk0_0 (c : Dev nD) (t : Fin cfg0.N) (p : Fin 5000) (k : Fin 7) (P : Fin 100000)
    (hP : P.val = 5000 * t.val + p.val) :
    (iblk0 V c 0 t : Vec Ideal S5000x7 .f32) (ix2 p k) = (V c (Pipeline.arrRef spec0 0) : Mat 100000 7) (ix2 P k) := by
  obtain ⟨e0, e1, -⟩ := idx0 t
  unfold iblk0
  rw [View.read_apply]
  show V c (Pipeline.arrRef spec0 0) _ = V c (Pipeline.arrRef spec0 0) _
  refine congrArg _ ?_
  funext a
  apply Fin.ext
  match a with
  | ⟨0, _⟩ => show win0_0.index t (0 : Fin 2) * 5000 + 1 * p.val = P.val; rw [e0, hP]; omega
  | ⟨1, _⟩ => show win0_0.index t (1 : Fin 2) * 7 + 1 * k.val = k.val; rw [e1]; omega

/-- Window 1's block at point t is rows 5000·t … of the reciprocal column. -/
theorem blk0_1 (c : Dev nD) (t : Fin cfg0.N) (p : Fin 5000) (k : Fin 1) (P : Fin 100000)
    (hP : P.val = 5000 * t.val + p.val) :
    (iblk0 V c 1 t : Vec Ideal S5000x1 .f32) (ix2 p k) = (V c (Pipeline.arrRef spec0 1) : Mat 100000 1) (ix2 P k) := by
  obtain ⟨-, -, e0, e1, -⟩ := idx0 t
  unfold iblk0
  rw [View.read_apply]
  show V c (Pipeline.arrRef spec0 1) _ = V c (Pipeline.arrRef spec0 1) _
  refine congrArg _ ?_
  funext a
  apply Fin.ext
  match a with
  | ⟨0, _⟩ => show win0_1.index t (0 : Fin 2) * 5000 + 1 * p.val = P.val; rw [e0, hP]; omega
  | ⟨1, _⟩ => show win0_1.index t (1 : Fin 2) * 1 + 1 * k.val = k.val; rw [e1]; omega

/-- Window 2's block at point t is rows 5000·t … of the node features. -/
theorem blk0_2 (c : Dev nD) (t : Fin cfg0.N) (p : Fin 5000) (k : Fin 7) (P : Fin 100000)
    (hP : P.val = 5000 * t.val + p.val) :
    (iblk0 V c 2 t : Vec Ideal S5000x7 .f32) (ix2 p k) = (V c (Pipeline.arrRef spec0 2) : Mat 100000 7) (ix2 P k) := by
  obtain ⟨-, -, -, -, e0, e1, -⟩ := idx0 t
  unfold iblk0
  rw [View.read_apply]
  show V c (Pipeline.arrRef spec0 2) _ = V c (Pipeline.arrRef spec0 2) _
  refine congrArg _ ?_
  funext a
  apply Fin.ext
  match a with
  | ⟨0, _⟩ => show win0_2.index t (0 : Fin 2) * 5000 + 1 * p.val = P.val; rw [e0, hP]; omega
  | ⟨1, _⟩ => show win0_2.index t (1 : Fin 2) * 7 + 1 * k.val = k.val; rw [e1]; omega

/-- Window 3's block at every point is the whole first weight matrix. -/
theorem blk0_3 (c : Dev nD) (t : Fin cfg0.N) :
    (iblk0 V c 3 t : Vec Ideal S7x32 .f32) = (V c (Pipeline.arrRef spec0 3) : Mat 7 32) := by
  obtain ⟨-, -, -, -, -, -, e0, e1, -⟩ := idx0 t
  funext y
  unfold iblk0
  rw [View.read_apply]
  show V c (Pipeline.arrRef spec0 3) _ = V c (Pipeline.arrRef spec0 3) y
  refine congrArg _ ?_
  funext a
  apply Fin.ext
  match a with
  | ⟨0, _⟩ => show win0_3.index t (0 : Fin 2) * 7 + 1 * (y 0).val = (y 0).val; rw [e0]; omega
  | ⟨1, _⟩ => show win0_3.index t (1 : Fin 2) * 32 + 1 * (y 1).val = (y 1).val; rw [e1]; omega

/-- Window 4's block at every point is the whole one-row bias. -/
theorem blk0_4 (c : Dev nD) (t : Fin cfg0.N) :
    (iblk0 V c 4 t : Vec Ideal S1x32 .f32) = (V c (Pipeline.arrRef spec0 4) : Mat 1 32) := by
  obtain ⟨-, -, -, -, -, -, -, -, e0, e1, -⟩ := idx0 t
  funext y
  unfold iblk0
  rw [View.read_apply]
  show V c (Pipeline.arrRef spec0 4) _ = V c (Pipeline.arrRef spec0 4) y
  refine congrArg _ ?_
  funext a
  apply Fin.ext
  match a with
  | ⟨0, _⟩ => show win0_4.index t (0 : Fin 2) * 1 + 1 * (y 0).val = (y 0).val; rw [e0]; omega
  | ⟨1, _⟩ => show win0_4.index t (1 : Fin 2) * 32 + 1 * (y 1).val = (y 1).val; rw [e1]; omega

/-- Window 5's block at every point is the whole second weight matrix. -/
theorem blk0_5 (c : Dev nD) (t : Fin cfg0.N) :
    (iblk0 V c 5 t : Vec Ideal S7x32 .f32) = (V c (Pipeline.arrRef spec0 5) : Mat 7 32) := by
  obtain ⟨-, -, -, -, -, -, -, -, -, -, e0, e1, -⟩ := idx0 t
  funext y
  unfold iblk0
  rw [View.read_apply]
  show V c (Pipeline.arrRef spec0 5) _ = V c (Pipeline.arrRef spec0 5) y
  refine congrArg _ ?_
  funext a
  apply Fin.ext
  match a with
  | ⟨0, _⟩ => show win0_5.index t (0 : Fin 2) * 7 + 1 * (y 0).val = (y 0).val; rw [e0]; omega
  | ⟨1, _⟩ => show win0_5.index t (1 : Fin 2) * 32 + 1 * (y 1).val = (y 1).val; rw [e1]; omega

/-! ## From the blocks to the array -/

/-- The tiled layer of the arrays the region finds. -/
abbrev res0 (c : Dev nD) : Mat 100000 32 :=
  Cert.Sage.layerTile (V c (Pipeline.arrRef spec0 0)) (V c (Pipeline.arrRef spec0 2)) (V c (Pipeline.arrRef spec0 1))
    (V c (Pipeline.arrRef spec0 3)) (V c (Pipeline.arrRef spec0 5)) (V c (Pipeline.arrRef spec0 4))

/-- What point t writes back is block t of the tiled layer. -/
theorem flushed0 (c : Dev nD) (t : Fin cfg0.N) :
    (dat0 (F := Ideal) V c).flushed 6 t = ((cfg0.win 6).blk t).view.read (Elt Ideal) (res0 V c) := by
  show (cfg0.win 6).cut (grid0.coords t) ((dat0 V c).after 6 t) = _
  rw [after0_6]
  obtain ⟨-, -, -, -, -, -, -, -, -, -, -, -, e0, e1⟩ := idx0 t
  funext j
  rw [View.read_apply]
  show out0_6 (iblk0 V c 0 t) (iblk0 V c 1 t) (iblk0 V c 2 t) (iblk0 V c 3 t) (iblk0 V c 4 t) (iblk0 V c 5 t) j
    = res0 V c (((cfg0.win 6).blk t).view.emb j)
  refine point0 (V c (Pipeline.arrRef spec0 0)) (V c (Pipeline.arrRef spec0 1)) (V c (Pipeline.arrRef spec0 2))
    (V c (Pipeline.arrRef spec0 3)) (V c (Pipeline.arrRef spec0 5)) (V c (Pipeline.arrRef spec0 4))
    (iblk0 V c 0 t) (iblk0 V c 1 t) (iblk0 V c 2 t) (iblk0 V c 3 t) (iblk0 V c 4 t) (iblk0 V c 5 t) t.val
    (blk0_0 V c t) (blk0_1 V c t) (blk0_2 V c t) (blk0_3 V c t) (blk0_4 V c t) (blk0_5 V c t)
    j (((cfg0.win 6).blk t).view.emb j) ?_ ?_
  · show win0_6.index t (0 : Fin 2) * 5000 + 1 * (j 0).val = 5000 * t.val + (j 0).val
    rw [e0]; omega
  · show win0_6.index t (1 : Fin 2) * 32 + 1 * (j 1).val = (j 1).val
    rw [e1]; omega

/-- An index of the output array is in point t's block iff each coordinate is in the block's range on its axis. -/
theorem mem_blk0 (t : Fin cfg0.N) (i : S100000x32.Idx) :
    i ∈ ((cfg0.win 6).blk t).view.set ↔ ∀ a : Fin 2, win0_6.index t a * S5000x32.size a ≤ (i a).val
      ∧ (i a).val < win0_6.index t a * S5000x32.size a + S5000x32.size a := by
  show i ∈ ((View.whole main_call0_v26).slice (win0_6.rect t)).set ↔ _
  rw [View.set_slice_whole, Rect.mem_set_unit]
  exact Iff.rfl

/-- Row R of the output array is in the block of point R / 5000. -/
theorem cover0 (i : S100000x32.Idx) :
    ∃ t : Fin cfg0.N, (cfg0.win 6).flush t = true ∧ i ∈ ((cfg0.win 6).blk t).view.set := by
  have hi0 : (i 0).val < 100000 := (i 0).isLt
  have hi1 : (i 1).val < 32 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, -, -, -, -, -, -, e0, e1⟩ := idx0 t
  refine ⟨t, flush0_6 t, ?_⟩
  rw [mem_blk0]
  intro a
  match a with
  | ⟨0, _⟩ =>
    show win0_6.index t (0 : Fin 2) * 5000 ≤ (i 0).val ∧ (i 0).val < win0_6.index t (0 : Fin 2) * 5000 + 5000
    rw [e0, ht]; omega
  | ⟨1, _⟩ =>
    show win0_6.index t (1 : Fin 2) * 32 ≤ (i 1).val ∧ (i 1).val < win0_6.index t (1 : Fin 2) * 32 + 32
    rw [e1]; omega

/-- The region's output array ends holding the tiled layer of the arrays the region finds. -/
theorem out0 (c : Dev nD) :
    (dat0 (F := Ideal) V c).arrAt 6 cfg0.N
      = Cert.Sage.layerTile (V c (Pipeline.arrRef spec0 0)) (V c (Pipeline.arrRef spec0 2))
          (V c (Pipeline.arrRef spec0 1)) (V c (Pipeline.arrRef spec0 3)) (V c (Pipeline.arrRef spec0 5))
          (V c (Pipeline.arrRef spec0 4)) :=
  (dat0 V c).arrAt_eq_of_cover 6 (res0 V c) (fun t _ => flushed0 V c t) cover0

end Cert.KernelIdeal.Regions

end
-- ==== Proof.Region1.lean ====
/-
  What a fused layer's region (32 features in, 64 out) leaves in its output array, as one function of the arrays
  it finds on entry.

  The region runs its body at 20 grid points. At point t the body receives rows 5000·t … 5000·t + 4999 of the
  neighbour sums, of the reciprocal column and of the node features, and the whole two weight matrices and one-row
  bias, and it leaves rows 5000·t … 5000·t + 4999 of the output. Entry (p, q) of what it leaves is
  max(((Σ_k (s[5000·t + p, k] · r[5000·t + p, 0]) · wl[k, q]) + Σ_k h[5000·t + p, k] · wr[k, q]) + b[0, q], 0):
  the tiled layer of the whole arrays at row 5000·t + p. Row R of the output lies in the block of point R / 5000, so
  the 20 blocks cover the array and it ends holding the tiled layer everywhere.
-/
import proofs.«170208_j90074054132246_2_alg».proof.Proof.Gen.KernelIdeal.Frame
import Idealize.ShloMosaic.Lib.Pipeline.Value
import proofs.«170208_j90074054132246_2_alg».proof.Proof.Tile
import proofs.«170208_j90074054132246_2_alg».proof.Proof.LibSageLayer

noncomputable section

namespace Cert.KernelIdeal.Regions

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

/-! ## The body at one entry -/

/-- The stored value is the fused body of the loaded blocks. -/
theorem pay1_eq (x0 : Vec Ideal S5000x32 .f32) (x1 : Vec Ideal S5000x1 .f32) (x2 : Vec Ideal S5000x32 .f32)
    (x3 x5 : Vec Ideal S32x64 .f32) (x4 : Vec Ideal S1x64 .f32) :
    k1_pay1 (F := Ideal) x0 x1 x2 x3 x5 x4
      = Cert.Tile.fusedBody 5000 32 64 shapeCasts_S5000x32_S5000x32 shapeCasts_S5000x1_S5000x1
          broadcasts_S5000x1_S5000x32 bitsLt_bf16_f32 shapeCasts_S32x64_S32x64 shapeCasts_S1x64_S1x64
          broadcasts_S1x64_S5000x64 dot_S5000x32_S32x64_S5000x64_1_0_0_1_n_n x0 x1 x2 x3 x5 x4 := rfl

/-- What the body leaves in the output window's buffer, at entry (p, q), from the input windows' blocks. -/
theorem out1_apply (x0 : Vec Ideal S5000x32 .f32) (x1 : Vec Ideal S5000x1 .f32) (x2 : Vec Ideal S5000x32 .f32)
    (x3 : Vec Ideal S32x64 .f32) (x4 : Vec Ideal S1x64 .f32) (x5 : Vec Ideal S32x64 .f32) (p : Fin 5000) (q : Fin 64) :
    out1_6 (F := Ideal) x0 x1 x2 x3 x4 x5 (ix2 p q)
      = max (((∑ k : Fin 32, (x0 (ix2 p k) * x1 (ix2 p (0 : Fin 1))) * x3 (ix2 k q))
          + ∑ k : Fin 32, x2 (ix2 p k) * x5 (ix2 k q)) + x4 (ix2 (0 : Fin 1) q)) 0 := by
  unfold out1_6
  rw [View.canon_unit_zero Cert.Tile.hz]
  simp only [View.ld_unit_zero (S := S5000x32) Cert.Tile.hz,
    View.ld_unit_zero (S := S5000x1) Cert.Tile.hz,
    View.ld_unit_zero (S := S32x64) Cert.Tile.hz,
    View.ld_unit_zero (S := S1x64) Cert.Tile.hz]
  rw [pay1_eq]
  exact Cert.Tile.fusedBody_apply 5000 32 64 shapeCasts_S5000x32_S5000x32 shapeCasts_S5000x1_S5000x1
          broadcasts_S5000x1_S5000x32 bitsLt_bf16_f32 shapeCasts_S32x64_S32x64 shapeCasts_S1x64_S1x64
          broadcasts_S1x64_S5000x64 dot_S5000x32_S32x64_S5000x64_1_0_0_1_n_n rfl x0 x1 x2 x3 x5 x4 p q

/-- The output block at an entry, when the row-blocked inputs are rows 5000·n + p of whole arrays and the others are
    whole arrays: the tiled layer of the whole arrays at the entry's place in the array. -/
theorem point1 (A0 : Mat 100000 32) (A1 : Mat 100000 1) (A2 : Mat 100000 32) (A3 A5 : Mat 32 64) (A4 : Mat 1 64)
    (x0 : Vec Ideal S5000x32 .f32) (x1 : Vec Ideal S5000x1 .f32) (x2 : Vec Ideal S5000x32 .f32)
    (x3 : Vec Ideal S32x64 .f32) (x4 : Vec Ideal S1x64 .f32) (x5 : Vec Ideal S32x64 .f32) (n : Nat)
    (h0 : ∀ (p : Fin 5000) (k : Fin 32) (P : Fin 100000), P.val = 5000 * n + p.val → x0 (ix2 p k) = A0 (ix2 P k))
    (h1 : ∀ (p : Fin 5000) (k : Fin 1) (P : Fin 100000), P.val = 5000 * n + p.val → x1 (ix2 p k) = A1 (ix2 P k))
    (h2 : ∀ (p : Fin 5000) (k : Fin 32) (P : Fin 100000), P.val = 5000 * n + p.val → x2 (ix2 p k) = A2 (ix2 P k))
    (h3 : x3 = A3) (h4 : x4 = A4) (h5 : x5 = A5)
    (j : S5000x64.Idx) (i : S100000x64.Idx) (hi0 : (i 0).val = 5000 * n + (j 0).val) (hi1 : (i 1).val = (j 1).val) :
    out1_6 (F := Ideal) x0 x1 x2 x3 x4 x5 j = Cert.Sage.layerTile A0 A2 A1 A3 A5 A4 i := by
  obtain ⟨p, q, rfl⟩ : ∃ (p : Fin 5000) (q : Fin 64), j = ix2 p q := ⟨j 0, j 1, eq_ix2 j⟩
  obtain ⟨P, Q, rfl⟩ : ∃ (P : Fin 100000) (Q : Fin 64), i = ix2 P Q := ⟨i 0, i 1, eq_ix2 i⟩
  have hP : P.val = 5000 * n + p.val := hi0
  obtain rfl : Q = q := Fin.ext hi1
  rw [out1_apply, Cert.Sage.layerTile_apply, h3, h4, h5, h1 p 0 P hP]
  refine congrArg (fun z => max (z + A4 (ix2 (0 : Fin 1) Q)) 0) ?_
  refine congrArg₂ (· + ·) (Finset.sum_congr rfl fun k _ => ?_) (Finset.sum_congr rfl fun k _ => ?_)
  · rw [h0 p k P hP]
  · rw [h2 p k P hP]

/-! ## The windows' blocks as rows of the arrays -/

/-- The printed index maps, decided over the grid: a row-blocked window is at block (t, 0) at point t, a whole
    window at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Window 0's block at point t is rows 5000·t … of the neighbour sums. -/
theorem blk1_0 (c : Dev nD) (t : Fin cfg1.N) (p : Fin 5000) (k : Fin 32) (P : Fin 100000)
    (hP : P.val = 5000 * t.val + p.val) :
    (iblk1 V c 0 t : Vec Ideal S5000x32 .f32) (ix2 p k)
      = (V c (Pipeline.arrRef spec1 0) : Mat 100000 32) (ix2 P k) := by
  obtain ⟨e0, e1, -⟩ := idx1 t
  unfold iblk1
  rw [View.read_apply]
  show V c (Pipeline.arrRef spec1 0) _ = V c (Pipeline.arrRef spec1 0) _
  refine congrArg _ ?_
  funext a
  apply Fin.ext
  match a with
  | ⟨0, _⟩ => show win1_0.index t (0 : Fin 2) * 5000 + 1 * p.val = P.val; rw [e0, hP]; omega
  | ⟨1, _⟩ => show win1_0.index t (1 : Fin 2) * 32 + 1 * k.val = k.val; rw [e1]; omega

/-- Window 1's block at point t is rows 5000·t … of the reciprocal column. -/
theorem blk1_1 (c : Dev nD) (t : Fin cfg1.N) (p : Fin 5000) (k : Fin 1) (P : Fin 100000)
    (hP : P.val = 5000 * t.val + p.val) :
    (iblk1 V c 1 t : Vec Ideal S5000x1 .f32) (ix2 p k)
      = (V c (Pipeline.arrRef spec1 1) : Mat 100000 1) (ix2 P k) := by
  obtain ⟨-, -, e0, e1, -⟩ := idx1 t
  unfold iblk1
  rw [View.read_apply]
  show V c (Pipeline.arrRef spec1 1) _ = V c (Pipeline.arrRef spec1 1) _
  refine congrArg _ ?_
  funext a
  apply Fin.ext
  match a with
  | ⟨0, _⟩ => show win1_1.index t (0 : Fin 2) * 5000 + 1 * p.val = P.val; rw [e0, hP]; omega
  | ⟨1, _⟩ => show win1_1.index t (1 : Fin 2) * 1 + 1 * k.val = k.val; rw [e1]; omega

/-- Window 2's block at point t is rows 5000·t … of the node features. -/
theorem blk1_2 (c : Dev nD) (t : Fin cfg1.N) (p : Fin 5000) (k : Fin 32) (P : Fin 100000)
    (hP : P.val = 5000 * t.val + p.val) :
    (iblk1 V c 2 t : Vec Ideal S5000x32 .f32) (ix2 p k)
      = (V c (Pipeline.arrRef spec1 2) : Mat 100000 32) (ix2 P k) := by
  obtain ⟨-, -, -, -, e0, e1, -⟩ := idx1 t
  unfold iblk1
  rw [View.read_apply]
  show V c (Pipeline.arrRef spec1 2) _ = V c (Pipeline.arrRef spec1 2) _
  refine congrArg _ ?_
  funext a
  apply Fin.ext
  match a with
  | ⟨0, _⟩ => show win1_2.index t (0 : Fin 2) * 5000 + 1 * p.val = P.val; rw [e0, hP]; omega
  | ⟨1, _⟩ => show win1_2.index t (1 : Fin 2) * 32 + 1 * k.val = k.val; rw [e1]; omega

/-- Window 3's block at every point is the whole first weight matrix. -/
theorem blk1_3 (c : Dev nD) (t : Fin cfg1.N) :
    (iblk1 V c 3 t : Vec Ideal S32x64 .f32) = (V c (Pipeline.arrRef spec1 3) : Mat 32 64) := by
  obtain ⟨-, -, -, -, -, -, e0, e1, -⟩ := idx1 t
  funext y
  unfold iblk1
  rw [View.read_apply]
  show V c (Pipeline.arrRef spec1 3) _ = V c (Pipeline.arrRef spec1 3) y
  refine congrArg _ ?_
  funext a
  apply Fin.ext
  match a with
  | ⟨0, _⟩ => show win1_3.index t (0 : Fin 2) * 32 + 1 * (y 0).val = (y 0).val; rw [e0]; omega
  | ⟨1, _⟩ => show win1_3.index t (1 : Fin 2) * 64 + 1 * (y 1).val = (y 1).val; rw [e1]; omega

/-- Window 4's block at every point is the whole one-row bias. -/
theorem blk1_4 (c : Dev nD) (t : Fin cfg1.N) :
    (iblk1 V c 4 t : Vec Ideal S1x64 .f32) = (V c (Pipeline.arrRef spec1 4) : Mat 1 64) := by
  obtain ⟨-, -, -, -, -, -, -, -, e0, e1, -⟩ := idx1 t
  funext y
  unfold iblk1
  rw [View.read_apply]
  show V c (Pipeline.arrRef spec1 4) _ = V c (Pipeline.arrRef spec1 4) y
  refine congrArg _ ?_
  funext a
  apply Fin.ext
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- Window 5's block at every point is the whole second weight matrix. -/
theorem blk1_5 (c : Dev nD) (t : Fin cfg1.N) :
    (iblk1 V c 5 t : Vec Ideal S32x64 .f32) = (V c (Pipeline.arrRef spec1 5) : Mat 32 64) := by
  obtain ⟨-, -, -, -, -, -, -, -, -, -, e0, e1, -⟩ := idx1 t
  funext y
  unfold iblk1
  rw [View.read_apply]
  show V c (Pipeline.arrRef spec1 5) _ = V c (Pipeline.arrRef spec1 5) y
  refine congrArg _ ?_
  funext a
  apply Fin.ext
  match a with
  | ⟨0, _⟩ => show win1_5.index t (0 : Fin 2) * 32 + 1 * (y 0).val = (y 0).val; rw [e0]; omega
  | ⟨1, _⟩ => show win1_5.index t (1 : Fin 2) * 64 + 1 * (y 1).val = (y 1).val; rw [e1]; omega

/-! ## From the blocks to the array -/

/-- The tiled layer of the arrays the region finds. -/
abbrev res1 (c : Dev nD) : Mat 100000 64 :=
  Cert.Sage.layerTile (V c (Pipeline.arrRef spec1 0)) (V c (Pipeline.arrRef spec1 2)) (V c (Pipeline.arrRef spec1 1))
    (V c (Pipeline.arrRef spec1 3)) (V c (Pipeline.arrRef spec1 5)) (V c (Pipeline.arrRef spec1 4))

/-- What point t writes back is block t of that array. -/
theorem flushed1 (c : Dev nD) (t : Fin cfg1.N) :
    (dat1 (F := Ideal) V c).flushed 6 t = ((cfg1.win 6).blk t).view.read (Elt Ideal) (res1 V c) := by
  show (cfg1.win 6).cut (grid1.coords t) ((dat1 V c).after 6 t) = _
  rw [after1_6]
  obtain ⟨-, -, -, -, -, -, -, -, -, -, -, -, e0, e1⟩ := idx1 t
  funext j
  rw [View.read_apply]
  show out1_6 (iblk1 V c 0 t) (iblk1 V c 1 t) (iblk1 V c 2 t) (iblk1 V c 3 t) (iblk1 V c 4 t) (iblk1 V c 5 t) j
    = res1 V c (((cfg1.win 6).blk t).view.emb j)
  refine point1 (V c (Pipeline.arrRef spec1 0)) (V c (Pipeline.arrRef spec1 1)) (V c (Pipeline.arrRef spec1 2))
    (V c (Pipeline.arrRef spec1 3)) (V c (Pipeline.arrRef spec1 5)) (V c (Pipeline.arrRef spec1 4))
    (iblk1 V c 0 t) (iblk1 V c 1 t) (iblk1 V c 2 t) (iblk1 V c 3 t) (iblk1 V c 4 t) (iblk1 V c 5 t) t.val
    (blk1_0 V c t) (blk1_1 V c t) (blk1_2 V c t) (blk1_3 V c t) (blk1_4 V c t) (blk1_5 V c t)
    j (((cfg1.win 6).blk t).view.emb j) ?_ ?_
  · show win1_6.index t (0 : Fin 2) * 5000 + 1 * (j 0).val = 5000 * t.val + (j 0).val
    rw [e0]; omega
  · show win1_6.index t (1 : Fin 2) * 64 + 1 * (j 1).val = (j 1).val
    rw [e1]; omega

/-- An index of the output array is in point t's block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val
      ∧ (i a).val < win1_6.index t a * S5000x64.size a + S5000x64.size a := by
  show i ∈ ((View.whole main_call0_v40).slice (win1_6.rect t)).set ↔ _
  rw [View.set_slice_whole, Rect.mem_set_unit]
  exact Iff.rfl

/-- Row R of the output array is in the block of point R / 5000. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, -, -, -, -, e0, e1⟩ := idx1 t
  refine ⟨t, flush1_6 t, ?_⟩
  rw [mem_blk1]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 64 ≤ (i 1).val ∧ (i 1).val < win1_6.index t (1 : Fin 2) * 64 + 64
    rw [e1]; omega

/-- The region's output array ends holding the tiled layer of the arrays the region finds. -/
theorem out1 (c : Dev nD) :
    (dat1 (F := Ideal) V c).arrAt 6 cfg1.N
      = Cert.Sage.layerTile (V c (Pipeline.arrRef spec1 0)) (V c (Pipeline.arrRef spec1 2)) (V c (Pipeline.arrRef spec1 1))
          (V c (Pipeline.arrRef spec1 3)) (V c (Pipeline.arrRef spec1 5)) (V c (Pipeline.arrRef spec1 4)) :=
  (dat1 V c).arrAt_eq_of_cover 6 (res1 V c) (fun t _ => flushed1 V c t) cover1

end Cert.KernelIdeal.Regions

end
-- ==== Proof.Region2.lean ====
/-
  What a fused layer's region (64 features in, 128 out) leaves in its output array, as one function of the arrays
  it finds on entry.

  The region runs its body at 20 grid points. At point t the body receives rows 5000·t … 5000·t + 4999 of the
  neighbour sums, of the reciprocal column and of the node features, and the whole two weight matrices and one-row
  bias, and it leaves rows 5000·t … 5000·t + 4999 of the output. Entry (p, q) of what it leaves is
  max(((Σ_k (s[5000·t + p, k] · r[5000·t + p, 0]) · wl[k, q]) + Σ_k h[5000·t + p, k] · wr[k, q]) + b[0, q], 0):
  the tiled layer of the whole arrays at row 5000·t + p. Row R of the output lies in the block of point R / 5000, so
  the 20 blocks cover the array and it ends holding the tiled layer everywhere.
-/
import proofs.«170208_j90074054132246_2_alg».proof.Proof.Gen.KernelIdeal.Frame
import Idealize.ShloMosaic.Lib.Pipeline.Value
import proofs.«170208_j90074054132246_2_alg».proof.Proof.Tile
import proofs.«170208_j90074054132246_2_alg».proof.Proof.LibSageLayer

noncomputable section

namespace Cert.KernelIdeal.Regions

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

/-! ## The body at one entry -/

/-- The stored value is the fused body of the loaded blocks. -/
theorem pay2_eq (x0 : Vec Ideal S5000x64 .f32) (x1 : Vec Ideal S5000x1 .f32) (x2 : Vec Ideal S5000x64 .f32)
    (x3 x5 : Vec Ideal S64x128 .f32) (x4 : Vec Ideal S1x128 .f32) :
    k2_pay1 (F := Ideal) x0 x1 x2 x3 x5 x4
      = Cert.Tile.fusedBody 5000 64 128 shapeCasts_S5000x64_S5000x64 shapeCasts_S5000x1_S5000x1
          broadcasts_S5000x1_S5000x64 bitsLt_bf16_f32 shapeCasts_S64x128_S64x128 shapeCasts_S1x128_S1x128
          broadcasts_S1x128_S5000x128 dot_S5000x64_S64x128_S5000x128_1_0_0_1_n_n x0 x1 x2 x3 x5 x4 := rfl

/-- What the body leaves in the output window's buffer, at entry (p, q), from the input windows' blocks. -/
theorem out2_apply (x0 : Vec Ideal S5000x64 .f32) (x1 : Vec Ideal S5000x1 .f32) (x2 : Vec Ideal S5000x64 .f32)
    (x3 : Vec Ideal S64x128 .f32) (x4 : Vec Ideal S1x128 .f32) (x5 : Vec Ideal S64x128 .f32) (p : Fin 5000) (q : Fin 128) :
    out2_6 (F := Ideal) x0 x1 x2 x3 x4 x5 (ix2 p q)
      = max (((∑ k : Fin 64, (x0 (ix2 p k) * x1 (ix2 p (0 : Fin 1))) * x3 (ix2 k q))
          + ∑ k : Fin 64, x2 (ix2 p k) * x5 (ix2 k q)) + x4 (ix2 (0 : Fin 1) q)) 0 := by
  unfold out2_6
  rw [View.canon_unit_zero Cert.Tile.hz]
  simp only [View.ld_unit_zero (S := S5000x64) Cert.Tile.hz,
    View.ld_unit_zero (S := S5000x1) Cert.Tile.hz,
    View.ld_unit_zero (S := S64x128) Cert.Tile.hz,
    View.ld_unit_zero (S := S1x128) Cert.Tile.hz]
  rw [pay2_eq]
  exact Cert.Tile.fusedBody_apply 5000 64 128 shapeCasts_S5000x64_S5000x64 shapeCasts_S5000x1_S5000x1
          broadcasts_S5000x1_S5000x64 bitsLt_bf16_f32 shapeCasts_S64x128_S64x128 shapeCasts_S1x128_S1x128
          broadcasts_S1x128_S5000x128 dot_S5000x64_S64x128_S5000x128_1_0_0_1_n_n rfl x0 x1 x2 x3 x5 x4 p q

/-- The output block at an entry, when the row-blocked inputs are rows 5000·n + p of whole arrays and the others are
    whole arrays: the tiled layer of the whole arrays at the entry's place in the array. -/
theorem point2 (A0 : Mat 100000 64) (A1 : Mat 100000 1) (A2 : Mat 100000 64) (A3 A5 : Mat 64 128) (A4 : Mat 1 128)
    (x0 : Vec Ideal S5000x64 .f32) (x1 : Vec Ideal S5000x1 .f32) (x2 : Vec Ideal S5000x64 .f32)
    (x3 : Vec Ideal S64x128 .f32) (x4 : Vec Ideal S1x128 .f32) (x5 : Vec Ideal S64x128 .f32) (n : Nat)
    (h0 : ∀ (p : Fin 5000) (k : Fin 64) (P : Fin 100000), P.val = 5000 * n + p.val → x0 (ix2 p k) = A0 (ix2 P k))
    (h1 : ∀ (p : Fin 5000) (k : Fin 1) (P : Fin 100000), P.val = 5000 * n + p.val → x1 (ix2 p k) = A1 (ix2 P k))
    (h2 : ∀ (p : Fin 5000) (k : Fin 64) (P : Fin 100000), P.val = 5000 * n + p.val → x2 (ix2 p k) = A2 (ix2 P k))
    (h3 : x3 = A3) (h4 : x4 = A4) (h5 : x5 = A5)
    (j : S5000x128.Idx) (i : S100000x128.Idx) (hi0 : (i 0).val = 5000 * n + (j 0).val) (hi1 : (i 1).val = (j 1).val) :
    out2_6 (F := Ideal) x0 x1 x2 x3 x4 x5 j = Cert.Sage.layerTile A0 A2 A1 A3 A5 A4 i := by
  obtain ⟨p, q, rfl⟩ : ∃ (p : Fin 5000) (q : Fin 128), j = ix2 p q := ⟨j 0, j 1, eq_ix2 j⟩
  obtain ⟨P, Q, rfl⟩ : ∃ (P : Fin 100000) (Q : Fin 128), i = ix2 P Q := ⟨i 0, i 1, eq_ix2 i⟩
  have hP : P.val = 5000 * n + p.val := hi0
  obtain rfl : Q = q := Fin.ext hi1
  rw [out2_apply, Cert.Sage.layerTile_apply, h3, h4, h5, h1 p 0 P hP]
  refine congrArg (fun z => max (z + A4 (ix2 (0 : Fin 1) Q)) 0) ?_
  refine congrArg₂ (· + ·) (Finset.sum_congr rfl fun k _ => ?_) (Finset.sum_congr rfl fun k _ => ?_)
  · rw [h0 p k P hP]
  · rw [h2 p k P hP]

/-! ## The windows' blocks as rows of the arrays -/

/-- The printed index maps, decided over the grid: a row-blocked window is at block (t, 0) at point t, a whole
    window at block (0, 0). -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- Window 0's block at point t is rows 5000·t … of the neighbour sums. -/
theorem blk2_0 (c : Dev nD) (t : Fin cfg2.N) (p : Fin 5000) (k : Fin 64) (P : Fin 100000)
    (hP : P.val = 5000 * t.val + p.val) :
    (iblk2 V c 0 t : Vec Ideal S5000x64 .f32) (ix2 p k)
      = (V c (Pipeline.arrRef spec2 0) : Mat 100000 64) (ix2 P k) := by
  obtain ⟨e0, e1, -⟩ := idx2 t
  unfold iblk2
  rw [View.read_apply]
  show V c (Pipeline.arrRef spec2 0) _ = V c (Pipeline.arrRef spec2 0) _
  refine congrArg _ ?_
  funext a
  apply Fin.ext
  match a with
  | ⟨0, _⟩ => show win2_0.index t (0 : Fin 2) * 5000 + 1 * p.val = P.val; rw [e0, hP]; omega
  | ⟨1, _⟩ => show win2_0.index t (1 : Fin 2) * 64 + 1 * k.val = k.val; rw [e1]; omega

/-- Window 1's block at point t is rows 5000·t … of the reciprocal column. -/
theorem blk2_1 (c : Dev nD) (t : Fin cfg2.N) (p : Fin 5000) (k : Fin 1) (P : Fin 100000)
    (hP : P.val = 5000 * t.val + p.val) :
    (iblk2 V c 1 t : Vec Ideal S5000x1 .f32) (ix2 p k)
      = (V c (Pipeline.arrRef spec2 1) : Mat 100000 1) (ix2 P k) := by
  obtain ⟨-, -, e0, e1, -⟩ := idx2 t
  unfold iblk2
  rw [View.read_apply]
  show V c (Pipeline.arrRef spec2 1) _ = V c (Pipeline.arrRef spec2 1) _
  refine congrArg _ ?_
  funext a
  apply Fin.ext
  match a with
  | ⟨0, _⟩ => show win2_1.index t (0 : Fin 2) * 5000 + 1 * p.val = P.val; rw [e0, hP]; omega
  | ⟨1, _⟩ => show win2_1.index t (1 : Fin 2) * 1 + 1 * k.val = k.val; rw [e1]; omega

/-- Window 2's block at point t is rows 5000·t … of the node features. -/
theorem blk2_2 (c : Dev nD) (t : Fin cfg2.N) (p : Fin 5000) (k : Fin 64) (P : Fin 100000)
    (hP : P.val = 5000 * t.val + p.val) :
    (iblk2 V c 2 t : Vec Ideal S5000x64 .f32) (ix2 p k)
      = (V c (Pipeline.arrRef spec2 2) : Mat 100000 64) (ix2 P k) := by
  obtain ⟨-, -, -, -, e0, e1, -⟩ := idx2 t
  unfold iblk2
  rw [View.read_apply]
  show V c (Pipeline.arrRef spec2 2) _ = V c (Pipeline.arrRef spec2 2) _
  refine congrArg _ ?_
  funext a
  apply Fin.ext
  match a with
  | ⟨0, _⟩ => show win2_2.index t (0 : Fin 2) * 5000 + 1 * p.val = P.val; rw [e0, hP]; omega
  | ⟨1, _⟩ => show win2_2.index t (1 : Fin 2) * 64 + 1 * k.val = k.val; rw [e1]; omega

/-- Window 3's block at every point is the whole first weight matrix. -/
theorem blk2_3 (c : Dev nD) (t : Fin cfg2.N) :
    (iblk2 V c 3 t : Vec Ideal S64x128 .f32) = (V c (Pipeline.arrRef spec2 3) : Mat 64 128) := by
  obtain ⟨-, -, -, -, -, -, e0, e1, -⟩ := idx2 t
  funext y
  unfold iblk2
  rw [View.read_apply]
  show V c (Pipeline.arrRef spec2 3) _ = V c (Pipeline.arrRef spec2 3) y
  refine congrArg _ ?_
  funext a
  apply Fin.ext
  match a with
  | ⟨0, _⟩ => show win2_3.index t (0 : Fin 2) * 64 + 1 * (y 0).val = (y 0).val; rw [e0]; omega
  | ⟨1, _⟩ => show win2_3.index t (1 : Fin 2) * 128 + 1 * (y 1).val = (y 1).val; rw [e1]; omega

/-- Window 4's block at every point is the whole one-row bias. -/
theorem blk2_4 (c : Dev nD) (t : Fin cfg2.N) :
    (iblk2 V c 4 t : Vec Ideal S1x128 .f32) = (V c (Pipeline.arrRef spec2 4) : Mat 1 128) := by
  obtain ⟨-, -, -, -, -, -, -, -, e0, e1, -⟩ := idx2 t
  funext y
  unfold iblk2
  rw [View.read_apply]
  show V c (Pipeline.arrRef spec2 4) _ = V c (Pipeline.arrRef spec2 4) y
  refine congrArg _ ?_
  funext a
  apply Fin.ext
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-- Window 5's block at every point is the whole second weight matrix. -/
theorem blk2_5 (c : Dev nD) (t : Fin cfg2.N) :
    (iblk2 V c 5 t : Vec Ideal S64x128 .f32) = (V c (Pipeline.arrRef spec2 5) : Mat 64 128) := by
  obtain ⟨-, -, -, -, -, -, -, -, -, -, e0, e1, -⟩ := idx2 t
  funext y
  unfold iblk2
  rw [View.read_apply]
  show V c (Pipeline.arrRef spec2 5) _ = V c (Pipeline.arrRef spec2 5) y
  refine congrArg _ ?_
  funext a
  apply Fin.ext
  match a with
  | ⟨0, _⟩ => show win2_5.index t (0 : Fin 2) * 64 + 1 * (y 0).val = (y 0).val; rw [e0]; omega
  | ⟨1, _⟩ => show win2_5.index t (1 : Fin 2) * 128 + 1 * (y 1).val = (y 1).val; rw [e1]; omega

/-! ## From the blocks to the array -/

/-- The tiled layer of the arrays the region finds. -/
abbrev res2 (c : Dev nD) : Mat 100000 128 :=
  Cert.Sage.layerTile (V c (Pipeline.arrRef spec2 0)) (V c (Pipeline.arrRef spec2 2)) (V c (Pipeline.arrRef spec2 1))
    (V c (Pipeline.arrRef spec2 3)) (V c (Pipeline.arrRef spec2 5)) (V c (Pipeline.arrRef spec2 4))

/-- What point t writes back is block t of that array. -/
theorem flushed2 (c : Dev nD) (t : Fin cfg2.N) :
    (dat2 (F := Ideal) V c).flushed 6 t = ((cfg2.win 6).blk t).view.read (Elt Ideal) (res2 V c) := by
  show (cfg2.win 6).cut (grid2.coords t) ((dat2 V c).after 6 t) = _
  rw [after2_6]
  obtain ⟨-, -, -, -, -, -, -, -, -, -, -, -, e0, e1⟩ := idx2 t
  funext j
  rw [View.read_apply]
  show out2_6 (iblk2 V c 0 t) (iblk2 V c 1 t) (iblk2 V c 2 t) (iblk2 V c 3 t) (iblk2 V c 4 t) (iblk2 V c 5 t) j
    = res2 V c (((cfg2.win 6).blk t).view.emb j)
  refine point2 (V c (Pipeline.arrRef spec2 0)) (V c (Pipeline.arrRef spec2 1)) (V c (Pipeline.arrRef spec2 2))
    (V c (Pipeline.arrRef spec2 3)) (V c (Pipeline.arrRef spec2 5)) (V c (Pipeline.arrRef spec2 4))
    (iblk2 V c 0 t) (iblk2 V c 1 t) (iblk2 V c 2 t) (iblk2 V c 3 t) (iblk2 V c 4 t) (iblk2 V c 5 t) t.val
    (blk2_0 V c t) (blk2_1 V c t) (blk2_2 V c t) (blk2_3 V c t) (blk2_4 V c t) (blk2_5 V c t)
    j (((cfg2.win 6).blk t).view.emb j) ?_ ?_
  · show win2_6.index t (0 : Fin 2) * 5000 + 1 * (j 0).val = 5000 * t.val + (j 0).val
    rw [e0]; omega
  · show win2_6.index t (1 : Fin 2) * 128 + 1 * (j 1).val = (j 1).val
    rw [e1]; omega

/-- An index of the output array is in point t's block iff each coordinate is in the block's range on its axis. -/
theorem mem_blk2 (t : Fin cfg2.N) (i : S100000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_call0_v54).slice (win2_6.rect t)).set ↔ _
  rw [View.set_slice_whole, Rect.mem_set_unit]
  exact Iff.rfl

/-- Row R of the output array is in the block of point R / 5000. -/
theorem cover2 (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, -, -, -, -, -, -, e0, e1⟩ := idx2 t
  refine ⟨t, flush2_6 t, ?_⟩
  rw [mem_blk2]
  intro a
  match a with
  | ⟨0, _⟩ =>
    show win2_6.index t (0 : Fin 2) * 5000 ≤ (i 0).val ∧ (i 0).val < win2_6.index t (0 : Fin 2) * 5000 + 5000
    rw [e0, ht]; omega
  | ⟨1, _⟩ =>
    show win2_6.index t (1 : Fin 2) * 128 ≤ (i 1).val ∧ (i 1).val < win2_6.index t (1 : Fin 2) * 128 + 128
    rw [e1]; omega

/-- The region's output array ends holding the tiled layer of the arrays the region finds. -/
theorem out2 (c : Dev nD) :
    (dat2 (F := Ideal) V c).arrAt 6 cfg2.N
      = Cert.Sage.layerTile (V c (Pipeline.arrRef spec2 0)) (V c (Pipeline.arrRef spec2 2)) (V c (Pipeline.arrRef spec2 1))
          (V c (Pipeline.arrRef spec2 3)) (V c (Pipeline.arrRef spec2 5)) (V c (Pipeline.arrRef spec2 4)) :=
  (dat2 V c).arrAt_eq_of_cover 6 (res2 V c) (fun t _ => flushed2 V c t) cover2

end Cert.KernelIdeal.Regions

end
-- ==== Proof.Region3.lean ====
/-
  What a projection's region (128 features in, 64 out) leaves in its output array, as one function of the arrays
  it finds on entry.

  The region runs its body at 20 grid points. At point t the body receives rows 5000·t … 5000·t + 4999 of the node
  features and the whole weight matrix, and it leaves rows 5000·t … 5000·t + 4999 of the output. Entry (p, q) of
  what it leaves is Σ_k h[5000·t + p, k] · w[k, q]: the matrix product of the whole arrays at row 5000·t + p. Row R of
  the output lies in the block of point R / 5000, so the 20 blocks cover the array and it ends holding the product.
-/
import proofs.«170208_j90074054132246_2_alg».proof.Proof.Gen.KernelIdeal.Frame
import Idealize.ShloMosaic.Lib.Pipeline.Value
import proofs.«170208_j90074054132246_2_alg».proof.Proof.Tile

noncomputable section

namespace Cert.KernelIdeal.Regions

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

/-! ## The body at one entry -/

/-- The stored value is the linear body of the loaded blocks. -/
theorem pay3_eq (x0 : Vec Ideal S5000x128 .f32) (x1 : Vec Ideal S128x64 .f32) :
    k3_pay1 (F := Ideal) x0 x1
      = Cert.Tile.linBody 5000 128 64 shapeCasts_S5000x128_S5000x128 bitsLt_bf16_f32 shapeCasts_S128x64_S128x64
          dot_S5000x128_S128x64_S5000x64_1_0_0_1_n_n x0 x1 := rfl

/-- What the body leaves in the output window's buffer, at entry (p, q), from the input windows' blocks. -/
theorem out3_apply (x0 : Vec Ideal S5000x128 .f32) (x1 : Vec Ideal S128x64 .f32) (p : Fin 5000) (q : Fin 64) :
    out3_2 (F := Ideal) x0 x1 (ix2 p q) = ∑ k : Fin 128, x0 (ix2 p k) * x1 (ix2 k q) := by
  unfold out3_2
  rw [View.canon_unit_zero Cert.Tile.hz]
  simp only [View.ld_unit_zero (S := S5000x128) Cert.Tile.hz,
    View.ld_unit_zero (S := S128x64) Cert.Tile.hz]
  rw [pay3_eq]
  exact Cert.Tile.linBody_apply 5000 128 64 shapeCasts_S5000x128_S5000x128 bitsLt_bf16_f32 shapeCasts_S128x64_S128x64
          dot_S5000x128_S128x64_S5000x64_1_0_0_1_n_n rfl x0 x1 p q

/-- The output block at an entry, when the row-blocked input is rows 5000·n + p of a whole array and the weights are a
    whole array: the matrix product of the whole arrays at the entry's place in the array. -/
theorem point3 (A0 : Mat 100000 128) (A1 : Mat 128 64)
    (x0 : Vec Ideal S5000x128 .f32) (x1 : Vec Ideal S128x64 .f32) (n : Nat)
    (h0 : ∀ (p : Fin 5000) (k : Fin 128) (P : Fin 100000), P.val = 5000 * n + p.val → x0 (ix2 p k) = A0 (ix2 P k))
    (h1 : x1 = A1)
    (j : S5000x64.Idx) (i : S100000x64.Idx) (hi0 : (i 0).val = 5000 * n + (j 0).val) (hi1 : (i 1).val = (j 1).val) :
    out3_2 (F := Ideal) x0 x1 j = Cert.Dense.mm A0 A1 i := by
  obtain ⟨p, q, rfl⟩ : ∃ (p : Fin 5000) (q : Fin 64), j = ix2 p q := ⟨j 0, j 1, eq_ix2 j⟩
  obtain ⟨P, Q, rfl⟩ : ∃ (P : Fin 100000) (Q : Fin 64), i = ix2 P Q := ⟨i 0, i 1, eq_ix2 i⟩
  have hP : P.val = 5000 * n + p.val := hi0
  obtain rfl : Q = q := Fin.ext hi1
  rw [out3_apply, Cert.Dense.mm_apply, h1]
  refine Finset.sum_congr rfl fun k _ => ?_
  rw [h0 p k P hP]

/-! ## The windows' blocks as rows of the arrays -/

/-- The printed index maps, decided over the grid: a row-blocked window is at block (t, 0) at point t, a whole
    window at block (0, 0). -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Window 0's block at point t is rows 5000·t … of the node features. -/
theorem blk3_0 (c : Dev nD) (t : Fin cfg3.N) (p : Fin 5000) (k : Fin 128) (P : Fin 100000)
    (hP : P.val = 5000 * t.val + p.val) :
    (iblk3 V c 0 t : Vec Ideal S5000x128 .f32) (ix2 p k)
      = (V c (Pipeline.arrRef spec3 0) : Mat 100000 128) (ix2 P k) := by
  obtain ⟨e0, e1, -⟩ := idx3 t
  unfold iblk3
  rw [View.read_apply]
  show V c (Pipeline.arrRef spec3 0) _ = V c (Pipeline.arrRef spec3 0) _
  refine congrArg _ ?_
  funext a
  apply Fin.ext
  match a with
  | ⟨0, _⟩ => show win3_0.index t (0 : Fin 2) * 5000 + 1 * p.val = P.val; rw [e0, hP]; omega
  | ⟨1, _⟩ => show win3_0.index t (1 : Fin 2) * 128 + 1 * k.val = k.val; rw [e1]; omega

/-- Window 1's block at every point is the whole weight matrix. -/
theorem blk3_1 (c : Dev nD) (t : Fin cfg3.N) :
    (iblk3 V c 1 t : Vec Ideal S128x64 .f32) = (V c (Pipeline.arrRef spec3 1) : Mat 128 64) := by
  obtain ⟨-, -, e0, e1, -⟩ := idx3 t
  funext y
  unfold iblk3
  rw [View.read_apply]
  show V c (Pipeline.arrRef spec3 1) _ = V c (Pipeline.arrRef spec3 1) y
  refine congrArg _ ?_
  funext a
  apply Fin.ext
  match a with
  | ⟨0, _⟩ => show win3_1.index t (0 : Fin 2) * 128 + 1 * (y 0).val = (y 0).val; rw [e0]; omega
  | ⟨1, _⟩ => show win3_1.index t (1 : Fin 2) * 64 + 1 * (y 1).val = (y 1).val; rw [e1]; omega

/-! ## From the blocks to the array -/

/-- The matrix product of the arrays the region finds. -/
abbrev res3 (c : Dev nD) : Mat 100000 64 :=
  Cert.Dense.mm (V c (Pipeline.arrRef spec3 0)) (V c (Pipeline.arrRef spec3 1))

/-- What point t writes back is block t of that array. -/
theorem flushed3 (c : Dev nD) (t : Fin cfg3.N) :
    (dat3 (F := Ideal) V c).flushed 2 t = ((cfg3.win 2).blk t).view.read (Elt Ideal) (res3 V c) := by
  show (cfg3.win 2).cut (grid3.coords t) ((dat3 V c).after 2 t) = _
  rw [after3_2]
  obtain ⟨-, -, -, -, e0, e1⟩ := idx3 t
  funext j
  rw [View.read_apply]
  show out3_2 (iblk3 V c 0 t) (iblk3 V c 1 t) j
    = res3 V c (((cfg3.win 2).blk t).view.emb j)
  refine point3 (V c (Pipeline.arrRef spec3 0)) (V c (Pipeline.arrRef spec3 1))
    (iblk3 V c 0 t) (iblk3 V c 1 t) t.val
    (blk3_0 V c t) (blk3_1 V c t)
    j (((cfg3.win 2).blk t).view.emb j) ?_ ?_
  · show win3_2.index t (0 : Fin 2) * 5000 + 1 * (j 0).val = 5000 * t.val + (j 0).val
    rw [e0]; omega
  · show win3_2.index t (1 : Fin 2) * 64 + 1 * (j 1).val = (j 1).val
    rw [e1]; omega

/-- An index of the output array is in point t's block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val
      ∧ (i a).val < win3_2.index t a * S5000x64.size a + S5000x64.size a := by
  show i ∈ ((View.whole main_call0_v56).slice (win3_2.rect t)).set ↔ _
  rw [View.set_slice_whole, Rect.mem_set_unit]
  exact Iff.rfl

/-- Row R of the output array is in the block of point R / 5000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ : ∃ t : Fin cfg3.N, t.val = (i 0).val / 5000 :=
    ⟨⟨(i 0).val / 5000, by rw [show cfg3.N = 20 from N_3]; omega⟩, rfl⟩
  obtain ⟨-, -, -, -, e0, e1⟩ := idx3 t
  refine ⟨t, flush3_2 t, ?_⟩
  rw [mem_blk3]
  intro a
  match a with
  | ⟨0, _⟩ =>
    show win3_2.index t (0 : Fin 2) * 5000 ≤ (i 0).val ∧ (i 0).val < win3_2.index t (0 : Fin 2) * 5000 + 5000
    rw [e0, ht]; omega
  | ⟨1, _⟩ =>
    show win3_2.index t (1 : Fin 2) * 64 ≤ (i 1).val ∧ (i 1).val < win3_2.index t (1 : Fin 2) * 64 + 64
    rw [e1]; omega

/-- The region's output array ends holding the matrix product of the arrays the region finds. -/
theorem out3 (c : Dev nD) :
    (dat3 (F := Ideal) V c).arrAt 2 cfg3.N
      = Cert.Dense.mm (V c (Pipeline.arrRef spec3 0)) (V c (Pipeline.arrRef spec3 1)) :=
  (dat3 V c).arrAt_eq_of_cover 2 (res3 V c) (fun t _ => flushed3 V c t) cover3

end Cert.KernelIdeal.Regions

end
-- ==== Proof.Region4.lean ====
/-
  What a projected-first layer's region (128 features in, 64 out) leaves in its output array, as one function of
  the arrays it finds on entry.

  The region runs its body at 20 grid points. At point t the body receives rows 5000·t … 5000·t + 4999 of the
  neighbour sums of the projected rows, of the reciprocal column and of the node features, and the whole weight
  matrix and one-row bias, and it leaves rows 5000·t … 5000·t + 4999 of the output. Entry (p, q) of what it leaves
  is max(((a[5000·t + p, q] · r[5000·t + p, 0]) + Σ_k h[5000·t + p, k] · wr[k, q]) + b[0, q], 0): the projected-first
  tile of the whole arrays at row 5000·t + p. Row R of the output lies in the block of point R / 5000, so the 20
  blocks cover the array and it ends holding that tile everywhere.
-/
import proofs.«170208_j90074054132246_2_alg».proof.Proof.Gen.KernelIdeal.Frame
import Idealize.ShloMosaic.Lib.Pipeline.Value
import proofs.«170208_j90074054132246_2_alg».proof.Proof.Tile
import proofs.«170208_j90074054132246_2_alg».proof.Proof.Spec

noncomputable section

namespace Cert.KernelIdeal.Regions

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

/-! ## The body at one entry -/

/-- The stored value is the projected body of the loaded blocks. -/
theorem pay4_eq (x0 : Vec Ideal S5000x64 .f32) (x1 : Vec Ideal S5000x1 .f32) (x2 : Vec Ideal S5000x128 .f32)
    (x3 : Vec Ideal S128x64 .f32) (x4 : Vec Ideal S1x64 .f32) :
    k4_pay1 (F := Ideal) x0 x1 x2 x3 x4
      = Cert.Tile.preBody 5000 128 64 shapeCasts_S5000x64_S5000x64 shapeCasts_S5000x1_S5000x1
          broadcasts_S5000x1_S5000x64 shapeCasts_S5000x128_S5000x128 bitsLt_bf16_f32 shapeCasts_S128x64_S128x64
          shapeCasts_S1x64_S1x64 broadcasts_S1x64_S5000x64 dot_S5000x128_S128x64_S5000x64_1_0_0_1_n_n x0 x1 x2 x3 x4 := rfl

/-- What the body leaves in the output window's buffer, at entry (p, q), from the input windows' blocks. -/
theorem out4_apply (x0 : Vec Ideal S5000x64 .f32) (x1 : Vec Ideal S5000x1 .f32) (x2 : Vec Ideal S5000x128 .f32)
    (x3 : Vec Ideal S128x64 .f32) (x4 : Vec Ideal S1x64 .f32) (p : Fin 5000) (q : Fin 64) :
    out4_5 (F := Ideal) x0 x1 x2 x3 x4 (ix2 p q)
      = max (((x0 (ix2 p q) * x1 (ix2 p (0 : Fin 1))) + ∑ k : Fin 128, x2 (ix2 p k) * x3 (ix2 k q))
          + x4 (ix2 (0 : Fin 1) q)) 0 := by
  unfold out4_5
  rw [View.canon_unit_zero Cert.Tile.hz]
  simp only [View.ld_unit_zero (S := S5000x64) Cert.Tile.hz,
    View.ld_unit_zero (S := S5000x1) Cert.Tile.hz,
    View.ld_unit_zero (S := S5000x128) Cert.Tile.hz,
    View.ld_unit_zero (S := S128x64) Cert.Tile.hz,
    View.ld_unit_zero (S := S1x64) Cert.Tile.hz]
  rw [pay4_eq]
  exact Cert.Tile.preBody_apply 5000 128 64 shapeCasts_S5000x64_S5000x64 shapeCasts_S5000x1_S5000x1
          broadcasts_S5000x1_S5000x64 shapeCasts_S5000x128_S5000x128 bitsLt_bf16_f32 shapeCasts_S128x64_S128x64
          shapeCasts_S1x64_S1x64 broadcasts_S1x64_S5000x64 dot_S5000x128_S128x64_S5000x64_1_0_0_1_n_n rfl x0 x1 x2 x3 x4 p q

/-- The output block at an entry, when the row-blocked inputs are rows 5000·n + p of whole arrays and the others are
    whole arrays: the projected-first tile of the whole arrays at the entry's place in the array. -/
theorem point4 (A0 : Mat 100000 64) (A1 : Mat 100000 1) (A2 : Mat 100000 128) (A3 : Mat 128 64) (A4 : Mat 1 64)
    (x0 : Vec Ideal S5000x64 .f32) (x1 : Vec Ideal S5000x1 .f32) (x2 : Vec Ideal S5000x128 .f32)
    (x3 : Vec Ideal S128x64 .f32) (x4 : Vec Ideal S1x64 .f32) (n : Nat)
    (h0 : ∀ (p : Fin 5000) (k : Fin 64) (P : Fin 100000), P.val = 5000 * n + p.val → x0 (ix2 p k) = A0 (ix2 P k))
    (h1 : ∀ (p : Fin 5000) (k : Fin 1) (P : Fin 100000), P.val = 5000 * n + p.val → x1 (ix2 p k) = A1 (ix2 P k))
    (h2 : ∀ (p : Fin 5000) (k : Fin 128) (P : Fin 100000), P.val = 5000 * n + p.val → x2 (ix2 p k) = A2 (ix2 P k))
    (h3 : x3 = A3) (h4 : x4 = A4)
    (j : S5000x64.Idx) (i : S100000x64.Idx) (hi0 : (i 0).val = 5000 * n + (j 0).val) (hi1 : (i 1).val = (j 1).val) :
    out4_5 (F := Ideal) x0 x1 x2 x3 x4 j = Cert.Net.preTile A0 A2 A1 A3 A4 i := by
  obtain ⟨p, q, rfl⟩ : ∃ (p : Fin 5000) (q : Fin 64), j = ix2 p q := ⟨j 0, j 1, eq_ix2 j⟩
  obtain ⟨P, Q, rfl⟩ : ∃ (P : Fin 100000) (Q : Fin 64), i = ix2 P Q := ⟨i 0, i 1, eq_ix2 i⟩
  have hP : P.val = 5000 * n + p.val := hi0
  obtain rfl : Q = q := Fin.ext hi1
  rw [out4_apply, Cert.Net.preTile_apply, h3, h4, h0 p Q P hP, h1 p 0 P hP]
  refine congrArg (fun z => max ((A0 (ix2 P Q) * A1 (ix2 P (0 : Fin 1)) + z) + A4 (ix2 (0 : Fin 1) Q)) 0) ?_
  refine Finset.sum_congr rfl fun k _ => ?_
  rw [h2 p k P hP]

/-! ## The windows' blocks as rows of the arrays -/

/-- The printed index maps, decided over the grid: a row-blocked window is at block (t, 0) at point t, a whole
    window at block (0, 0). -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Window 0's block at point t is rows 5000·t … of the projected neighbour sums. -/
theorem blk4_0 (c : Dev nD) (t : Fin cfg4.N) (p : Fin 5000) (k : Fin 64) (P : Fin 100000)
    (hP : P.val = 5000 * t.val + p.val) :
    (iblk4 V c 0 t : Vec Ideal S5000x64 .f32) (ix2 p k)
      = (V c (Pipeline.arrRef spec4 0) : Mat 100000 64) (ix2 P k) := by
  obtain ⟨e0, e1, -⟩ := idx4 t
  unfold iblk4
  rw [View.read_apply]
  show V c (Pipeline.arrRef spec4 0) _ = V c (Pipeline.arrRef spec4 0) _
  refine congrArg _ ?_
  funext a
  apply Fin.ext
  match a with
  | ⟨0, _⟩ => show win4_0.index t (0 : Fin 2) * 5000 + 1 * p.val = P.val; rw [e0, hP]; omega
  | ⟨1, _⟩ => show win4_0.index t (1 : Fin 2) * 64 + 1 * k.val = k.val; rw [e1]; omega

/-- Window 1's block at point t is rows 5000·t … of the reciprocal column. -/
theorem blk4_1 (c : Dev nD) (t : Fin cfg4.N) (p : Fin 5000) (k : Fin 1) (P : Fin 100000)
    (hP : P.val = 5000 * t.val + p.val) :
    (iblk4 V c 1 t : Vec Ideal S5000x1 .f32) (ix2 p k)
      = (V c (Pipeline.arrRef spec4 1) : Mat 100000 1) (ix2 P k) := by
  obtain ⟨-, -, e0, e1, -⟩ := idx4 t
  unfold iblk4
  rw [View.read_apply]
  show V c (Pipeline.arrRef spec4 1) _ = V c (Pipeline.arrRef spec4 1) _
  refine congrArg _ ?_
  funext a
  apply Fin.ext
  match a with
  | ⟨0, _⟩ => show win4_1.index t (0 : Fin 2) * 5000 + 1 * p.val = P.val; rw [e0, hP]; omega
  | ⟨1, _⟩ => show win4_1.index t (1 : Fin 2) * 1 + 1 * k.val = k.val; rw [e1]; omega

/-- Window 2's block at point t is rows 5000·t … of the node features. -/
theorem blk4_2 (c : Dev nD) (t : Fin cfg4.N) (p : Fin 5000) (k : Fin 128) (P : Fin 100000)
    (hP : P.val = 5000 * t.val + p.val) :
    (iblk4 V c 2 t : Vec Ideal S5000x128 .f32) (ix2 p k)
      = (V c (Pipeline.arrRef spec4 2) : Mat 100000 128) (ix2 P k) := by
  obtain ⟨-, -, -, -, e0, e1, -⟩ := idx4 t
  unfold iblk4
  rw [View.read_apply]
  show V c (Pipeline.arrRef spec4 2) _ = V c (Pipeline.arrRef spec4 2) _
  refine congrArg _ ?_
  funext a
  apply Fin.ext
  match a with
  | ⟨0, _⟩ => show win4_2.index t (0 : Fin 2) * 5000 + 1 * p.val = P.val; rw [e0, hP]; omega
  | ⟨1, _⟩ => show win4_2.index t (1 : Fin 2) * 128 + 1 * k.val = k.val; rw [e1]; omega

/-- Window 3's block at every point is the whole weight matrix. -/
theorem blk4_3 (c : Dev nD) (t : Fin cfg4.N) :
    (iblk4 V c 3 t : Vec Ideal S128x64 .f32) = (V c (Pipeline.arrRef spec4 3) : Mat 128 64) := by
  obtain ⟨-, -, -, -, -, -, e0, e1, -⟩ := idx4 t
  funext y
  unfold iblk4
  rw [View.read_apply]
  show V c (Pipeline.arrRef spec4 3) _ = V c (Pipeline.arrRef spec4 3) y
  refine congrArg _ ?_
  funext a
  apply Fin.ext
  match a with
  | ⟨0, _⟩ => show win4_3.index t (0 : Fin 2) * 128 + 1 * (y 0).val = (y 0).val; rw [e0]; omega
  | ⟨1, _⟩ => show win4_3.index t (1 : Fin 2) * 64 + 1 * (y 1).val = (y 1).val; rw [e1]; omega

/-- Window 4's block at every point is the whole one-row bias. -/
theorem blk4_4 (c : Dev nD) (t : Fin cfg4.N) :
    (iblk4 V c 4 t : Vec Ideal S1x64 .f32) = (V c (Pipeline.arrRef spec4 4) : Mat 1 64) := by
  obtain ⟨-, -, -, -, -, -, -, -, e0, e1, -⟩ := idx4 t
  funext y
  unfold iblk4
  rw [View.read_apply]
  show V c (Pipeline.arrRef spec4 4) _ = V c (Pipeline.arrRef spec4 4) y
  refine congrArg _ ?_
  funext a
  apply Fin.ext
  match a with
  | ⟨0, _⟩ => show win4_4.index t (0 : Fin 2) * 1 + 1 * (y 0).val = (y 0).val; rw [e0]; omega
  | ⟨1, _⟩ => show win4_4.index t (1 : Fin 2) * 64 + 1 * (y 1).val = (y 1).val; rw [e1]; omega

/-! ## From the blocks to the array -/

/-- The projected-first tile of the arrays the region finds. -/
abbrev res4 (c : Dev nD) : Mat 100000 64 :=
  Cert.Net.preTile (V c (Pipeline.arrRef spec4 0)) (V c (Pipeline.arrRef spec4 2)) (V c (Pipeline.arrRef spec4 1))
    (V c (Pipeline.arrRef spec4 3)) (V c (Pipeline.arrRef spec4 4))

/-- What point t writes back is block t of that array. -/
theorem flushed4 (c : Dev nD) (t : Fin cfg4.N) :
    (dat4 (F := Ideal) V c).flushed 5 t = ((cfg4.win 5).blk t).view.read (Elt Ideal) (res4 V c) := by
  show (cfg4.win 5).cut (grid4.coords t) ((dat4 V c).after 5 t) = _
  rw [after4_5]
  obtain ⟨-, -, -, -, -, -, -, -, -, -, e0, e1⟩ := idx4 t
  funext j
  rw [View.read_apply]
  show out4_5 (iblk4 V c 0 t) (iblk4 V c 1 t) (iblk4 V c 2 t) (iblk4 V c 3 t) (iblk4 V c 4 t) j
    = res4 V c (((cfg4.win 5).blk t).view.emb j)
  refine point4 (V c (Pipeline.arrRef spec4 0)) (V c (Pipeline.arrRef spec4 1)) (V c (Pipeline.arrRef spec4 2))
    (V c (Pipeline.arrRef spec4 3)) (V c (Pipeline.arrRef spec4 4))
    (iblk4 V c 0 t) (iblk4 V c 1 t) (iblk4 V c 2 t) (iblk4 V c 3 t) (iblk4 V c 4 t) t.val
    (blk4_0 V c t) (blk4_1 V c t) (blk4_2 V c t) (blk4_3 V c t) (blk4_4 V c t)
    j (((cfg4.win 5).blk t).view.emb j) ?_ ?_
  · show win4_5.index t (0 : Fin 2) * 5000 + 1 * (j 0).val = 5000 * t.val + (j 0).val
    rw [e0]; omega
  · show win4_5.index t (1 : Fin 2) * 64 + 1 * (j 1).val = (j 1).val
    rw [e1]; omega

/-- An index of the output array is in point t's block iff each coordinate is in the block's range on its axis. -/
theorem mem_blk4 (t : Fin cfg4.N) (i : S100000x64.Idx) :
    i ∈ ((cfg4.win 5).blk t).view.set ↔ ∀ a : Fin 2, win4_5.index t a * S5000x64.size a ≤ (i a).val
      ∧ (i a).val < win4_5.index t a * S5000x64.size a + S5000x64.size a := by
  show i ∈ ((View.whole main_call0_v69).slice (win4_5.rect t)).set ↔ _
  rw [View.set_slice_whole, Rect.mem_set_unit]
  exact Iff.rfl

/-- Row R of the output array is in the block of point R / 5000. -/
theorem cover4 (i : S100000x64.Idx) :
    ∃ t : Fin cfg4.N, (cfg4.win 5).flush t = true ∧ i ∈ ((cfg4.win 5).blk t).view.set := by
  have hi0 : (i 0).val < 100000 := (i 0).isLt
  have hi1 : (i 1).val < 64 := (i 1).isLt
  obtain ⟨t, ht⟩ : ∃ t : Fin cfg4.N, t.val = (i 0).val / 5000 :=
    ⟨⟨(i 0).val / 5000, by rw [show cfg4.N = 20 from N_4]; omega⟩, rfl⟩
  obtain ⟨-, -, -, -, -, -, -, -, -, -, e0, e1⟩ := idx4 t
  refine ⟨t, flush4_5 t, ?_⟩
  rw [mem_blk4]
  intro a
  match a with
  | ⟨0, _⟩ =>
    show win4_5.index t (0 : Fin 2) * 5000 ≤ (i 0).val ∧ (i 0).val < win4_5.index t (0 : Fin 2) * 5000 + 5000
    rw [e0, ht]; omega
  | ⟨1, _⟩ =>
    show win4_5.index t (1 : Fin 2) * 64 ≤ (i 1).val ∧ (i 1).val < win4_5.index t (1 : Fin 2) * 64 + 64
    rw [e1]; omega

/-- The region's output array ends holding the projected-first tile of the arrays the region finds. -/
theorem out4 (c : Dev nD) :
    (dat4 (F := Ideal) V c).arrAt 5 cfg4.N
      = Cert.Net.preTile (V c (Pipeline.arrRef spec4 0)) (V c (Pipeline.arrRef spec4 2)) (V c (Pipeline.arrRef spec4 1))
          (V c (Pipeline.arrRef spec4 3)) (V c (Pipeline.arrRef spec4 4)) :=
  (dat4 V c).arrAt_eq_of_cover 5 (res4 V c) (fun t _ => flushed4 V c t) cover4

end Cert.KernelIdeal.Regions

end
-- ==== Proof.Region5.lean ====
/-
  What a projection's region (64 features in, 32 out) leaves in its output array, as one function of the arrays
  it finds on entry.

  The region runs its body at 20 grid points. At point t the body receives rows 5000·t … 5000·t + 4999 of the node
  features and the whole weight matrix, and it leaves rows 5000·t … 5000·t + 4999 of the output. Entry (p, q) of
  what it leaves is Σ_k h[5000·t + p, k] · w[k, q]: the matrix product of the whole arrays at row 5000·t + p. Row R of
  the output lies in the block of point R / 5000, so the 20 blocks cover the array and it ends holding the product.
-/
import proofs.«170208_j90074054132246_2_alg».proof.Proof.Gen.KernelIdeal.Frame
import Idealize.ShloMosaic.Lib.Pipeline.Value
import proofs.«170208_j90074054132246_2_alg».proof.Proof.Tile

noncomputable section

namespace Cert.KernelIdeal.Regions

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

/-! ## The body at one entry -/

/-- The stored value is the linear body of the loaded blocks. -/
theorem pay5_eq (x0 : Vec Ideal S5000x64 .f32) (x1 : Vec Ideal S64x32 .f32) :
    k5_pay1 (F := Ideal) x0 x1
      = Cert.Tile.linBody 5000 64 32 shapeCasts_S5000x64_S5000x64 bitsLt_bf16_f32 shapeCasts_S64x32_S64x32
          dot_S5000x64_S64x32_S5000x32_1_0_0_1_n_n x0 x1 := rfl

/-- What the body leaves in the output window's buffer, at entry (p, q), from the input windows' blocks. -/
theorem out5_apply (x0 : Vec Ideal S5000x64 .f32) (x1 : Vec Ideal S64x32 .f32) (p : Fin 5000) (q : Fin 32) :
    out5_2 (F := Ideal) x0 x1 (ix2 p q) = ∑ k : Fin 64, x0 (ix2 p k) * x1 (ix2 k q) := by
  unfold out5_2
  rw [View.canon_unit_zero Cert.Tile.hz]
  simp only [View.ld_unit_zero (S := S5000x64) Cert.Tile.hz,
    View.ld_unit_zero (S := S64x32) Cert.Tile.hz]
  rw [pay5_eq]
  exact Cert.Tile.linBody_apply 5000 64 32 shapeCasts_S5000x64_S5000x64 bitsLt_bf16_f32 shapeCasts_S64x32_S64x32
          dot_S5000x64_S64x32_S5000x32_1_0_0_1_n_n rfl x0 x1 p q

/-- The output block at an entry, when the row-blocked input is rows 5000·n + p of a whole array and the weights are a
    whole array: the matrix product of the whole arrays at the entry's place in the array. -/
theorem point5 (A0 : Mat 100000 64) (A1 : Mat 64 32)
    (x0 : Vec Ideal S5000x64 .f32) (x1 : Vec Ideal S64x32 .f32) (n : Nat)
    (h0 : ∀ (p : Fin 5000) (k : Fin 64) (P : Fin 100000), P.val = 5000 * n + p.val → x0 (ix2 p k) = A0 (ix2 P k))
    (h1 : x1 = A1)
    (j : S5000x32.Idx) (i : S100000x32.Idx) (hi0 : (i 0).val = 5000 * n + (j 0).val) (hi1 : (i 1).val = (j 1).val) :
    out5_2 (F := Ideal) x0 x1 j = Cert.Dense.mm A0 A1 i := by
  obtain ⟨p, q, rfl⟩ : ∃ (p : Fin 5000) (q : Fin 32), j = ix2 p q := ⟨j 0, j 1, eq_ix2 j⟩
  obtain ⟨P, Q, rfl⟩ : ∃ (P : Fin 100000) (Q : Fin 32), i = ix2 P Q := ⟨i 0, i 1, eq_ix2 i⟩
  have hP : P.val = 5000 * n + p.val := hi0
  obtain rfl : Q = q := Fin.ext hi1
  rw [out5_apply, Cert.Dense.mm_apply, h1]
  refine Finset.sum_congr rfl fun k _ => ?_
  rw [h0 p k P hP]

/-! ## The windows' blocks as rows of the arrays -/

/-- The printed index maps, decided over the grid: a row-blocked window is at block (t, 0) at point t, a whole
    window at block (0, 0). -/
theorem idx5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Window 0's block at point t is rows 5000·t … of the node features. -/
theorem blk5_0 (c : Dev nD) (t : Fin cfg5.N) (p : Fin 5000) (k : Fin 64) (P : Fin 100000)
    (hP : P.val = 5000 * t.val + p.val) :
    (iblk5 V c 0 t : Vec Ideal S5000x64 .f32) (ix2 p k)
      = (V c (Pipeline.arrRef spec5 0) : Mat 100000 64) (ix2 P k) := by
  obtain ⟨e0, e1, -⟩ := idx5 t
  unfold iblk5
  rw [View.read_apply]
  show V c (Pipeline.arrRef spec5 0) _ = V c (Pipeline.arrRef spec5 0) _
  refine congrArg _ ?_
  funext a
  apply Fin.ext
  match a with
  | ⟨0, _⟩ => show win5_0.index t (0 : Fin 2) * 5000 + 1 * p.val = P.val; rw [e0, hP]; omega
  | ⟨1, _⟩ => show win5_0.index t (1 : Fin 2) * 64 + 1 * k.val = k.val; rw [e1]; omega

/-- Window 1's block at every point is the whole weight matrix. -/
theorem blk5_1 (c : Dev nD) (t : Fin cfg5.N) :
    (iblk5 V c 1 t : Vec Ideal S64x32 .f32) = (V c (Pipeline.arrRef spec5 1) : Mat 64 32) := by
  obtain ⟨-, -, e0, e1, -⟩ := idx5 t
  funext y
  unfold iblk5
  rw [View.read_apply]
  show V c (Pipeline.arrRef spec5 1) _ = V c (Pipeline.arrRef spec5 1) y
  refine congrArg _ ?_
  funext a
  apply Fin.ext
  match a with
  | ⟨0, _⟩ => show win5_1.index t (0 : Fin 2) * 64 + 1 * (y 0).val = (y 0).val; rw [e0]; omega
  | ⟨1, _⟩ => show win5_1.index t (1 : Fin 2) * 32 + 1 * (y 1).val = (y 1).val; rw [e1]; omega

/-! ## From the blocks to the array -/

/-- The matrix product of the arrays the region finds. -/
abbrev res5 (c : Dev nD) : Mat 100000 32 :=
  Cert.Dense.mm (V c (Pipeline.arrRef spec5 0)) (V c (Pipeline.arrRef spec5 1))

/-- What point t writes back is block t of that array. -/
theorem flushed5 (c : Dev nD) (t : Fin cfg5.N) :
    (dat5 (F := Ideal) V c).flushed 2 t = ((cfg5.win 2).blk t).view.read (Elt Ideal) (res5 V c) := by
  show (cfg5.win 2).cut (grid5.coords t) ((dat5 V c).after 2 t) = _
  rw [after5_2]
  obtain ⟨-, -, -, -, e0, e1⟩ := idx5 t
  funext j
  rw [View.read_apply]
  show out5_2 (iblk5 V c 0 t) (iblk5 V c 1 t) j
    = res5 V c (((cfg5.win 2).blk t).view.emb j)
  refine point5 (V c (Pipeline.arrRef spec5 0)) (V c (Pipeline.arrRef spec5 1))
    (iblk5 V c 0 t) (iblk5 V c 1 t) t.val
    (blk5_0 V c t) (blk5_1 V c t)
    j (((cfg5.win 2).blk t).view.emb j) ?_ ?_
  · show win5_2.index t (0 : Fin 2) * 5000 + 1 * (j 0).val = 5000 * t.val + (j 0).val
    rw [e0]; omega
  · show win5_2.index t (1 : Fin 2) * 32 + 1 * (j 1).val = (j 1).val
    rw [e1]; omega

/-- An index of the output array is in point t's block iff each coordinate is in the block's range on its axis. -/
theorem mem_blk5 (t : Fin cfg5.N) (i : S100000x32.Idx) :
    i ∈ ((cfg5.win 2).blk t).view.set ↔ ∀ a : Fin 2, win5_2.index t a * S5000x32.size a ≤ (i a).val
      ∧ (i a).val < win5_2.index t a * S5000x32.size a + S5000x32.size a := by
  show i ∈ ((View.whole main_call0_v71).slice (win5_2.rect t)).set ↔ _
  rw [View.set_slice_whole, Rect.mem_set_unit]
  exact Iff.rfl

/-- Row R of the output array is in the block of point R / 5000. -/
theorem cover5 (i : S100000x32.Idx) :
    ∃ t : Fin cfg5.N, (cfg5.win 2).flush t = true ∧ i ∈ ((cfg5.win 2).blk t).view.set := by
  have hi0 : (i 0).val < 100000 := (i 0).isLt
  have hi1 : (i 1).val < 32 := (i 1).isLt
  obtain ⟨t, ht⟩ : ∃ t : Fin cfg5.N, t.val = (i 0).val / 5000 :=
    ⟨⟨(i 0).val / 5000, by rw [show cfg5.N = 20 from N_5]; omega⟩, rfl⟩
  obtain ⟨-, -, -, -, e0, e1⟩ := idx5 t
  refine ⟨t, flush5_2 t, ?_⟩
  rw [mem_blk5]
  intro a
  match a with
  | ⟨0, _⟩ =>
    show win5_2.index t (0 : Fin 2) * 5000 ≤ (i 0).val ∧ (i 0).val < win5_2.index t (0 : Fin 2) * 5000 + 5000
    rw [e0, ht]; omega
  | ⟨1, _⟩ =>
    show win5_2.index t (1 : Fin 2) * 32 ≤ (i 1).val ∧ (i 1).val < win5_2.index t (1 : Fin 2) * 32 + 32
    rw [e1]; omega

/-- The region's output array ends holding the matrix product of the arrays the region finds. -/
theorem out5 (c : Dev nD) :
    (dat5 (F := Ideal) V c).arrAt 2 cfg5.N
      = Cert.Dense.mm (V c (Pipeline.arrRef spec5 0)) (V c (Pipeline.arrRef spec5 1)) :=
  (dat5 V c).arrAt_eq_of_cover 2 (res5 V c) (fun t _ => flushed5 V c t) cover5

end Cert.KernelIdeal.Regions

end
-- ==== Proof.Region6.lean ====
/-
  What a projected-first layer's region (64 features in, 32 out) leaves in its output array, as one function of
  the arrays it finds on entry.

  The region runs its body at 20 grid points. At point t the body receives rows 5000·t … 5000·t + 4999 of the
  neighbour sums of the projected rows, of the reciprocal column and of the node features, and the whole weight
  matrix and one-row bias, and it leaves rows 5000·t … 5000·t + 4999 of the output. Entry (p, q) of what it leaves
  is max(((a[5000·t + p, q] · r[5000·t + p, 0]) + Σ_k h[5000·t + p, k] · wr[k, q]) + b[0, q], 0): the projected-first
  tile of the whole arrays at row 5000·t + p. Row R of the output lies in the block of point R / 5000, so the 20
  blocks cover the array and it ends holding that tile everywhere.
-/
import proofs.«170208_j90074054132246_2_alg».proof.Proof.Gen.KernelIdeal.Frame
import Idealize.ShloMosaic.Lib.Pipeline.Value
import proofs.«170208_j90074054132246_2_alg».proof.Proof.Tile
import proofs.«170208_j90074054132246_2_alg».proof.Proof.Spec

noncomputable section

namespace Cert.KernelIdeal.Regions

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

/-! ## The body at one entry -/

/-- The stored value is the projected body of the loaded blocks. -/
theorem pay6_eq (x0 : Vec Ideal S5000x32 .f32) (x1 : Vec Ideal S5000x1 .f32) (x2 : Vec Ideal S5000x64 .f32)
    (x3 : Vec Ideal S64x32 .f32) (x4 : Vec Ideal S1x32 .f32) :
    k6_pay1 (F := Ideal) x0 x1 x2 x3 x4
      = Cert.Tile.preBody 5000 64 32 shapeCasts_S5000x32_S5000x32 shapeCasts_S5000x1_S5000x1
          broadcasts_S5000x1_S5000x32 shapeCasts_S5000x64_S5000x64 bitsLt_bf16_f32 shapeCasts_S64x32_S64x32
          shapeCasts_S1x32_S1x32 broadcasts_S1x32_S5000x32 dot_S5000x64_S64x32_S5000x32_1_0_0_1_n_n x0 x1 x2 x3 x4 := rfl

/-- What the body leaves in the output window's buffer, at entry (p, q), from the input windows' blocks. -/
theorem out6_apply (x0 : Vec Ideal S5000x32 .f32) (x1 : Vec Ideal S5000x1 .f32) (x2 : Vec Ideal S5000x64 .f32)
    (x3 : Vec Ideal S64x32 .f32) (x4 : Vec Ideal S1x32 .f32) (p : Fin 5000) (q : Fin 32) :
    out6_5 (F := Ideal) x0 x1 x2 x3 x4 (ix2 p q)
      = max (((x0 (ix2 p q) * x1 (ix2 p (0 : Fin 1))) + ∑ k : Fin 64, x2 (ix2 p k) * x3 (ix2 k q))
          + x4 (ix2 (0 : Fin 1) q)) 0 := by
  unfold out6_5
  rw [View.canon_unit_zero Cert.Tile.hz]
  simp only [View.ld_unit_zero (S := S5000x32) Cert.Tile.hz,
    View.ld_unit_zero (S := S5000x1) Cert.Tile.hz,
    View.ld_unit_zero (S := S5000x64) Cert.Tile.hz,
    View.ld_unit_zero (S := S64x32) Cert.Tile.hz,
    View.ld_unit_zero (S := S1x32) Cert.Tile.hz]
  rw [pay6_eq]
  exact Cert.Tile.preBody_apply 5000 64 32 shapeCasts_S5000x32_S5000x32 shapeCasts_S5000x1_S5000x1
          broadcasts_S5000x1_S5000x32 shapeCasts_S5000x64_S5000x64 bitsLt_bf16_f32 shapeCasts_S64x32_S64x32
          shapeCasts_S1x32_S1x32 broadcasts_S1x32_S5000x32 dot_S5000x64_S64x32_S5000x32_1_0_0_1_n_n rfl x0 x1 x2 x3 x4 p q

/-- The output block at an entry, when the row-blocked inputs are rows 5000·n + p of whole arrays and the others are
    whole arrays: the projected-first tile of the whole arrays at the entry's place in the array. -/
theorem point6 (A0 : Mat 100000 32) (A1 : Mat 100000 1) (A2 : Mat 100000 64) (A3 : Mat 64 32) (A4 : Mat 1 32)
    (x0 : Vec Ideal S5000x32 .f32) (x1 : Vec Ideal S5000x1 .f32) (x2 : Vec Ideal S5000x64 .f32)
    (x3 : Vec Ideal S64x32 .f32) (x4 : Vec Ideal S1x32 .f32) (n : Nat)
    (h0 : ∀ (p : Fin 5000) (k : Fin 32) (P : Fin 100000), P.val = 5000 * n + p.val → x0 (ix2 p k) = A0 (ix2 P k))
    (h1 : ∀ (p : Fin 5000) (k : Fin 1) (P : Fin 100000), P.val = 5000 * n + p.val → x1 (ix2 p k) = A1 (ix2 P k))
    (h2 : ∀ (p : Fin 5000) (k : Fin 64) (P : Fin 100000), P.val = 5000 * n + p.val → x2 (ix2 p k) = A2 (ix2 P k))
    (h3 : x3 = A3) (h4 : x4 = A4)
    (j : S5000x32.Idx) (i : S100000x32.Idx) (hi0 : (i 0).val = 5000 * n + (j 0).val) (hi1 : (i 1).val = (j 1).val) :
    out6_5 (F := Ideal) x0 x1 x2 x3 x4 j = Cert.Net.preTile A0 A2 A1 A3 A4 i := by
  obtain ⟨p, q, rfl⟩ : ∃ (p : Fin 5000) (q : Fin 32), j = ix2 p q := ⟨j 0, j 1, eq_ix2 j⟩
  obtain ⟨P, Q, rfl⟩ : ∃ (P : Fin 100000) (Q : Fin 32), i = ix2 P Q := ⟨i 0, i 1, eq_ix2 i⟩
  have hP : P.val = 5000 * n + p.val := hi0
  obtain rfl : Q = q := Fin.ext hi1
  rw [out6_apply, Cert.Net.preTile_apply, h3, h4, h0 p Q P hP, h1 p 0 P hP]
  refine congrArg (fun z => max ((A0 (ix2 P Q) * A1 (ix2 P (0 : Fin 1)) + z) + A4 (ix2 (0 : Fin 1) Q)) 0) ?_
  refine Finset.sum_congr rfl fun k _ => ?_
  rw [h2 p k P hP]

/-! ## The windows' blocks as rows of the arrays -/

/-- The printed index maps, decided over the grid: a row-blocked window is at block (t, 0) at point t, a whole
    window at block (0, 0). -/
theorem idx6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Window 0's block at point t is rows 5000·t … of the projected neighbour sums. -/
theorem blk6_0 (c : Dev nD) (t : Fin cfg6.N) (p : Fin 5000) (k : Fin 32) (P : Fin 100000)
    (hP : P.val = 5000 * t.val + p.val) :
    (iblk6 V c 0 t : Vec Ideal S5000x32 .f32) (ix2 p k)
      = (V c (Pipeline.arrRef spec6 0) : Mat 100000 32) (ix2 P k) := by
  obtain ⟨e0, e1, -⟩ := idx6 t
  unfold iblk6
  rw [View.read_apply]
  show V c (Pipeline.arrRef spec6 0) _ = V c (Pipeline.arrRef spec6 0) _
  refine congrArg _ ?_
  funext a
  apply Fin.ext
  match a with
  | ⟨0, _⟩ => show win6_0.index t (0 : Fin 2) * 5000 + 1 * p.val = P.val; rw [e0, hP]; omega
  | ⟨1, _⟩ => show win6_0.index t (1 : Fin 2) * 32 + 1 * k.val = k.val; rw [e1]; omega

/-- Window 1's block at point t is rows 5000·t … of the reciprocal column. -/
theorem blk6_1 (c : Dev nD) (t : Fin cfg6.N) (p : Fin 5000) (k : Fin 1) (P : Fin 100000)
    (hP : P.val = 5000 * t.val + p.val) :
    (iblk6 V c 1 t : Vec Ideal S5000x1 .f32) (ix2 p k)
      = (V c (Pipeline.arrRef spec6 1) : Mat 100000 1) (ix2 P k) := by
  obtain ⟨-, -, e0, e1, -⟩ := idx6 t
  unfold iblk6
  rw [View.read_apply]
  show V c (Pipeline.arrRef spec6 1) _ = V c (Pipeline.arrRef spec6 1) _
  refine congrArg _ ?_
  funext a
  apply Fin.ext
  match a with
  | ⟨0, _⟩ => show win6_1.index t (0 : Fin 2) * 5000 + 1 * p.val = P.val; rw [e0, hP]; omega
  | ⟨1, _⟩ => show win6_1.index t (1 : Fin 2) * 1 + 1 * k.val = k.val; rw [e1]; omega

/-- Window 2's block at point t is rows 5000·t … of the node features. -/
theorem blk6_2 (c : Dev nD) (t : Fin cfg6.N) (p : Fin 5000) (k : Fin 64) (P : Fin 100000)
    (hP : P.val = 5000 * t.val + p.val) :
    (iblk6 V c 2 t : Vec Ideal S5000x64 .f32) (ix2 p k)
      = (V c (Pipeline.arrRef spec6 2) : Mat 100000 64) (ix2 P k) := by
  obtain ⟨-, -, -, -, e0, e1, -⟩ := idx6 t
  unfold iblk6
  rw [View.read_apply]
  show V c (Pipeline.arrRef spec6 2) _ = V c (Pipeline.arrRef spec6 2) _
  refine congrArg _ ?_
  funext a
  apply Fin.ext
  match a with
  | ⟨0, _⟩ => show win6_2.index t (0 : Fin 2) * 5000 + 1 * p.val = P.val; rw [e0, hP]; omega
  | ⟨1, _⟩ => show win6_2.index t (1 : Fin 2) * 64 + 1 * k.val = k.val; rw [e1]; omega

/-- Window 3's block at every point is the whole weight matrix. -/
theorem blk6_3 (c : Dev nD) (t : Fin cfg6.N) :
    (iblk6 V c 3 t : Vec Ideal S64x32 .f32) = (V c (Pipeline.arrRef spec6 3) : Mat 64 32) := by
  obtain ⟨-, -, -, -, -, -, e0, e1, -⟩ := idx6 t
  funext y
  unfold iblk6
  rw [View.read_apply]
  show V c (Pipeline.arrRef spec6 3) _ = V c (Pipeline.arrRef spec6 3) y
  refine congrArg _ ?_
  funext a
  apply Fin.ext
  match a with
  | ⟨0, _⟩ => show win6_3.index t (0 : Fin 2) * 64 + 1 * (y 0).val = (y 0).val; rw [e0]; omega
  | ⟨1, _⟩ => show win6_3.index t (1 : Fin 2) * 32 + 1 * (y 1).val = (y 1).val; rw [e1]; omega

/-- Window 4's block at every point is the whole one-row bias. -/
theorem blk6_4 (c : Dev nD) (t : Fin cfg6.N) :
    (iblk6 V c 4 t : Vec Ideal S1x32 .f32) = (V c (Pipeline.arrRef spec6 4) : Mat 1 32) := by
  obtain ⟨-, -, -, -, -, -, -, -, e0, e1, -⟩ := idx6 t
  funext y
  unfold iblk6
  rw [View.read_apply]
  show V c (Pipeline.arrRef spec6 4) _ = V c (Pipeline.arrRef spec6 4) y
  refine congrArg _ ?_
  funext a
  apply Fin.ext
  match a with
  | ⟨0, _⟩ => show win6_4.index t (0 : Fin 2) * 1 + 1 * (y 0).val = (y 0).val; rw [e0]; omega
  | ⟨1, _⟩ => show win6_4.index t (1 : Fin 2) * 32 + 1 * (y 1).val = (y 1).val; rw [e1]; omega

/-! ## From the blocks to the array -/

/-- The projected-first tile of the arrays the region finds. -/
abbrev res6 (c : Dev nD) : Mat 100000 32 :=
  Cert.Net.preTile (V c (Pipeline.arrRef spec6 0)) (V c (Pipeline.arrRef spec6 2)) (V c (Pipeline.arrRef spec6 1))
    (V c (Pipeline.arrRef spec6 3)) (V c (Pipeline.arrRef spec6 4))

/-- What point t writes back is block t of that array. -/
theorem flushed6 (c : Dev nD) (t : Fin cfg6.N) :
    (dat6 (F := Ideal) V c).flushed 5 t = ((cfg6.win 5).blk t).view.read (Elt Ideal) (res6 V c) := by
  show (cfg6.win 5).cut (grid6.coords t) ((dat6 V c).after 5 t) = _
  rw [after6_5]
  obtain ⟨-, -, -, -, -, -, -, -, -, -, e0, e1⟩ := idx6 t
  funext j
  rw [View.read_apply]
  show out6_5 (iblk6 V c 0 t) (iblk6 V c 1 t) (iblk6 V c 2 t) (iblk6 V c 3 t) (iblk6 V c 4 t) j
    = res6 V c (((cfg6.win 5).blk t).view.emb j)
  refine point6 (V c (Pipeline.arrRef spec6 0)) (V c (Pipeline.arrRef spec6 1)) (V c (Pipeline.arrRef spec6 2))
    (V c (Pipeline.arrRef spec6 3)) (V c (Pipeline.arrRef spec6 4))
    (iblk6 V c 0 t) (iblk6 V c 1 t) (iblk6 V c 2 t) (iblk6 V c 3 t) (iblk6 V c 4 t) t.val
    (blk6_0 V c t) (blk6_1 V c t) (blk6_2 V c t) (blk6_3 V c t) (blk6_4 V c t)
    j (((cfg6.win 5).blk t).view.emb j) ?_ ?_
  · show win6_5.index t (0 : Fin 2) * 5000 + 1 * (j 0).val = 5000 * t.val + (j 0).val
    rw [e0]; omega
  · show win6_5.index t (1 : Fin 2) * 32 + 1 * (j 1).val = (j 1).val
    rw [e1]; omega

/-- An index of the output array is in point t's block iff each coordinate is in the block's range on its axis. -/
theorem mem_blk6 (t : Fin cfg6.N) (i : S100000x32.Idx) :
    i ∈ ((cfg6.win 5).blk t).view.set ↔ ∀ a : Fin 2, win6_5.index t a * S5000x32.size a ≤ (i a).val
      ∧ (i a).val < win6_5.index t a * S5000x32.size a + S5000x32.size a := by
  show i ∈ ((View.whole main_call0_v84).slice (win6_5.rect t)).set ↔ _
  rw [View.set_slice_whole, Rect.mem_set_unit]
  exact Iff.rfl

/-- Row R of the output array is in the block of point R / 5000. -/
theorem cover6 (i : S100000x32.Idx) :
    ∃ t : Fin cfg6.N, (cfg6.win 5).flush t = true ∧ i ∈ ((cfg6.win 5).blk t).view.set := by
  have hi0 : (i 0).val < 100000 := (i 0).isLt
  have hi1 : (i 1).val < 32 := (i 1).isLt
  obtain ⟨t, ht⟩ : ∃ t : Fin cfg6.N, t.val = (i 0).val / 5000 :=
    ⟨⟨(i 0).val / 5000, by rw [show cfg6.N = 20 from N_6]; omega⟩, rfl⟩
  obtain ⟨-, -, -, -, -, -, -, -, -, -, e0, e1⟩ := idx6 t
  refine ⟨t, flush6_5 t, ?_⟩
  rw [mem_blk6]
  intro a
  match a with
  | ⟨0, _⟩ =>
    show win6_5.index t (0 : Fin 2) * 5000 ≤ (i 0).val ∧ (i 0).val < win6_5.index t (0 : Fin 2) * 5000 + 5000
    rw [e0, ht]; omega
  | ⟨1, _⟩ =>
    show win6_5.index t (1 : Fin 2) * 32 ≤ (i 1).val ∧ (i 1).val < win6_5.index t (1 : Fin 2) * 32 + 32
    rw [e1]; omega

/-- The region's output array ends holding the projected-first tile of the arrays the region finds. -/
theorem out6 (c : Dev nD) :
    (dat6 (F := Ideal) V c).arrAt 5 cfg6.N
      = Cert.Net.preTile (V c (Pipeline.arrRef spec6 0)) (V c (Pipeline.arrRef spec6 2)) (V c (Pipeline.arrRef spec6 1))
          (V c (Pipeline.arrRef spec6 3)) (V c (Pipeline.arrRef spec6 4)) :=
  (dat6 V c).arrAt_eq_of_cover 5 (res6 V c) (fun t _ => flushed6 V c t) cover6

end Cert.KernelIdeal.Regions

end
-- ==== Proof.Region7.lean ====
/-
  What a fused layer's region (32 features in, 32 out) leaves in its output array, as one function of the arrays
  it finds on entry.

  The region runs its body at 20 grid points. At point t the body receives rows 5000·t … 5000·t + 4999 of the
  neighbour sums, of the reciprocal column and of the node features, and the whole two weight matrices and one-row
  bias, and it leaves rows 5000·t … 5000·t + 4999 of the output. Entry (p, q) of what it leaves is
  max(((Σ_k (s[5000·t + p, k] · r[5000·t + p, 0]) · wl[k, q]) + Σ_k h[5000·t + p, k] · wr[k, q]) + b[0, q], 0):
  the tiled layer of the whole arrays at row 5000·t + p. Row R of the output lies in the block of point R / 5000, so
  the 20 blocks cover the array and it ends holding the tiled layer everywhere.
-/
import proofs.«170208_j90074054132246_2_alg».proof.Proof.Gen.KernelIdeal.Frame
import Idealize.ShloMosaic.Lib.Pipeline.Value
import proofs.«170208_j90074054132246_2_alg».proof.Proof.Tile
import proofs.«170208_j90074054132246_2_alg».proof.Proof.LibSageLayer

noncomputable section

namespace Cert.KernelIdeal.Regions

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

/-! ## The body at one entry -/

/-- The stored value is the fused body of the loaded blocks. -/
theorem pay7_eq (x0 : Vec Ideal S5000x32 .f32) (x1 : Vec Ideal S5000x1 .f32) (x2 : Vec Ideal S5000x32 .f32)
    (x3 x5 : Vec Ideal S32x32 .f32) (x4 : Vec Ideal S1x32 .f32) :
    k7_pay1 (F := Ideal) x0 x1 x2 x3 x5 x4
      = Cert.Tile.fusedBody 5000 32 32 shapeCasts_S5000x32_S5000x32 shapeCasts_S5000x1_S5000x1
          broadcasts_S5000x1_S5000x32 bitsLt_bf16_f32 shapeCasts_S32x32_S32x32 shapeCasts_S1x32_S1x32
          broadcasts_S1x32_S5000x32 dot_S5000x32_S32x32_S5000x32_1_0_0_1_n_n x0 x1 x2 x3 x5 x4 := rfl

/-- What the body leaves in the output window's buffer, at entry (p, q), from the input windows' blocks. -/
theorem out7_apply (x0 : Vec Ideal S5000x32 .f32) (x1 : Vec Ideal S5000x1 .f32) (x2 : Vec Ideal S5000x32 .f32)
    (x3 : Vec Ideal S32x32 .f32) (x4 : Vec Ideal S1x32 .f32) (x5 : Vec Ideal S32x32 .f32) (p : Fin 5000) (q : Fin 32) :
    out7_6 (F := Ideal) x0 x1 x2 x3 x4 x5 (ix2 p q)
      = max (((∑ k : Fin 32, (x0 (ix2 p k) * x1 (ix2 p (0 : Fin 1))) * x3 (ix2 k q))
          + ∑ k : Fin 32, x2 (ix2 p k) * x5 (ix2 k q)) + x4 (ix2 (0 : Fin 1) q)) 0 := by
  unfold out7_6
  rw [View.canon_unit_zero Cert.Tile.hz]
  simp only [View.ld_unit_zero (S := S5000x32) Cert.Tile.hz,
    View.ld_unit_zero (S := S5000x1) Cert.Tile.hz,
    View.ld_unit_zero (S := S32x32) Cert.Tile.hz,
    View.ld_unit_zero (S := S1x32) Cert.Tile.hz]
  rw [pay7_eq]
  exact Cert.Tile.fusedBody_apply 5000 32 32 shapeCasts_S5000x32_S5000x32 shapeCasts_S5000x1_S5000x1
          broadcasts_S5000x1_S5000x32 bitsLt_bf16_f32 shapeCasts_S32x32_S32x32 shapeCasts_S1x32_S1x32
          broadcasts_S1x32_S5000x32 dot_S5000x32_S32x32_S5000x32_1_0_0_1_n_n rfl x0 x1 x2 x3 x5 x4 p q

/-- The output block at an entry, when the row-blocked inputs are rows 5000·n + p of whole arrays and the others are
    whole arrays: the tiled layer of the whole arrays at the entry's place in the array. -/
theorem point7 (A0 : Mat 100000 32) (A1 : Mat 100000 1) (A2 : Mat 100000 32) (A3 A5 : Mat 32 32) (A4 : Mat 1 32)
    (x0 : Vec Ideal S5000x32 .f32) (x1 : Vec Ideal S5000x1 .f32) (x2 : Vec Ideal S5000x32 .f32)
    (x3 : Vec Ideal S32x32 .f32) (x4 : Vec Ideal S1x32 .f32) (x5 : Vec Ideal S32x32 .f32) (n : Nat)
    (h0 : ∀ (p : Fin 5000) (k : Fin 32) (P : Fin 100000), P.val = 5000 * n + p.val → x0 (ix2 p k) = A0 (ix2 P k))
    (h1 : ∀ (p : Fin 5000) (k : Fin 1) (P : Fin 100000), P.val = 5000 * n + p.val → x1 (ix2 p k) = A1 (ix2 P k))
    (h2 : ∀ (p : Fin 5000) (k : Fin 32) (P : Fin 100000), P.val = 5000 * n + p.val → x2 (ix2 p k) = A2 (ix2 P k))
    (h3 : x3 = A3) (h4 : x4 = A4) (h5 : x5 = A5)
    (j : S5000x32.Idx) (i : S100000x32.Idx) (hi0 : (i 0).val = 5000 * n + (j 0).val) (hi1 : (i 1).val = (j 1).val) :
    out7_6 (F := Ideal) x0 x1 x2 x3 x4 x5 j = Cert.Sage.layerTile A0 A2 A1 A3 A5 A4 i := by
  obtain ⟨p, q, rfl⟩ : ∃ (p : Fin 5000) (q : Fin 32), j = ix2 p q := ⟨j 0, j 1, eq_ix2 j⟩
  obtain ⟨P, Q, rfl⟩ : ∃ (P : Fin 100000) (Q : Fin 32), i = ix2 P Q := ⟨i 0, i 1, eq_ix2 i⟩
  have hP : P.val = 5000 * n + p.val := hi0
  obtain rfl : Q = q := Fin.ext hi1
  rw [out7_apply, Cert.Sage.layerTile_apply, h3, h4, h5, h1 p 0 P hP]
  refine congrArg (fun z => max (z + A4 (ix2 (0 : Fin 1) Q)) 0) ?_
  refine congrArg₂ (· + ·) (Finset.sum_congr rfl fun k _ => ?_) (Finset.sum_congr rfl fun k _ => ?_)
  · rw [h0 p k P hP]
  · rw [h2 p k P hP]

/-! ## The windows' blocks as rows of the arrays -/

/-- The printed index maps, decided over the grid: a row-blocked window is at block (t, 0) at point t, a whole
    window at block (0, 0). -/
theorem idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

/-- Window 0's block at point t is rows 5000·t … of the neighbour sums. -/
theorem blk7_0 (c : Dev nD) (t : Fin cfg7.N) (p : Fin 5000) (k : Fin 32) (P : Fin 100000)
    (hP : P.val = 5000 * t.val + p.val) :
    (iblk7 V c 0 t : Vec Ideal S5000x32 .f32) (ix2 p k)
      = (V c (Pipeline.arrRef spec7 0) : Mat 100000 32) (ix2 P k) := by
  obtain ⟨e0, e1, -⟩ := idx7 t
  unfold iblk7
  rw [View.read_apply]
  show V c (Pipeline.arrRef spec7 0) _ = V c (Pipeline.arrRef spec7 0) _
  refine congrArg _ ?_
  funext a
  apply Fin.ext
  match a with
  | ⟨0, _⟩ => show win7_0.index t (0 : Fin 2) * 5000 + 1 * p.val = P.val; rw [e0, hP]; omega
  | ⟨1, _⟩ => show win7_0.index t (1 : Fin 2) * 32 + 1 * k.val = k.val; rw [e1]; omega

/-- Window 1's block at point t is rows 5000·t … of the reciprocal column. -/
theorem blk7_1 (c : Dev nD) (t : Fin cfg7.N) (p : Fin 5000) (k : Fin 1) (P : Fin 100000)
    (hP : P.val = 5000 * t.val + p.val) :
    (iblk7 V c 1 t : Vec Ideal S5000x1 .f32) (ix2 p k)
      = (V c (Pipeline.arrRef spec7 1) : Mat 100000 1) (ix2 P k) := by
  obtain ⟨-, -, e0, e1, -⟩ := idx7 t
  unfold iblk7
  rw [View.read_apply]
  show V c (Pipeline.arrRef spec7 1) _ = V c (Pipeline.arrRef spec7 1) _
  refine congrArg _ ?_
  funext a
  apply Fin.ext
  match a with
  | ⟨0, _⟩ => show win7_1.index t (0 : Fin 2) * 5000 + 1 * p.val = P.val; rw [e0, hP]; omega
  | ⟨1, _⟩ => show win7_1.index t (1 : Fin 2) * 1 + 1 * k.val = k.val; rw [e1]; omega

/-- Window 2's block at point t is rows 5000·t … of the node features. -/
theorem blk7_2 (c : Dev nD) (t : Fin cfg7.N) (p : Fin 5000) (k : Fin 32) (P : Fin 100000)
    (hP : P.val = 5000 * t.val + p.val) :
    (iblk7 V c 2 t : Vec Ideal S5000x32 .f32) (ix2 p k)
      = (V c (Pipeline.arrRef spec7 2) : Mat 100000 32) (ix2 P k) := by
  obtain ⟨-, -, -, -, e0, e1, -⟩ := idx7 t
  unfold iblk7
  rw [View.read_apply]
  show V c (Pipeline.arrRef spec7 2) _ = V c (Pipeline.arrRef spec7 2) _
  refine congrArg _ ?_
  funext a
  apply Fin.ext
  match a with
  | ⟨0, _⟩ => show win7_2.index t (0 : Fin 2) * 5000 + 1 * p.val = P.val; rw [e0, hP]; omega
  | ⟨1, _⟩ => show win7_2.index t (1 : Fin 2) * 32 + 1 * k.val = k.val; rw [e1]; omega

/-- Window 3's block at every point is the whole first weight matrix. -/
theorem blk7_3 (c : Dev nD) (t : Fin cfg7.N) :
    (iblk7 V c 3 t : Vec Ideal S32x32 .f32) = (V c (Pipeline.arrRef spec7 3) : Mat 32 32) := by
  obtain ⟨-, -, -, -, -, -, e0, e1, -⟩ := idx7 t
  funext y
  unfold iblk7
  rw [View.read_apply]
  show V c (Pipeline.arrRef spec7 3) _ = V c (Pipeline.arrRef spec7 3) y
  refine congrArg _ ?_
  funext a
  apply Fin.ext
  match a with
  | ⟨0, _⟩ => show win7_3.index t (0 : Fin 2) * 32 + 1 * (y 0).val = (y 0).val; rw [e0]; omega
  | ⟨1, _⟩ => show win7_3.index t (1 : Fin 2) * 32 + 1 * (y 1).val = (y 1).val; rw [e1]; omega

/-- Window 4's block at every point is the whole one-row bias. -/
theorem blk7_4 (c : Dev nD) (t : Fin cfg7.N) :
    (iblk7 V c 4 t : Vec Ideal S1x32 .f32) = (V c (Pipeline.arrRef spec7 4) : Mat 1 32) := by
  obtain ⟨-, -, -, -, -, -, -, -, e0, e1, -⟩ := idx7 t
  funext y
  unfold iblk7
  rw [View.read_apply]
  show V c (Pipeline.arrRef spec7 4) _ = V c (Pipeline.arrRef spec7 4) y
  refine congrArg _ ?_
  funext a
  apply Fin.ext
  match a with
  | ⟨0, _⟩ => show win7_4.index t (0 : Fin 2) * 1 + 1 * (y 0).val = (y 0).val; rw [e0]; omega
  | ⟨1, _⟩ => show win7_4.index t (1 : Fin 2) * 32 + 1 * (y 1).val = (y 1).val; rw [e1]; omega

/-- Window 5's block at every point is the whole second weight matrix. -/
theorem blk7_5 (c : Dev nD) (t : Fin cfg7.N) :
    (iblk7 V c 5 t : Vec Ideal S32x32 .f32) = (V c (Pipeline.arrRef spec7 5) : Mat 32 32) := by
  obtain ⟨-, -, -, -, -, -, -, -, -, -, e0, e1, -⟩ := idx7 t
  funext y
  unfold iblk7
  rw [View.read_apply]
  show V c (Pipeline.arrRef spec7 5) _ = V c (Pipeline.arrRef spec7 5) y
  refine congrArg _ ?_
  funext a
  apply Fin.ext
  match a with
  | ⟨0, _⟩ => show win7_5.index t (0 : Fin 2) * 32 + 1 * (y 0).val = (y 0).val; rw [e0]; omega
  | ⟨1, _⟩ => show win7_5.index t (1 : Fin 2) * 32 + 1 * (y 1).val = (y 1).val; rw [e1]; omega

/-! ## From the blocks to the array -/

/-- The tiled layer of the arrays the region finds. -/
abbrev res7 (c : Dev nD) : Mat 100000 32 :=
  Cert.Sage.layerTile (V c (Pipeline.arrRef spec7 0)) (V c (Pipeline.arrRef spec7 2)) (V c (Pipeline.arrRef spec7 1))
    (V c (Pipeline.arrRef spec7 3)) (V c (Pipeline.arrRef spec7 5)) (V c (Pipeline.arrRef spec7 4))

/-- What point t writes back is block t of that array. -/
theorem flushed7 (c : Dev nD) (t : Fin cfg7.N) :
    (dat7 (F := Ideal) V c).flushed 6 t = ((cfg7.win 6).blk t).view.read (Elt Ideal) (res7 V c) := by
  show (cfg7.win 6).cut (grid7.coords t) ((dat7 V c).after 6 t) = _
  rw [after7_6]
  obtain ⟨-, -, -, -, -, -, -, -, -, -, -, -, e0, e1⟩ := idx7 t
  funext j
  rw [View.read_apply]
  show out7_6 (iblk7 V c 0 t) (iblk7 V c 1 t) (iblk7 V c 2 t) (iblk7 V c 3 t) (iblk7 V c 4 t) (iblk7 V c 5 t) j
    = res7 V c (((cfg7.win 6).blk t).view.emb j)
  refine point7 (V c (Pipeline.arrRef spec7 0)) (V c (Pipeline.arrRef spec7 1)) (V c (Pipeline.arrRef spec7 2))
    (V c (Pipeline.arrRef spec7 3)) (V c (Pipeline.arrRef spec7 5)) (V c (Pipeline.arrRef spec7 4))
    (iblk7 V c 0 t) (iblk7 V c 1 t) (iblk7 V c 2 t) (iblk7 V c 3 t) (iblk7 V c 4 t) (iblk7 V c 5 t) t.val
    (blk7_0 V c t) (blk7_1 V c t) (blk7_2 V c t) (blk7_3 V c t) (blk7_4 V c t) (blk7_5 V c t)
    j (((cfg7.win 6).blk t).view.emb j) ?_ ?_
  · show win7_6.index t (0 : Fin 2) * 5000 + 1 * (j 0).val = 5000 * t.val + (j 0).val
    rw [e0]; omega
  · show win7_6.index t (1 : Fin 2) * 32 + 1 * (j 1).val = (j 1).val
    rw [e1]; omega

/-- An index of the output array is in point t's block iff each coordinate is in the block's range on its axis. -/
theorem mem_blk7 (t : Fin cfg7.N) (i : S100000x32.Idx) :
    i ∈ ((cfg7.win 6).blk t).view.set ↔ ∀ a : Fin 2, win7_6.index t a * S5000x32.size a ≤ (i a).val
      ∧ (i a).val < win7_6.index t a * S5000x32.size a + S5000x32.size a := by
  show i ∈ ((View.whole main_call0_v98).slice (win7_6.rect t)).set ↔ _
  rw [View.set_slice_whole, Rect.mem_set_unit]
  exact Iff.rfl

/-- Row R of the output array is in the block of point R / 5000. -/
theorem cover7 (i : S100000x32.Idx) :
    ∃ t : Fin cfg7.N, (cfg7.win 6).flush t = true ∧ i ∈ ((cfg7.win 6).blk t).view.set := by
  have hi0 : (i 0).val < 100000 := (i 0).isLt
  have hi1 : (i 1).val < 32 := (i 1).isLt
  obtain ⟨t, ht⟩ : ∃ t : Fin cfg7.N, t.val = (i 0).val / 5000 :=
    ⟨⟨(i 0).val / 5000, by rw [show cfg7.N = 20 from N_7]; omega⟩, rfl⟩
  obtain ⟨-, -, -, -, -, -, -, -, -, -, -, -, e0, e1⟩ := idx7 t
  refine ⟨t, flush7_6 t, ?_⟩
  rw [mem_blk7]
  intro a
  match a with
  | ⟨0, _⟩ =>
    show win7_6.index t (0 : Fin 2) * 5000 ≤ (i 0).val ∧ (i 0).val < win7_6.index t (0 : Fin 2) * 5000 + 5000
    rw [e0, ht]; omega
  | ⟨1, _⟩ =>
    show win7_6.index t (1 : Fin 2) * 32 ≤ (i 1).val ∧ (i 1).val < win7_6.index t (1 : Fin 2) * 32 + 32
    rw [e1]; omega

/-- The region's output array ends holding the tiled layer of the arrays the region finds. -/
theorem out7 (c : Dev nD) :
    (dat7 (F := Ideal) V c).arrAt 6 cfg7.N
      = Cert.Sage.layerTile (V c (Pipeline.arrRef spec7 0)) (V c (Pipeline.arrRef spec7 2)) (V c (Pipeline.arrRef spec7 1))
          (V c (Pipeline.arrRef spec7 3)) (V c (Pipeline.arrRef spec7 5)) (V c (Pipeline.arrRef spec7 4)) :=
  (dat7 V c).arrAt_eq_of_cover 6 (res7 V c) (fun t _ => flushed7 V c t) cover7

end Cert.KernelIdeal.Regions

end
-- ==== Proof.Region8.lean ====
/-
  What a projection's region (32 features in, 16 out) leaves in its output array, as one function of the arrays
  it finds on entry.

  The region runs its body at 20 grid points. At point t the body receives rows 5000·t … 5000·t + 4999 of the node
  features and the whole weight matrix, and it leaves rows 5000·t … 5000·t + 4999 of the output. Entry (p, q) of
  what it leaves is Σ_k h[5000·t + p, k] · w[k, q]: the matrix product of the whole arrays at row 5000·t + p. Row R of
  the output lies in the block of point R / 5000, so the 20 blocks cover the array and it ends holding the product.
-/
import proofs.«170208_j90074054132246_2_alg».proof.Proof.Gen.KernelIdeal.Frame
import Idealize.ShloMosaic.Lib.Pipeline.Value
import proofs.«170208_j90074054132246_2_alg».proof.Proof.Tile

noncomputable section

namespace Cert.KernelIdeal.Regions

open Cert.KernelIdeal Cert.KernelIdeal.Gen Idealize.ShloMosaic Idealize.ShloMosaic.TcCoe Idealize.SL.Sem
open Idealize.ShloMosaic.ValueIdx Cert.Dense
open Idealize.ShloMosaic.Pipeline (Dat)

variable (V : (c : Dev nD) → (b : Ref sig .tc) → Buf (Elt Ideal) ((c : Thread nD τ).loc b))

/-! ## The body at one entry -/

/-- The stored value is the linear body of the loaded blocks. -/
theorem pay8_eq (x0 : Vec Ideal S5000x32 .f32) (x1 : Vec Ideal S32x16 .f32) :
    k8_pay1 (F := Ideal) x0 x1
      = Cert.Tile.linBody 5000 32 16 shapeCasts_S5000x32_S5000x32 bitsLt_bf16_f32 shapeCasts_S32x16_S32x16
          dot_S5000x32_S32x16_S5000x16_1_0_0_1_n_n x0 x1 := rfl

/-- What the body leaves in the output window's buffer, at entry (p, q), from the input windows' blocks. -/
theorem out8_apply (x0 : Vec Ideal S5000x32 .f32) (x1 : Vec Ideal S32x16 .f32) (p : Fin 5000) (q : Fin 16) :
    out8_2 (F := Ideal) x0 x1 (ix2 p q) = ∑ k : Fin 32, x0 (ix2 p k) * x1 (ix2 k q) := by
  unfold out8_2
  rw [View.canon_unit_zero Cert.Tile.hz]
  simp only [View.ld_unit_zero (S := S5000x32) Cert.Tile.hz,
    View.ld_unit_zero (S := S32x16) Cert.Tile.hz]
  rw [pay8_eq]
  exact Cert.Tile.linBody_apply 5000 32 16 shapeCasts_S5000x32_S5000x32 bitsLt_bf16_f32 shapeCasts_S32x16_S32x16
          dot_S5000x32_S32x16_S5000x16_1_0_0_1_n_n rfl x0 x1 p q

/-- The output block at an entry, when the row-blocked input is rows 5000·n + p of a whole array and the weights are a
    whole array: the matrix product of the whole arrays at the entry's place in the array. -/
theorem point8 (A0 : Mat 100000 32) (A1 : Mat 32 16)
    (x0 : Vec Ideal S5000x32 .f32) (x1 : Vec Ideal S32x16 .f32) (n : Nat)
    (h0 : ∀ (p : Fin 5000) (k : Fin 32) (P : Fin 100000), P.val = 5000 * n + p.val → x0 (ix2 p k) = A0 (ix2 P k))
    (h1 : x1 = A1)
    (j : S5000x16.Idx) (i : S100000x16.Idx) (hi0 : (i 0).val = 5000 * n + (j 0).val) (hi1 : (i 1).val = (j 1).val) :
    out8_2 (F := Ideal) x0 x1 j = Cert.Dense.mm A0 A1 i := by
  obtain ⟨p, q, rfl⟩ : ∃ (p : Fin 5000) (q : Fin 16), j = ix2 p q := ⟨j 0, j 1, eq_ix2 j⟩
  obtain ⟨P, Q, rfl⟩ : ∃ (P : Fin 100000) (Q : Fin 16), i = ix2 P Q := ⟨i 0, i 1, eq_ix2 i⟩
  have hP : P.val = 5000 * n + p.val := hi0
  obtain rfl : Q = q := Fin.ext hi1
  rw [out8_apply, Cert.Dense.mm_apply, h1]
  refine Finset.sum_congr rfl fun k _ => ?_
  rw [h0 p k P hP]

/-! ## The windows' blocks as rows of the arrays -/

/-- The printed index maps, decided over the grid: a row-blocked window is at block (t, 0) at point t, a whole
    window at block (0, 0). -/
theorem idx8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

/-- Window 0's block at point t is rows 5000·t … of the node features. -/
theorem blk8_0 (c : Dev nD) (t : Fin cfg8.N) (p : Fin 5000) (k : Fin 32) (P : Fin 100000)
    (hP : P.val = 5000 * t.val + p.val) :
    (iblk8 V c 0 t : Vec Ideal S5000x32 .f32) (ix2 p k)
      = (V c (Pipeline.arrRef spec8 0) : Mat 100000 32) (ix2 P k) := by
  obtain ⟨e0, e1, -⟩ := idx8 t
  unfold iblk8
  rw [View.read_apply]
  show V c (Pipeline.arrRef spec8 0) _ = V c (Pipeline.arrRef spec8 0) _
  refine congrArg _ ?_
  funext a
  apply Fin.ext
  match a with
  | ⟨0, _⟩ => show win8_0.index t (0 : Fin 2) * 5000 + 1 * p.val = P.val; rw [e0, hP]; omega
  | ⟨1, _⟩ => show win8_0.index t (1 : Fin 2) * 32 + 1 * k.val = k.val; rw [e1]; omega

/-- Window 1's block at every point is the whole weight matrix. -/
theorem blk8_1 (c : Dev nD) (t : Fin cfg8.N) :
    (iblk8 V c 1 t : Vec Ideal S32x16 .f32) = (V c (Pipeline.arrRef spec8 1) : Mat 32 16) := by
  obtain ⟨-, -, e0, e1, -⟩ := idx8 t
  funext y
  unfold iblk8
  rw [View.read_apply]
  show V c (Pipeline.arrRef spec8 1) _ = V c (Pipeline.arrRef spec8 1) y
  refine congrArg _ ?_
  funext a
  apply Fin.ext
  match a with
  | ⟨0, _⟩ => show win8_1.index t (0 : Fin 2) * 32 + 1 * (y 0).val = (y 0).val; rw [e0]; omega
  | ⟨1, _⟩ => show win8_1.index t (1 : Fin 2) * 16 + 1 * (y 1).val = (y 1).val; rw [e1]; omega

/-! ## From the blocks to the array -/

/-- The matrix product of the arrays the region finds. -/
abbrev res8 (c : Dev nD) : Mat 100000 16 :=
  Cert.Dense.mm (V c (Pipeline.arrRef spec8 0)) (V c (Pipeline.arrRef spec8 1))

/-- What point t writes back is block t of that array. -/
theorem flushed8 (c : Dev nD) (t : Fin cfg8.N) :
    (dat8 (F := Ideal) V c).flushed 2 t = ((cfg8.win 2).blk t).view.read (Elt Ideal) (res8 V c) := by
  show (cfg8.win 2).cut (grid8.coords t) ((dat8 V c).after 2 t) = _
  rw [after8_2]
  obtain ⟨-, -, -, -, e0, e1⟩ := idx8 t
  funext j
  rw [View.read_apply]
  show out8_2 (iblk8 V c 0 t) (iblk8 V c 1 t) j
    = res8 V c (((cfg8.win 2).blk t).view.emb j)
  refine point8 (V c (Pipeline.arrRef spec8 0)) (V c (Pipeline.arrRef spec8 1))
    (iblk8 V c 0 t) (iblk8 V c 1 t) t.val
    (blk8_0 V c t) (blk8_1 V c t)
    j (((cfg8.win 2).blk t).view.emb j) ?_ ?_
  · show win8_2.index t (0 : Fin 2) * 5000 + 1 * (j 0).val = 5000 * t.val + (j 0).val
    rw [e0]; omega
  · show win8_2.index t (1 : Fin 2) * 16 + 1 * (j 1).val = (j 1).val
    rw [e1]; omega

/-- An index of the output array is in point t's block iff each coordinate is in the block's range on its axis. -/
theorem mem_blk8 (t : Fin cfg8.N) (i : S100000x16.Idx) :
    i ∈ ((cfg8.win 2).blk t).view.set ↔ ∀ a : Fin 2, win8_2.index t a * S5000x16.size a ≤ (i a).val
      ∧ (i a).val < win8_2.index t a * S5000x16.size a + S5000x16.size a := by
  show i ∈ ((View.whole main_call0_v103).slice (win8_2.rect t)).set ↔ _
  rw [View.set_slice_whole, Rect.mem_set_unit]
  exact Iff.rfl

/-- Row R of the output array is in the block of point R / 5000. -/
theorem cover8 (i : S100000x16.Idx) :
    ∃ t : Fin cfg8.N, (cfg8.win 2).flush t = true ∧ i ∈ ((cfg8.win 2).blk t).view.set := by
  have hi0 : (i 0).val < 100000 := (i 0).isLt
  have hi1 : (i 1).val < 16 := (i 1).isLt
  obtain ⟨t, ht⟩ : ∃ t : Fin cfg8.N, t.val = (i 0).val / 5000 :=
    ⟨⟨(i 0).val / 5000, by rw [show cfg8.N = 20 from N_8]; omega⟩, rfl⟩
  obtain ⟨-, -, -, -, e0, e1⟩ := idx8 t
  refine ⟨t, flush8_2 t, ?_⟩
  rw [mem_blk8]
  intro a
  match a with
  | ⟨0, _⟩ =>
    show win8_2.index t (0 : Fin 2) * 5000 ≤ (i 0).val ∧ (i 0).val < win8_2.index t (0 : Fin 2) * 5000 + 5000
    rw [e0, ht]; omega
  | ⟨1, _⟩ =>
    show win8_2.index t (1 : Fin 2) * 16 ≤ (i 1).val ∧ (i 1).val < win8_2.index t (1 : Fin 2) * 16 + 16
    rw [e1]; omega

/-- The region's output array ends holding the matrix product of the arrays the region finds. -/
theorem out8 (c : Dev nD) :
    (dat8 (F := Ideal) V c).arrAt 2 cfg8.N
      = Cert.Dense.mm (V c (Pipeline.arrRef spec8 0)) (V c (Pipeline.arrRef spec8 1)) :=
  (dat8 V c).arrAt_eq_of_cover 2 (res8 V c) (fun t _ => flushed8 V c t) cover8

end Cert.KernelIdeal.Regions

end
-- ==== Proof.KNet.lean ====
/-
  The idealized kernel's result as the network in the tiled arrangement: region by region, each output array is the
  layer (fused, or projected first) of the arrays its region finds, which the preceding stretch and the preceding
  regions have left at the specification's values; the last stretch is the closing convolution of the projected rows.
-/
import proofs.«170208_j90074054132246_2_alg».proof.Proof.KVBase
import proofs.«170208_j90074054132246_2_alg».proof.Proof.KV0a
import proofs.«170208_j90074054132246_2_alg».proof.Proof.KV0b
import proofs.«170208_j90074054132246_2_alg».proof.Proof.KV1
import proofs.«170208_j90074054132246_2_alg».proof.Proof.KV2
import proofs.«170208_j90074054132246_2_alg».proof.Proof.KV4
import proofs.«170208_j90074054132246_2_alg».proof.Proof.KV6
import proofs.«170208_j90074054132246_2_alg».proof.Proof.KV7
import proofs.«170208_j90074054132246_2_alg».proof.Proof.KV9
import proofs.«170208_j90074054132246_2_alg».proof.Proof.Region0
import proofs.«170208_j90074054132246_2_alg».proof.Proof.Region1
import proofs.«170208_j90074054132246_2_alg».proof.Proof.Region2
import proofs.«170208_j90074054132246_2_alg».proof.Proof.Region3
import proofs.«170208_j90074054132246_2_alg».proof.Proof.Region4
import proofs.«170208_j90074054132246_2_alg».proof.Proof.Region5
import proofs.«170208_j90074054132246_2_alg».proof.Proof.Region6
import proofs.«170208_j90074054132246_2_alg».proof.Proof.Region7
import proofs.«170208_j90074054132246_2_alg».proof.Proof.Region8

set_option maxRecDepth 16384

noncomputable section

namespace Cert.KernelIdeal.KValue

open Cert.KernelIdeal Cert.KernelIdeal.Gen Cert.KernelIdeal.Fold
open Idealize.ShloMosaic Idealize.ShloMosaic.TcCoe Idealize.SL.Sem Idealize.ShloMosaic.StableHlo
open Idealize.ShloMosaic.ValueIdx Cert.Dense Cert.Net

variable (m : (ℓ : Loc nD τ sig) → Buf (Elt Ideal) ℓ) (ρ : Dev nD → PrngReg) (c : Dev nD)

/-- The layers' outputs, in the kernel's arrangement. -/
abbrev H1 : Mat 100000 32 := layerK (SRC m c) (HIT m c) (X0 m c) (Wl1 m c) (Wr1 m c) (Bl1 m c)
abbrev H2 : Mat 100000 64 := layerK (SRC m c) (HIT m c) (H1 m c) (Wl2 m c) (Wr2 m c) (Bl2 m c)
abbrev H3 : Mat 100000 128 := layerK (SRC m c) (HIT m c) (H2 m c) (Wl3 m c) (Wr3 m c) (Bl3 m c)
abbrev L4 : Mat 100000 64 := mm (H3 m c) (tr (Wl4 m c))
abbrev H4 : Mat 100000 64 := layerP (SRC m c) (HIT m c) (H3 m c) (Wl4 m c) (Wr4 m c) (Bl4 m c)
abbrev L5 : Mat 100000 32 := mm (H4 m c) (tr (Wl5 m c))
abbrev H5 : Mat 100000 32 := layerP (SRC m c) (HIT m c) (H4 m c) (Wl5 m c) (Wr5 m c) (Bl5 m c)
abbrev H6 : Mat 100000 32 := layerK (SRC m c) (HIT m c) (H5 m c) (Wl6 m c) (Wr6 m c) (Bl6 m c)
abbrev HG : Mat 100000 16 := mm (H6 m c) (tr (Wg m c))

theorem r0 : (W2 m ρ c (Proc.devRef .tc main_call0_v26) : Mat 100000 32) = H1 m c := by
  refine (W2_arr m ρ c 6).trans ((Cert.KernelIdeal.Regions.out0 (V1 m ρ) c).trans ?_)
  show Cert.Sage.layerTile (N := 100000) (K := 7) (C := 32) (W1 m ρ c (Proc.devRef .tc main_call0_v22)) (W1 m ρ c (Proc.devRef .tc main_arg0)) (W1 m ρ c (Proc.devRef .tc main_call0_v12)) (W1 m ρ c (Proc.devRef .tc main_call0_v23)) (W1 m ρ c (Proc.devRef .tc main_call0_v24)) (W1 m ρ c (Proc.devRef .tc main_call0_v25)) = _
  rw [s0_v22 m ρ c, arg0_at1 m ρ c, s0_v12 m ρ c, s0_v23 m ρ c, s0_v24 m ρ c, s0_v25 m ρ c]
  rfl

theorem r1 : (W4 m ρ c (Proc.devRef .tc main_call0_v40) : Mat 100000 64) = H2 m c := by
  refine (W4_arr m ρ c 6).trans ((Cert.KernelIdeal.Regions.out1 (V3 m ρ) c).trans ?_)
  show Cert.Sage.layerTile (N := 100000) (K := 32) (C := 64) (W3 m ρ c (Proc.devRef .tc main_call0_v36)) (W3 m ρ c (Proc.devRef .tc main_call0_v26)) (W3 m ρ c (Proc.devRef .tc main_call0_v12)) (W3 m ρ c (Proc.devRef .tc main_call0_v37)) (W3 m ρ c (Proc.devRef .tc main_call0_v38)) (W3 m ρ c (Proc.devRef .tc main_call0_v39)) = _
  rw [s1_v36 m ρ c (H1 m c) (r0 m ρ c), v26_at3 m ρ c, r0 m ρ c, v12_at3 m ρ c, s0_v12 m ρ c, s1_v37 m ρ c, s1_v38 m ρ c, s1_v39 m ρ c]
  rfl

theorem r2 : (W6 m ρ c (Proc.devRef .tc main_call0_v54) : Mat 100000 128) = H3 m c := by
  refine (W6_arr m ρ c 6).trans ((Cert.KernelIdeal.Regions.out2 (V5 m ρ) c).trans ?_)
  show Cert.Sage.layerTile (N := 100000) (K := 64) (C := 128) (W5 m ρ c (Proc.devRef .tc main_call0_v50)) (W5 m ρ c (Proc.devRef .tc main_call0_v40)) (W5 m ρ c (Proc.devRef .tc main_call0_v12)) (W5 m ρ c (Proc.devRef .tc main_call0_v51)) (W5 m ρ c (Proc.devRef .tc main_call0_v52)) (W5 m ρ c (Proc.devRef .tc main_call0_v53)) = _
  rw [s2_v50 m ρ c (H2 m c) (r1 m ρ c), v40_at5 m ρ c, r1 m ρ c, v12_at5 m ρ c, s0_v12 m ρ c, s2_v51 m ρ c, s2_v52 m ρ c, s2_v53 m ρ c]
  rfl

theorem r3 : (W8 m ρ c (Proc.devRef .tc main_call0_v56) : Mat 100000 64) = L4 m c := by
  refine (W8_arr m ρ c 2).trans ((Cert.KernelIdeal.Regions.out3 (V7 m ρ) c).trans ?_)
  show Cert.Dense.mm (N := 100000) (K := 128) (C := 64) (W7 m ρ c (Proc.devRef .tc main_call0_v54)) (W7 m ρ c (Proc.devRef .tc main_call0_v55)) = _
  rw [v54_at7 m ρ c, r2 m ρ c, s3_v55 m ρ c]

theorem r4 : (W10 m ρ c (Proc.devRef .tc main_call0_v69) : Mat 100000 64) = H4 m c := by
  refine (W10_arr m ρ c 5).trans ((Cert.KernelIdeal.Regions.out4 (V9 m ρ) c).trans ?_)
  show Cert.Net.preTile (N := 100000) (K := 128) (C := 64) (W9 m ρ c (Proc.devRef .tc main_call0_v66)) (W9 m ρ c (Proc.devRef .tc main_call0_v54)) (W9 m ρ c (Proc.devRef .tc main_call0_v12)) (W9 m ρ c (Proc.devRef .tc main_call0_v67)) (W9 m ρ c (Proc.devRef .tc main_call0_v68)) = _
  rw [s4_v66 m ρ c (L4 m c) (r3 m ρ c), v54_at9 m ρ c, r2 m ρ c, v12_at9 m ρ c, s0_v12 m ρ c, s4_v67 m ρ c, s4_v68 m ρ c]
  rfl

theorem r5 : (W12 m ρ c (Proc.devRef .tc main_call0_v71) : Mat 100000 32) = L5 m c := by
  refine (W12_arr m ρ c 2).trans ((Cert.KernelIdeal.Regions.out5 (V11 m ρ) c).trans ?_)
  show Cert.Dense.mm (N := 100000) (K := 64) (C := 32) (W11 m ρ c (Proc.devRef .tc main_call0_v69)) (W11 m ρ c (Proc.devRef .tc main_call0_v70)) = _
  rw [v69_at11 m ρ c, r4 m ρ c, s5_v70 m ρ c]

theorem r6 : (W14 m ρ c (Proc.devRef .tc main_call0_v84) : Mat 100000 32) = H5 m c := by
  refine (W14_arr m ρ c 5).trans ((Cert.KernelIdeal.Regions.out6 (V13 m ρ) c).trans ?_)
  show Cert.Net.preTile (N := 100000) (K := 64) (C := 32) (W13 m ρ c (Proc.devRef .tc main_call0_v81)) (W13 m ρ c (Proc.devRef .tc main_call0_v69)) (W13 m ρ c (Proc.devRef .tc main_call0_v12)) (W13 m ρ c (Proc.devRef .tc main_call0_v82)) (W13 m ρ c (Proc.devRef .tc main_call0_v83)) = _
  rw [s6_v81 m ρ c (L5 m c) (r5 m ρ c), v69_at13 m ρ c, r4 m ρ c, v12_at13 m ρ c, s0_v12 m ρ c, s6_v82 m ρ c, s6_v83 m ρ c]
  rfl

theorem r7 : (W16 m ρ c (Proc.devRef .tc main_call0_v98) : Mat 100000 32) = H6 m c := by
  refine (W16_arr m ρ c 6).trans ((Cert.KernelIdeal.Regions.out7 (V15 m ρ) c).trans ?_)
  show Cert.Sage.layerTile (N := 100000) (K := 32) (C := 32) (W15 m ρ c (Proc.devRef .tc main_call0_v94)) (W15 m ρ c (Proc.devRef .tc main_call0_v84)) (W15 m ρ c (Proc.devRef .tc main_call0_v12)) (W15 m ρ c (Proc.devRef .tc main_call0_v95)) (W15 m ρ c (Proc.devRef .tc main_call0_v96)) (W15 m ρ c (Proc.devRef .tc main_call0_v97)) = _
  rw [s7_v94 m ρ c (H5 m c) (r6 m ρ c), v84_at15 m ρ c, r6 m ρ c, v12_at15 m ρ c, s0_v12 m ρ c, s7_v95 m ρ c, s7_v96 m ρ c, s7_v97 m ρ c]
  rfl

theorem r8 : (W18 m ρ c (Proc.devRef .tc main_call0_v103) : Mat 100000 16) = HG m c := by
  refine (W18_arr m ρ c 2).trans ((Cert.KernelIdeal.Regions.out8 (V17 m ρ) c).trans ?_)
  show Cert.Dense.mm (N := 100000) (K := 32) (C := 16) (W17 m ρ c (Proc.devRef .tc main_call0_v98)) (W17 m ρ c (Proc.devRef .tc main_call0_v102)) = _
  rw [v98_at17 m ρ c, r7 m ρ c, s8_v102 m ρ c]

/-- The kernel's result is the network in the tiled arrangement, of the launch memory's arguments. -/
theorem kernel_value : (W19 m ρ c (Proc.devRef .tc main_v0) : Mat 100000 16)
    = netK (SRC m c) (HIT m c) (X0 m c) (Wl1 m c) (Wr1 m c) (Bl1 m c) (Wl2 m c) (Wr2 m c) (Bl2 m c) (Wl3 m c) (Wr3 m c) (Bl3 m c)
        (Wl4 m c) (Wr4 m c) (Bl4 m c) (Wl5 m c) (Wr5 m c) (Bl5 m c) (Wl6 m c) (Wr6 m c) (Bl6 m c) (Wg m c) (Bg m c) :=
  s9_out m ρ c (HG m c) (r8 m ρ c)

end Cert.KernelIdeal.KValue

end
-- ==== Proof.RefRead.lean ====
/-
  The reference program's value in the terms of the specification.

  The generated reading module states the value of every host operation of the reference as a function of the
  program's arguments. Here the chain is folded, stage by stage, into the specification's network in the reference
  arrangement: the two rows of the edge list, the clamped count, six layers, and the closing convolution.
-/
import proofs.«170208_j90074054132246_2_alg».proof.Proof.Gen.ReferenceIdeal.Read
import proofs.«170208_j90074054132246_2_alg».proof.Proof.HostRead
import proofs.«170208_j90074054132246_2_alg».proof.Proof.RefReadGcn

noncomputable section

namespace Cert.ReferenceIdeal.RefValue

open Cert.ReferenceIdeal Cert.ReferenceIdeal.Gen Cert.ReferenceIdeal.Read Idealize.ShloMosaic Idealize.ShloMosaic.ValueIdx
  Cert.Dense Cert.Net

/-- Row 0 of the edge list as a vector: the sources. -/
theorem v1_apply (x1 : (⟨S2x1600000, .i32⟩ : BufTy).Contents (Elt Ideal)) (e : Fin 1600000) :
    val_main_v1 (F := Ideal) x1 (ix1 e) = x1 (ix2 (0 : Fin 2) e) := by
  unfold val_main_v1 val_main_v0
  exact Cert.HostRead.idxRow0_apply x1 _ _ e

/-- Row 1 of the edge list as a vector: the destinations. -/
theorem v3_apply (x1 : (⟨S2x1600000, .i32⟩ : BufTy).Contents (Elt Ideal)) (e : Fin 1600000) :
    val_main_v3 (F := Ideal) x1 (ix1 e) = x1 (ix2 (1 : Fin 2) e) := by
  unfold val_main_v3 val_main_v2
  exact Cert.HostRead.idxRow1_apply x1 _ _ e

/-- The clamped count of arriving edges. -/
theorem v9_eq (x1 : (⟨S2x1600000, .i32⟩ : BufTy).Contents (Elt Ideal)) : val_main_v9 (F := Ideal) x1 = cnt (hitOf x1) := by
  unfold val_main_v9 val_main_v8 val_main_cst_1 val_main_v7 val_main_v6 val_main_v5 val_main_cst_0 val_main_v4 val_main_cst
  exact Cert.HostRead.cnt_eq (E := 1600000) _ _ _ _ _ x1 (val_main_v3 (F := Ideal) x1) (v3_apply x1)

/-- A layer of the reference: 7 features in, 32 out. -/
theorem v31_eq (x0 : (⟨S100000x7, .f32⟩ : BufTy).Contents (Elt Ideal)) (x1 : (⟨S2x1600000, .i32⟩ : BufTy).Contents (Elt Ideal)) (x2 : (⟨S32x7, .f32⟩ : BufTy).Contents (Elt Ideal)) (x3 : (⟨S32, .f32⟩ : BufTy).Contents (Elt Ideal)) (x4 : (⟨S32x7, .f32⟩ : BufTy).Contents (Elt Ideal)) :
    val_main_v31 (F := Ideal) x0 x1 x2 x3 x4
      = layerR (srcOf x1) (hitOf x1) x0 x2 x4 x3 := by
  unfold val_main_v31 val_main_call0_v0 val_main_call0_cst val_main_v30 val_main_v29 val_main_v28 val_main_v27 val_main_v26 val_main_v25 val_main_v24 val_main_v23 val_main_v22 val_main_v21 val_main_v20 val_main_v19 val_main_v18 val_main_cst_3 val_main_v17 val_main_v16 val_main_v15 val_main_v14 val_main_v13 val_main_c_2 val_main_v12 val_main_v11 val_main_c val_main_v10
  exact Cert.HostRead.layerR_eq (E := 1600000) (K := 7) (C := 32) (by decide) _ _ _ _ _ _ _ _ _ _ _ _ _ _ x1
    (val_main_v1 (F := Ideal) x1) (val_main_v3 (F := Ideal) x1) (v1_apply x1) (v3_apply x1) x0
    (val_main_v9 (F := Ideal) x1) (v9_eq x1) x2 x4 x3

/-- A layer of the reference: 32 features in, 64 out. -/
theorem v52_eq (x0 : (⟨S100000x7, .f32⟩ : BufTy).Contents (Elt Ideal)) (x1 : (⟨S2x1600000, .i32⟩ : BufTy).Contents (Elt Ideal)) (x2 : (⟨S32x7, .f32⟩ : BufTy).Contents (Elt Ideal)) (x3 : (⟨S32, .f32⟩ : BufTy).Contents (Elt Ideal)) (x4 : (⟨S32x7, .f32⟩ : BufTy).Contents (Elt Ideal)) (x5 : (⟨S64x32, .f32⟩ : BufTy).Contents (Elt Ideal)) (x6 : (⟨S64, .f32⟩ : BufTy).Contents (Elt Ideal)) (x7 : (⟨S64x32, .f32⟩ : BufTy).Contents (Elt Ideal)) :
    val_main_v52 (F := Ideal) x0 x1 x2 x3 x4 x5 x6 x7
      = layerR (srcOf x1) (hitOf x1) (val_main_v31 (F := Ideal) x0 x1 x2 x3 x4) x5 x7 x6 := by
  unfold val_main_v52 val_main_call1_v0 val_main_call1_cst val_main_v51 val_main_v50 val_main_v49 val_main_v48 val_main_v47 val_main_v46 val_main_v45 val_main_v44 val_main_v43 val_main_v42 val_main_v41 val_main_v40 val_main_v39 val_main_cst_6 val_main_v38 val_main_v37 val_main_v36 val_main_v35 val_main_v34 val_main_c_5 val_main_v33 val_main_v32 val_main_c_4 val_main_v10
  exact Cert.HostRead.layerR_eq (E := 1600000) (K := 32) (C := 64) (by decide) _ _ _ _ _ _ _ _ _ _ _ _ _ _ x1
    (val_main_v1 (F := Ideal) x1) (val_main_v3 (F := Ideal) x1) (v1_apply x1) (v3_apply x1) (val_main_v31 (F := Ideal) x0 x1 x2 x3 x4)
    (val_main_v9 (F := Ideal) x1) (v9_eq x1) x5 x7 x6

/-- A layer of the reference: 64 features in, 128 out. -/
theorem v73_eq (x0 : (⟨S100000x7, .f32⟩ : BufTy).Contents (Elt Ideal)) (x1 : (⟨S2x1600000, .i32⟩ : BufTy).Contents (Elt Ideal)) (x2 : (⟨S32x7, .f32⟩ : BufTy).Contents (Elt Ideal)) (x3 : (⟨S32, .f32⟩ : BufTy).Contents (Elt Ideal)) (x4 : (⟨S32x7, .f32⟩ : BufTy).Contents (Elt Ideal)) (x5 : (⟨S64x32, .f32⟩ : BufTy).Contents (Elt Ideal)) (x6 : (⟨S64, .f32⟩ : BufTy).Contents (Elt Ideal)) (x7 : (⟨S64x32, .f32⟩ : BufTy).Contents (Elt Ideal)) (x8 : (⟨S128x64, .f32⟩ : BufTy).Contents (Elt Ideal)) (x9 : (⟨S128, .f32⟩ : BufTy).Contents (Elt Ideal)) (x10 : (⟨S128x64, .f32⟩ : BufTy).Contents (Elt Ideal)) :
    val_main_v73 (F := Ideal) x0 x1 x2 x3 x4 x5 x6 x7 x8 x9 x10
      = layerR (srcOf x1) (hitOf x1) (val_main_v52 (F := Ideal) x0 x1 x2 x3 x4 x5 x6 x7) x8 x10 x9 := by
  unfold val_main_v73 val_main_call2_v0 val_main_call2_cst val_main_v72 val_main_v71 val_main_v70 val_main_v69 val_main_v68 val_main_v67 val_main_v66 val_main_v65 val_main_v64 val_main_v63 val_main_v62 val_main_v61 val_main_v60 val_main_cst_9 val_main_v59 val_main_v58 val_main_v57 val_main_v56 val_main_v55 val_main_c_8 val_main_v54 val_main_v53 val_main_c_7 val_main_v10
  exact Cert.HostRead.layerR_eq (E := 1600000) (K := 64) (C := 128) (by decide) _ _ _ _ _ _ _ _ _ _ _ _ _ _ x1
    (val_main_v1 (F := Ideal) x1) (val_main_v3 (F := Ideal) x1) (v1_apply x1) (v3_apply x1) (val_main_v52 (F := Ideal) x0 x1 x2 x3 x4 x5 x6 x7)
    (val_main_v9 (F := Ideal) x1) (v9_eq x1) x8 x10 x9

/-- A layer of the reference: 128 features in, 64 out. -/
theorem v94_eq (x0 : (⟨S100000x7, .f32⟩ : BufTy).Contents (Elt Ideal)) (x1 : (⟨S2x1600000, .i32⟩ : BufTy).Contents (Elt Ideal)) (x2 : (⟨S32x7, .f32⟩ : BufTy).Contents (Elt Ideal)) (x3 : (⟨S32, .f32⟩ : BufTy).Contents (Elt Ideal)) (x4 : (⟨S32x7, .f32⟩ : BufTy).Contents (Elt Ideal)) (x5 : (⟨S64x32, .f32⟩ : BufTy).Contents (Elt Ideal)) (x6 : (⟨S64, .f32⟩ : BufTy).Contents (Elt Ideal)) (x7 : (⟨S64x32, .f32⟩ : BufTy).Contents (Elt Ideal)) (x8 : (⟨S128x64, .f32⟩ : BufTy).Contents (Elt Ideal)) (x9 : (⟨S128, .f32⟩ : BufTy).Contents (Elt Ideal)) (x10 : (⟨S128x64, .f32⟩ : BufTy).Contents (Elt Ideal)) (x11 : (⟨S64x128, .f32⟩ : BufTy).Contents (Elt Ideal)) (x12 : (⟨S64, .f32⟩ : BufTy).Contents (Elt Ideal)) (x13 : (⟨S64x128, .f32⟩ : BufTy).Contents (Elt Ideal)) :
    val_main_v94 (F := Ideal) x0 x1 x2 x3 x4 x5 x6 x7 x8 x9 x10 x11 x12 x13
      = layerR (srcOf x1) (hitOf x1) (val_main_v73 (F := Ideal) x0 x1 x2 x3 x4 x5 x6 x7 x8 x9 x10) x11 x13 x12 := by
  unfold val_main_v94 val_main_call3_v0 val_main_call3_cst val_main_v93 val_main_v92 val_main_v91 val_main_v90 val_main_v89 val_main_v88 val_main_v87 val_main_v86 val_main_v85 val_main_v84 val_main_v83 val_main_v82 val_main_v81 val_main_cst_12 val_main_v80 val_main_v79 val_main_v78 val_main_v77 val_main_v76 val_main_c_11 val_main_v75 val_main_v74 val_main_c_10 val_main_v10
  exact Cert.HostRead.layerR_eq (E := 1600000) (K := 128) (C := 64) (by decide) _ _ _ _ _ _ _ _ _ _ _ _ _ _ x1
    (val_main_v1 (F := Ideal) x1) (val_main_v3 (F := Ideal) x1) (v1_apply x1) (v3_apply x1) (val_main_v73 (F := Ideal) x0 x1 x2 x3 x4 x5 x6 x7 x8 x9 x10)
    (val_main_v9 (F := Ideal) x1) (v9_eq x1) x11 x13 x12

/-- A layer of the reference: 64 features in, 32 out. -/
theorem v115_eq (x0 : (⟨S100000x7, .f32⟩ : BufTy).Contents (Elt Ideal)) (x1 : (⟨S2x1600000, .i32⟩ : BufTy).Contents (Elt Ideal)) (x2 : (⟨S32x7, .f32⟩ : BufTy).Contents (Elt Ideal)) (x3 : (⟨S32, .f32⟩ : BufTy).Contents (Elt Ideal)) (x4 : (⟨S32x7, .f32⟩ : BufTy).Contents (Elt Ideal)) (x5 : (⟨S64x32, .f32⟩ : BufTy).Contents (Elt Ideal)) (x6 : (⟨S64, .f32⟩ : BufTy).Contents (Elt Ideal)) (x7 : (⟨S64x32, .f32⟩ : BufTy).Contents (Elt Ideal)) (x8 : (⟨S128x64, .f32⟩ : BufTy).Contents (Elt Ideal)) (x9 : (⟨S128, .f32⟩ : BufTy).Contents (Elt Ideal)) (x10 : (⟨S128x64, .f32⟩ : BufTy).Contents (Elt Ideal)) (x11 : (⟨S64x128, .f32⟩ : BufTy).Contents (Elt Ideal)) (x12 : (⟨S64, .f32⟩ : BufTy).Contents (Elt Ideal)) (x13 : (⟨S64x128, .f32⟩ : BufTy).Contents (Elt Ideal)) (x14 : (⟨S32x64, .f32⟩ : BufTy).Contents (Elt Ideal)) (x15 : (⟨S32, .f32⟩ : BufTy).Contents (Elt Ideal)) (x16 : (⟨S32x64, .f32⟩ : BufTy).Contents (Elt Ideal)) :
    val_main_v115 (F := Ideal) x0 x1 x2 x3 x4 x5 x6 x7 x8 x9 x10 x11 x12 x13 x14 x15 x16
      = layerR (srcOf x1) (hitOf x1) (val_main_v94 (F := Ideal) x0 x1 x2 x3 x4 x5 x6 x7 x8 x9 x10 x11 x12 x13) x14 x16 x15 := by
  unfold val_main_v115 val_main_call4_v0 val_main_call4_cst val_main_v114 val_main_v113 val_main_v112 val_main_v111 val_main_v110 val_main_v109 val_main_v108 val_main_v107 val_main_v106 val_main_v105 val_main_v104 val_main_v103 val_main_v102 val_main_cst_15 val_main_v101 val_main_v100 val_main_v99 val_main_v98 val_main_v97 val_main_c_14 val_main_v96 val_main_v95 val_main_c_13 val_main_v10
  exact Cert.HostRead.layerR_eq (E := 1600000) (K := 64) (C := 32) (by decide) _ _ _ _ _ _ _ _ _ _ _ _ _ _ x1
    (val_main_v1 (F := Ideal) x1) (val_main_v3 (F := Ideal) x1) (v1_apply x1) (v3_apply x1) (val_main_v94 (F := Ideal) x0 x1 x2 x3 x4 x5 x6 x7 x8 x9 x10 x11 x12 x13)
    (val_main_v9 (F := Ideal) x1) (v9_eq x1) x14 x16 x15

/-- A layer of the reference: 32 features in, 32 out. -/
theorem v136_eq (x0 : (⟨S100000x7, .f32⟩ : BufTy).Contents (Elt Ideal)) (x1 : (⟨S2x1600000, .i32⟩ : BufTy).Contents (Elt Ideal)) (x2 : (⟨S32x7, .f32⟩ : BufTy).Contents (Elt Ideal)) (x3 : (⟨S32, .f32⟩ : BufTy).Contents (Elt Ideal)) (x4 : (⟨S32x7, .f32⟩ : BufTy).Contents (Elt Ideal)) (x5 : (⟨S64x32, .f32⟩ : BufTy).Contents (Elt Ideal)) (x6 : (⟨S64, .f32⟩ : BufTy).Contents (Elt Ideal)) (x7 : (⟨S64x32, .f32⟩ : BufTy).Contents (Elt Ideal)) (x8 : (⟨S128x64, .f32⟩ : BufTy).Contents (Elt Ideal)) (x9 : (⟨S128, .f32⟩ : BufTy).Contents (Elt Ideal)) (x10 : (⟨S128x64, .f32⟩ : BufTy).Contents (Elt Ideal)) (x11 : (⟨S64x128, .f32⟩ : BufTy).Contents (Elt Ideal)) (x12 : (⟨S64, .f32⟩ : BufTy).Contents (Elt Ideal)) (x13 : (⟨S64x128, .f32⟩ : BufTy).Contents (Elt Ideal)) (x14 : (⟨S32x64, .f32⟩ : BufTy).Contents (Elt Ideal)) (x15 : (⟨S32, .f32⟩ : BufTy).Contents (Elt Ideal)) (x16 : (⟨S32x64, .f32⟩ : BufTy).Contents (Elt Ideal)) (x17 : (⟨S32x32, .f32⟩ : BufTy).Contents (Elt Ideal)) (x18 : (⟨S32, .f32⟩ : BufTy).Contents (Elt Ideal)) (x19 : (⟨S32x32, .f32⟩ : BufTy).Contents (Elt Ideal)) :
    val_main_v136 (F := Ideal) x0 x1 x2 x3 x4 x5 x6 x7 x8 x9 x10 x11 x12 x13 x14 x15 x16 x17 x18 x19
      = layerR (srcOf x1) (hitOf x1) (val_main_v115 (F := Ideal) x0 x1 x2 x3 x4 x5 x6 x7 x8 x9 x10 x11 x12 x13 x14 x15 x16) x17 x19 x18 := by
  unfold val_main_v136 val_main_call5_v0 val_main_call5_cst val_main_v135 val_main_v134 val_main_v133 val_main_v132 val_main_v131 val_main_v130 val_main_v129 val_main_v128 val_main_v127 val_main_v126 val_main_v125 val_main_v124 val_main_v123 val_main_cst_18 val_main_v122 val_main_v121 val_main_v120 val_main_v119 val_main_v118 val_main_c_17 val_main_v117 val_main_v116 val_main_c_16 val_main_v10
  exact Cert.HostRead.layerR_eq (E := 1600000) (K := 32) (C := 32) (by decide) _ _ _ _ _ _ _ _ _ _ _ _ _ _ x1
    (val_main_v1 (F := Ideal) x1) (val_main_v3 (F := Ideal) x1) (v1_apply x1) (v3_apply x1) (val_main_v115 (F := Ideal) x0 x1 x2 x3 x4 x5 x6 x7 x8 x9 x10 x11 x12 x13 x14 x15 x16)
    (val_main_v9 (F := Ideal) x1) (v9_eq x1) x17 x19 x18

/-- The inverse root degree over the edge list with the self loops appended. -/
theorem v144_apply (x1 : (⟨S2x1600000, .i32⟩ : BufTy).Contents (Elt Ideal)) (n : Fin 100000) :
    val_main_v144 (F := Ideal) x1 (ix1 n) = dinvR (hitOf x1) n := by
  unfold val_main_v144 val_main_v143 val_main_v142 val_main_v141 val_main_cst_20 val_main_v140 val_main_cst_19 val_main_v139 val_main_v137
  exact Cert.HostRead.dinvR_apply (E := 1600000) x1 (val_main_v3 (F := Ideal) x1) (v3_apply x1) _ _ _ _ _ n

/-- The last layer's features projected to 16 columns. -/
theorem v162_eq (x0 : (⟨S100000x7, .f32⟩ : BufTy).Contents (Elt Ideal)) (x1 : (⟨S2x1600000, .i32⟩ : BufTy).Contents (Elt Ideal)) (x2 : (⟨S32x7, .f32⟩ : BufTy).Contents (Elt Ideal)) (x3 : (⟨S32, .f32⟩ : BufTy).Contents (Elt Ideal)) (x4 : (⟨S32x7, .f32⟩ : BufTy).Contents (Elt Ideal)) (x5 : (⟨S64x32, .f32⟩ : BufTy).Contents (Elt Ideal)) (x6 : (⟨S64, .f32⟩ : BufTy).Contents (Elt Ideal)) (x7 : (⟨S64x32, .f32⟩ : BufTy).Contents (Elt Ideal)) (x8 : (⟨S128x64, .f32⟩ : BufTy).Contents (Elt Ideal)) (x9 : (⟨S128, .f32⟩ : BufTy).Contents (Elt Ideal)) (x10 : (⟨S128x64, .f32⟩ : BufTy).Contents (Elt Ideal)) (x11 : (⟨S64x128, .f32⟩ : BufTy).Contents (Elt Ideal)) (x12 : (⟨S64, .f32⟩ : BufTy).Contents (Elt Ideal)) (x13 : (⟨S64x128, .f32⟩ : BufTy).Contents (Elt Ideal)) (x14 : (⟨S32x64, .f32⟩ : BufTy).Contents (Elt Ideal)) (x15 : (⟨S32, .f32⟩ : BufTy).Contents (Elt Ideal)) (x16 : (⟨S32x64, .f32⟩ : BufTy).Contents (Elt Ideal)) (x17 : (⟨S32x32, .f32⟩ : BufTy).Contents (Elt Ideal)) (x18 : (⟨S32, .f32⟩ : BufTy).Contents (Elt Ideal)) (x19 : (⟨S32x32, .f32⟩ : BufTy).Contents (Elt Ideal)) (x20 : (⟨S16x32, .f32⟩ : BufTy).Contents (Elt Ideal)) :
    val_main_v162 (F := Ideal) x0 x1 x2 x3 x4 x5 x6 x7 x8 x9 x10 x11 x12 x13 x14 x15 x16 x17 x18 x19 x20
      = mm (val_main_v136 (F := Ideal) x0 x1 x2 x3 x4 x5 x6 x7 x8 x9 x10 x11 x12 x13 x14 x15 x16 x17 x18 x19) (tr x20) := by
  unfold val_main_v162 val_main_v161
  exact Cert.HostRead.mm_tr_eq (N := 100000) (K := 32) (C := 16) _ (val_main_v136 (F := Ideal) x0 x1 x2 x3 x4 x5 x6 x7 x8 x9 x10 x11 x12 x13 x14 x15 x16 x17 x18 x19) x20

/-- The reference's value is the specification's network in the reference arrangement. -/
theorem ref_value (x0 : (⟨S100000x7, .f32⟩ : BufTy).Contents (Elt Ideal)) (x1 : (⟨S2x1600000, .i32⟩ : BufTy).Contents (Elt Ideal)) (x2 : (⟨S32x7, .f32⟩ : BufTy).Contents (Elt Ideal)) (x3 : (⟨S32, .f32⟩ : BufTy).Contents (Elt Ideal)) (x4 : (⟨S32x7, .f32⟩ : BufTy).Contents (Elt Ideal)) (x5 : (⟨S64x32, .f32⟩ : BufTy).Contents (Elt Ideal)) (x6 : (⟨S64, .f32⟩ : BufTy).Contents (Elt Ideal)) (x7 : (⟨S64x32, .f32⟩ : BufTy).Contents (Elt Ideal)) (x8 : (⟨S128x64, .f32⟩ : BufTy).Contents (Elt Ideal)) (x9 : (⟨S128, .f32⟩ : BufTy).Contents (Elt Ideal)) (x10 : (⟨S128x64, .f32⟩ : BufTy).Contents (Elt Ideal)) (x11 : (⟨S64x128, .f32⟩ : BufTy).Contents (Elt Ideal)) (x12 : (⟨S64, .f32⟩ : BufTy).Contents (Elt Ideal)) (x13 : (⟨S64x128, .f32⟩ : BufTy).Contents (Elt Ideal)) (x14 : (⟨S32x64, .f32⟩ : BufTy).Contents (Elt Ideal)) (x15 : (⟨S32, .f32⟩ : BufTy).Contents (Elt Ideal)) (x16 : (⟨S32x64, .f32⟩ : BufTy).Contents (Elt Ideal)) (x17 : (⟨S32x32, .f32⟩ : BufTy).Contents (Elt Ideal)) (x18 : (⟨S32, .f32⟩ : BufTy).Contents (Elt Ideal)) (x19 : (⟨S32x32, .f32⟩ : BufTy).Contents (Elt Ideal)) (x20 : (⟨S16x32, .f32⟩ : BufTy).Contents (Elt Ideal)) (x21 : (⟨S16, .f32⟩ : BufTy).Contents (Elt Ideal)) :
    val_main_v177 (F := Ideal) x0 x1 x2 x3 x4 x5 x6 x7 x8 x9 x10 x11 x12 x13 x14 x15 x16 x17 x18 x19 x20 x21
      = netR (srcOf x1) (hitOf x1) (dclOf x1) x0 x2 x4 x3 x5 x7 x6 x8 x10 x9 x11 x13 x12 x14 x16 x15 x17 x19 x18 x20 x21 := by
  unfold val_main_v177 val_main_v176 val_main_v175 val_main_v174 val_main_v173 val_main_v172 val_main_cst_27 val_main_v171 val_main_v170 val_main_v169 val_main_v168 val_main_v167 val_main_v166 val_main_v165 val_main_c_26 val_main_v164 val_main_v163 val_main_c_25 val_main_v160 val_main_v159 val_main_v158 val_main_v157 val_main_v156 val_main_v155 val_main_v154 val_main_c_24 val_main_v153 val_main_v152 val_main_c_23 val_main_v151 val_main_v150 val_main_v149 val_main_v148 val_main_v147 val_main_c_22 val_main_v146 val_main_v145 val_main_c_21 val_main_v139 val_main_v138 val_main_v137
  refine (Cert.HostRead.gcnR_eq (E := 1600000) (C := 16) x1 (val_main_v1 (F := Ideal) x1) (val_main_v3 (F := Ideal) x1)
    (v1_apply x1) (v3_apply x1) _ (by decide) _ _ _ _ _ _ _ _ _ _ _ _ _ _ _ _ _ _ (val_main_v144 (F := Ideal) x1)
    (v144_apply x1) (val_main_v162 (F := Ideal) x0 x1 x2 x3 x4 x5 x6 x7 x8 x9 x10 x11 x12 x13 x14 x15 x16 x17 x18 x19 x20) x21).trans ?_
  unfold netR
  rw [v162_eq, v136_eq, v115_eq, v94_eq, v73_eq, v52_eq, v31_eq]

end Cert.ReferenceIdeal.RefValue

end
-- ==== Proof.LibRealLinear.lean ====
/-
  Linearity of a weighted aggregation on the extended reals, for entries that are real numbers.

  On the extended reals multiplication does not distribute over addition at the infinities, so a sum of products may
  be regrouped only where the numbers involved are reals. Here: `IsReal` (an extended real that is the coercion of a
  real), closed under products; the coercion of a finite sum of reals is the sum of the coercions (`coe_sum`); and the
  law `conv_eq` — for real weights w(e), real rows x(e, ·), a real row x(·), a real scalar d and a real column p(·),

      Σ_k ((0 + Σ_e [P e] w(e)·x(e,k)) + d·x(k)) · p(k)  =  (0 + Σ_e [P e] w(e)·Σ_k x(e,k)·p(k)) + d·Σ_k x(k)·p(k)

  (aggregate the selected rows, add a scaled row, then contract with a column = contract every row first, then
  aggregate and add), over any finite index types `Fin E`, `Fin K` and any decidable selection `P`.
-/
import Mathlib.Data.EReal.Operations
import Mathlib.Algebra.BigOperators.Fin
import Mathlib.Tactic.Ring
import Mathlib.Tactic.Choose

noncomputable section

namespace Cert.LibRealLinear

/-- An extended real that is a real number. -/
def IsReal (x : EReal) : Prop := ∃ r : ℝ, x = (r : EReal)

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem isReal_coe (r : ℝ) : IsReal (r : EReal) := ⟨r, rfl⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: aggregate, add the self term, then project = project, then aggregate and add the self term. -/
theorem conv_real {E K : ℕ} (P : Fin E → Prop) [DecidablePred P] (nrm : Fin E → ℝ) (xs : Fin E → Fin K → ℝ)
    (x : Fin K → ℝ) (d : ℝ) (w : Fin K → ℝ) :
    ∑ k, ((0 + ∑ e, if P e then nrm e * xs e k else 0) + d * x k) * w k
      = (0 + ∑ e, if P e then nrm e * ∑ k, xs e k * w k else 0) + d * ∑ k, x k * w k := by
  simp only [zero_add, add_mul, Finset.sum_add_distrib, Finset.sum_mul, Finset.mul_sum]
  congr 1
  · rw [Finset.sum_comm]
    refine Finset.sum_congr rfl fun e _ => ?_
    split_ifs
    · exact Finset.sum_congr rfl fun k _ => by ring
    · simp
  · exact Finset.sum_congr rfl fun k _ => by ring

/-- The same on the extended reals, for entries that are reals. -/
theorem conv_coe {E K : ℕ} (P : Fin E → Prop) [DecidablePred P] (nrm : Fin E → ℝ) (xs : Fin E → Fin K → ℝ)
    (x : Fin K → ℝ) (d : ℝ) (w : Fin K → ℝ) :
    ∑ k, (((0 : EReal) + ∑ e, if P e then (nrm e : EReal) * (xs e k : EReal) else 0) + (d : EReal) * (x k : EReal))
        * (w k : EReal)
      = ((0 : EReal) + ∑ e, if P e then (nrm e : EReal) * ∑ k, (xs e k : EReal) * (w k : EReal) else 0)
        + (d : EReal) * ∑ k, (x k : EReal) * (w k : EReal) := by
  have h := congrArg (fun r : ℝ => (r : EReal)) (conv_real P nrm xs x d w)
  simp only [coe_sum, EReal.coe_add, EReal.coe_mul, EReal.coe_zero, apply_ite (fun r : ℝ => (r : EReal))] at h
  exact h

/-- Aggregating feature rows and projecting, against projecting and aggregating: equal when every entry is a real. -/
theorem conv_eq {E K : ℕ} (P : Fin E → Prop) [DecidablePred P] (nrm : Fin E → EReal) (xs : Fin E → Fin K → EReal)
    (x : Fin K → EReal) (d : EReal) (w : Fin K → EReal)
    (hn : ∀ e, IsReal (nrm e)) (hxs : ∀ e k, IsReal (xs e k)) (hx : ∀ k, IsReal (x k)) (hd : IsReal d)
    (hw : ∀ k, IsReal (w k)) :
    ∑ k, (((0 : EReal) + ∑ e, if P e then nrm e * xs e k else 0) + d * x k) * w k
      = ((0 : EReal) + ∑ e, if P e then nrm e * ∑ k, xs e k * w k else 0) + d * ∑ k, x k * w k := by
  choose nr hnr using hn
  choose xr hxr using hxs
  choose x' hx' using hx
  obtain ⟨d', rfl⟩ := hd
  choose w' hw' using hw
  obtain rfl : nrm = fun e => (nr e : EReal) := funext hnr
  obtain rfl : xs = fun e k => (xr e k : EReal) := funext fun e => funext fun k => hxr e k
  obtain rfl : x = fun k => (x' k : EReal) := funext hx'
  obtain rfl : w = fun k => (w' k : EReal) := funext hw'
  exact conv_coe P nr xr x' d' w'

end Cert.LibRealLinear

end
-- ==== Proof.LibNetReal.lean ====
/-
  Extended reals that are real numbers: closure under the operations of a graph network, and two regrouping laws.

  On the extended reals a product does not distribute over a sum at the infinities, so sums of products may be
  regrouped only where every number involved is a real. This file collects what such an argument needs:

    * `IsReal` (the coercion of a real) is closed under sums, finite sums, if-then-else, maxima, inverses, the
      quotient by a nonzero real, and the inverse square root of a positive real; a count of selected indices
      `0 + Σ_e [P e] 1` is a nonnegative real;
    * `proj_eq` — neighbour sums of projected rows, times a reciprocal, are the projection of the averaged sums:
        (0 + Σ_e [P e] Σ_k H(e,k)·W(k)) · (1 / c)  =  Σ_k ((0 + Σ_e [P e] H(e,k)) / c) · W(k)      (c a nonzero real);
    * `pull_eq` — a common real factor leaves a selected sum of products:
        d · (0 + Σ_e [P e] x(e)·w(e))  =  0 + Σ_e [P e] x(e)·(w(e)·d).

  Both laws are an interchange of two finite sums and distributivity, proved over the reals and carried to the
  extended reals through the coercion.
-/
import Idealize.ShloMosaic.PureOps.Ideal.Laws
import proofs.«170208_j90074054132246_2_alg».proof.Proof.LibRealLinear

noncomputable section

namespace Cert.NetReal

open Idealize.ShloMosaic Cert.LibRealLinear

theorem isReal_zero : IsReal (0 : EReal) := ⟨0, rfl⟩
theorem isReal_one : IsReal (1 : EReal) := ⟨1, rfl⟩

theorem isReal_add {a b : EReal} (ha : IsReal a) (hb : IsReal b) : IsReal (a + b) := by
  obtain ⟨r, rfl⟩ := ha; obtain ⟨s, rfl⟩ := hb; exact ⟨r + s, (EReal.coe_add r s).symm⟩

theorem isReal_ite {c : Prop} [Decidable c] {a b : EReal} (ha : IsReal a) (hb : IsReal b) :
    IsReal (if c then a else b) := by
  split_ifs <;> assumption

/-- A finite sum of reals is a real. -/
theorem isReal_sum {ι : Type} (s : Finset ι) (f : ι → EReal) (hf : ∀ i ∈ s, IsReal (f i)) : IsReal (∑ i ∈ s, f i) :=
  Finset.sum_induction f IsReal (fun _ _ => isReal_add) isReal_zero hf

theorem isReal_max {a b : EReal} (ha : IsReal a) (hb : IsReal b) : IsReal (max a b) := by
  rcases le_total a b with h | h
  · rw [max_eq_right h]; exact hb
  · rw [max_eq_left h]; exact ha

theorem isReal_inv {c : EReal} (hc : IsReal c) : IsReal c⁻¹ := by
  obtain ⟨r, rfl⟩ := hc; exact ⟨r⁻¹, (EReal.coe_inv r).symm⟩

/-- Off a zero denominator the quotient is the product with the inverse. -/
theorem div_of_ne_zero (x c : EReal) (hc : c ≠ 0) : Ideal.div x c = x * c⁻¹ := by
  unfold Ideal.div
  rw [if_neg hc]

/-- The quotient of a real by a nonzero real is a real. -/
theorem isReal_div {a c : EReal} (ha : IsReal a) (hc : IsReal c) (hc0 : c ≠ 0) : IsReal (Ideal.div a c) := by
  rw [div_of_ne_zero a c hc0]; exact IsReal.mul ha (isReal_inv hc)

/-- The inverse square root of a positive real. -/
theorem rsqrt_of_pos (r : ℝ) (hr : 0 < r) : Ideal.rsqrt (r : EReal) = (((Real.sqrt r)⁻¹ : ℝ) : EReal) := by
  rw [Ideal.rsqrt_coe, if_neg (not_lt.mpr hr.le), if_neg hr.ne']

/-- A count of the selected indices is a nonnegative real. -/
theorem count_real {E : ℕ} (P : Fin E → Prop) [DecidablePred P] :
    ∃ r : ℝ, 0 ≤ r ∧ ((0 : EReal) + ∑ e : Fin E, if P e then (1 : EReal) else 0) = (r : EReal) := by
  refine ⟨0 + ∑ e : Fin E, if P e then (1 : ℝ) else 0, ?_, ?_⟩
  · rw [zero_add]
    exact Finset.sum_nonneg fun e _ => by split_ifs <;> norm_num
  · rw [EReal.coe_add, coe_sum, EReal.coe_zero]
    refine congrArg (fun z => (0 : EReal) + z) (Finset.sum_congr rfl fun e _ => ?_)
    split_ifs <;> rfl

/-! ## Projecting before or after the neighbour sums -/

theorem proj_real {E K : ℕ} (P : Fin E → Prop) [DecidablePred P] (H : Fin E → Fin K → ℝ) (W : Fin K → ℝ) (ci : ℝ) :
    (0 + ∑ e, if P e then ∑ k, H e k * W k else 0) * (1 * ci)
      = ∑ k, ((0 + ∑ e, if P e then H e k else 0) * ci) * W k := by
  simp only [zero_add, one_mul, Finset.sum_mul]
  rw [Finset.sum_comm]
  refine Finset.sum_congr rfl fun e _ => ?_
  split_ifs
  · rw [Finset.sum_mul]
    exact Finset.sum_congr rfl fun k _ => by ring
  · simp

/-- Neighbour sums of the projected rows, times the reciprocal of a nonzero real count, are the projection of the
    neighbour sums divided by the count, when every entry is a real. -/
theorem proj_eq {E K : ℕ} (P : Fin E → Prop) [DecidablePred P] (H : Fin E → Fin K → EReal) (W : Fin K → EReal)
    (c : EReal) (hH : ∀ e k, IsReal (H e k)) (hW : ∀ k, IsReal (W k)) (hc : IsReal c) (hc0 : c ≠ 0) :
    ((0 : EReal) + ∑ e, if P e then ∑ k, H e k * W k else 0) * Ideal.div 1 c
      = ∑ k, Ideal.div ((0 : EReal) + ∑ e, if P e then H e k else 0) c * W k := by
  choose Hr hHr using hH
  choose Wr hWr using hW
  obtain ⟨cr, rfl⟩ := hc
  obtain rfl : H = fun e k => (Hr e k : EReal) := funext fun e => funext fun k => hHr e k
  obtain rfl : W = fun k => (Wr k : EReal) := funext hWr
  simp only [div_of_ne_zero _ _ hc0, ← EReal.coe_inv]
  have h := congrArg (fun r : ℝ => (r : EReal)) (proj_real P Hr Wr cr⁻¹)
  simp only [coe_sum, EReal.coe_add, EReal.coe_mul, EReal.coe_zero, EReal.coe_one,
    apply_ite (fun r : ℝ => (r : EReal))] at h
  exact h

/-! ## A common factor of a selected sum -/

theorem pull_real {E : ℕ} (P : Fin E → Prop) [DecidablePred P] (x w : Fin E → ℝ) (d : ℝ) :
    d * (0 + ∑ e, if P e then x e * w e else 0) = 0 + ∑ e, if P e then x e * (w e * d) else 0 := by
  simp only [zero_add, Finset.mul_sum]
  refine Finset.sum_congr rfl fun e _ => ?_
  split_ifs
  · ring
  · simp

/-- A real factor common to every selected term may stand before the sum or inside every term. -/
theorem pull_eq {E : ℕ} (P : Fin E → Prop) [DecidablePred P] (x w : Fin E → EReal) (d : EReal)
    (hx : ∀ e, IsReal (x e)) (hw : ∀ e, IsReal (w e)) (hd : IsReal d) :
    d * ((0 : EReal) + ∑ e, if P e then x e * w e else 0) = (0 : EReal) + ∑ e, if P e then x e * (w e * d) else 0 := by
  choose xr hxr using hx
  choose wr hwr using hw
  obtain ⟨dr, rfl⟩ := hd
  obtain rfl : x = fun e => (xr e : EReal) := funext hxr
  obtain rfl : w = fun e => (wr e : EReal) := funext hwr
  have h := congrArg (fun r : ℝ => (r : EReal)) (pull_real P xr wr dr)
  simp only [coe_sum, EReal.coe_add, EReal.coe_mul, EReal.coe_zero, apply_ite (fun r : ℝ => (r : EReal))] at h
  exact h

end Cert.NetReal

end
-- ==== Proof.LibNetAlgebra.lean ====
/-
  The algebra joining the two arrangements of a mean-aggregating graph network followed by a symmetric-normalised
  graph convolution, on the extended reals.

    * layerK_eq_layerR — the fused tile of a layer is the reference layer, for every extended-real input: a product
      with 1 / c is the quotient by c as soon as c ≠ 0, and the clamped count is never 0;
    * layerR_real, mm_real, agg_real, cntN_real, dinvK_real — the stages map arrays of reals to arrays of reals;
    * layerP_eq_layerR — projecting the rows before taking the neighbour sums gives the reference layer, when the
      features and the projecting weights are reals (an interchange of two finite sums);
    * gcnK_eq_gcnR — the closing convolution with the self loop's term added densely and the destination's inverse
      root degree taken out of the sum is the reference's, which appends the self loops to the edge list, when the
      features are reals and the row a gather reads at an edge's destination is the node the edge arrives at;
    * netK_eq_netR — the two networks are one array for real inputs.
-/
import proofs.«170208_j90074054132246_2_alg».proof.Proof.Spec
import proofs.«170208_j90074054132246_2_alg».proof.Proof.LibRealLinear
import proofs.«170208_j90074054132246_2_alg».proof.Proof.LibNetReal

noncomputable section

namespace Cert.Net

open Idealize.ShloMosaic Idealize.ShloMosaic.ValueIdx Cert.Dense Cert.LibRealLinear Cert.NetReal

variable {N E K C : Nat}

section Edges

variable (src : Fin E → Fin N) (hit : Fin E → Fin N → Prop) [∀ e n, Decidable (hit e n)] (dcl : Fin E → Fin N)

/-! ## The fused tile of a layer -/

/-- The fused tile of a layer is the reference layer, whatever the extended reals involved. -/
theorem layerK_eq_layerR (h : Mat N K) (Wl Wr : Mat C K) (bl : Row C) :
    layerK src hit h Wl Wr bl = layerR src hit h Wl Wr bl :=
  Cert.Sage.layerTile_eq_layerRef (agg src hit h) h (cnt hit) (recipCol hit) (tr Wl) (tr Wr) bl (rowMat bl)
    (fun _ => Cert.Sage.clamp_ne_zero _) (fun _ => rfl) (fun _ => rfl)

/-! ## Reals stay reals -/

/-- The number of edges arriving at a node is a nonnegative real. -/
theorem degN_real (n : Fin N) : ∃ r : ℝ, 0 ≤ r ∧ degN hit n = (r : EReal) :=
  count_real (fun e => hit e n)

theorem cntN_real (n : Fin N) : IsReal (cntN hit n) := by
  obtain ⟨r, _, hr⟩ := degN_real hit n
  unfold cntN
  rw [hr]
  exact isReal_max (isReal_coe r) isReal_one

theorem cntN_ne_zero (n : Fin N) : cntN hit n ≠ 0 := Cert.Sage.clamp_ne_zero _

/-- Neighbour sums of an array of reals are reals. -/
theorem agg_real (T : Mat N C) (hT : ∀ i, IsReal (T i)) (i : (⟨2, ![N, C]⟩ : Shape).Idx) :
    IsReal (agg src hit T i) :=
  isReal_add isReal_zero (isReal_sum _ _ fun _ _ => isReal_ite (hT _) isReal_zero)

/-- A product of two matrices of reals is a matrix of reals. -/
theorem mm_real (X : Mat N K) (W : Mat K C) (hX : ∀ i, IsReal (X i)) (hW : ∀ i, IsReal (W i))
    (i : (⟨2, ![N, C]⟩ : Shape).Idx) : IsReal (mm X W i) :=
  isReal_sum _ _ fun _ _ => IsReal.mul (hX _) (hW _)

theorem tr_real (W : Mat C K) (hW : ∀ i, IsReal (W i)) (i : (⟨2, ![K, C]⟩ : Shape).Idx) : IsReal (tr W i) := hW _

/-- A layer maps reals to reals. -/
theorem layerR_real (h : Mat N K) (Wl Wr : Mat C K) (bl : Row C) (hh : ∀ i, IsReal (h i))
    (hWl : ∀ i, IsReal (Wl i)) (hWr : ∀ i, IsReal (Wr i)) (hbl : ∀ i, IsReal (bl i))
    (i : (⟨2, ![N, C]⟩ : Shape).Idx) : IsReal (layerR src hit h Wl Wr bl i) := by
  unfold layerR Cert.Sage.layerRef
  exact isReal_max (isReal_add (isReal_add
      (isReal_sum _ _ fun _ _ =>
        IsReal.mul (isReal_div (agg_real src hit h hh _) (cntN_real hit _) (cntN_ne_zero hit _)) (tr_real Wl hWl _))
      (hbl _))
    (isReal_sum _ _ fun _ _ => IsReal.mul (hh _) (tr_real Wr hWr _))) isReal_zero

/-! ## Projecting first -/

/-- Projecting the rows before the neighbour sums gives the reference layer, for real features and weights. -/
theorem layerP_eq_layerR (h : Mat N K) (Wl Wr : Mat C K) (bl : Row C) (hh : ∀ i, IsReal (h i))
    (hWl : ∀ i, IsReal (Wl i)) : layerP src hit h Wl Wr bl = layerR src hit h Wl Wr bl := by
  funext i
  obtain ⟨p, q, rfl⟩ : ∃ a b, i = ix2 a b := ⟨_, _, eq_ix2 i⟩
  have key : ((0 : EReal) + ∑ e : Fin E, if hit e p then ∑ k : Fin K, h (ix2 (src e) k) * Wl (ix2 q k) else 0)
        * Ideal.div 1 (cntN hit p)
      = ∑ k : Fin K, Ideal.div ((0 : EReal) + ∑ e : Fin E, if hit e p then h (ix2 (src e) k) else 0) (cntN hit p)
          * Wl (ix2 q k) :=
    proj_eq (fun e => hit e p) (fun e k => h (ix2 (src e) k)) (fun k => Wl (ix2 q k)) (cntN hit p)
      (fun _ _ => hh _) (fun _ => hWl _) (cntN_real hit p) (cntN_ne_zero hit p)
  show max (((((0 : EReal) + ∑ e : Fin E, if hit e p then ∑ k : Fin K, h (ix2 (src e) k) * Wl (ix2 q k) else 0)
          * Ideal.div 1 (cntN hit p)) + ∑ k : Fin K, h (ix2 p k) * Wr (ix2 q k)) + bl (ix1 q)) 0
      = max (((∑ k : Fin K, Ideal.div ((0 : EReal) + ∑ e : Fin E, if hit e p then h (ix2 (src e) k) else 0) (cntN hit p)
          * Wl (ix2 q k)) + bl (ix1 q)) + ∑ k : Fin K, h (ix2 p k) * Wr (ix2 q k)) 0
  rw [key, add_right_comm]

/-! ## The closing convolution -/

theorem hitL_castAdd (e : Fin E) (n : Fin N) : hitL hit (Fin.castAdd N e) n ↔ hit e n := by
  have h : (Fin.castAdd N e).val < E := e.isLt
  unfold hitL
  rw [dif_pos h]
  exact Iff.rfl

theorem hitL_natAdd (i n : Fin N) : hitL hit (Fin.natAdd E i) n ↔ i = n := by
  have h : ¬ (Fin.natAdd E i).val < E := by rw [Fin.coe_natAdd]; omega
  unfold hitL
  rw [dif_neg h, Fin.coe_natAdd, Fin.ext_iff]
  omega

theorem ite_hitL_castAdd (e : Fin E) (n : Fin N) (a b : EReal) :
    (if hitL hit (Fin.castAdd N e) n then a else b) = if hit e n then a else b := by
  by_cases h : hit e n
  · rw [if_pos h, if_pos ((hitL_castAdd hit e n).mpr h)]
  · rw [if_neg h, if_neg (mt (hitL_castAdd hit e n).mp h)]

theorem ite_hitL_natAdd (i n : Fin N) (a b : EReal) :
    (if hitL (E := E) hit (Fin.natAdd E i) n then a else b) = if i = n then a else b := by
  by_cases h : i = n
  · rw [if_pos h, if_pos ((hitL_natAdd hit i n).mpr h)]
  · rw [if_neg h, if_neg (mt (hitL_natAdd hit i n).mp h)]

theorem srcL_castAdd (e : Fin E) : srcL src (Fin.castAdd N e) = src e := by
  have h : (Fin.castAdd N e).val < E := e.isLt
  unfold srcL
  rw [dif_pos h]
  exact congrArg src (Fin.ext rfl)

theorem srcL_natAdd (i : Fin N) : srcL src (Fin.natAdd E i) = i := by
  have h : ¬ (Fin.natAdd E i).val < E := by rw [Fin.coe_natAdd]; omega
  unfold srcL
  rw [dif_neg h]
  exact Fin.ext (by show (Fin.natAdd E i).val - E = i.val; rw [Fin.coe_natAdd]; omega)

theorem dstL_castAdd (e : Fin E) : dstL dcl (Fin.castAdd N e) = dcl e := srcL_castAdd dcl e
theorem dstL_natAdd (i : Fin N) : dstL dcl (Fin.natAdd E i) = i := srcL_natAdd dcl i

/-- Counting the self loops among the edges or adding one: the same inverse root degree. -/
theorem dinvR_eq_dinvK (n : Fin N) : dinvR hit n = dinvK hit n := by
  unfold dinvR dinvK degN
  rw [Fin.sum_univ_add]
  simp only [ite_hitL_castAdd, ite_hitL_natAdd, Finset.sum_ite_eq', Finset.mem_univ, if_true]
  exact congrArg Ideal.rsqrt (add_assoc _ _ _).symm

/-- The inverse root degree is a real: the degree plus one is a real at least one. -/
theorem dinvK_real (n : Fin N) : IsReal (dinvK hit n) := by
  obtain ⟨r, hr0, hr⟩ := degN_real hit n
  have h1 : degN hit n + 1 = ((r + 1 : ℝ) : EReal) := by rw [hr]; exact (EReal.coe_add r 1).symm
  unfold dinvK
  rw [h1, rsqrt_of_pos (r + 1) (by linarith)]
  exact isReal_coe _

/-- The folded closing convolution is the reference's, for real features, when the row read at an edge's
    destination is the node the edge arrives at. -/
theorem gcnK_eq_gcnR (hdcl : ∀ e n, hit e n → dcl e = n) (hg : Mat N C) (bg : Row C) (hhg : ∀ i, IsReal (hg i)) :
    gcnK src hit hg bg = gcnR src hit dcl hg bg := by
  funext i
  obtain ⟨p, q, rfl⟩ : ∃ a b, i = ix2 a b := ⟨_, _, eq_ix2 i⟩
  have hR : dinvR hit = dinvK hit := funext (dinvR_eq_dinvK hit)
  have key : dinvK hit p * ((0 : EReal) + ∑ e : Fin E, if hit e p then hg (ix2 (src e) q) * dinvK hit (src e) else 0)
      = (0 : EReal) + ∑ e : Fin E, if hit e p then hg (ix2 (src e) q) * (dinvK hit (src e) * dinvK hit p) else 0 :=
    pull_eq (fun e => hit e p) (fun e => hg (ix2 (src e) q)) (fun e => dinvK hit (src e)) (dinvK hit p)
      (fun _ => hhg _) (fun _ => dinvK_real hit _) (dinvK_real hit p)
  have hsum : (∑ e : Fin E, if hit e p then hg (ix2 (src e) q) * (dinvK hit (src e) * dinvK hit (dcl e)) else 0)
      = ∑ e : Fin E, if hit e p then hg (ix2 (src e) q) * (dinvK hit (src e) * dinvK hit p) else 0 := by
    refine Finset.sum_congr rfl fun e _ => ?_
    by_cases he : hit e p
    · rw [if_pos he, if_pos he, hdcl e p he]
    · rw [if_neg he, if_neg he]
  show ((dinvK hit p * ((0 : EReal) + ∑ e : Fin E, if hit e p then hg (ix2 (src e) q) * dinvK hit (src e) else 0))
        + hg (ix2 p q) * (dinvK hit p * dinvK hit p)) + bg (ix1 q)
      = ((0 : EReal) + ∑ t : Fin (E + N), if hitL hit t p then
          hg (ix2 (srcL src t) q) * (dinvR hit (srcL src t) * dinvR hit (dstL dcl t)) else 0) + bg (ix1 q)
  rw [hR, Fin.sum_univ_add]
  simp only [ite_hitL_castAdd, ite_hitL_natAdd, srcL_castAdd, srcL_natAdd, dstL_castAdd, dstL_natAdd,
    Finset.sum_ite_eq', Finset.mem_univ, if_true]
  rw [key, hsum]
  simp only [zero_add]

/-! ## The two networks -/

/-- The kernel's network is the reference's, for real inputs. -/
theorem netK_eq_netR (hdcl : ∀ e n, hit e n → dcl e = n)
    (x : Mat N 7) (Wl1 Wr1 : Mat 32 7) (bl1 : Row 32) (Wl2 Wr2 : Mat 64 32) (bl2 : Row 64)
    (Wl3 Wr3 : Mat 128 64) (bl3 : Row 128) (Wl4 Wr4 : Mat 64 128) (bl4 : Row 64) (Wl5 Wr5 : Mat 32 64) (bl5 : Row 32)
    (Wl6 Wr6 : Mat 32 32) (bl6 : Row 32) (Wg : Mat 16 32) (bg : Row 16)
    (hx : ∀ i, IsReal (x i))
    (hWl1 : ∀ i, IsReal (Wl1 i)) (hWr1 : ∀ i, IsReal (Wr1 i)) (hbl1 : ∀ i, IsReal (bl1 i))
    (hWl2 : ∀ i, IsReal (Wl2 i)) (hWr2 : ∀ i, IsReal (Wr2 i)) (hbl2 : ∀ i, IsReal (bl2 i))
    (hWl3 : ∀ i, IsReal (Wl3 i)) (hWr3 : ∀ i, IsReal (Wr3 i)) (hbl3 : ∀ i, IsReal (bl3 i))
    (hWl4 : ∀ i, IsReal (Wl4 i)) (hWr4 : ∀ i, IsReal (Wr4 i)) (hbl4 : ∀ i, IsReal (bl4 i))
    (hWl5 : ∀ i, IsReal (Wl5 i)) (hWr5 : ∀ i, IsReal (Wr5 i)) (hbl5 : ∀ i, IsReal (bl5 i))
    (hWl6 : ∀ i, IsReal (Wl6 i)) (hWr6 : ∀ i, IsReal (Wr6 i)) (hbl6 : ∀ i, IsReal (bl6 i))
    (hWg : ∀ i, IsReal (Wg i)) (hbg : ∀ i, IsReal (bg i)) :
    netK src hit x Wl1 Wr1 bl1 Wl2 Wr2 bl2 Wl3 Wr3 bl3 Wl4 Wr4 bl4 Wl5 Wr5 bl5 Wl6 Wr6 bl6 Wg bg
      = netR src hit dcl x Wl1 Wr1 bl1 Wl2 Wr2 bl2 Wl3 Wr3 bl3 Wl4 Wr4 bl4 Wl5 Wr5 bl5 Wl6 Wr6 bl6 Wg bg := by
  have h1 := layerR_real src hit x Wl1 Wr1 bl1 hx hWl1 hWr1 hbl1
  have h2 := layerR_real src hit _ Wl2 Wr2 bl2 h1 hWl2 hWr2 hbl2
  have h3 := layerR_real src hit _ Wl3 Wr3 bl3 h2 hWl3 hWr3 hbl3
  have h4 := layerR_real src hit _ Wl4 Wr4 bl4 h3 hWl4 hWr4 hbl4
  have h5 := layerR_real src hit _ Wl5 Wr5 bl5 h4 hWl5 hWr5 hbl5
  have h6 := layerR_real src hit _ Wl6 Wr6 bl6 h5 hWl6 hWr6 hbl6
  have hgr := mm_real _ (tr Wg) h6 (tr_real Wg hWg)
  unfold netK netR
  simp only [layerK_eq_layerR]
  rw [layerP_eq_layerR src hit _ Wl4 Wr4 bl4 h3 hWl4, layerP_eq_layerR src hit _ Wl5 Wr5 bl5 h4 hWl5]
  exact gcnK_eq_gcnR src hit dcl hdcl _ bg hgr

end Edges

end Cert.Net

end
-- ==== Proof.LibFiniteAll.lean ====
/-
  "Every entry of a float array has absolute value strictly below +∞", read back as "every entry is a real number".

  On the extended reals the absolute value of x is max x (−x); it equals +∞ exactly at the two infinities, so a
  strict bound |x| < +∞ leaves only the coercions of reals.  The word 0x7F800000 is the single-precision +∞, which
  is read as ⊤.  An array passes the test when the conjunction, over all of its indices, of the bits (|a i| < +∞) is 1;
  a conjunction that is 1 had a 1 at every index.  The statement is generic in the array's shape and in the list of
  axes folded away, as long as the result has a single index (the shape of rank 0).
-/
import Idealize.ShloMosaic.Lib.StableHlo
import Idealize.ShloMosaic.PureOps
import Idealize.ShloMosaic.Lib.ReduceAll
import Idealize.ShloMosaic.Lib.IdealHost
import proofs.«170208_j90074054132246_2_alg».proof.Proof.LibRealLinear

noncomputable section

namespace Cert.LibFiniteAll

open Idealize.ShloMosaic
open Cert.LibRealLinear (IsReal)

/-- The shape of rank 0 has exactly one index. -/
instance subsingleton_scalarIdx : Subsingleton (⟨0, ![]⟩ : Shape).Idx := ⟨fun a b => funext fun d => d.elim0⟩

/-- An extended real with max x (−x) < ⊤ is neither infinity, hence a real. -/
theorem isReal_of_abs_lt_top (x : EReal) (h : max x (-x) < ⊤) : IsReal x := by
  induction x using EReal.rec with
  | bot => simp at h
  | coe r => exact ⟨r, rfl⟩
  | top => simp at h

/-- The single-precision word of +∞ is read as ⊤. -/
theorem ofBits_inf_f32 : Ideal.ofBits .f32 0x7F800000#32 = ⊤ := by simp [Ideal.ofBits, Ideal.ieee]

/-- One value: if the ordered comparison |x| < +∞ answers 1, then x is a real. -/
theorem isReal_of_abs_olt_inf (x : Ideal .f32)
    (h : FloatOps.cmpf .olt (FloatOps.hostAbsf x) (FloatOps.ofBits (F := Ideal) .f32 0x7F800000#32) = 1#1) :
    IsReal x := by
  have h' : Ideal.cmp .olt (max (x : EReal) (-(x : EReal))) (Ideal.ofBits .f32 0x7F800000#32) = 1#1 := h
  rw [ofBits_inf_f32] at h'
  by_cases hlt : max (x : EReal) (-(x : EReal)) < ⊤
  · exact isReal_of_abs_lt_top x hlt
  · exfalso
    simp [Ideal.cmp, hlt] at h'

/-- One array: if the conjunction over all indices of (|a i| < +∞) is 1, every entry of a is a real. -/
theorem all_real {s : Shape} {axes : List (Fin s.rank)} (a : FVec Ideal s .f32)
    (hb : (⟨0, ![]⟩ : Shape).BroadcastsInDim s (![] : Fin 0 → Fin s.rank))
    (hr : s.ReducesTo axes (⟨0, ![]⟩ : Shape)) (h0 : 0 < (⟨0, ![]⟩ : Shape).numel)
    (h : Host.reduce IntOp.andi
          (cmpf .olt (Host.absf a) (broadcastInDim s ![] hb (constant (⟨0, ![]⟩ : Shape) .f32 0x7F800000#32)))
          (constantI (⟨0, ![]⟩ : Shape) 1 1#1) hr h0 ValueIdx.ix0 = 1#1) :
    ∀ i, IsReal (a i) := by
  intro i
  have e := Host.reduce_andi_all _ _ hr h0 _ h i
  refine isReal_of_abs_olt_inf (a i) ?_
  have hbc : broadcastInDim s ![] hb (constant (F := Ideal) (⟨0, ![]⟩ : Shape) .f32 0x7F800000#32) i
      = FloatOps.ofBits (F := Ideal) .f32 0x7F800000#32 :=
    ValueIdx.broadcastInDim_scalar_apply hb _ i
  have e' : FloatOps.cmpf .olt (FloatOps.hostAbsf (a i))
      (broadcastInDim s ![] hb (constant (F := Ideal) (⟨0, ![]⟩ : Shape) .f32 0x7F800000#32) i) = 1#1 := e
  rw [hbc] at e'
  exact e'

/-- A conjunction of two bits of rank 0 that is 1: both are 1. -/
theorem andi_ix0 (x y : IVec (⟨0, ![]⟩ : Shape) 1) (h : andi x y ValueIdx.ix0 = 1#1) :
    x ValueIdx.ix0 = 1#1 ∧ y ValueIdx.ix0 = 1#1 :=
  IntOp.andi_eq_one.1 h

end Cert.LibFiniteAll

end
-- ==== Proof.Finite.lean ====
/-
  From the test on the inputs to "every float input is a real number".

  The test computes, for each of the 21 float arguments a, the conjunction over all indices of the bits (|a i| < +∞),
  and then the conjunction of these 21 bits, taken in argument order (the integer edge array, argument 1, is not tested).
  It is assumed to answer 1.  A conjunction that is 1 has both operands 1, so peeling the 21 bits off from the last to
  the first leaves one fact per argument: its own conjunction is 1.  By the per-array lemma each such fact says that every
  entry of that argument is a real number (an extended real that is neither infinity).
-/
import Idealize.ShloMosaic.Lib.StableHlo
import Idealize.ShloMosaic.PureOps
import Idealize.ShloMosaic.Lib.ReduceAll
import proofs.«170208_j90074054132246_2_alg».proof.Pre_finite_inputs
import proofs.«170208_j90074054132246_2_alg».proof.Proof.LibRealLinear
import proofs.«170208_j90074054132246_2_alg».proof.Proof.LibFiniteAll

noncomputable section

namespace Cert.Finite

open Idealize.ShloMosaic
open Cert.Pre_finite_inputs
open Cert.LibRealLinear (IsReal)
open Cert.LibFiniteAll (all_real andi_ix0)

/-- If the test on the inputs answers 1, every entry of every float argument is a real number. -/
theorem reals [hP : Cert.Pre_finite_inputs.Facts]
    (a0 : FVec Ideal S100000x7 .f32)
    (a1 : IVec S2x1600000 32)
    (a2 : FVec Ideal S32x7 .f32)
    (a3 : FVec Ideal S32 .f32)
    (a4 : FVec Ideal S32x7 .f32)
    (a5 : FVec Ideal S64x32 .f32)
    (a6 : FVec Ideal S64 .f32)
    (a7 : FVec Ideal S64x32 .f32)
    (a8 : FVec Ideal S128x64 .f32)
    (a9 : FVec Ideal S128 .f32)
    (a10 : FVec Ideal S128x64 .f32)
    (a11 : FVec Ideal S64x128 .f32)
    (a12 : FVec Ideal S64 .f32)
    (a13 : FVec Ideal S64x128 .f32)
    (a14 : FVec Ideal S32x64 .f32)
    (a15 : FVec Ideal S32 .f32)
    (a16 : FVec Ideal S32x64 .f32)
    (a17 : FVec Ideal S32x32 .f32)
    (a18 : FVec Ideal S32 .f32)
    (a19 : FVec Ideal S32x32 .f32)
    (a20 : FVec Ideal S16x32 .f32)
    (a21 : FVec Ideal S16 .f32)
    (h : Cert.Pre_finite_inputs.fn (F := Ideal) a0 a1 a2 a3 a4 a5 a6 a7 a8 a9 a10 a11 a12 a13 a14 a15 a16 a17 a18 a19 a20 a21 = (fun _ => 1#1)) :
    (∀ i, IsReal (a0 i)) ∧
      (∀ i, IsReal (a2 i)) ∧
      (∀ i, IsReal (a3 i)) ∧
      (∀ i, IsReal (a4 i)) ∧
      (∀ i, IsReal (a5 i)) ∧
      (∀ i, IsReal (a6 i)) ∧
      (∀ i, IsReal (a7 i)) ∧
      (∀ i, IsReal (a8 i)) ∧
      (∀ i, IsReal (a9 i)) ∧
      (∀ i, IsReal (a10 i)) ∧
      (∀ i, IsReal (a11 i)) ∧
      (∀ i, IsReal (a12 i)) ∧
      (∀ i, IsReal (a13 i)) ∧
      (∀ i, IsReal (a14 i)) ∧
      (∀ i, IsReal (a15 i)) ∧
      (∀ i, IsReal (a16 i)) ∧
      (∀ i, IsReal (a17 i)) ∧
      (∀ i, IsReal (a18 i)) ∧
      (∀ i, IsReal (a19 i)) ∧
      (∀ i, IsReal (a20 i)) ∧
      (∀ i, IsReal (a21 i)) := by
  have h0 := congrFun h ValueIdx.ix0
  dsimp only [fn, fn_part1, fn_part2, fn_part3, fn_part4, fn_part5, fn_part6] at h0
  obtain ⟨h0, h21⟩ := andi_ix0 _ _ h0
  obtain ⟨h0, h20⟩ := andi_ix0 _ _ h0
  obtain ⟨h0, h19⟩ := andi_ix0 _ _ h0
  obtain ⟨h0, h18⟩ := andi_ix0 _ _ h0
  obtain ⟨h0, h17⟩ := andi_ix0 _ _ h0
  obtain ⟨h0, h16⟩ := andi_ix0 _ _ h0
  obtain ⟨h0, h15⟩ := andi_ix0 _ _ h0
  obtain ⟨h0, h14⟩ := andi_ix0 _ _ h0
  obtain ⟨h0, h13⟩ := andi_ix0 _ _ h0
  obtain ⟨h0, h12⟩ := andi_ix0 _ _ h0
  obtain ⟨h0, h11⟩ := andi_ix0 _ _ h0
  obtain ⟨h0, h10⟩ := andi_ix0 _ _ h0
  obtain ⟨h0, h9⟩ := andi_ix0 _ _ h0
  obtain ⟨h0, h8⟩ := andi_ix0 _ _ h0
  obtain ⟨h0, h7⟩ := andi_ix0 _ _ h0
  obtain ⟨h0, h6⟩ := andi_ix0 _ _ h0
  obtain ⟨h0, h5⟩ := andi_ix0 _ _ h0
  obtain ⟨h0, h4⟩ := andi_ix0 _ _ h0
  obtain ⟨h0, h3⟩ := andi_ix0 _ _ h0
  obtain ⟨h0, h2⟩ := andi_ix0 _ _ h0
  exact ⟨all_real a0 _ _ _ h0,
    all_real a2 _ _ _ h2,
    all_real a3 _ _ _ h3,
    all_real a4 _ _ _ h4,
    all_real a5 _ _ _ h5,
    all_real a6 _ _ _ h6,
    all_real a7 _ _ _ h7,
    all_real a8 _ _ _ h8,
    all_real a9 _ _ _ h9,
    all_real a10 _ _ _ h10,
    all_real a11 _ _ _ h11,
    all_real a12 _ _ _ h12,
    all_real a13 _ _ _ h13,
    all_real a14 _ _ _ h14,
    all_real a15 _ _ _ h15,
    all_real a16 _ _ _ h16,
    all_real a17 _ _ _ h17,
    all_real a18 _ _ _ h18,
    all_real a19 _ _ _ h19,
    all_real a20 _ _ _ h20,
    all_real a21 _ _ _ h21⟩

end Cert.Finite

end
-- ==== Proof.lean ====
/-
  The certificate: a six-layer mean-aggregating graph network with a closing normalised graph convolution, computed
  by nine tiled regions among host gathers and scatter-adds, equals its plain reference at exact (extended real)
  values whenever every float input is finite.

  Both programs are read as whole-array functions of the arguments (the kernel through the fold of its segments and
  what each region's grid points write back, the reference through its operations in order); the kernel's is the
  network in the tiled arrangement, the reference's the network in the reference arrangement, and the two
  arrangements agree on real inputs: multiplying by 1 / max(count, 1) is dividing by it, sums of three terms regroup,
  a projection commutes with a sum over edges, and a common factor leaves a sum, all on real numbers.
  The three frame claims are the generated frames; nothing was idealized by rewriting, so the preservation claim is
  trivial.
-/
import proofs.«170208_j90074054132246_2_alg».proof.Defs
import proofs.«170208_j90074054132246_2_alg».proof.Proof.Gen.Kernel
import proofs.«170208_j90074054132246_2_alg».proof.Proof.Gen.Kernel.Frame
import proofs.«170208_j90074054132246_2_alg».proof.Proof.Gen.KernelIdeal
import proofs.«170208_j90074054132246_2_alg».proof.Proof.Gen.KernelIdeal.Frame
import proofs.«170208_j90074054132246_2_alg».proof.Proof.Gen.ReferenceIdeal
import proofs.«170208_j90074054132246_2_alg».proof.Proof.Gen.Pre_finite_inputs
import proofs.«170208_j90074054132246_2_alg».proof.Proof.Gen.ReferenceIdeal.Run
import proofs.«170208_j90074054132246_2_alg».proof.Proof.Gen.ReferenceIdeal.Read
import proofs.«170208_j90074054132246_2_alg».proof.Proof.KRun
import proofs.«170208_j90074054132246_2_alg».proof.Proof.KNet
import proofs.«170208_j90074054132246_2_alg».proof.Proof.RefRead
import proofs.«170208_j90074054132246_2_alg».proof.Proof.LibNetAlgebra
import proofs.«170208_j90074054132246_2_alg».proof.Proof.Finite
import Idealize.ShloMosaic.Adequacy
import Idealize.ShloMosaic.Init

noncomputable section

namespace Cert.Proof

open Idealize.ShloMosaic Idealize.SL.Sem

open Cert.Net Cert.Dense

/-- An edge whose destination index names node n is gathered at row n: the index is that node's number, not negative,
    so it is neither wrapped nor clamped. -/
theorem dcl_of_hit (ei : IVec ⟨2, ![2, 1600000]⟩ 32) (e : Fin 1600000) (n : Fin 100000) (h : hitOf ei e n) :
    dclOf ei e = n := by
  unfold hitOf at h
  unfold dclOf
  have hn : (n.val : Int) < 100000 := by exact_mod_cast n.isLt
  rw [Cert.HostRead.wrapIdx_of_nonneg _ (by rw [h]; exact Int.natCast_nonneg _)]
  refine Fin.ext ?_
  show min (ei (ValueIdx.ix2 (1 : Fin 2) e)).toInt.toNat 99999 = n.val
  rw [h, Int.toNat_natCast]
  have := n.isLt
  omega

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten when the kernel was idealized. -/
theorem preserves : Cert.preserves_Kernel_KernelIdeal := trivial

/-- Both programs end at the network of the (common) arguments: the kernel in the tiled arrangement, the reference in
    the reference arrangement; the inputs being real numbers, the two arrangements are one array. -/
theorem algebraic : Cert.algebraic_KernelIdeal_ReferenceIdeal := by
  intro m ρ m' ρ' hpre hagree
  refine ⟨fun c => Cert.KernelIdeal.Gen.W19 m ρ c (Proc.devRef .tc Cert.KernelIdeal.main_v0), ?_, ?_⟩
  · exact Cert.KernelIdeal.KRun.run_value m ρ
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21⟩ := hagree c
    obtain ⟨r0, r2, r3, r4, r5, r6, r7, r8, r9, r10, r11, r12, r13, r14, r15, r16, r17, r18, r19, r20, r21⟩ := Cert.Finite.reals _ _ _ _ _ _ _ _ _ _ _ _ _ _ _ _ _ _ _ _ _ _ (hpre c)
    rw [Cert.ReferenceIdeal.Read.val_main_v177_eq, Cert.ReferenceIdeal.RefValue.ref_value, e0, e1, e2, e3, e4, e5, e6, e7, e8, e9, e10, e11, e12, e13, e14, e15, e16, e17, e18, e19, e20, e21]
    exact ((Cert.Net.netK_eq_netR _ _ _ (dcl_of_hit _) _ _ _ _ _ _ _ _ _ _ _ _ _ _ _ _ _ _ _ _ _ r0 r2 r4 r3 r5 r7 r6 r8 r10 r9 r11 r13 r12 r14 r16 r15 r17 r19 r18 r20 r21).symm).trans
      (Cert.KernelIdeal.KValue.kernel_value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
